-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x2048 : Shape := ⟨2, ![2048, 2048]⟩
abbrev S4096x128 : Shape := ⟨2, ![4096, 128]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S2048x2048 .f32) (main_arg5 : FVec F S4096x128 .f32) (main_arg6 : FVec F S4096x128 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S4096x128 .f32 := Host.absf main_arg6
  let main_cst_10 : FVec F S_ .f32 := constant S_ .f32 0x7F800000#32
  let main_v30 : FVec F S4096x128 .f32 := broadcastInDim S4096x128 ![] bcast_S_S4096x128 main_cst_10
  let main_v31 : IVec S4096x128 1 := cmpf .olt main_v29 main_v30
  let main_c_11 : IVec S_ 1 := constantI S_ 1 1#1
  let main_v32 : IVec S_ 1 := (fun x v => Host.reduce IntOp.andi x v reducesTo_S4096x128_S_d0_1 h_S_) main_v31 main_c_11
  let main_v33 : IVec S_ 1 := andi main_v28 main_v32
  main_v33

def fn {F : FTy → Type} [FloatOps F] (main_arg0 : FVec F S2x2048x2048 .f32) (main_arg1 : FVec F S2048x2048 .f32) (main_arg2 : FVec F S2048x2048 .f32) (main_arg3 : FVec F S2048x2048 .f32) (main_arg4 : FVec F S2048x2048 .f32) (main_arg5 : FVec F S4096x128 .f32) (main_arg6 : FVec F S4096x128 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S2x2048x2048 : Shape := ⟨3, ![2, 2048, 2048]⟩
abbrev S2048x2048 : Shape := ⟨2, ![2048, 2048]⟩
abbrev S4096x128 : Shape := ⟨2, ![4096, 128]⟩
abbrev S4096x2048 : Shape := ⟨2, ![4096, 2048]⟩
abbrev S128x2048 : Shape := ⟨2, ![128, 2048]⟩
abbrev S2048x128 : Shape := ⟨2, ![2048, 128]⟩
abbrev S1x2048x128 : Shape := ⟨3, ![1, 2048, 128]⟩
abbrev S1x512x128 : Shape := ⟨3, ![1, 512, 128]⟩
abbrev S512x128 : Shape := ⟨2, ![512, 128]⟩
abbrev S2048x1 : Shape := ⟨2, ![2048, 1]⟩
abbrev S2048x64 : Shape := ⟨2, ![2048, 64]⟩
abbrev S512x64 : Shape := ⟨2, ![512, 64]⟩
abbrev S512x512 : Shape := ⟨2, ![512, 512]⟩
abbrev S512x1 : Shape := ⟨2, ![512, 1]⟩
abbrev S512 : Shape := ⟨1, ![512]⟩
abbrev S512x2048 : Shape := ⟨2, ![512, 2048]⟩

abbrev nBuf : Space → Nat
  | .hbm => 25
  | .vmem => 34
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4096x128, .f32⟩
  | .hbm, ⟨6, _⟩ => ⟨S4096x128, .f32⟩
  | .hbm, ⟨7, _⟩ => ⟨S4096x2048, .f32⟩
  | .hbm, ⟨8, _⟩ => ⟨S4096x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S2x2048x2048, .bf16⟩
  | .hbm, ⟨17, _⟩ => ⟨S2x2048x2048, .bf16⟩
  | .hbm, ⟨18, _⟩ => ⟨S2x2048x2048, .bf16⟩
  | .hbm, ⟨19, _⟩ => ⟨S2048x128, .f32⟩
  | .hbm, ⟨20, _⟩ => ⟨S2048x128, .f32⟩
  | .hbm, ⟨21, _⟩ => ⟨S2x2048x2048, .bf16⟩
  | .hbm, ⟨22, _⟩ => ⟨S4096x2048, .bf16⟩
  | .hbm, ⟨23, _⟩ => ⟨S4096x2048, .f32⟩
  | .hbm, ⟨24, _⟩ => ⟨S2x2048x2048, .f32⟩
  | .local _ .vmem, ⟨0, _⟩ => ⟨S128x2048, .bf16⟩
  | .local _ .vmem, ⟨1, _⟩ => ⟨S128x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S2048x128, .f32⟩
  | .local _ .vmem, ⟨18, _⟩ => ⟨S2048x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S1x2048x128, .bf16⟩
  | .local _ .vmem, ⟨24, _⟩ => ⟨S1x2048x128, .bf16⟩
  | .local _ .vmem, ⟨25, _⟩ => ⟨S2048x1, .f32⟩
  | .local _ .vmem, ⟨26, _⟩ => ⟨S2048x1, .f32⟩
  | .local _ .vmem, ⟨27, _⟩ => ⟨S2048x128, .f32⟩
  | .local _ .vmem, ⟨28, _⟩ => ⟨S2048x128, .bf16⟩
  | .local _ .vmem, ⟨29, _⟩ => ⟨S512x2048, .bf16⟩
  | .local _ .vmem, ⟨30, _⟩ => ⟨S512x2048, .bf16⟩
  | .local _ .vmem, ⟨31, _⟩ => ⟨S2048x2048, .bf16⟩
  | .local _ .vmem, ⟨32, _⟩ => ⟨S512x2048, .f32⟩
  | .local _ .vmem, ⟨33, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc1_scratch3 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![2, 16, 4], ![false, false, false]⟩

def k1_cond6 (i : grid1.Coords) : BitVec 1 :=
  let arg2 : BitVec 32 := BitVec.ofNat 32 (i 2).val
  let c3_i32 : BitVec 32 := 3#32
  let v41 : BitVec 1 := Scalar.cmpi .eq arg2 c3_i32
  let v42 : BitVec 32 := Scalar.extui v41
  let c0_i32_18 : BitVec 32 := 0#32
  let v43 : BitVec 1 := Scalar.cmpi .ne v42 c0_i32_18
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S2048x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, false, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, false, true]

abbrev stage1_7 : Fin 2 → Memref sig .tc .vmem S1x2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S2x2048x2048_S4096x2048 : S2x2048x2048.ShapeCasts S4096x2048
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S128x2048_S128x2048_0_0 : (Rect.unit (s := S128x2048) ![0, 0] S128x2048.size inb_S128x2048_S128x2048_0_0).PackedRows (EltTy.packing .bf16)
  shapeCasts_S4096x2048_S2x2048x2048 : S4096x2048.ShapeCasts S2x2048x2048
  slices_S4096x128_S2048x128_0_0 : S4096x128.Slices ![0, 0] S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S2048x128_o0_0_S2048x64 : S2048x128.Slices ![0, 0] S2048x64
  slices_S2048x128_o0_64_S2048x64 : S2048x128.Slices ![0, 64] S2048x64
  concatenates_S2048x64_S2048x64_S2048x128_d1 : Shape.Concatenates [S2048x64, S2048x64] S2048x128 1
  packedbf16_S2048x128_S2048x128_0_0 : (Rect.unit (s := S2048x128) ![0, 0] S2048x128.size inb_S2048x128_S2048x128_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x64 : S512x128.Slices ![0, 0] S512x64
  slices_S512x128_o0_64_S512x64 : S512x128.Slices ![0, 64] S512x64
  concatenates_S512x64_S512x64_S512x128_d1 : Shape.Concatenates [S512x64, S512x64] S512x128 1
  iota_S512x512_d1_w32 : S512x512.Iotas .tc 32 [1]
  inb_S2048x128_S512x128_0_0 : ∀ a, (![0, 0] : Fin 2 → Nat) a + S512x128.size a ≤ S2048x128.size a
  iota_S512x512_d0_w32 : S512x512.Iotas .tc 32 [0]
  inb_S2048x1_S512x1_0_0 : ∀ a, (![0, 0] : Fin 2 → Nat) a + S512x1.size a ≤ S2048x1.size a
  h_S512x1 : 0 < S512x1.numel
  reduces_S512x512_S512 : S512x512.Reduces [1] S512
  shapeCasts_S512_S512x1 : S512.ShapeCasts S512x1
  broadcasts_S512x1_S512x512 : S512x1.Broadcasts S512x512
  shapeCasts_S512x1_S512x1 : S512x1.ShapeCasts S512x1
  broadcasts_S512x1_S512x128 : S512x1.Broadcasts S512x128
  inb_S2048x128_S512x128_512_0 : ∀ a, (![512, 0] : Fin 2 → Nat) a + S512x128.size a ≤ S2048x128.size a
  inb_S2048x1_S512x1_512_0 : ∀ a, (![512, 0] : Fin 2 → Nat) a + S512x1.size a ≤ S2048x1.size a
  inb_S2048x128_S512x128_1024_0 : ∀ a, (![1024, 0] : Fin 2 → Nat) a + S512x128.size a ≤ S2048x128.size a
  inb_S2048x1_S512x1_1024_0 : ∀ a, (![1024, 0] : Fin 2 → Nat) a + S512x1.size a ≤ S2048x1.size a
  inb_S2048x128_S512x128_1536_0 : ∀ a, (![1536, 0] : Fin 2 → Nat) a + S512x128.size a ≤ S2048x128.size a
  inb_S2048x1_S512x1_1536_0 : ∀ a, (![1536, 0] : Fin 2 → Nat) a + S512x1.size a ≤ S2048x1.size a
  broadcasts_S2048x1_S2048x128 : S2048x1.Broadcasts S2048x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  dot_S128x2048_S2048x2048_S128x2048_1_1_0_0_n_n_wf : DotDims.WF S128x2048 S2048x2048 S128x2048 [1] [1] [0] [0] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .bf16 = 32 ∨ (Rect.block (s := S4096x2048) S128x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S4096x2048.size a
  hwx0_4 : ∀ i : grid0.Coords, EltTy.bits .bf16 = 32 ∨ (Rect.block (s := S4096x2048) S128x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .bf16 = 32 ∨ (Rect.block (s := S4096x2048) S128x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S4096x2048.size a
  hwx0_6 : ∀ i : grid0.Coords, EltTy.bits .bf16 = 32 ∨ (Rect.block (s := S4096x2048) S128x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x128.size a ≤ S2x2048x2048.size a
  hwx1_0 : ∀ i : grid1.Coords, EltTy.bits .bf16 = 32 ∨ (Rect.block (s := S2x2048x2048) S1x2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S2x2048x2048.size a
  hwx1_1 : ∀ i : grid1.Coords, EltTy.bits .bf16 = 32 ∨ (Rect.block (s := S2x2048x2048) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S2x2048x2048.size a
  hwx1_2 : ∀ i : grid1.Coords, EltTy.bits .bf16 = 32 ∨ (Rect.block (s := S2x2048x2048) S1x512x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S2048x128.size a
  hwx1_3 : ∀ i : grid1.Coords, EltTy.bits .f32 = 32 ∨ (Rect.block (s := S2048x128) S2048x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S2048x128.size a
  hwx1_4 : ∀ i : grid1.Coords, EltTy.bits .f32 = 32 ∨ (Rect.block (s := S2048x128) S2048x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S2048x128.size a
  hwx1_5 : ∀ i : grid1.Coords, EltTy.bits .f32 = 32 ∨ (Rect.block (s := S2048x128) S512x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S2048x128.size a
  hwx1_6 : ∀ i : grid1.Coords, EltTy.bits .f32 = 32 ∨ (Rect.block (s := S2048x128) S512x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x128.size a ≤ S2x2048x2048.size a
  hwx1_7 : ∀ i : grid1.Coords, EltTy.bits .bf16 = 32 ∨ (Rect.block (s := S2x2048x2048) S1x2048x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S4096x2048.size a
  hwx2_2 : ∀ i : grid2.Coords, EltTy.bits .f32 = 32 ∨ (Rect.block (s := S4096x2048) S512x2048.size (cc2_transform_2 i) (hinb2_2 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S128x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S2048x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S512x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S512x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x2048x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond6 i == 1#1) | ⟨_ + 8, h⟩ => absurd h (Nat.not_lt.2 (Nat.le_add_left _ _))

abbrev win2_0 : Pipeline.Window sig grid2 :=
  Pipeline.Window.ofSpec (Memref.whole main_v13) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S2048x2048 : Shape := ⟨2, ![2048, 2048]⟩
abbrev S4096x128 : Shape := ⟨2, ![4096, 128]⟩
abbrev S2x2048x16x128 : Shape := ⟨4, ![2, 2048, 16, 128]⟩
abbrev S2x16x2048x128 : Shape := ⟨4, ![2, 16, 2048, 128]⟩
abbrev S2x16x2048x64 : Shape := ⟨4, ![2, 16, 2048, 64]⟩
abbrev S2048x128 : Shape := ⟨2, ![2048, 128]⟩
abbrev S1x1x2048x128 : Shape := ⟨4, ![1, 1, 2048, 128]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4096x128, .f32⟩
  | .hbm, ⟨6, _⟩ => ⟨S4096x128, .f32⟩
  | .hbm, ⟨7, _⟩ => ⟨S2x2048x2048, .f32⟩
  | .hbm, ⟨8, _⟩ => ⟨S2x2048x16x128, .f32⟩
  | .hbm, ⟨9, _⟩ => ⟨S2x16x2048x128, .f32⟩
  | .hbm, ⟨10, _⟩ => ⟨S2x2048x2048, .f32⟩
  | .hbm, ⟨11, _⟩ => ⟨S2x2048x16x128, .f32⟩
  | .hbm, ⟨12, _⟩ => ⟨S2x16x2048x128, .f32⟩
  | .hbm, ⟨13, _⟩ => ⟨S2x2048x2048, .f32⟩
  | .hbm, ⟨14, _⟩ => ⟨S2x2048x16x128, .f32⟩
  | .hbm, ⟨15, _⟩ => ⟨S2x16x2048x128, .f32⟩
  | .hbm, ⟨16, _⟩ => ⟨S2x16x2048x64, .f32⟩
  | .hbm, ⟨17, _⟩ => ⟨S2x16x2048x64, .f32⟩
  | .hbm, ⟨18, _⟩ => ⟨S2x16x2048x64, .f32⟩
  | .hbm, ⟨19, _⟩ => ⟨S2x16x2048x128, .f32⟩
  | .hbm, ⟨20, _⟩ => ⟨S2048x128, .f32⟩
  | .hbm, ⟨21, _⟩ => ⟨S1x1x2048x128, .f32⟩
  | .hbm, ⟨22, _⟩ => ⟨S2048x128, .f32⟩
  | .hbm, ⟨23, _⟩ => ⟨S1x1x2048x128, .f32⟩
  | .hbm, ⟨24, _⟩ => ⟨S2x16x2048x128, .f32⟩
  | .hbm, ⟨25, _⟩ => ⟨S2x16x2048x128, .f32⟩
  | .hbm, ⟨26, _⟩ => ⟨S2x16x2048x128, .f32⟩
  | .hbm, ⟨27, _⟩ => ⟨S2x16x2048x128, .f32⟩
  | .hbm, ⟨28, _⟩ => ⟨S2x16x2048x128, .f32⟩
  | .hbm, ⟨29, _⟩ => ⟨S2x16x2048x64, .f32⟩
  | .hbm, ⟨30, _⟩ => ⟨S2x16x2048x64, .f32⟩
  | .hbm, ⟨31, _⟩ => ⟨S2x16x2048x64, .f32⟩
  | .hbm, ⟨32, _⟩ => ⟨S2x16x2048x128, .f32⟩
  | .hbm, ⟨33, _⟩ => ⟨S2048x128, .f32⟩
  | .hbm, ⟨34, _⟩ => ⟨S1x1x2048x128, .f32⟩
  | .hbm, ⟨35, _⟩ => ⟨S2048x128, .f32⟩
  | .hbm, ⟨36, _⟩ => ⟨S1x1x2048x128, .f32⟩
  | .hbm, ⟨37, _⟩ => ⟨S2x16x2048x128, .f32⟩
  | .hbm, ⟨38, _⟩ => ⟨S2x16x2048x128, .f32⟩
  | .hbm, ⟨39, _⟩ => ⟨S2x16x2048x128, .f32⟩
  | .hbm, ⟨40, _⟩ => ⟨S2x16x2048x128, .f32⟩
  | .hbm, ⟨41, _⟩ => ⟨S2x16x2048x128, .f32⟩
  | .hbm, ⟨42, _⟩ => ⟨S2x16x2048x2048, .f32⟩
  | .hbm, ⟨43, _⟩ => ⟨S_, .f32⟩
  | .hbm, ⟨44, _⟩ => ⟨S2x16x2048x2048, .f32⟩
  | .hbm, ⟨45, _⟩ => ⟨S2x16x2048x2048, .f32⟩
  | .hbm, ⟨46, _⟩ => ⟨S_, .i1⟩
  | .hbm, ⟨47, _⟩ => ⟨S2048x2048, .i1⟩
  | .hbm, ⟨48, _⟩ => ⟨S2048x2048, .i32⟩
  | .hbm, ⟨49, _⟩ => ⟨S_, .i32⟩
  | .hbm, ⟨50, _⟩ => ⟨S2048x2048, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S_, .i1⟩
  | .hbm, ⟨55, _⟩ => ⟨S2048x2048, .i1⟩
  | .hbm, ⟨56, _⟩ => ⟨S2048x2048, .i1⟩
  | .hbm, ⟨57, _⟩ => ⟨S1x1x2048x2048, .i1⟩
  | .hbm, ⟨58, _⟩ => ⟨S_, .f32⟩
  | .hbm, ⟨59, _⟩ => ⟨S_, .f32⟩
  | .hbm, ⟨60, _⟩ => ⟨S2x16x2048x2048, .i1⟩
  | .hbm, ⟨61, _⟩ => ⟨S2x16x2048x2048, .f32⟩
  | .hbm, ⟨62, _⟩ => ⟨S2x16x2048x2048, .f32⟩
  | .hbm, ⟨63, _⟩ => ⟨S_, .f32⟩
  | .hbm, ⟨64, _⟩ => ⟨S2x16x2048, .f32⟩
  | .hbm, ⟨65, _⟩ => ⟨S_, .f32⟩
  | .hbm, ⟨66, _⟩ => ⟨S2x16x2048, .f32⟩
  | .hbm, ⟨67, _⟩ => ⟨S2x16x2048, .f32⟩
  | .hbm, ⟨68, _⟩ => ⟨S2x16x2048x1, .f32⟩
  | .hbm, ⟨69, _⟩ => ⟨S2x16x2048x2048, .f32⟩
  | .hbm, ⟨70, _⟩ => ⟨S2x16x2048x2048, .f32⟩
  | .hbm, ⟨71, _⟩ => ⟨S2x16x2048x2048, .f32⟩
  | .hbm, ⟨72, _⟩ => ⟨S_, .f32⟩
  | .hbm, ⟨73, _⟩ => ⟨S2x16x2048, .f32⟩
  | .hbm, ⟨74, _⟩ => ⟨S2x16x2048x1, .f32⟩
  | .hbm, ⟨75, _⟩ => ⟨S2x16x2048x2048, .f32⟩
  | .hbm, ⟨76, _⟩ => ⟨S2x16x2048x2048, .f32⟩
  | .hbm, ⟨77, _⟩ => ⟨S2x16x2048x128, .f32⟩
  | .hbm, ⟨78, _⟩ => ⟨S2x2048x16x128, .f32⟩
  | .hbm, ⟨79, _⟩ => ⟨S2x2048x2048, .f32⟩
  | .hbm, ⟨80, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_v38 : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_c_0 : Ref sig .tc := ⟨.hbm, 54, rfl⟩
abbrev main_call0_v5 : Ref sig .tc := ⟨.hbm, 55, rfl⟩
abbrev main_v39 : Ref sig .tc := ⟨.hbm, 56, rfl⟩
abbrev main_v40 : Ref sig .tc := ⟨.hbm, 57, rfl⟩
abbrev main_cst_0 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  slices_S2x16x2048x128_S2x16x2048x64_0_0_0_0 : S2x16x2048x128.Slices ![0, 0, 0, 0] S2x16x2048x64
  slices_S2x16x2048x128_S2x16x2048x64_0_0_0_64 : S2x16x2048x128.Slices ![0, 0, 0, 64] S2x16x2048x64
  concatenates_S2x16x2048x64_S2x16x2048x64_S2x16x2048x128_d3 : Shape.Concatenates [S2x16x2048x64, S2x16x2048x64] S2x16x2048x128 3
  slices_S4096x128_S2048x128_0_0 : S4096x128.Slices ![0, 0] S2048x128
  bcast_S2048x128_S1x1x2048x128_2_3 : S2048x128.BroadcastsInDim S1x1x2048x128 (![2, 3] : Fin 2 → Fin S1x1x2048x128.rank)
  bcast_S1x1x2048x128_S2x16x2048x128_0_1_2_3 : S1x1x2048x128.BroadcastsInDim S2x16x2048x128 (![0, 1, 2, 3] : Fin 4 → Fin S2x16x2048x128.rank)
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S2048x2048_S2x2048x2048_2_1_01_0_n_n_wf : DotDims.WF S2x2048x2048 S2048x2048 S2x2048x2048 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Ledger.lean ====
/-
  The ledger of the idealization. The kernel fills its running row maximum, and replaces every score above the
  diagonal, with the finite stand-in -1e30 for minus infinity; the idealized kernel names that literal, and the
  certificate's table gives the name the value ⊥ of the extended reals. Each of the five sites (the fill of the
  running maximum and the mask of each of the four query chunks) is one application of the same rule.
-/
import proofs.«117884_j83708912599078_2_alg».proof.Defs

noncomputable section

namespace Cert.Proof.Parts

open Idealize.ShloMosaic

/-- One site: the table maps `"neg_big"` to `⊥`, so the named literal is `⊥` at the ideal instance. -/
theorem neg_big_site : IdealRules.named_const.Statement Cert.KernelIdeal.κ "neg_big" .f32 0xF149F2CA#32 ⊥ :=
  IdealRules.named_const.statement Cert.KernelIdeal.κ "neg_big" .f32 0xF149F2CA#32 ⊥ rfl

/-- All five sites. -/
theorem preserves : Cert.preserves_Kernel_KernelIdeal :=
  ⟨neg_big_site, neg_big_site, neg_big_site, neg_big_site, neg_big_site⟩

end Cert.Proof.Parts

end
-- ==== Proof.RefFrame.lean ====
/-
  The reference is a straight-line host program: it launches no kernel, so it runs to the end on every core,
  faults nowhere, and writes only its own intermediate buffers. Its frame is its run with the result forgotten.
-/
import proofs.«117884_j83708912599078_2_alg».proof.Defs
import proofs.«117884_j83708912599078_2_alg».proof.Proof.Gen.ReferenceIdeal.Run

noncomputable section

namespace Cert.Proof.Parts

open Idealize.ShloMosaic Idealize.SL.Sem

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Parts

end
-- ==== Proof.Spec.lean ====
/-
  The attention layer as ONE function of its seven argument arrays, index by index, over the extended reals.

  x : [2, 2048, 2048] (batch, position, feature); Wq Wk Wv Wo : [2048, 2048] (output feature, input feature);
  cos sin : [4096, 128] (position, coordinate inside a head). A feature f = 128·h + d belongs to head h = f / 128
  at coordinate d = f % 128.
    q k v   = x · Wᵀ                                        (`proj`)
    rot u   = (−u₂, u₁) on each head's two halves; rope u = u · cos + rot u · sin at the row's position   (`rope`)
    score   = (rope q · rope k) · scale at or below the diagonal, ⊥ above it        (`score`; scale is the binary literal)
    weights = exp (score − M) / ∑ exp (score − M), M the row's largest score         (`ctx`)
    ctx     = ∑ over keys of weight · v;   out = ctx · Woᵀ                             (`ctx`, `out`)
-/
import Idealize.ShloMosaic.PureOps.Ideal
import Idealize.ShloMosaic.Lib.ValueIdx

noncomputable section

namespace Cert.Spec

open Idealize.ShloMosaic Idealize.ShloMosaic.ValueIdx
open scoped BigOperators

/-- Arrays of the three shapes involved, as functions into the extended reals. -/
abbrev A3 : Type := (⟨3, ![2, 2048, 2048]⟩ : Shape).Idx → EReal
abbrev A2 : Type := (⟨2, ![2048, 2048]⟩ : Shape).Idx → EReal
abbrev T2 : Type := (⟨2, ![4096, 128]⟩ : Shape).Idx → EReal

/-- Feature `128·h + d`: coordinate `d` of head `h`. -/
def feat (h : Fin 16) (d : Fin 128) : Fin 2048 := ⟨128 * h.val + d.val, by omega⟩
/-- A position as a row of the [4096, 128] tables. -/
def row (s : Fin 2048) : Fin 4096 := ⟨s.val, by omega⟩
/-- The partner coordinate in the other half of a head. -/
def swap (d : Fin 128) : Fin 128 := if h : d.val < 64 then ⟨d.val + 64, by omega⟩ else ⟨d.val - 64, by omega⟩

/-- A projection: row (b, s) of `x` against row `o` of `W`. -/
def proj (x : A3) (W : A2) (b : Fin 2) (s : Fin 2048) (o : Fin 2048) : EReal :=
  ∑ h : Fin 2048, x (ix3 b s h) * W (ix2 o h)

/-- The rotary embedding of a projected array `u` at (batch, position, head, coordinate): `u·cos + rot u·sin` with
    `rot u = (−u₂, u₁)`: the first half takes minus the second half, the second half takes the first. -/
def rope (u : Fin 2 → Fin 2048 → Fin 2048 → EReal) (cos sin : T2) (b : Fin 2) (s : Fin 2048) (h : Fin 16) (d : Fin 128) : EReal :=
  u b s (feat h d) * cos (ix2 (row s) d)
    + (if d.val < 64 then - u b s (feat h (swap d)) else u b s (feat h (swap d))) * sin (ix2 (row s) d)

/-- The scale: the binary32 word both programs multiply the scores by (the rounding of √128). -/
def scale : EReal := Ideal.ofBits .f32 0x413504F3#32

/-- The masked, scaled score of query position `sq` against key position `sk` in head `h` of batch `b`. -/
def score (x : A3) (Wq Wk : A2) (cos sin : T2) (b : Fin 2) (h : Fin 16) (sq sk : Fin 2048) : EReal :=
  if sk.val ≤ sq.val then
    (∑ d : Fin 128, rope (proj x Wq) cos sin b sq h d * rope (proj x Wk) cos sin b sk h d) * scale
  else ⊥

/-- The attention output at (batch, position, feature): the softmax-weighted sum of the rows of `v`. -/
def ctx (x : A3) (Wq Wk Wv : A2) (cos sin : T2) (b : Fin 2) (sq : Fin 2048) (h : Fin 16) (d : Fin 128) : EReal :=
  ∑ sk : Fin 2048,
    Ideal.div (Ideal.exp (score x Wq Wk cos sin b h sq sk - Finset.univ.sup (score x Wq Wk cos sin b h sq)))
        (∑ sk' : Fin 2048, Ideal.exp (score x Wq Wk cos sin b h sq sk' - Finset.univ.sup (score x Wq Wk cos sin b h sq)))
      * proj x Wv b sk (feat h d)

/-- The head and the coordinate of a feature. -/
def headOf (f : Fin 2048) : Fin 16 := ⟨f.val / 128, by omega⟩
def coordOf (f : Fin 2048) : Fin 128 := ⟨f.val % 128, by omega⟩

/-- The layer's result at (batch, position, output feature). -/
def out (x : A3) (Wq Wk Wv Wo : A2) (cos sin : T2) (b : Fin 2) (s : Fin 2048) (o : Fin 2048) : EReal :=
  ∑ f : Fin 2048, ctx x Wq Wk Wv cos sin b s (headOf f) (coordOf f) * Wo (ix2 o f)

/-- The result array. -/
def G (x : A3) (Wq Wk Wv Wo : A2) (cos sin : T2) : A3 :=
  fun i => out x Wq Wk Wv Wo cos sin (i 0) (i 1) (i 2)

end Cert.Spec

end
-- ==== Proof.RefValueRope.lean ====
/-
  The reference's three projections and its rotary embedding, read one element at a time.

  A projected array is reshaped from [2, 2048, 2048] to [2, 2048, 16, 128] and transposed to [2, 16, 2048, 128]:
  element (b, h, s, d) of the result is element (b, s, 128·h + d) of the product x · Wᵀ, because the row-major
  position ((b·2048 + s)·16 + h)·128 + d splits as (b·2048 + s)·2048 + (128·h + d). The rotated copy is the
  concatenation of minus the upper half and the lower half of each head, so at coordinate d it holds, up to sign,
  the entry at the partner coordinate d ± 64; cos and sin are rows 0..2047 of the tables, the same for every batch
  and head. The key projection goes through the same operations as the query projection, with another weight array.
-/
import proofs.«117884_j83708912599078_2_alg».proof.Proof.Gen.ReferenceIdeal.Read
import proofs.«117884_j83708912599078_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- The three kinds of argument array, with extended-real entries. -/
abbrev X3 : Type := (⟨S2x2048x2048, .f32⟩ : BufTy).Contents (Elt Ideal)
abbrev W2 : Type := (⟨S2048x2048, .f32⟩ : BufTy).Contents (Elt Ideal)
abbrev T2 : Type := (⟨S4096x128, .f32⟩ : BufTy).Contents (Elt Ideal)

/-! ## A projection -/

/-- The product x · Wᵀ at (b, s, o) is the sum over the input features. -/
theorem dot_at (x0 : X3) (w : W2) (b : Fin 2) (s o : Fin 2048) :
    val_main_v0 (F := Ideal) x0 w (ix3 b s o) = Cert.Spec.proj x0 w b s o := by
  rw [val_main_v0_apply]
  unfold Cert.Spec.proj
  refine Finset.sum_congr rfl fun k _ => ?_
  have e1 : lidx_main_v0 (ix3 b s o) k = ix3 b s k :=
    funext fun a => Fin.ext (by match a with | ⟨0, _⟩ => rfl | ⟨1, _⟩ => rfl | ⟨2, _⟩ => rfl)
  have e2 : ridx_main_v0 (ix3 b s o) k = ix2 o k :=
    funext fun a => Fin.ext (by match a with | ⟨0, _⟩ => rfl | ⟨1, _⟩ => rfl)
  rw [e1, e2]

/-- Position (b, h, s, d) of the transposed array comes from position (b, s, 128·h + d) of the product. -/
theorem split_idx (b : Fin 2) (h : Fin 16) (s : Fin 2048) (d : Fin 128) :
    idx_main_v1 (idx_main_v2 (ix4 b h s d)) = ix3 b s (Cert.Spec.feat h d) := by
  have hb := b.isLt
  have hh := h.isLt
  have hs := s.isLt
  have hd := d.isLt
  funext a
  refine Fin.ext ?_
  match a with
  | ⟨0, _⟩ =>
    show (((b.val * 2048 + s.val) * 16 + h.val) * 128 + d.val) / 4194304 = b.val
    omega
  | ⟨1, _⟩ =>
    show (((b.val * 2048 + s.val) * 16 + h.val) * 128 + d.val) / 2048 % 2048 = s.val
    omega
  | ⟨2, _⟩ =>
    show (((b.val * 2048 + s.val) * 16 + h.val) * 128 + d.val) % 2048 = 128 * h.val + d.val
    omega

/-- The projected array, split into heads: (b, h, s, d) holds the projection at feature 128·h + d. -/
theorem proj_at (x0 : X3) (w : W2) (b : Fin 2) (h : Fin 16) (s : Fin 2048) (d : Fin 128) :
    val_main_v2 (F := Ideal) x0 w (ix4 b h s d) = Cert.Spec.proj x0 w b s (Cert.Spec.feat h d) := by
  rw [val_main_v2_apply, val_main_v1_apply, split_idx, dot_at]

/-! ## The rotary embedding -/

/-- The cosine broadcast over batches and heads reads row s of the table. -/
theorem cos_idx (b : Fin 2) (h : Fin 16) (s : Fin 2048) (d : Fin 128) :
    idx_main_v13 (idx_main_v14 (idx_main_v17 (ix4 b h s d))) = ix2 (Cert.Spec.row s) d :=
  funext fun a => Fin.ext (by match a with | ⟨0, _⟩ => rfl | ⟨1, _⟩ => rfl)

/-- So does the sine. -/
theorem sin_idx (b : Fin 2) (h : Fin 16) (s : Fin 2048) (d : Fin 128) :
    idx_main_v15 (idx_main_v16 (idx_main_v19 (ix4 b h s d))) = ix2 (Cert.Spec.row s) d :=
  funext fun a => Fin.ext (by match a with | ⟨0, _⟩ => rfl | ⟨1, _⟩ => rfl)

/-- In the lower half of a head the rotated copy is minus the partner entry of the upper half. -/
theorem rot_lo (x0 : X3) (w : W2) (b : Fin 2) (h : Fin 16) (s : Fin 2048) (d : Fin 128) (hd : d.val < 64) :
    val_main_v12 (F := Ideal) x0 w (ix4 b h s d) = - val_main_v2 (F := Ideal) x0 w (ix4 b h s (Cert.Spec.swap d)) := by
  have hsw : (Cert.Spec.swap d).val = d.val + 64 := by unfold Cert.Spec.swap; rw [dif_pos hd]
  unfold val_main_v12
  refine (concatenate_pair_apply_left (3 : Fin 4) (val_main_v11 (F := Ideal) x0 w) (val_main_v9 (F := Ideal) x0 w)
    concatenates_S2x16x2048x64_S2x16x2048x64_S2x16x2048x128_d3 (ix4 b h s d) rfl (ix4 b h s (⟨d.val, hd⟩ : Fin 64))
    (fun c => by match c with | ⟨0, _⟩ => rfl | ⟨1, _⟩ => rfl | ⟨2, _⟩ => rfl | ⟨3, _⟩ => rfl)).trans ?_
  rw [val_main_v11_apply, val_main_v10_apply]
  have e : idx_main_v10 (ix4 b h s (⟨d.val, hd⟩ : Fin 64)) = ix4 b h s (Cert.Spec.swap d) :=
    funext fun a => Fin.ext (by
      match a with
      | ⟨0, _⟩ => rfl
      | ⟨1, _⟩ => rfl
      | ⟨2, _⟩ => rfl
      | ⟨3, _⟩ => show 64 + d.val = (Cert.Spec.swap d).val; omega)
  rw [e]
  rfl

/-- In the upper half it is the partner entry of the lower half. -/
theorem rot_hi (x0 : X3) (w : W2) (b : Fin 2) (h : Fin 16) (s : Fin 2048) (d : Fin 128) (hd : ¬ d.val < 64) :
    val_main_v12 (F := Ideal) x0 w (ix4 b h s d) = val_main_v2 (F := Ideal) x0 w (ix4 b h s (Cert.Spec.swap d)) := by
  have hsw : (Cert.Spec.swap d).val = d.val - 64 := by unfold Cert.Spec.swap; rw [dif_neg hd]
  have hd' := d.isLt
  unfold val_main_v12
  refine (concatenate_pair_apply_right (3 : Fin 4) (val_main_v11 (F := Ideal) x0 w) (val_main_v9 (F := Ideal) x0 w)
    concatenates_S2x16x2048x64_S2x16x2048x64_S2x16x2048x128_d3 (ix4 b h s d) rfl rfl
    (ix4 b h s (⟨d.val - 64, by omega⟩ : Fin 64))
    (fun c hc => by
      match c with
      | ⟨0, _⟩ => rfl
      | ⟨1, _⟩ => rfl
      | ⟨2, _⟩ => rfl
      | ⟨3, _⟩ => exact absurd rfl hc)
    (by show d.val - 64 + 64 = d.val; omega)).trans ?_
  rw [val_main_v9_apply]
  have e : idx_main_v9 (ix4 b h s (⟨d.val - 64, by omega⟩ : Fin 64)) = ix4 b h s (Cert.Spec.swap d) :=
    funext fun a => Fin.ext (by
      match a with
      | ⟨0, _⟩ => rfl
      | ⟨1, _⟩ => rfl
      | ⟨2, _⟩ => rfl
      | ⟨3, _⟩ => show d.val - 64 = (Cert.Spec.swap d).val; omega)
  rw [e]

/-- The embedded array at (b, h, s, d): u · cos + rot u · sin at position s. -/
theorem rope_at (x0 : X3) (w : W2) (x5 x6 : T2) (b : Fin 2) (h : Fin 16) (s : Fin 2048) (d : Fin 128) :
    val_main_v21 (F := Ideal) x0 w x5 x6 (ix4 b h s d) = Cert.Spec.rope (Cert.Spec.proj x0 w) x5 x6 b s h d := by
  rw [val_main_v21_apply, val_main_v18_apply, val_main_v20_apply, val_main_v17_apply, val_main_v14_apply,
    val_main_v13_apply, cos_idx, val_main_v19_apply, val_main_v16_apply, val_main_v15_apply, sin_idx, proj_at]
  unfold Cert.Spec.rope
  by_cases hd : d.val < 64
  · rw [rot_lo x0 w b h s d hd, proj_at, if_pos hd]
    rfl
  · rw [rot_hi x0 w b h s d hd, proj_at, if_neg hd]
    rfl

/-! ## The key and value projections are the same operations on another weight array -/

theorem v5_eq (x0 : X3) (w : W2) : val_main_v5 (F := Ideal) x0 w = val_main_v2 (F := Ideal) x0 w := rfl
theorem v8_eq (x0 : X3) (w : W2) : val_main_v8 (F := Ideal) x0 w = val_main_v2 (F := Ideal) x0 w := rfl
theorem v34_eq (x0 : X3) (w : W2) (x5 x6 : T2) :
    val_main_v34 (F := Ideal) x0 w x5 x6 = val_main_v21 (F := Ideal) x0 w x5 x6 := rfl

end Cert.ReferenceIdeal.RefValue

end
-- ==== Proof.LibOnlineSoftmax.lean ====
/-
  The tiled ("online") softmax-weighted sum over the extended reals.

  A row of scores `s j` (each a real number or `⊥`, never `⊤`) and a row of real values `v j` are visited a
  tile of keys at a time. Between tiles one keeps a level `m` (an upper bound of the scores seen so far, `⊥`
  before the first tile), a denominator `l` and a numerator `acc`; a tile with new level `m'` replaces them by
      l'   = exp (m - m') * l   + ∑ j in tile, exp (s j - m')
      acc' = exp (m - m') * acc + ∑ j in tile, exp (s j - m') * v j .
  The invariant `Inv` says that `l` and `acc` are the sums over the keys seen so far of the weights
  `exp (s j - m)` and of the weights times the values. It holds before the first tile (`Inv.init`), every tile
  preserves it (`Inv.step`: the factor `exp (m - m')` moves every old weight from level `m` to level `m'`,
  because `exp (m - m') * exp (x - m) = exp (x - m')`, also when `m = ⊥` where both sides vanish), and once
  all keys are seen the quotient `acc / l` is the plain softmax-weighted sum `∑ j, (e j / ∑ k, e k) * v j` with
  `e j = exp (s j - M)` for ANY real level `M` (`Inv.result`): the common factor `exp (m - M)` cancels.
  Everything is computed in the reals: the exponential of anything but `⊤` is a real number.
-/
import Idealize.ShloMosaic.PureOps.Ideal
import Mathlib.Data.EReal.Operations
import Mathlib.Analysis.SpecialFunctions.Exp
import Mathlib.Algebra.BigOperators.Field
import Mathlib.Tactic

noncomputable section

namespace OnlineSoftmax

open Idealize.ShloMosaic
open scoped BigOperators

/-- The cast of a finite real sum is the sum of the casts. -/
theorem coe_sum {ι : Type*} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The exponential of anything but `⊤` is a real number. -/
theorem exp_eq_coe {y : EReal} (hy : y ≠ ⊤) : Ideal.exp y = ((Ideal.exp y).toReal : EReal) := by
  induction y using EReal.rec with
  | bot => simp
  | coe r => simp
  | top => exact absurd rfl hy

/-- That real number is not negative. -/
theorem exp_toReal_nonneg (y : EReal) : 0 ≤ (Ideal.exp y).toReal := by
  induction y using EReal.rec with
  | bot => simp
  | coe r => simp [Real.exp_nonneg]
  | top => simp

/-- Subtracting a real from anything but `⊤` does not give `⊤`. -/
theorem sub_coe_ne_top {x : EReal} (hx : x ≠ ⊤) (r : ℝ) : x - (r : EReal) ≠ ⊤ := by
  induction x using EReal.rec with
  | bot => simp [EReal.bot_sub]
  | coe a => rw [← EReal.coe_sub]; exact EReal.coe_ne_top _
  | top => exact absurd rfl hx

/-- Moving a weight from level `m` to the real level `r'`. -/
theorem rescale {x m : EReal} (r' : ℝ) (hx : x ≠ ⊤) (hxm : x ≤ m) (hm : m ≠ ⊤) :
    (Ideal.exp (m - r')).toReal * (Ideal.exp (x - m)).toReal = (Ideal.exp (x - r')).toReal := by
  induction m using EReal.rec with
  | bot =>
    have hxb : x = ⊥ := le_bot_iff.mp hxm
    subst hxb
    simp [EReal.bot_sub]
  | top => exact absurd rfl hm
  | coe r =>
    induction x using EReal.rec with
    | bot => simp [EReal.bot_sub]
    | top => exact absurd rfl hx
    | coe a =>
      rw [← EReal.coe_sub, ← EReal.coe_sub, ← EReal.coe_sub]
      simp only [Ideal.exp_coe, EReal.toReal_coe]
      rw [← Real.exp_add]
      congr 1
      ring

variable {ι : Type*}

/-- The weight of key `j` against the level `m`, as a real number. -/
def wt (s : ι → EReal) (m : EReal) (j : ι) : ℝ := (Ideal.exp (s j - m)).toReal

theorem wt_nonneg (s : ι → EReal) (m : EReal) (j : ι) : 0 ≤ wt s m j := exp_toReal_nonneg _

/-- Against a real level the weight is the extended-real exponential itself. -/
theorem exp_eq_wt (s : ι → EReal) (hs : ∀ j, s j ≠ ⊤) (r : ℝ) (j : ι) :
    Ideal.exp (s j - (r : EReal)) = ((wt s r j : ℝ) : EReal) :=
  exp_eq_coe (sub_coe_ne_top (hs j) r)

/-- The state between tiles: `m` bounds the scores seen, `l` and `acc` are the sums of the weights and of the
    weights times the values over the keys seen. -/
structure Inv (s : ι → EReal) (v : ι → ℝ) (S : Finset ι) (m l acc : EReal) : Prop where
  bound : ∀ j ∈ S, s j ≤ m
  den : l = ((∑ j ∈ S, wt s m j : ℝ) : EReal)
  num : acc = ((∑ j ∈ S, wt s m j * v j : ℝ) : EReal)

/-- Before the first tile: level `⊥`, both sums empty. -/
theorem Inv.init (s : ι → EReal) (v : ι → ℝ) : Inv s v ∅ ⊥ 0 0 :=
  ⟨fun _ h => absurd h (Finset.notMem_empty _), by simp, by simp⟩

/-- One tile. -/
theorem Inv.step [DecidableEq ι] {s : ι → EReal} {v : ι → ℝ} {S τ : Finset ι} {m l acc : EReal}
    (h : Inv s v S m l acc) (hs : ∀ j, s j ≠ ⊤) (hd : Disjoint S τ) (r' : ℝ)
    (hm : m ≤ (r' : EReal)) (hτ : ∀ j ∈ τ, s j ≤ (r' : EReal)) :
    Inv s v (S ∪ τ) (r' : EReal)
      (Ideal.exp (m - r') * l + ∑ j ∈ τ, Ideal.exp (s j - r'))
      (Ideal.exp (m - r') * acc + ∑ j ∈ τ, Ideal.exp (s j - r') * (v j : EReal)) := by
  have hmt : m ≠ ⊤ := fun e => by rw [e] at hm; exact absurd hm (by simp)
  have ha : Ideal.exp (m - r') = (((Ideal.exp (m - r')).toReal : ℝ) : EReal) := exp_eq_coe (sub_coe_ne_top hmt r')
  have hold : ∀ j ∈ S, (Ideal.exp (m - r')).toReal * wt s m j = wt s r' j := fun j hj =>
    rescale r' (hs j) (h.bound j hj) hmt
  have eτ : ∑ j ∈ τ, Ideal.exp (s j - r') = ((∑ j ∈ τ, wt s r' j : ℝ) : EReal) := by
    rw [coe_sum]; exact Finset.sum_congr rfl (fun j _ => exp_eq_wt s hs r' j)
  have eτv : ∑ j ∈ τ, Ideal.exp (s j - r') * (v j : EReal) = ((∑ j ∈ τ, wt s r' j * v j : ℝ) : EReal) := by
    rw [coe_sum]; exact Finset.sum_congr rfl (fun j _ => by rw [exp_eq_wt s hs r' j, EReal.coe_mul])
  have e1 : (Ideal.exp (m - r')).toReal * ∑ j ∈ S, wt s m j = ∑ j ∈ S, wt s r' j := by
    rw [Finset.mul_sum]; exact Finset.sum_congr rfl hold
  have e2 : (Ideal.exp (m - r')).toReal * ∑ j ∈ S, wt s m j * v j = ∑ j ∈ S, wt s r' j * v j := by
    rw [Finset.mul_sum]; exact Finset.sum_congr rfl (fun j hj => by rw [← mul_assoc, hold j hj])
  refine ⟨fun j hj => ?_, ?_, ?_⟩
  · rcases Finset.mem_union.mp hj with hj | hj
    · exact (h.bound j hj).trans hm
    · exact hτ j hj
  · rw [eτ, h.den, ha, ← EReal.coe_mul, ← EReal.coe_add, e1, Finset.sum_union hd]
  · rw [eτv, h.num, ha, ← EReal.coe_mul, ← EReal.coe_add, e2, Finset.sum_union hd]

/-- A masked key (score `⊥`) has weight zero against every level. -/
theorem wt_bot {s : ι → EReal} {j : ι} (h : s j = ⊥) (m : EReal) : wt s m j = 0 := by
  unfold wt; rw [h, EReal.bot_sub]; simp

/-- A tile all of whose keys are masked may be skipped: the state already accounts for it. (A causal kernel skips
    the key tiles that lie wholly after a query chunk.) -/
theorem Inv.skip [DecidableEq ι] {s : ι → EReal} {v : ι → ℝ} {S τ : Finset ι} {m l acc : EReal}
    (h : Inv s v S m l acc) (hd : Disjoint S τ) (hτ : ∀ j ∈ τ, s j = ⊥) : Inv s v (S ∪ τ) m l acc := by
  refine ⟨fun j hj => ?_, ?_, ?_⟩
  · rcases Finset.mem_union.mp hj with hj | hj
    · exact h.bound j hj
    · rw [hτ j hj]; exact bot_le
  · rw [h.den, Finset.sum_union hd, Finset.sum_eq_zero (s := τ) (fun j hj => wt_bot (hτ j hj) m), add_zero]
  · rw [h.num, Finset.sum_union hd,
      Finset.sum_eq_zero (s := τ) (fun j hj => by rw [wt_bot (hτ j hj) m, zero_mul]), add_zero]

/-- A row maximum taken as a fold of `max` from `⊥` (the way a lane reduction with the neutral accumulator reads
    at the extended reals) is the supremum of the row. -/
theorem fold_max_bot (S : Finset ι) (f : ι → EReal) : S.fold max ⊥ f = S.sup f := by
  classical
  induction S using Finset.induction_on with
  | empty => simp
  | insert a S ha ih => rw [Finset.fold_insert ha, Finset.sup_insert, ih]

/-- The level after a tile is the larger of the old level and the tile's largest score. It is a real number as
    soon as the old level is not `⊥` or some score of the tile is not `⊥` (no score and no level being `⊤`). -/
theorem level_real {s : ι → EReal} (hs : ∀ j, s j ≠ ⊤) {τ : Finset ι} {m : EReal} (hm : m ≠ ⊤)
    (hne : m ≠ ⊥ ∨ ∃ j ∈ τ, s j ≠ ⊥) : ∃ r : ℝ, max m (τ.sup s) = (r : EReal) := by
  have hsup : τ.sup s < ⊤ := (Finset.sup_lt_iff bot_lt_top).mpr (fun j _ => lt_top_iff_ne_top.mpr (hs j))
  have htop : max m (τ.sup s) ≠ ⊤ := (max_lt (lt_top_iff_ne_top.mpr hm) hsup).ne
  have hbot : max m (τ.sup s) ≠ ⊥ := by
    rcases hne with h | ⟨j, hj, h⟩
    · exact ((bot_lt_iff_ne_bot.mpr h).trans_le (le_max_left _ _)).ne'
    · exact ((bot_lt_iff_ne_bot.mpr h).trans_le ((Finset.le_sup hj).trans (le_max_right _ _))).ne'
  exact ⟨_, (EReal.coe_toReal htop hbot).symm⟩

/-- One tile, with the new level taken as the running maximum does: the larger of the old level and the tile's
    largest score. -/
theorem Inv.tile [DecidableEq ι] {s : ι → EReal} {v : ι → ℝ} {S τ : Finset ι} {m l acc : EReal}
    (h : Inv s v S m l acc) (hs : ∀ j, s j ≠ ⊤) (hd : Disjoint S τ) (hm : m ≠ ⊤)
    (hne : m ≠ ⊥ ∨ ∃ j ∈ τ, s j ≠ ⊥) :
    (∃ r : ℝ, max m (τ.sup s) = (r : EReal)) ∧
    Inv s v (S ∪ τ) (max m (τ.sup s))
      (Ideal.exp (m - max m (τ.sup s)) * l + ∑ j ∈ τ, Ideal.exp (s j - max m (τ.sup s)))
      (Ideal.exp (m - max m (τ.sup s)) * acc + ∑ j ∈ τ, Ideal.exp (s j - max m (τ.sup s)) * (v j : EReal)) := by
  obtain ⟨r, hr⟩ := level_real hs hm hne
  refine ⟨⟨r, hr⟩, ?_⟩
  have h1 : m ≤ (r : EReal) := hr ▸ le_max_left _ _
  have h2 : ∀ j ∈ τ, s j ≤ (r : EReal) := fun j hj => hr ▸ (Finset.le_sup hj).trans (le_max_right _ _)
  rw [hr]
  exact h.step hs hd r h1 h2

/-- All keys seen, at a real level, with at least one score that is not `⊥`: the quotient is the plain
    softmax-weighted sum, written at any real level `M`. -/
theorem Inv.result [Fintype ι] {s : ι → EReal} {v : ι → ℝ} {r : ℝ} {l acc : EReal}
    (h : Inv s v Finset.univ (r : EReal) l acc) (hs : ∀ j, s j ≠ ⊤) (hne : ∃ j, s j ≠ ⊥) (M : ℝ) :
    Ideal.div acc l
      = ∑ j, Ideal.div (Ideal.exp (s j - M)) (∑ k, Ideal.exp (s k - M)) * (v j : EReal) := by
  classical
  -- the denominators are positive reals
  have hpos : ∀ (x : ℝ), 0 < ∑ k, wt s x k := fun x => by
    obtain ⟨j, hj⟩ := hne
    refine Finset.sum_pos' (fun k _ => wt_nonneg s x k) ⟨j, Finset.mem_univ j, ?_⟩
    have hjr : ∃ a : ℝ, s j = a := by
      induction hsj : s j using EReal.rec with
      | bot => exact absurd hsj hj
      | coe a => exact ⟨a, rfl⟩
      | top => exact absurd hsj (hs j)
    obtain ⟨a, ha⟩ := hjr
    unfold wt
    rw [ha, ← EReal.coe_sub]
    simp only [Ideal.exp_coe, EReal.toReal_coe]
    exact Real.exp_pos _
  -- every weight at level M is the weight at level r times one common positive factor
  have hc : ∀ j, wt s M j = Real.exp (r - M) * wt s r j := fun j => by
    have := rescale (x := s j) (m := (r : EReal)) M (hs j) (h.bound j (Finset.mem_univ j)) (EReal.coe_ne_top r)
    show (Ideal.exp (s j - (M : EReal))).toReal = Real.exp (r - M) * (Ideal.exp (s j - (r : EReal))).toReal
    rw [← this, ← EReal.coe_sub]
    simp only [Ideal.exp_coe, EReal.toReal_coe]
  have hW : (∑ k, wt s r k) ≠ 0 := (hpos r).ne'
  have hW' : (∑ k, wt s M k) ≠ 0 := (hpos M).ne'
  have hcpos : Real.exp (r - M) ≠ 0 := (Real.exp_pos _).ne'
  have eden : ∑ k, Ideal.exp (s k - M) = ((∑ k, wt s M k : ℝ) : EReal) := by
    rw [coe_sum]; exact Finset.sum_congr rfl (fun k _ => exp_eq_wt s hs M k)
  have eterm : ∀ j, Ideal.div (Ideal.exp (s j - M)) ((∑ k, wt s M k : ℝ) : EReal) * (v j : EReal)
      = ((wt s M j * (1 / ∑ k, wt s M k) * v j : ℝ) : EReal) := fun j => by
    rw [exp_eq_wt s hs M j, Ideal.div_coe hW', ← EReal.coe_mul, ← EReal.coe_mul]
  have hsum : (∑ k, wt s M k) = Real.exp (r - M) * ∑ k, wt s r k := by
    rw [Finset.mul_sum]; exact Finset.sum_congr rfl (fun k _ => hc k)
  rw [h.num, h.den, Ideal.div_coe hW, ← EReal.coe_mul, eden, Finset.sum_congr rfl (fun j _ => eterm j), ← coe_sum]
  congr 1
  rw [hsum, Finset.sum_mul]
  refine Finset.sum_congr rfl (fun j _ => ?_)
  rw [hc j]
  field_simp

end OnlineSoftmax

end
-- ==== Proof.RefValueScore.lean ====
/-
  The reference's masked, scaled scores and each row's largest score, read one element at a time.

  The mask is built from two index grids: entry (sq, sk) compares the row number with the column number, and the
  score is replaced by minus infinity exactly where the key position lies after the query position. Below or on the
  diagonal the score is the inner product of the two embedded rows over the 128 coordinates of the head, times the
  scale. A row's largest score is a fold of the maximum from minus infinity, that is the supremum of the row.
-/
import proofs.«117884_j83708912599078_2_alg».proof.Proof.RefValueRope
import proofs.«117884_j83708912599078_2_alg».proof.Proof.LibOnlineSoftmax
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The mask -/

/-- A position below 2048, as a 32-bit word, reads back signed as itself. -/
theorem small_toInt (n : Nat) (hn : n < 2048) : (BitVec.ofNat 32 n).toInt = (n : Int) := by
  have h1 : (BitVec.ofNat 32 n).toNat = n := by rw [BitVec.toNat_ofNat]; omega
  rw [BitVec.toInt_eq_toNat_of_lt (by rw [h1]; omega), h1]

/-- The mask bit at (sq, sk), the same for every batch and head: clear on and below the diagonal, set above it. -/
theorem mask_at (b : Fin 2) (h : Fin 16) (sq sk : Fin 2048) :
    val_main_call1_v1 (F := Ideal) (ix4 b h sq sk) = if sk.val ≤ sq.val then 0#1 else 1#1 := by
  rw [val_main_call1_v1_apply, val_main_v40_apply, val_main_v39_apply, val_main_call0_v4_apply, val_main_call0_v2_apply,
    val_main_call0_v0_apply, val_main_call0_v1_apply, val_main_call0_c_apply, val_main_call0_v3_apply,
    val_main_call0_v5_apply, val_main_call0_c_0_apply, val_main_v38_apply, val_main_c_apply]
  show Scalar.select (IntOp.cmpi .sge (IntOp.addi (BitVec.ofNat 32 sq.val) 0#32) (BitVec.ofNat 32 sk.val)) 0#1 1#1 = _
  have hq := sq.isLt
  have hk := sk.isLt
  have ha : IntOp.addi (BitVec.ofNat 32 sq.val) 0#32 = BitVec.ofNat 32 sq.val := by
    unfold IntOp.addi; exact BitVec.add_zero _
  rw [ha]
  by_cases hle : sk.val ≤ sq.val
  · have hc : IntOp.cmpi .sge (BitVec.ofNat 32 sq.val) (BitVec.ofNat 32 sk.val) = 1#1 :=
      IntOp.cmpi_sge.mpr (by rw [small_toInt _ hq, small_toInt _ hk]; omega)
    rw [hc, select_one, if_pos hle]
  · have hc : IntOp.cmpi .sge (BitVec.ofNat 32 sq.val) (BitVec.ofNat 32 sk.val) = 0#1 :=
      eq_zero_of_ne_one (fun e => hle (by
        have h2 := IntOp.cmpi_sge.mp e
        rw [small_toInt _ hq, small_toInt _ hk] at h2
        omega))
    rw [hc, select_zero, if_neg hle]

/-! ## The scores -/

/-- The word of minus infinity denotes the bottom of the extended reals. -/
theorem neg_inf : Ideal.ofBits .f32 0xFF800000#32 = (⊥ : EReal) := by simp [Ideal.ofBits, Ideal.ieee]

/-- The masked, scaled score at (b, h, sq, sk). -/
theorem score_at (x0 : X3) (x1 x2 : W2) (x5 x6 : T2) (b : Fin 2) (h : Fin 16) (sq sk : Fin 2048) :
    val_main_v41 (F := Ideal) x0 x1 x2 x5 x6 (ix4 b h sq sk) = Cert.Spec.score x0 x1 x2 x5 x6 b h sq sk := by
  rw [val_main_v41_apply, mask_at]
  unfold Cert.Spec.score
  by_cases hle : sk.val ≤ sq.val
  · rw [if_pos hle, if_pos hle, select_zero, val_main_v37_apply, val_main_v35_apply, val_main_v36_apply,
      val_main_cst_apply, v34_eq]
    refine congrArg (· * Cert.Spec.scale) (Finset.sum_congr rfl fun k _ => ?_)
    have e1 : lidx_main_v35 (ix4 b h sq sk) k = ix4 b h sq k :=
      funext fun a => Fin.ext (by match a with | ⟨0, _⟩ => rfl | ⟨1, _⟩ => rfl | ⟨2, _⟩ => rfl | ⟨3, _⟩ => rfl)
    have e2 : ridx_main_v35 (ix4 b h sq sk) k = ix4 b h sk k :=
      funext fun a => Fin.ext (by match a with | ⟨0, _⟩ => rfl | ⟨1, _⟩ => rfl | ⟨2, _⟩ => rfl | ⟨3, _⟩ => rfl)
    rw [e1, e2, rope_at, rope_at]
  · rw [if_neg hle, if_neg hle, select_one, val_main_call1_v2_apply, val_main_call1_v0_apply, val_main_cst_0_apply]
    exact neg_inf

/-! ## A row's largest score -/

/-- A row index with the key position put back is the full index. -/
theorem lift_row (hr : S2x16x2048x2048.Reduces [3] S2x16x2048) (b : Fin 2) (h : Fin 16) (sq : Fin 2048)
    (k : Fin (S2x16x2048x2048.size 3)) :
    hr.lift (ix3 b h sq) k = ix4 b h sq (⟨k.val, k.isLt⟩ : Fin 2048) := by
  funext c
  apply Fin.ext
  match c with
  | ⟨0, _⟩ => rfl
  | ⟨1, _⟩ => rfl
  | ⟨2, _⟩ => rfl
  | ⟨3, _⟩ => rfl

/-- The row maximum at (b, h, sq) is the supremum of the row of scores. -/
theorem rowmax_at (x0 : X3) (x1 x2 : W2) (x5 x6 : T2) (b : Fin 2) (h : Fin 16) (sq : Fin 2048) :
    val_main_v44 (F := Ideal) x0 x1 x2 x5 x6 (ix3 b h sq)
      = Finset.univ.sup (Cert.Spec.score x0 x1 x2 x5 x6 b h sq) := by
  have hr : S2x16x2048x2048.Reduces [3] S2x16x2048 := by decide
  rw [val_main_v44_apply, val_main_v43_apply, val_main_cst_2_apply]
  unfold val_main_v42
  have hfold := Host.reduce_eq_fold_single (FloatOps.maximumf (F := Ideal) (φ := .f32))
    (val_main_v41 (F := Ideal) x0 x1 x2 x5 x6) (val_main_cst_1 (F := Ideal))
    reducesTo_S2x16x2048x2048_S2x16x2048_d3 hr h_S_ (ix3 b h sq)
  refine (congrArg (FloatOps.maximumf (F := Ideal) (φ := .f32) (FloatOps.ofBits .f32 0xFF800000#32)) hfold).trans ?_
  rw [val_main_cst_1_apply]
  have hf : (val_main_v41 (F := Ideal) x0 x1 x2 x5 x6 ∘ hr.lift (ix3 b h sq))
      = fun k : Fin 2048 => Cert.Spec.score x0 x1 x2 x5 x6 b h sq k :=
    funext fun k => by
      show val_main_v41 (F := Ideal) x0 x1 x2 x5 x6 (hr.lift (ix3 b h sq) k) = _
      rw [lift_row hr b h sq k, score_at]
      rfl
  rw [hf]
  show max (Ideal.ofBits .f32 0xFF800000#32)
      ((Finset.univ : Finset (Fin 2048)).fold max (Ideal.ofBits .f32 0xFF800000#32)
        (fun k : Fin 2048 => Cert.Spec.score x0 x1 x2 x5 x6 b h sq k)) = _
  rw [neg_inf, OnlineSoftmax.fold_max_bot]
  exact max_eq_right bot_le

end Cert.ReferenceIdeal.RefValue

end
-- ==== Proof.RefValueCtx.lean ====
/-
  The reference's softmax weights and the weighted sum of the value rows, read one element at a time.

  Each score has the row's largest score subtracted and is exponentiated; the row's exponentials are summed from
  zero; each exponential is divided by that sum; and the weights of a row multiply the value projection's rows of
  the same head, summed over the key positions.
-/
import proofs.«117884_j83708912599078_2_alg».proof.Proof.RefValueScore

noncomputable section

namespace Cert.ReferenceIdeal.RefValue

open Cert.ReferenceIdeal Cert.ReferenceIdeal.Gen Cert.ReferenceIdeal.Read Idealize.ShloMosaic Idealize.ShloMosaic.ValueIdx
open scoped BigOperators

/-- The exponential of a score against its row's largest score. -/
theorem exp_at (x0 : X3) (x1 x2 : W2) (x5 x6 : T2) (b : Fin 2) (h : Fin 16) (sq sk : Fin 2048) :
    val_main_v48 (F := Ideal) x0 x1 x2 x5 x6 (ix4 b h sq sk)
      = Ideal.exp (Cert.Spec.score x0 x1 x2 x5 x6 b h sq sk
          - Finset.univ.sup (Cert.Spec.score x0 x1 x2 x5 x6 b h sq)) := by
  rw [val_main_v48_apply, val_main_v47_apply, val_main_v46_apply, val_main_v45_apply]
  have e : idx_main_v45 (idx_main_v46 (ix4 b h sq sk)) = ix3 b h sq :=
    funext fun a => Fin.ext (by match a with | ⟨0, _⟩ => rfl | ⟨1, _⟩ => rfl | ⟨2, _⟩ => rfl)
  rw [e, rowmax_at, score_at]
  rfl

/-- The row's sum of exponentials. -/
theorem den_at (x0 : X3) (x1 x2 : W2) (x5 x6 : T2) (b : Fin 2) (h : Fin 16) (sq : Fin 2048) :
    val_main_v49 (F := Ideal) x0 x1 x2 x5 x6 (ix3 b h sq)
      = ∑ sk : Fin 2048, Ideal.exp (Cert.Spec.score x0 x1 x2 x5 x6 b h sq sk
          - Finset.univ.sup (Cert.Spec.score x0 x1 x2 x5 x6 b h sq)) := by
  rw [val_main_v49_apply, val_main_cst_3_apply]
  show Ideal.ofBits .f32 0x00000000#32 + _ = _
  rw [Ideal.ofBits_zero_f32, zero_add]
  refine Finset.sum_congr rfl fun k _ => ?_
  have e : idx_main_v49 (ix3 b h sq) k = ix4 b h sq k :=
    funext fun a => Fin.ext (by match a with | ⟨0, _⟩ => rfl | ⟨1, _⟩ => rfl | ⟨2, _⟩ => rfl | ⟨3, _⟩ => rfl)
  rw [e, exp_at]

/-- A softmax weight. -/
theorem weight_at (x0 : X3) (x1 x2 : W2) (x5 x6 : T2) (b : Fin 2) (h : Fin 16) (sq sk : Fin 2048) :
    val_main_v52 (F := Ideal) x0 x1 x2 x5 x6 (ix4 b h sq sk)
      = Ideal.div
          (Ideal.exp (Cert.Spec.score x0 x1 x2 x5 x6 b h sq sk
            - Finset.univ.sup (Cert.Spec.score x0 x1 x2 x5 x6 b h sq)))
          (∑ sk' : Fin 2048, Ideal.exp (Cert.Spec.score x0 x1 x2 x5 x6 b h sq sk'
            - Finset.univ.sup (Cert.Spec.score x0 x1 x2 x5 x6 b h sq))) := by
  rw [val_main_v52_apply, val_main_v51_apply, val_main_v50_apply]
  have e : idx_main_v50 (idx_main_v51 (ix4 b h sq sk)) = ix3 b h sq :=
    funext fun a => Fin.ext (by match a with | ⟨0, _⟩ => rfl | ⟨1, _⟩ => rfl | ⟨2, _⟩ => rfl)
  rw [e, den_at, exp_at]
  rfl

/-- The attention output of head h at (b, sq, d): the weighted sum of the value rows. -/
theorem ctx_at (x0 : X3) (x1 x2 x3 : W2) (x5 x6 : T2) (b : Fin 2) (h : Fin 16) (sq : Fin 2048) (d : Fin 128) :
    val_main_v53 (F := Ideal) x0 x1 x2 x3 x5 x6 (ix4 b h sq d) = Cert.Spec.ctx x0 x1 x2 x3 x5 x6 b sq h d := by
  rw [val_main_v53_apply]
  unfold Cert.Spec.ctx
  refine Finset.sum_congr rfl fun k _ => ?_
  have e1 : lidx_main_v53 (ix4 b h sq d) k = ix4 b h sq k :=
    funext fun a => Fin.ext (by match a with | ⟨0, _⟩ => rfl | ⟨1, _⟩ => rfl | ⟨2, _⟩ => rfl | ⟨3, _⟩ => rfl)
  have e2 : ridx_main_v53 (ix4 b h sq d) k = ix4 b h k d :=
    funext fun a => Fin.ext (by match a with | ⟨0, _⟩ => rfl | ⟨1, _⟩ => rfl | ⟨2, _⟩ => rfl | ⟨3, _⟩ => rfl)
  rw [e1, e2, weight_at, v8_eq, proj_at]

end Cert.ReferenceIdeal.RefValue

end
-- ==== Proof.RefValue.lean ====
/-
  The reference's result is the layer's specification.

  The heads' outputs are transposed back to [2, 2048, 16, 128] and reshaped to [2, 2048, 2048]: feature f of
  position s comes from coordinate f % 128 of head f / 128, because the row-major position (b·2048 + s)·2048 + f
  splits as ((b·2048 + s)·16 + f / 128)·128 + f % 128. The output projection is one more product with a
  transposed weight array. Chaining the stages — projections, rotary embedding, masked scores, row maximum,
  softmax weights, weighted sum, output projection — gives the specification at every index.
-/
import proofs.«117884_j83708912599078_2_alg».proof.Defs
import proofs.«117884_j83708912599078_2_alg».proof.Proof.Gen.ReferenceIdeal.Read
import proofs.«117884_j83708912599078_2_alg».proof.Proof.RefValueCtx

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open scoped BigOperators

/-- Position (b, s, f) of the merged array comes from position (b, f / 128, s, f % 128) of the heads' outputs. -/
theorem merge_idx (b : Fin 2) (s f : Fin 2048) :
    idx_main_v54 (idx_main_v55 (ix3 b s f)) = ix4 b (Cert.Spec.headOf f) s (Cert.Spec.coordOf f) := by
  have hb := b.isLt
  have hs := s.isLt
  have hf := f.isLt
  funext a
  refine Fin.ext ?_
  match a with
  | ⟨0, _⟩ =>
    show ((b.val * 2048 + s.val) * 2048 + f.val) / 4194304 = b.val
    omega
  | ⟨1, _⟩ =>
    show ((b.val * 2048 + s.val) * 2048 + f.val) / 128 % 16 = f.val / 128
    omega
  | ⟨2, _⟩ =>
    show ((b.val * 2048 + s.val) * 2048 + f.val) / 2048 % 2048 = s.val
    omega
  | ⟨3, _⟩ =>
    show ((b.val * 2048 + s.val) * 2048 + f.val) % 128 = f.val % 128
    omega

/-- The result at (b, s, o). -/
theorem out_at (x0 : X3) (x1 x2 x3 x4 : W2) (x5 x6 : T2) (b : Fin 2) (s o : Fin 2048) :
    val_main_v56 (F := Ideal) x0 x1 x2 x3 x4 x5 x6 (ix3 b s o) = Cert.Spec.out x0 x1 x2 x3 x4 x5 x6 b s o := by
  rw [val_main_v56_apply]
  unfold Cert.Spec.out
  refine Finset.sum_congr rfl fun f _ => ?_
  have e1 : lidx_main_v56 (ix3 b s o) f = ix3 b s f :=
    funext fun a => Fin.ext (by match a with | ⟨0, _⟩ => rfl | ⟨1, _⟩ => rfl | ⟨2, _⟩ => rfl)
  have e2 : ridx_main_v56 (ix3 b s o) f = ix2 o f :=
    funext fun a => Fin.ext (by match a with | ⟨0, _⟩ => rfl | ⟨1, _⟩ => rfl)
  rw [e1, e2, val_main_v55_apply, val_main_v54_apply, merge_idx, ctx_at]

/-- The reference's result array, as a function of its seven arguments, is the specification. -/
theorem ref_eq_G (x0 : (⟨S2x2048x2048, .f32⟩ : BufTy).Contents (Elt Ideal))
    (x1 x2 x3 x4 : (⟨S2048x2048, .f32⟩ : BufTy).Contents (Elt Ideal))
    (x5 x6 : (⟨S4096x128, .f32⟩ : BufTy).Contents (Elt Ideal)) :
    val_main_v56 (F := Ideal) x0 x1 x2 x3 x4 x5 x6 = Cert.Spec.G x0 x1 x2 x3 x4 x5 x6 := by
  funext i
  obtain ⟨b, s, o, rfl⟩ : ∃ (b : Fin 2) (s o : Fin 2048), i = ix3 b s o := ⟨i 0, i 1, i 2, eq_ix3 i⟩
  rw [out_at]
  rfl

/-- The run's result term is the specification of the launch contents of the seven arguments. -/
theorem res_eq_G (m : (ℓ : Loc nD τ sig) → Buf (Elt Ideal) ℓ) (c : Dev nD) :
    Cert.ReferenceIdeal.Value.res_main_v56 m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v56_eq m c).trans (ref_eq_G _ _ _ _ _ _ _)

/-- Every weakly fair execution of the reference ends with the result array at the specification of the launch
    contents of the arguments. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56)
        = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (θ_run defs _ _).mono (fun _ h c => (h c).1.trans (res_eq_G m c)) (Cert.ReferenceIdeal.Value.run (F := Ideal) m ρ)

end Cert.ReferenceIdeal.RefValue

end
-- ==== Proof.LibFrameShared.lean ====
/-
  The frame run of a one-region pipeline whose INPUT windows may share an array.

  A pallas_call may be handed one array through several input windows (the same matrix read at two different
  block offsets, say). The pipeline then holds that array once per window, each at a fraction of the full share,
  and the fractions together make the whole. Everything else is as for a kernel whose arrays are distinct: the
  kernel names no semaphore of its own, keeps nothing between grid points beyond the scoped buffers the pipeline does
  not stage, and @main reaches the region holding the unscoped buffers at contents `V`.

  The statement: from the body obligation at every point, and from HOW the distinct buffers behind the arrays,
  each whole at the full share, are dealt among the windows (`hsplit`), every weakly fair execution terminates
  with each window's array at the contents the proof data computes (`Dat.arrAt … N`) and every unscoped buffer that is
  no window's array as the region found it.
-/
import Idealize.ShloMosaic.Lib.Pipeline.Frame

noncomputable section

namespace Idealize.ShloMosaic.Pipeline.SharedFrame

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run, the arrays' full shares dealt among the windows by `hsplit`. The invariant between points is
    the scoped buffers the pipeline does not stage, at any contents (`hΦ`); the generator register is let go. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  refine θ_run_region_noSem_shared cfgs dats () hinj p hw emb₁ defs₀ 𝒱₀ m g main hbody hne harr hstage howed
    (initOf (cells cfgs hinj) (launchToks cfgs hinj)) .rfl V hmain hsplit
    (fun _ => (BI.emp : sProp 𝕄)) (fun _ => (BI.emp : sProp 𝕄))
    (fun c => unscopedRest (Ix := Unit) (Name := ℕ) (U := UR sig nD τ) (Lvl := ℕ) (cfgs p).spec c (V c))
    (fun c => by iintro H; isplitr; · iempintro
                 iexact H)
    (fun c => by rw [hΦ]; iintro ⟨-, H⟩; iexact H)
    (fun c => by rw [hΦ]; iintro H; isplitr; · iempintro
                 iexact H)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

/-- The pipeline's `arrays` are whole-buffer points-tos, each at its window's own share, when every window's array
    is a whole buffer: the library's `arrays_eq` without the hypothesis that every share is the full one. -/
theorem arrays_eq_shares {cfg : Cfg sig Λ₀} {c : Dev nD} (dat : Dat τ Val Unit ℕ (UR sig nD τ) ℕ cfg c)
    (harr : ∀ w, (cfg.spec w).arr.IsWhole)
    (F : (w : Fin cfg.W) → Buf Val ((cfg.win w).arr.view.loc (c.tc : Thread nD τ))) :
    dat.arrays F = bigSep Finset.univ fun w => (((c.tc : Thread nD τ).loc (arrRef cfg.spec w)) ↦{dat.share w} F w : sProp 𝕄) := by
  unfold Dat.arrays
  exact Idealize.SL.BI.bigSep_congr fun w _ => by rw [(harr w).set_eq_univ]

end Idealize.ShloMosaic.Pipeline.SharedFrame

end
-- ==== Proof.KI_Reg0.lean ====
/-
  The first launch (the three input projections), one grid point at a time.

  Each of its 32 grid points reads a [128,2048] block of the input rows and the three whole [2048,2048] weights, and
  stores, over each of its three whole [128,2048] output blocks, the product of the row block with one transposed
  weight, accumulated from zero and rounded to the output format. Nothing is kept between points. This module states,
  at the buffer contents V the launch finds, what each window's staging buffer holds after the body at a point (the
  inputs their blocks, each output the product of the row block with its weight), and proves that the body run on
  buffers holding the blocks leaves exactly that.
-/
import proofs.«117884_j83708912599078_2_alg».proof.Proof.Gen.KernelIdeal.Launch
import proofs.«117884_j83708912599078_2_alg».proof.Proof.Gen.KernelIdeal.Skeleton
import proofs.«117884_j83708912599078_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's buffer holds its block at every point, for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight window's buffer holds the whole weight at every point, fetched there or not: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The second weight window's buffer holds the whole weight at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The third weight window's buffer holds the whole weight at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window whole -/

abbrev r0_0 : Rect S128x2048 := Rect.unit (s := S128x2048) ![0, 0] S128x2048.size inb_S128x2048_S128x2048_0_0
abbrev r0_1 : Rect S2048x2048 := Rect.unit (s := S2048x2048) ![0, 0] S2048x2048.size inb_S2048x2048_S2048x2048_0_0

/-! ## What the body leaves in each output window's buffer -/

/-- The first output buffer after the body, from the row block and the first weight: the one store, over the whole buffer. -/
def out0_4 (x0 : Vec F S128x2048 .bf16) (x1 : Vec F S2048x2048 .bf16) : Vec F S128x2048 .bf16 :=
  View.canon [⟨r0_0, k0_pay2 (View.ld x0 r0_0) (View.ld x1 r0_1)⟩]
/-- The second output buffer after the body, from the row block and the second weight. -/
def out0_5 (x0 : Vec F S128x2048 .bf16) (x2 : Vec F S2048x2048 .bf16) : Vec F S128x2048 .bf16 :=
  View.canon [⟨r0_0, k0_pay3 (View.ld x0 r0_0) (View.ld x2 r0_1)⟩]
/-- The third output buffer after the body, from the row block and the third weight. -/
def out0_6 (x0 : Vec F S128x2048 .bf16) (x3 : Vec F S2048x2048 .bf16) : Vec F S128x2048 .bf16 :=
  View.canon [⟨r0_0, k0_pay4 (View.ld x0 r0_0) (View.ld x3 r0_1)⟩]

/-- A store through the whole rectangle covers the buffer. -/
theorem cover0_out (p0 : Vec F S128x2048 .bf16) (y : S128x2048.Idx) :
    ∃ pc ∈ ([⟨r0_0, p0⟩] : List (View.Piece (Elt F) S128x2048 .bf16)), y ∈ pc.1.set :=
  View.cover_of_tiled [⟨r0_0, p0⟩] S128x2048.size (by rfl) y

/-! ## The body's triple -/

set_option maxHeartbeats 2000000 in
/-- The body on whole staging buffers, the inputs' at contents `x0 … x3` and the outputs' at anything, leaves the inputs'
    as they were and each output's at its `out0_W` of the inputs'. -/
theorem sound_kernel0 (c : Dev nD) (E : Set ℕ) (i : grid0.Coords) (arg0 : Memref sig .tc .vmem S128x2048 .bf16) (harg0 : arg0.IsWhole) (arg1 : Memref sig .tc .vmem S2048x2048 .bf16) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S128x2048 .bf16) (harg6 : arg6.IsWhole)
    (x0 : Vec F S128x2048 .bf16) (x1 : Vec F S2048x2048 .bf16) (x2 : Vec F S2048x2048 .bf16) (x3 : Vec F S2048x2048 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1) ∗ owns (c : Thread nD τ) arg5 fullShare (out0_5 x0 x2) ∗ owns (c : Thread nD τ) arg6 fullShare (out0_6 x0 x3)) -∗ K ⟨⟩))
      ⊢ wp frame (wpE (defs₀ (F := F)) Variants.none c none) E (cc0__qkv_kernel i arg0 harg0 arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The launch's proof data -/

/-- The proof data of the launch on core `c`: the arrays as the launch finds them; after the body at point `t` each input's
    buffer at its block and each output's at the product of the row block with its weight; the invariant the untouched
    scoped buffers and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Reg2.lean ====
/-
  The third launch (the output projection), one grid point at a time.

  Each of its 8 grid points reads a [512,2048] block of the context rows and the whole [2048,2048] weight, and
  stores the product of the block with the transposed weight, accumulated from zero, over its whole [512,2048]
  output block. Nothing is kept between points. This module states, at the buffer contents V the launch finds,
  what each window's staging buffer holds after the body at a point (the inputs their blocks, the output the
  product of the two input blocks), and proves that the body run on buffers holding the blocks leaves exactly that.
-/
import proofs.«117884_j83708912599078_2_alg».proof.Proof.Gen.KernelIdeal.Launch
import proofs.«117884_j83708912599078_2_alg».proof.Proof.Gen.KernelIdeal.Skeleton
import proofs.«117884_j83708912599078_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The context window's buffer holds its block at every point, for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's buffer holds the whole weight at every point, fetched there or not: its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window whole -/

abbrev r2_0 : Rect S512x2048 := Rect.unit (s := S512x2048) ![0, 0] S512x2048.size inb_S512x2048_S512x2048_0_0
abbrev r2_1 : Rect S2048x2048 := Rect.unit (s := S2048x2048) ![0, 0] S2048x2048.size inb_S2048x2048_S2048x2048_0_0

/-! ## What the body leaves in the output window's buffer -/

/-- The output buffer after the body, from the two input blocks: the one store, of the product, over the whole buffer. -/
def out2_2 (x0 : Vec F S512x2048 .bf16) (x1 : Vec F S2048x2048 .bf16) : Vec F S512x2048 .f32 :=
  View.canon [⟨r2_0, k2_pay1 (View.ld x0 r2_0) (View.ld x1 r2_1)⟩]

/-- The store covers the buffer. -/
theorem cover2_2 (p0 : Vec F S512x2048 .f32) (y : S512x2048.Idx) :
    ∃ pc ∈ ([⟨r2_0, p0⟩] : List (View.Piece (Elt F) S512x2048 .f32)), y ∈ pc.1.set :=
  View.cover_of_tiled [⟨r2_0, p0⟩] S512x2048.size (by rfl) y

/-! ## The body's triple -/

set_option maxHeartbeats 1000000 in
/-- The body on whole staging buffers, the inputs' at contents `x0`, `x1` and the output's at anything, leaves the inputs'
    as they were and the output's at `out2_2 x0 x1`. -/
theorem sound_kernel2 (c : Dev nD) (E : Set ℕ) (i : grid2.Coords) (arg0 : Memref sig .tc .vmem S512x2048 .bf16) (harg0 : arg0.IsWhole) (arg1 : Memref sig .tc .vmem S2048x2048 .bf16) (harg1 : arg1.IsWhole) (arg2 : Memref sig .tc .vmem S512x2048 .f32) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The launch's proof data -/

/-- The proof data of the launch on core `c`: the arrays as the launch finds them; after the body at point `t` each input's
    buffer at its block and the output's at the product of the two blocks; the invariant the untouched scoped buffers
    and generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what is
    owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Reg1Defs.lean ====
/-
  The attention region (the second pallas_call): what its four carried scratch buffers and its output block hold
  after each grid point, and the proof data of its pipeline.

  The grid is (batch, head, key block); the third coordinate `ki` runs over the four blocks of 512 keys of a head.
  The scratch buffers hold, for the 2048 query rows of the head, the running maximum `m`, the running denominator
  `l`, the running accumulator `acc` of the online softmax, and the rotated queries. At `ki = 0` they are
  initialised (maximum at the named constant, denominator and accumulator at zero, the queries rotated by the whole
  cosine / sine tables); at every `ki` the query chunks of 512 rows that the causal mask lets see key block `ki`
  (chunks `ki, …, 3`) are updated against the rotated key block and the value block; at `ki = 3` the output block is
  `acc / l`, rounded. The contents are stated through the payload functions of the kernel's skeleton, chunk by chunk,
  a load as the rows read (`View.ld`) and a store as the rows replaced (`Rect.overlay`).
-/
import proofs.«117884_j83708912599078_2_alg».proof.Proof.Gen.KernelIdeal.Launch
import proofs.«117884_j83708912599078_2_alg».proof.Proof.Gen.KernelIdeal.Skeleton
import proofs.«117884_j83708912599078_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Row chunks -/

/-- Rows [0, 512) of a 2048-row column vector. -/
abbrev rM0 : Rect S2048x1 := Rect.unit (s := S2048x1) ![0, 0] S512x1.size inb_S2048x1_S512x1_0_0
/-- Rows [0, 512) of a 2048 x 128 matrix. -/
abbrev rA0 : Rect S2048x128 := Rect.unit (s := S2048x128) ![0, 0] S512x128.size inb_S2048x128_S512x128_0_0
/-- Rows [512, 1024) of a 2048-row column vector. -/
abbrev rM1 : Rect S2048x1 := Rect.unit (s := S2048x1) ![512, 0] S512x1.size inb_S2048x1_S512x1_512_0
/-- Rows [512, 1024) of a 2048 x 128 matrix. -/
abbrev rA1 : Rect S2048x128 := Rect.unit (s := S2048x128) ![512, 0] S512x128.size inb_S2048x128_S512x128_512_0
/-- Rows [1024, 1536) of a 2048-row column vector. -/
abbrev rM2 : Rect S2048x1 := Rect.unit (s := S2048x1) ![1024, 0] S512x1.size inb_S2048x1_S512x1_1024_0
/-- Rows [1024, 1536) of a 2048 x 128 matrix. -/
abbrev rA2 : Rect S2048x128 := Rect.unit (s := S2048x128) ![1024, 0] S512x128.size inb_S2048x128_S512x128_1024_0
/-- Rows [1536, 2048) of a 2048-row column vector. -/
abbrev rM3 : Rect S2048x1 := Rect.unit (s := S2048x1) ![1536, 0] S512x1.size inb_S2048x1_S512x1_1536_0
/-- Rows [1536, 2048) of a 2048 x 128 matrix. -/
abbrev rA3 : Rect S2048x128 := Rect.unit (s := S2048x128) ![1536, 0] S512x128.size inb_S2048x128_S512x128_1536_0

/-- The running maximum, the running denominator and the running accumulator of a head's 2048 query rows. -/
abbrev St1 (F : FTy → Type) : Type := Vec F S2048x1 .f32 × Vec F S2048x1 .f32 × Vec F S2048x128 .f32
/-- The output block, then the four scratch buffers: maximum, denominator, accumulator, rotated queries. -/
abbrev Out1 (F : FTy → Type) : Type :=
  Vec F S1x2048x128 .bf16 × Vec F S2048x1 .f32 × Vec F S2048x1 .f32 × Vec F S2048x128 .f32 × Vec F S2048x128 .bf16

/-- The tuple from its parts. -/
abbrev outOf (o : Vec F S1x2048x128 .bf16) (sq : Vec F S2048x128 .bf16) (s : St1 F) : Out1 F := (o, s.1, s.2.1, s.2.2, sq)

/-- The online-softmax update of query rows [0, 512) against one block of 512 keys: with `qc` the rotated
    query rows, `mc`, `lc`, `ac` the rows' running maximum, denominator and accumulator, the new maximum is
    `max mc (rowmax s)` for the masked scaled scores `s`, the denominator `exp (mc - m') * lc + rowsum (exp (s - m'))`
    and the accumulator `exp (mc - m') * ac + exp (s - m') v`; the other rows are kept. -/
def chunk0 (v18 v20 : FVec F S512x128 .bf16) (v24 : IVec S512x512 32) (sq : Vec F S2048x128 .bf16) (s : St1 F) : St1 F :=
  (rM0.overlay s.1 (k1_pay35 (k1_pay5 v18 v24 (View.ld sq rA0) (View.ld s.1 rM0))),
   rM0.overlay s.2.1 (k1_pay8 v18 v24 (View.ld sq rA0) (View.ld s.1 rM0) (View.ld s.2.1 rM0)),
   rA0.overlay s.2.2 (k1_pay9 v18 v20 v24 (View.ld sq rA0) (View.ld s.1 rM0) (View.ld s.2.2 rA0)))

/-- The online-softmax update of query rows [512, 1024) against one block of 512 keys: with `qc` the rotated
    query rows, `mc`, `lc`, `ac` the rows' running maximum, denominator and accumulator, the new maximum is
    `max mc (rowmax s)` for the masked scaled scores `s`, the denominator `exp (mc - m') * lc + rowsum (exp (s - m'))`
    and the accumulator `exp (mc - m') * ac + exp (s - m') v`; the other rows are kept. -/
def chunk1 (v18 v20 : FVec F S512x128 .bf16) (v24 : IVec S512x512 32) (sq : Vec F S2048x128 .bf16) (s : St1 F) : St1 F :=
  (rM1.overlay s.1 (k1_pay36 (k1_pay11 v18 v24 (View.ld sq rA1) (View.ld s.1 rM1))),
   rM1.overlay s.2.1 (k1_pay14 v18 v24 (View.ld sq rA1) (View.ld s.1 rM1) (View.ld s.2.1 rM1)),
   rA1.overlay s.2.2 (k1_pay15 v18 v20 v24 (View.ld sq rA1) (View.ld s.1 rM1) (View.ld s.2.2 rA1)))

/-- The online-softmax update of query rows [1024, 1536) against one block of 512 keys: with `qc` the rotated
    query rows, `mc`, `lc`, `ac` the rows' running maximum, denominator and accumulator, the new maximum is
    `max mc (rowmax s)` for the masked scaled scores `s`, the denominator `exp (mc - m') * lc + rowsum (exp (s - m'))`
    and the accumulator `exp (mc - m') * ac + exp (s - m') v`; the other rows are kept. -/
def chunk2 (v18 v20 : FVec F S512x128 .bf16) (v24 : IVec S512x512 32) (sq : Vec F S2048x128 .bf16) (s : St1 F) : St1 F :=
  (rM2.overlay s.1 (k1_pay1 (k1_pay17 v18 v24 (View.ld sq rA2) (View.ld s.1 rM2))),
   rM2.overlay s.2.1 (k1_pay20 v18 v24 (View.ld sq rA2) (View.ld s.1 rM2) (View.ld s.2.1 rM2)),
   rA2.overlay s.2.2 (k1_pay21 v18 v20 v24 (View.ld sq rA2) (View.ld s.1 rM2) (View.ld s.2.2 rA2)))

/-- The online-softmax update of query rows [1536, 2048) against one block of 512 keys: with `qc` the rotated
    query rows, `mc`, `lc`, `ac` the rows' running maximum, denominator and accumulator, the new maximum is
    `max mc (rowmax s)` for the masked scaled scores `s`, the denominator `exp (mc - m') * lc + rowsum (exp (s - m'))`
    and the accumulator `exp (mc - m') * ac + exp (s - m') v`; the other rows are kept. -/
def chunk3 (v18 v20 : FVec F S512x128 .bf16) (v24 : IVec S512x512 32) (sq : Vec F S2048x128 .bf16) (s : St1 F) : St1 F :=
  (rM3.overlay s.1 (k1_pay2 (k1_pay23 v18 v24 (View.ld sq rA3) (View.ld s.1 rM3))),
   rM3.overlay s.2.1 (k1_pay26 v18 v24 (View.ld sq rA3) (View.ld s.1 rM3) (View.ld s.2.1 rM3)),
   rA3.overlay s.2.2 (k1_pay27 v18 v20 v24 (View.ld sq rA3) (View.ld s.1 rM3) (View.ld s.2.2 rA3)))

/-! ## What a point leaves, case by case -/

/-- One staging buffer of the output window, through which a placeholder for its contents at the points that store
    nothing into it is stated. -/
abbrev VO1_7 : View sig .tc .vmem S1x2048x128 .bf16 := (Memref.whole cc1_stg7_0 : Memref sig .tc .vmem S1x2048x128 .bf16).view
/-- The placeholder: at the points with `ki ≠ 3` nothing is stored into the output window, which is neither written
    back there nor read at the next point. -/
def oIdle1 : Vec F S1x2048x128 .bf16 := VO1_7.read (Elt F) VO1_7.junk

/-- `ki = 0`: the scratch buffers initialised (`x0` the query block, `x3`, `x4` the whole cosine and sine tables), then
    the four query chunks updated against the key block `x1` (rotated by its cosine and sine blocks `x5`, `x6`) and the
    value block `x2`. -/
def case1_A (i : grid1.Coords) (x0 : Vec F S1x2048x128 .bf16) (x1 x2 : Vec F S1x512x128 .bf16) (x3 x4 : Vec F S2048x128 .f32)
    (x5 x6 : Vec F S512x128 .f32) : Out1 F :=
  outOf oIdle1 (k1_pay31 x0 x3 x4)
    (chunk3 (k1_pay32 x1 x5 x6) (k1_pay33 x2) (k1_pay34 i) (k1_pay31 x0 x3 x4) (chunk2 (k1_pay32 x1 x5 x6) (k1_pay33 x2) (k1_pay34 i) (k1_pay31 x0 x3 x4) (chunk1 (k1_pay32 x1 x5 x6) (k1_pay33 x2) (k1_pay34 i) (k1_pay31 x0 x3 x4)
      (chunk0 (k1_pay32 x1 x5 x6) (k1_pay33 x2) (k1_pay34 i) (k1_pay31 x0 x3 x4) (k1_pay28, k1_pay29, k1_pay30)))))

/-- `ki = 1`: chunks 1, 2, 3 updated over what the point before left (`p`). -/
def case1_B (i : grid1.Coords) (x1 x2 : Vec F S1x512x128 .bf16) (x5 x6 : Vec F S512x128 .f32) (p : Out1 F) : Out1 F :=
  outOf oIdle1 p.2.2.2.2
    (chunk3 (k1_pay32 x1 x5 x6) (k1_pay33 x2) (k1_pay34 i) p.2.2.2.2 (chunk2 (k1_pay32 x1 x5 x6) (k1_pay33 x2) (k1_pay34 i) p.2.2.2.2 (chunk1 (k1_pay32 x1 x5 x6) (k1_pay33 x2) (k1_pay34 i) p.2.2.2.2 (p.2.1, p.2.2.1, p.2.2.2.1))))

/-- `ki = 2`: chunks 2, 3 updated. -/
def case1_C (i : grid1.Coords) (x1 x2 : Vec F S1x512x128 .bf16) (x5 x6 : Vec F S512x128 .f32) (p : Out1 F) : Out1 F :=
  outOf oIdle1 p.2.2.2.2
    (chunk3 (k1_pay32 x1 x5 x6) (k1_pay33 x2) (k1_pay34 i) p.2.2.2.2 (chunk2 (k1_pay32 x1 x5 x6) (k1_pay33 x2) (k1_pay34 i) p.2.2.2.2 (p.2.1, p.2.2.1, p.2.2.2.1)))

/-- `ki = 3`: chunk 3 updated, then the output block is the accumulator over the denominator, rounded. -/
def case1_D (i : grid1.Coords) (x1 x2 : Vec F S1x512x128 .bf16) (x5 x6 : Vec F S512x128 .f32) (p : Out1 F) : Out1 F :=
  outOf (k1_pay3 (chunk3 (k1_pay32 x1 x5 x6) (k1_pay33 x2) (k1_pay34 i) p.2.2.2.2 (p.2.1, p.2.2.1, p.2.2.2.1)).2.2 (chunk3 (k1_pay32 x1 x5 x6) (k1_pay33 x2) (k1_pay34 i) p.2.2.2.2 (p.2.1, p.2.2.1, p.2.2.2.1)).2.1) p.2.2.2.2
    (chunk3 (k1_pay32 x1 x5 x6) (k1_pay33 x2) (k1_pay34 i) p.2.2.2.2 (p.2.1, p.2.2.1, p.2.2.2.1))

/-! ## The windows' blocks and the accumulation over the points -/

/-- Window `w`'s block at point `t`, read off its array as the region finds it (`V`). -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- What the output window's staging buffer and the four scratch buffers hold after the body at position `n`: the case
    of `n % 4` (the third grid coordinate), at the point's blocks, over what position `n - 1` left. -/
def outsAt1 (q1 : Fin cfg1.W → PosShare TreeShare) (V : (c : Dev nD) → (b : Ref sig .tc) → Buf (Elt F) ((c : Thread nD τ).loc b)) (c : Dev nD) : (n : ℕ) → n < cfg1.N → Out1 F
  | 0, hn => case1_A (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if h0 : (n + 1) % 4 = 0 then
      case1_A (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else if h1 : (n + 1) % 4 = 1 then
      case1_B (grid1.coords ⟨n + 1, hn⟩) (iblk1 V c 1 ⟨n + 1, hn⟩) (iblk1 V c 2 ⟨n + 1, hn⟩) (iblk1 V c 5 ⟨n + 1, hn⟩) (iblk1 V c 6 ⟨n + 1, hn⟩) (outsAt1 q1 V c n (Nat.lt_of_succ_lt hn))
    else if h2 : (n + 1) % 4 = 2 then
      case1_C (grid1.coords ⟨n + 1, hn⟩) (iblk1 V c 1 ⟨n + 1, hn⟩) (iblk1 V c 2 ⟨n + 1, hn⟩) (iblk1 V c 5 ⟨n + 1, hn⟩) (iblk1 V c 6 ⟨n + 1, hn⟩) (outsAt1 q1 V c n (Nat.lt_of_succ_lt hn))
    else
      case1_D (grid1.coords ⟨n + 1, hn⟩) (iblk1 V c 1 ⟨n + 1, hn⟩) (iblk1 V c 2 ⟨n + 1, hn⟩) (iblk1 V c 5 ⟨n + 1, hn⟩) (iblk1 V c 6 ⟨n + 1, hn⟩) (outsAt1 q1 V c n (Nat.lt_of_succ_lt hn))

/-- `outsAt1` at a point with `ki = 0`. -/
theorem outsAt1_A (q1 : Fin cfg1.W → PosShare TreeShare) (V : (c : Dev nD) → (b : Ref sig .tc) → Buf (Elt F) ((c : Thread nD τ).loc b)) (c : Dev nD) (t : Fin cfg1.N) (h : t.val % 4 = 0) :
    outsAt1 q1 V c t.val t.isLt = case1_A (grid1.coords t) (iblk1 V c 0 t) (iblk1 V c 1 t) (iblk1 V c 2 t) (iblk1 V c 3 t) (iblk1 V c 4 t) (iblk1 V c 5 t) (iblk1 V c 6 t) := by
  obtain ⟨n, hn⟩ := t
  cases n with
  | zero => rfl
  | succ n => exact dif_pos h

/-- `outsAt1` at a point with `ki = 1`: over what the point before left. -/
theorem outsAt1_B (q1 : Fin cfg1.W → PosShare TreeShare) (V : (c : Dev nD) → (b : Ref sig .tc) → Buf (Elt F) ((c : Thread nD τ).loc b)) (c : Dev nD) (t : Fin cfg1.N) (h : t.val % 4 = 1) :
    outsAt1 q1 V c t.val t.isLt = case1_B (grid1.coords t) (iblk1 V c 1 t) (iblk1 V c 2 t) (iblk1 V c 5 t) (iblk1 V c 6 t) (outsAt1 q1 V c (t.val - 1) (Nat.lt_of_le_of_lt (Nat.sub_le _ _) t.isLt)) := by
  obtain ⟨n, hn⟩ := t
  cases n with
  | zero => exact absurd (show 0 % 4 = _ from h) (by decide)
  | succ n => exact (dif_neg (by dsimp only at h; omega)).trans (dif_pos h)

/-- `outsAt1` at a point with `ki = 2`. -/
theorem outsAt1_C (q1 : Fin cfg1.W → PosShare TreeShare) (V : (c : Dev nD) → (b : Ref sig .tc) → Buf (Elt F) ((c : Thread nD τ).loc b)) (c : Dev nD) (t : Fin cfg1.N) (h : t.val % 4 = 2) :
    outsAt1 q1 V c t.val t.isLt = case1_C (grid1.coords t) (iblk1 V c 1 t) (iblk1 V c 2 t) (iblk1 V c 5 t) (iblk1 V c 6 t) (outsAt1 q1 V c (t.val - 1) (Nat.lt_of_le_of_lt (Nat.sub_le _ _) t.isLt)) := by
  obtain ⟨n, hn⟩ := t
  cases n with
  | zero => exact absurd (show 0 % 4 = _ from h) (by decide)
  | succ n => exact (dif_neg (by dsimp only at h; omega)).trans ((dif_neg (by dsimp only at h; omega)).trans (dif_pos h))

/-- `outsAt1` at a point with `ki = 3`. -/
theorem outsAt1_D (q1 : Fin cfg1.W → PosShare TreeShare) (V : (c : Dev nD) → (b : Ref sig .tc) → Buf (Elt F) ((c : Thread nD τ).loc b)) (c : Dev nD) (t : Fin cfg1.N) (h : t.val % 4 = 3) :
    outsAt1 q1 V c t.val t.isLt = case1_D (grid1.coords t) (iblk1 V c 1 t) (iblk1 V c 2 t) (iblk1 V c 5 t) (iblk1 V c 6 t) (outsAt1 q1 V c (t.val - 1) (Nat.lt_of_le_of_lt (Nat.sub_le _ _) t.isLt)) := by
  obtain ⟨n, hn⟩ := t
  cases n with
  | zero => exact absurd (show 0 % 4 = _ from h) (by decide)
  | succ n => exact (dif_neg (by dsimp only at h; omega)).trans ((dif_neg (by dsimp only at h; omega)).trans (dif_neg (by dsimp only at h; omega)))

/-! ## The body's branch conditions, in closed form over the grid -/

/-- `ki = 0`, as the kernel computes it (the initialisation's condition). -/
abbrev cond1_0 (i : grid1.Coords) : Prop := Scalar.cmpi .ne (Scalar.extui (Scalar.cmpi .eq (BitVec.ofNat 32 (i 2).val) 0#32)) 0#32 = 1#1
/-- `512 ki ≤ 511`: chunk 0 sees key block `ki`. -/
abbrev cond1_1 (i : grid1.Coords) : Prop := Scalar.cmpi .ne (Scalar.extui (Scalar.cmpi .sle (Scalar.muli (BitVec.ofNat 32 (i 2).val) 512#32) 511#32)) 0#32 = 1#1
/-- `512 ki ≤ 1023`: chunk 1 does. -/
abbrev cond1_2 (i : grid1.Coords) : Prop := Scalar.cmpi .ne (Scalar.extui (Scalar.cmpi .sle (Scalar.muli (BitVec.ofNat 32 (i 2).val) 512#32) 1023#32)) 0#32 = 1#1
/-- `512 ki ≤ 1535`: chunk 2 does. -/
abbrev cond1_3 (i : grid1.Coords) : Prop := Scalar.cmpi .ne (Scalar.extui (Scalar.cmpi .sle (Scalar.muli (BitVec.ofNat 32 (i 2).val) 512#32) 1535#32)) 0#32 = 1#1
/-- `512 ki ≤ 2047`: chunk 3 does, always. -/
abbrev cond1_4 (i : grid1.Coords) : Prop := Scalar.cmpi .ne (Scalar.extui (Scalar.cmpi .sle (Scalar.muli (BitVec.ofNat 32 (i 2).val) 512#32) 2047#32)) 0#32 = 1#1
/-- `ki = 3`: the output block is stored. -/
abbrev cond1_5 (i : grid1.Coords) : Prop := k1_cond6 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 ≤ 1 :=
  (by decide +kernel : ∀ t : Fin grid1.N, cond1_2 (grid1.coords t) ↔ t.val % 4 ≤ 1)
theorem hcond1_3 : ∀ t : Fin cfg1.N, cond1_3 (grid1.coords t) ↔ t.val % 4 ≤ 2 :=
  (by decide +kernel : ∀ t : Fin grid1.N, cond1_3 (grid1.coords t) ↔ t.val % 4 ≤ 2)
theorem hcond1_4 : ∀ t : Fin cfg1.N, cond1_4 (grid1.coords t) :=
  (by decide +kernel : ∀ t : Fin grid1.N, cond1_4 (grid1.coords t))
theorem hcond1_5 : ∀ t : Fin cfg1.N, cond1_5 (grid1.coords t) ↔ t.val % 4 = 3 :=
  (by decide +kernel : ∀ t : Fin grid1.N, cond1_5 (grid1.coords t) ↔ t.val % 4 = 3)

/-! ## The staging and scratch memrefs, and the invariant between points -/

abbrev ms1_0 (t : Fin cfg1.N) : Memref sig .tc .vmem S1x2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048x128 .bf16 := win1_7.stage (cfg1.slots t 7)
abbrev hs1_7 (t : Fin cfg1.N) : (ms1_7 t).IsWhole := hstage1_7 ((cfg1.slots t 7).cast nbuf1_7)
/-- The scratch operands: whole scoped buffers of the kernel's own. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x128 .f32 := Memref.whole cc1_scratch2
abbrev scM1_3 : Memref sig .tc .vmem S2048x128 .bf16 := Memref.whole cc1_scratch3

/-- The region's invariant with the four scratch operands as memrefs owned at contents `s0 … s3` given by `S`, the core's
    other scoped buffers (the other regions' staging buffers) each at some contents, and the generator register at some
    state: `S` says, per scratch buffer, what is known of its contents. -/
def PhiWith (c : Dev nD) (S0 S1 S2 S3 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ S0 ∗ S1 ∗ S2 ∗ S3 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- What the launch hands the region is this with every scratch buffer at some contents. -/
theorem PhiA1_eq (c : Dev nD) :
    (Pipeline.ΦA spec1 c : sProp 𝕄)
      = PhiWith c iprop(∃ d, owns (c : Thread nD τ) scM1_0 fullShare d) iprop(∃ d, owns (c : Thread nD τ) scM1_1 fullShare d)
          iprop(∃ d, owns (c : Thread nD τ) scM1_2 fullShare d) iprop(∃ d, owns (c : Thread nD τ) scM1_3 fullShare d) := by
  unfold Pipeline.ΦA PhiWith; rw [scopedRest1_eq]; simp only [scM1_0, scM1_1, scM1_2, scM1_3, owns_whole]; try rfl

/-- The invariant before position `n`: before the first point what the launch hands over; afterwards the four scratch
    buffers at what the point before left in them. -/
def PhiS1 (q1 : Fin cfg1.W → PosShare TreeShare) (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => PhiWith c (owns (c : Thread nD τ) scM1_0 fullShare (outsAt1 q1 V c n hn).2.1) (owns (c : Thread nD τ) scM1_1 fullShare (outsAt1 q1 V c n hn).2.2.1)
      (owns (c : Thread nD τ) scM1_2 fullShare (outsAt1 q1 V c n hn).2.2.2.1) (owns (c : Thread nD τ) scM1_3 fullShare (outsAt1 q1 V c n hn).2.2.2.2)

theorem PhiS1_zero (q1 : Fin cfg1.W → PosShare TreeShare) (V : (c : Dev nD) → (b : Ref sig .tc) → Buf (Elt F) ((c : Thread nD τ).loc b)) (c : Dev nD) (n : ℕ) (h : n ≤ cfg1.N) (hz : n = 0) : PhiS1 q1 V c n h = Pipeline.ΦA spec1 c := by
  subst hz; rfl

theorem PhiS1_succ (q1 : Fin cfg1.W → PosShare TreeShare) (V : (c : Dev nD) → (b : Ref sig .tc) → Buf (Elt F) ((c : Thread nD τ).loc b)) (c : Dev nD) (n : ℕ) (hn : n < cfg1.N) :
    PhiS1 q1 V c (n + 1) hn = PhiWith c (owns (c : Thread nD τ) scM1_0 fullShare (outsAt1 q1 V c n hn).2.1) (owns (c : Thread nD τ) scM1_1 fullShare (outsAt1 q1 V c n hn).2.2.1)
      (owns (c : Thread nD τ) scM1_2 fullShare (outsAt1 q1 V c n hn).2.2.2.1) (owns (c : Thread nD τ) scM1_3 fullShare (outsAt1 q1 V c n hn).2.2.2.2) := rfl

theorem PhiS1_pos (q1 : Fin cfg1.W → PosShare TreeShare) (V : (c : Dev nD) → (b : Ref sig .tc) → Buf (Elt F) ((c : Thread nD τ).loc b)) (c : Dev nD) (n : ℕ) (h : n ≤ cfg1.N) (hz : n ≠ 0) :
    PhiS1 q1 V c n h = PhiWith c (owns (c : Thread nD τ) scM1_0 fullShare (outsAt1 q1 V c (n - 1) (by omega)).2.1) (owns (c : Thread nD τ) scM1_1 fullShare (outsAt1 q1 V c (n - 1) (by omega)).2.2.1)
      (owns (c : Thread nD τ) scM1_2 fullShare (outsAt1 q1 V c (n - 1) (by omega)).2.2.2.1) (owns (c : Thread nD τ) scM1_3 fullShare (outsAt1 q1 V c (n - 1) (by omega)).2.2.2.2) := by
  cases n with
  | zero => exact absurd rfl hz
  | succ n => rfl

/-! ## The pipeline's proof data -/

/-- The proof data of the attention pipeline on core `c`: the arrays as the region finds them (`V`); after the body at
    point `t` each input's buffer at its block and the output's at `outsAt1`'s first component; the invariant `PhiS1`;
    nothing owed; the arrays' shares `q1`. -/
def dat1 (q1 : Fin cfg1.W → PosShare TreeShare) (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 q1 V c t.val t.isLt).1
  Φ t := PhiS1 q1 V c t.val (Nat.le_of_lt_succ t.isLt)
  q := q1
  owed _ := 0

theorem A_eq1 (q1 : Fin cfg1.W → PosShare TreeShare) (V : (c : Dev nD) → (b : Ref sig .tc) → Buf (Elt F) ((c : Thread nD τ).loc b)) (c : Dev nD) (w : Fin cfg1.W) : (dat1 q1 V c).A w = V c (Pipeline.arrRef spec1 w) := by
  dsimp only [dat1]

theorem q_eq1 (q1 : Fin cfg1.W → PosShare TreeShare) (V : (c : Dev nD) → (b : Ref sig .tc) → Buf (Elt F) ((c : Thread nD τ).loc b)) (c : Dev nD) (w : Fin cfg1.W) : (dat1 q1 V c).q w = q1 w := by dsimp only [dat1]

theorem owed1 (q1 : Fin cfg1.W → PosShare TreeShare) (V : (c : Dev nD) → (b : Ref sig .tc) → Buf (Elt F) ((c : Thread nD τ).loc b)) (c : Dev nD) (t : Fin (cfg1.N + 1)) : (dat1 q1 V c).owed t = 0 := by dsimp only [dat1]

theorem PhiS1_castSucc (q1 : Fin cfg1.W → PosShare TreeShare) (V : (c : Dev nD) → (b : Ref sig .tc) → Buf (Elt F) ((c : Thread nD τ).loc b)) (c : Dev nD) (t : Fin cfg1.N) :
    (dat1 q1 V c).Φ t.castSucc = PhiS1 q1 V c t.val (Nat.le_of_lt t.isLt) := by
  dsimp only [dat1]; simp only [Fin.coe_castSucc]

theorem after1_0 (q1 : Fin cfg1.W → PosShare TreeShare) (V : (c : Dev nD) → (b : Ref sig .tc) → Buf (Elt F) ((c : Thread nD τ).loc b)) (c : Dev nD) (t : Fin cfg1.N) : (dat1 q1 V c).after 0 t = iblk1 V c 0 t := by dsimp only [dat1]
theorem after1_1 (q1 : Fin cfg1.W → PosShare TreeShare) (V : (c : Dev nD) → (b : Ref sig .tc) → Buf (Elt F) ((c : Thread nD τ).loc b)) (c : Dev nD) (t : Fin cfg1.N) : (dat1 q1 V c).after 1 t = iblk1 V c 1 t := by dsimp only [dat1]
theorem after1_2 (q1 : Fin cfg1.W → PosShare TreeShare) (V : (c : Dev nD) → (b : Ref sig .tc) → Buf (Elt F) ((c : Thread nD τ).loc b)) (c : Dev nD) (t : Fin cfg1.N) : (dat1 q1 V c).after 2 t = iblk1 V c 2 t := by dsimp only [dat1]
theorem after1_3 (q1 : Fin cfg1.W → PosShare TreeShare) (V : (c : Dev nD) → (b : Ref sig .tc) → Buf (Elt F) ((c : Thread nD τ).loc b)) (c : Dev nD) (t : Fin cfg1.N) : (dat1 q1 V c).after 3 t = iblk1 V c 3 t := by dsimp only [dat1]
theorem after1_4 (q1 : Fin cfg1.W → PosShare TreeShare) (V : (c : Dev nD) → (b : Ref sig .tc) → Buf (Elt F) ((c : Thread nD τ).loc b)) (c : Dev nD) (t : Fin cfg1.N) : (dat1 q1 V c).after 4 t = iblk1 V c 4 t := by dsimp only [dat1]
theorem after1_5 (q1 : Fin cfg1.W → PosShare TreeShare) (V : (c : Dev nD) → (b : Ref sig .tc) → Buf (Elt F) ((c : Thread nD τ).loc b)) (c : Dev nD) (t : Fin cfg1.N) : (dat1 q1 V c).after 5 t = iblk1 V c 5 t := by dsimp only [dat1]
theorem after1_6 (q1 : Fin cfg1.W → PosShare TreeShare) (V : (c : Dev nD) → (b : Ref sig .tc) → Buf (Elt F) ((c : Thread nD τ).loc b)) (c : Dev nD) (t : Fin cfg1.N) : (dat1 q1 V c).after 6 t = iblk1 V c 6 t := by dsimp only [dat1]
theorem after1_7 (q1 : Fin cfg1.W → PosShare TreeShare) (V : (c : Dev nD) → (b : Ref sig .tc) → Buf (Elt F) ((c : Thread nD τ).loc b)) (c : Dev nD) (t : Fin cfg1.N) : (dat1 q1 V c).after 7 t = (outsAt1 q1 V c t.val t.isLt).1 := by dsimp only [dat1]

end Cert.KernelIdeal.Hand

end
-- ==== Proof.KI_Chain.lean ====
/-
  @main of the kernel as a chain of seven items — host operations, launch 0 (the three projections), host operations,
  launch 1 (the tiled attention), a reshape, launch 2 (the output projection), a reshape — and what every buffer
  that outlives a launch holds between two items: the launch memory, then each stretch of host operations applied,
  then each launch's arrays at what its write-backs leave. Each launch is entered holding every such buffer whole;
  its windows' arrays are taken out for the launch and put back after it. Launch 1 reads the cosine table through
  two windows and the sine table through two windows: each table's buffer is held in two halves while it runs.
-/
import proofs.«117884_j83708912599078_2_alg».proof.Proof.Gen.KernelIdeal.Launch
import proofs.«117884_j83708912599078_2_alg».proof.Proof.Gen.KernelIdeal.Skeleton
import proofs.«117884_j83708912599078_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117884_j83708912599078_2_alg».proof.Proof.LibFrameShared
import proofs.«117884_j83708912599078_2_alg».proof.Proof.KI_Reg0
import proofs.«117884_j83708912599078_2_alg».proof.Proof.KI_Reg2
import proofs.«117884_j83708912599078_2_alg».proof.Proof.KI_Reg1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev VT (F : FTy → Type) : Type := (c : Dev nD) → (b : Ref sig .tc) → Buf (Elt F) ((c : Thread nD τ).loc b)

variable (m : (ℓ : Loc nD τ sig) → Buf (Elt F) ℓ) (ρ : Dev nD → PrngReg)

/-! ## The buffers' contents at each boundary of @main -/

/-- The shares of region 1's input arrays: the cosine table is read through windows 3 and 5, the sine table through
    windows 4 and 6; each table's full share is split between its two windows. -/
def q1 : Fin cfg1.W → PosShare TreeShare
  | ⟨3, _⟩ => fullShare.left | ⟨4, _⟩ => fullShare.left | ⟨5, _⟩ => fullShare.right | ⟨6, _⟩ => fullShare.right | _ => fullShare

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : VT F := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : VT F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : VT F := fun c b => W3 m ρ c b
/-- Region 1 writes one array, the attention output. -/
def W4 (c : Dev nD) : Valuation τ sig (Elt F) :=
  Function.update (W3 m ρ c) (Proc.devRef .tc main_v12) ((dat1 q1 (V3 m ρ) c).arrAt 7 cfg1.N)
abbrev V4 : VT F := fun c b => W4 m ρ c b
theorem W4_out (c : Dev nD) : V4 m ρ c main_v12 = (dat1 q1 (V3 m ρ) c).arrAt 7 cfg1.N := by
  show Function.update _ _ _ _ = _; exact Function.update_self ..
theorem W4_of_ne (c : Dev nD) (b : Ref sig .tc) (hb : b ≠ main_v12) : V4 m ρ c b = V3 m ρ c b := by
  show Function.update _ _ _ _ = _
  exact Function.update_of_ne (StableHlo.devRef_ne_of_ne hb) ..

abbrev W5 : Dev nD → Valuation τ sig (Elt F) := fun c => StableHlo.after hostOps2 (W4 m ρ c)
abbrev V5 : VT F := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : VT F := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
abbrev W7 : Dev nD → Valuation τ sig (Elt F) := fun c => StableHlo.after hostOps3 (W6 m ρ c)

/-! ## The proof data family and the thread state -/

abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 q1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered holding every unscoped buffer at the contents before it, left holding them at
    the contents after it; its arrays are split out of the unscoped buffers and put back; nothing owed; no semaphore of
    the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m ρ 0 c).owed 0 = 0 from rfl]
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ 0 c).owed (Fin.last _) = 0 from rfl]
    iexact HO

set_option backward.isDefEq.respectTransparency.types false in
/-- Region 2 over the thread state: entered holding every unscoped buffer at the contents before it, left holding them at
    the contents after it; its arrays are split out of the unscoped buffers and put back; nothing owed; no semaphore of
    the kernel's own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m ρ 2 c).owed 0 = 0 from rfl]
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ 2 c).owed (Fin.last _) = 0 from rfl]
    iexact HO

/-! ## Region 1: two of its arrays are each read through two windows -/

theorem arrRef1_0 : Pipeline.arrRef spec1 0 = main_v7 := rfl
theorem arrRef1_1 : Pipeline.arrRef spec1 1 = main_v8 := rfl
theorem arrRef1_2 : Pipeline.arrRef spec1 2 = main_v9 := rfl
theorem arrRef1_3 : Pipeline.arrRef spec1 3 = main_v10 := rfl
theorem arrRef1_4 : Pipeline.arrRef spec1 4 = main_v11 := rfl
theorem arrRef1_5 : Pipeline.arrRef spec1 5 = main_v10 := rfl
theorem arrRef1_6 : Pipeline.arrRef spec1 6 = main_v11 := rfl
theorem arrRef1_7 : Pipeline.arrRef spec1 7 = main_v12 := rfl

/-- The six distinct buffers behind region 1's eight windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = bigSepL [main_v7, main_v8, main_v9, main_v10, main_v11, main_v12] fun b => (((c : Thread nD τ).loc b) ↦{fullShare} V b : sProp 𝕄) := by
  unfold Pipeline.arrBufs; exact bigSep_eq_bigSepL_of_eq _ (by decide) (by decide) _

/-- Region 1's arrays, each at its window's share, are the six buffers whole: the two tables' halves recompose. -/
theorem arrays1_of_bufs (c : Dev nD) (dat : Dat τ (Elt F) Unit ℕ (UR sig nD τ) ℕ cfg1 c) (hq : ∀ w, dat.q w = q1 w)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊣⊢ dat.arrays G := by
  rw [arrBufs1_eq, Pipeline.SharedFrame.arrays_eq_shares dat arr_whole1 G, bigSep_W1]
  simp only [bigSepL, hG, Dat.share, hq]
  show iprop((((c : Thread nD τ).loc main_v7) ↦{fullShare} V main_v7) ∗ (((c : Thread nD τ).loc main_v8) ↦{fullShare} V main_v8)
        ∗ (((c : Thread nD τ).loc main_v9) ↦{fullShare} V main_v9) ∗ (((c : Thread nD τ).loc main_v10) ↦{fullShare} V main_v10)
        ∗ (((c : Thread nD τ).loc main_v11) ↦{fullShare} V main_v11) ∗ (((c : Thread nD τ).loc main_v12) ↦{fullShare} V main_v12))
      ⊣⊢ (iprop((((c : Thread nD τ).loc main_v7) ↦{fullShare} V main_v7) ∗ (((c : Thread nD τ).loc main_v8) ↦{fullShare} V main_v8)
        ∗ (((c : Thread nD τ).loc main_v9) ↦{fullShare} V main_v9) ∗ (((c : Thread nD τ).loc main_v10) ↦{fullShare.left} V main_v10)
        ∗ (((c : Thread nD τ).loc main_v11) ↦{fullShare.left} V main_v11) ∗ (((c : Thread nD τ).loc main_v10) ↦{fullShare.right} V main_v10)
        ∗ (((c : Thread nD τ).loc main_v11) ↦{fullShare.right} V main_v11) ∗ (((c : Thread nD τ).loc main_v12) ↦{fullShare} V main_v12)) : sProp 𝕄)
  have h10 : ((((c : Thread nD τ).loc main_v10) ↦{fullShare} V main_v10) : sProp 𝕄)
      ⊣⊢ iprop((((c : Thread nD τ).loc main_v10) ↦{fullShare.left} V main_v10) ∗ (((c : Thread nD τ).loc main_v10) ↦{fullShare.right} V main_v10)) :=
    pointsTo_share (PosShare.mem_left_op_right fullShare)
  have h11 : ((((c : Thread nD τ).loc main_v11) ↦{fullShare} V main_v11) : sProp 𝕄)
      ⊣⊢ iprop((((c : Thread nD τ).loc main_v11) ↦{fullShare.left} V main_v11) ∗ (((c : Thread nD τ).loc main_v11) ↦{fullShare.right} V main_v11)) :=
    pointsTo_share (PosShare.mem_left_op_right fullShare)
  have h10a := h10.1
  have h10b := h10.2
  have h11a := h11.1
  have h11b := h11.2
  constructor
  · iintro ⟨H7, H8, H9, H10, H11, H12⟩
    ihave H10' := h10a $$ H10
    ihave H11' := h11a $$ H11
    icases H10' with ⟨H10l, H10r⟩
    icases H11' with ⟨H11l, H11r⟩
    isplitl [H7]; · iexact H7
    isplitl [H8]; · iexact H8
    isplitl [H9]; · iexact H9
    isplitl [H10l]; · iexact H10l
    isplitl [H11l]; · iexact H11l
    isplitl [H10r]; · iexact H10r
    isplitl [H11r]; · iexact H11r
    iexact H12
  · iintro ⟨H7, H8, H9, H10l, H11l, H10r, H11r, H12⟩
    isplitl [H7]; · iexact H7
    isplitl [H8]; · iexact H8
    isplitl [H9]; · iexact H9
    isplitl [H10l H10r]
    · iapply h10b; isplitl [H10l] <;> iassumption
    isplitl [H11l H11r]
    · iapply h11b; isplitl [H11l] <;> iassumption
    iexact H12

theorem hF1 (c : Dev nD) (w : Fin cfg1.W) : (dat1 q1 (V3 m ρ) c).arrAt w cfg1.N = V4 m ρ c (Pipeline.arrRef spec1 w) := by
  have hin : ∀ (w : Fin cfg1.W), (cfg1.win w).isOut = false → Pipeline.arrRef spec1 w ≠ main_v12 →
      (dat1 q1 (V3 m ρ) c).arrAt w cfg1.N = V4 m ρ c (Pipeline.arrRef spec1 w) := fun w ho hne =>
    ((dat1 q1 (V3 m ρ) c).arrAt_in w ho _).trans ((A_eq1 q1 (V3 m ρ) c w).trans (W4_of_ne m ρ c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact (W4_out m ρ c).symm

theorem rest1_eq (c : Dev nD) :
    (Pipeline.unscopedRest (Ix := Unit) (Name := ℕ) (U := UR sig nD τ) (Lvl := ℕ) spec1 c (V3 m ρ c) : sProp 𝕄)
      = Pipeline.unscopedRest spec1 c (V4 m ρ c) := by
  unfold Pipeline.unscopedRest
  refine bigSep_congr fun b hb => ?_
  have hne : b ≠ main_v12 := fun e =>
    (Finset.mem_sdiff.mp hb).2 (Finset.mem_image.mpr ⟨7, Finset.mem_univ _, e ▸ rfl⟩)
  rw [W4_of_ne m ρ c b hne]

end Cert.KernelIdeal.Hand

end
-- ==== Proof.KI_Reg1Parts.lean ====
/-
  The attention kernel's four chunk updates, each proved once over arbitrary contents of the scratch buffers, and how a
  buffer reads after one more store: the rows stored replaced, the others kept.
-/
import proofs.«117884_j83708912599078_2_alg».proof.Proof.KI_Reg1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- After one more unmasked store through rectangle `r`, a buffer reads as before with `r`'s elements replaced by the
    payload. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- A load through a rectangle of a whole memref held at the raw contents that read `X` reads `X`'s elements there. -/
theorem readAt_unread_eq_ld {κ : Kind} {sp : Space} {s : Shape} {e : EltTy} {Val : EltTy → Type} {m : Memref sig κ sp s e}
    (h : m.IsWhole) (X : s.Idx → Val e) (r : Rect s) :
    View.readAt Val m.view r.toLoadRect (h.unread X) = View.ld X r := by
  rw [View.readAt_eq_ld, h.read_unread]

/-- One store through the whole-shape rectangle at zero offsets leaves its payload, whatever was there. -/
theorem overlay_unit_zero {S : Shape} {α : Type} {off : Fin S.rank → Nat} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rw [Rect.emb_whole_apply] at e
  exact e

theorem off_W1x512x128 : (![0, 0, 0] : Fin S1x512x128.rank → Nat) = fun _ => 0 := by funext a; fin_cases a <;> rfl
/-- A load through the whole of a `S1x512x128` buffer reads its contents, -/
theorem ld_W1x512x128 {Val : EltTy → Type} {e : EltTy} (X : S1x512x128.Idx → Val e) :
    View.ld X (Rect.unit (s := S1x512x128) ![0, 0, 0] S1x512x128.size inb_S1x512x128_S1x512x128_0_0_0) = X := View.ld_unit_zero off_W1x512x128 _ X
/-- and a store through the whole of it leaves the payload. -/
theorem overlay_W1x512x128 {α : Type} (X w : S1x512x128.Idx → α) :
    (Rect.unit (s := S1x512x128) ![0, 0, 0] S1x512x128.size inb_S1x512x128_S1x512x128_0_0_0).overlay X w = w := overlay_unit_zero off_W1x512x128 _ X w
theorem off_W512x128 : (![0, 0] : Fin S512x128.rank → Nat) = fun _ => 0 := by funext a; fin_cases a <;> rfl
/-- A load through the whole of a `S512x128` buffer reads its contents, -/
theorem ld_W512x128 {Val : EltTy → Type} {e : EltTy} (X : S512x128.Idx → Val e) :
    View.ld X (Rect.unit (s := S512x128) ![0, 0] S512x128.size inb_S512x128_S512x128_0_0) = X := View.ld_unit_zero off_W512x128 _ X
/-- and a store through the whole of it leaves the payload. -/
theorem overlay_W512x128 {α : Type} (X w : S512x128.Idx → α) :
    (Rect.unit (s := S512x128) ![0, 0] S512x128.size inb_S512x128_S512x128_0_0).overlay X w = w := overlay_unit_zero off_W512x128 _ X w
theorem off_W2048x128 : (![0, 0] : Fin S2048x128.rank → Nat) = fun _ => 0 := by funext a; fin_cases a <;> rfl
/-- A load through the whole of a `S2048x128` buffer reads its contents, -/
theorem ld_W2048x128 {Val : EltTy → Type} {e : EltTy} (X : S2048x128.Idx → Val e) :
    View.ld X (Rect.unit (s := S2048x128) ![0, 0] S2048x128.size inb_S2048x128_S2048x128_0_0) = X := View.ld_unit_zero off_W2048x128 _ X
/-- and a store through the whole of it leaves the payload. -/
theorem overlay_W2048x128 {α : Type} (X w : S2048x128.Idx → α) :
    (Rect.unit (s := S2048x128) ![0, 0] S2048x128.size inb_S2048x128_S2048x128_0_0).overlay X w = w := overlay_unit_zero off_W2048x128 _ X w
theorem off_W2048x1 : (![0, 0] : Fin S2048x1.rank → Nat) = fun _ => 0 := by funext a; fin_cases a <;> rfl
/-- A load through the whole of a `S2048x1` buffer reads its contents, -/
theorem ld_W2048x1 {Val : EltTy → Type} {e : EltTy} (X : S2048x1.Idx → Val e) :
    View.ld X (Rect.unit (s := S2048x1) ![0, 0] S2048x1.size inb_S2048x1_S2048x1_0_0) = X := View.ld_unit_zero off_W2048x1 _ X
/-- and a store through the whole of it leaves the payload. -/
theorem overlay_W2048x1 {α : Type} (X w : S2048x1.Idx → α) :
    (Rect.unit (s := S2048x1) ![0, 0] S2048x1.size inb_S2048x1_S2048x1_0_0).overlay X w = w := overlay_unit_zero off_W2048x1 _ X w
theorem off_W1x2048x128 : (![0, 0, 0] : Fin S1x2048x128.rank → Nat) = fun _ => 0 := by funext a; fin_cases a <;> rfl
/-- A load through the whole of a `S1x2048x128` buffer reads its contents, -/
theorem ld_W1x2048x128 {Val : EltTy → Type} {e : EltTy} (X : S1x2048x128.Idx → Val e) :
    View.ld X (Rect.unit (s := S1x2048x128) ![0, 0, 0] S1x2048x128.size inb_S1x2048x128_S1x2048x128_0_0_0) = X := View.ld_unit_zero off_W1x2048x128 _ X
/-- and a store through the whole of it leaves the payload. -/
theorem overlay_W1x2048x128 {α : Type} (X w : S1x2048x128.Idx → α) :
    (Rect.unit (s := S1x2048x128) ![0, 0, 0] S1x2048x128.size inb_S1x2048x128_S1x2048x128_0_0_0).overlay X w = w := overlay_unit_zero off_W1x2048x128 _ X w

set_option maxHeartbeats 1000000 in
/-- The update of query rows [0, 512) as the kernel's part runs it, over ANY contents of the four scratch buffers: it
    reads the rows of the rotated queries, the maximum, the denominator and the accumulator, stores the rows' new
    denominator and accumulator, and returns the rows' new maximum. -/
theorem part1_run (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (v18 v20 : FVec F S512x128 .bf16) (v24 : IVec S512x512 32)
    (f11 : arg11.view.ty.Contents (Elt F)) (f12 : arg12.view.ty.Contents (Elt F)) (f13 : arg13.view.ty.Contents (Elt F)) (f14 : arg14.view.ty.Contents (Elt F))
    (E : Set ℕ) :
    (iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) E (k1_part1 i arg3 harg3 arg4 harg4 arg5 harg5 arg6 harg6 arg7 harg7 arg8 harg8 arg9 harg9 arg10 harg10 arg11 harg11 arg12 harg12 arg13 harg13 arg14 harg14 v18 v20 v24)
          (fun r => iprop(⌜r.1 = k1_pay5 v18 v24 (View.readAt (Elt F) arg14.view rA0.toLoadRect f14) (View.readAt (Elt F) arg11.view rM0.toLoadRect f11)⌝
            ∗ (arg11.view.loc (c : Thread nD τ) ↦[arg11.view.set]{fullShare} f11)
            ∗ (arg12.view.loc (c : Thread nD τ) ↦[arg12.view.set]{fullShare} (arg12.view.writes (Elt F) f12 [⟨rM0, k1_pay8 v18 v24 (View.readAt (Elt F) arg14.view rA0.toLoadRect f14) (View.readAt (Elt F) arg11.view rM0.toLoadRect f11) (View.readAt (Elt F) arg12.view rM0.toLoadRect f12)⟩]))
            ∗ (arg13.view.loc (c : Thread nD τ) ↦[arg13.view.set]{fullShare} (arg13.view.writes (Elt F) f13 [⟨rA0, k1_pay9 v18 v20 v24 (View.readAt (Elt F) arg14.view rA0.toLoadRect f14) (View.readAt (Elt F) arg11.view rM0.toLoadRect f11) (View.readAt (Elt F) arg13.view rA0.toLoadRect f13)⟩]))
            ∗ (arg14.view.loc (c : Thread nD τ) ↦[arg14.view.set]{fullShare} f14))) := by
  simp only [k1_part1_eq_skeleton]; unfold k1_part1_skel
  iintro ⟨H11, H12, H13, H14⟩
  sl_exec
  sl_step
  isplitr; · ipureintro; rfl
  isplitl [H11]; · iexact H11
  isplitl [H12]; · iexact H12
  isplitl [H13]; · iexact H13
  iexact H14

set_option maxHeartbeats 1000000 in
/-- The update of query rows [512, 1024) as the kernel's part runs it, over ANY contents of the four scratch buffers: it
    reads the rows of the rotated queries, the maximum, the denominator and the accumulator, stores the rows' new
    denominator and accumulator, and returns the rows' new maximum. -/
theorem part2_run (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (v18 v20 : FVec F S512x128 .bf16) (v24 : IVec S512x512 32)
    (f11 : arg11.view.ty.Contents (Elt F)) (f12 : arg12.view.ty.Contents (Elt F)) (f13 : arg13.view.ty.Contents (Elt F)) (f14 : arg14.view.ty.Contents (Elt F))
    (E : Set ℕ) :
    (iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) E (k1_part2 i arg3 harg3 arg4 harg4 arg5 harg5 arg6 harg6 arg7 harg7 arg8 harg8 arg9 harg9 arg10 harg10 arg11 harg11 arg12 harg12 arg13 harg13 arg14 harg14 v18 v20 v24)
          (fun r => iprop(⌜r.1 = k1_pay11 v18 v24 (View.readAt (Elt F) arg14.view rA1.toLoadRect f14) (View.readAt (Elt F) arg11.view rM1.toLoadRect f11)⌝
            ∗ (arg11.view.loc (c : Thread nD τ) ↦[arg11.view.set]{fullShare} f11)
            ∗ (arg12.view.loc (c : Thread nD τ) ↦[arg12.view.set]{fullShare} (arg12.view.writes (Elt F) f12 [⟨rM1, k1_pay14 v18 v24 (View.readAt (Elt F) arg14.view rA1.toLoadRect f14) (View.readAt (Elt F) arg11.view rM1.toLoadRect f11) (View.readAt (Elt F) arg12.view rM1.toLoadRect f12)⟩]))
            ∗ (arg13.view.loc (c : Thread nD τ) ↦[arg13.view.set]{fullShare} (arg13.view.writes (Elt F) f13 [⟨rA1, k1_pay15 v18 v20 v24 (View.readAt (Elt F) arg14.view rA1.toLoadRect f14) (View.readAt (Elt F) arg11.view rM1.toLoadRect f11) (View.readAt (Elt F) arg13.view rA1.toLoadRect f13)⟩]))
            ∗ (arg14.view.loc (c : Thread nD τ) ↦[arg14.view.set]{fullShare} f14))) := by
  simp only [k1_part2_eq_skeleton]; unfold k1_part2_skel
  iintro ⟨H11, H12, H13, H14⟩
  sl_exec
  sl_step
  isplitr; · ipureintro; rfl
  isplitl [H11]; · iexact H11
  isplitl [H12]; · iexact H12
  isplitl [H13]; · iexact H13
  iexact H14

set_option maxHeartbeats 1000000 in
/-- The update of query rows [1024, 1536) as the kernel's part runs it, over ANY contents of the four scratch buffers: it
    reads the rows of the rotated queries, the maximum, the denominator and the accumulator, stores the rows' new
    denominator and accumulator, and returns the rows' new maximum. -/
theorem part3_run (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (v18 v20 : FVec F S512x128 .bf16) (v24 : IVec S512x512 32)
    (f11 : arg11.view.ty.Contents (Elt F)) (f12 : arg12.view.ty.Contents (Elt F)) (f13 : arg13.view.ty.Contents (Elt F)) (f14 : arg14.view.ty.Contents (Elt F))
    (E : Set ℕ) :
    (iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) E (k1_part3 i arg3 harg3 arg4 harg4 arg5 harg5 arg6 harg6 arg7 harg7 arg8 harg8 arg9 harg9 arg10 harg10 arg11 harg11 arg12 harg12 arg13 harg13 arg14 harg14 v18 v20 v24)
          (fun r => iprop(⌜r.1 = k1_pay17 v18 v24 (View.readAt (Elt F) arg14.view rA2.toLoadRect f14) (View.readAt (Elt F) arg11.view rM2.toLoadRect f11)⌝
            ∗ (arg11.view.loc (c : Thread nD τ) ↦[arg11.view.set]{fullShare} f11)
            ∗ (arg12.view.loc (c : Thread nD τ) ↦[arg12.view.set]{fullShare} (arg12.view.writes (Elt F) f12 [⟨rM2, k1_pay20 v18 v24 (View.readAt (Elt F) arg14.view rA2.toLoadRect f14) (View.readAt (Elt F) arg11.view rM2.toLoadRect f11) (View.readAt (Elt F) arg12.view rM2.toLoadRect f12)⟩]))
            ∗ (arg13.view.loc (c : Thread nD τ) ↦[arg13.view.set]{fullShare} (arg13.view.writes (Elt F) f13 [⟨rA2, k1_pay21 v18 v20 v24 (View.readAt (Elt F) arg14.view rA2.toLoadRect f14) (View.readAt (Elt F) arg11.view rM2.toLoadRect f11) (View.readAt (Elt F) arg13.view rA2.toLoadRect f13)⟩]))
            ∗ (arg14.view.loc (c : Thread nD τ) ↦[arg14.view.set]{fullShare} f14))) := by
  simp only [k1_part3_eq_skeleton]; unfold k1_part3_skel
  iintro ⟨H11, H12, H13, H14⟩
  sl_exec
  sl_step
  isplitr; · ipureintro; rfl
  isplitl [H11]; · iexact H11
  isplitl [H12]; · iexact H12
  isplitl [H13]; · iexact H13
  iexact H14

set_option maxHeartbeats 1000000 in
/-- The update of query rows [1536, 2048) as the kernel's part runs it, over ANY contents of the four scratch buffers: it
    reads the rows of the rotated queries, the maximum, the denominator and the accumulator, stores the rows' new
    denominator and accumulator, and returns the rows' new maximum. -/
theorem part4_run (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (v18 v20 : FVec F S512x128 .bf16) (v24 : IVec S512x512 32)
    (f11 : arg11.view.ty.Contents (Elt F)) (f12 : arg12.view.ty.Contents (Elt F)) (f13 : arg13.view.ty.Contents (Elt F)) (f14 : arg14.view.ty.Contents (Elt F))
    (E : Set ℕ) :
    (iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) E (k1_part4 i arg3 harg3 arg4 harg4 arg5 harg5 arg6 harg6 arg7 harg7 arg8 harg8 arg9 harg9 arg10 harg10 arg11 harg11 arg12 harg12 arg13 harg13 arg14 harg14 v18 v20 v24)
          (fun r => iprop(⌜r.1 = k1_pay23 v18 v24 (View.readAt (Elt F) arg14.view rA3.toLoadRect f14) (View.readAt (Elt F) arg11.view rM3.toLoadRect f11)⌝
            ∗ (arg11.view.loc (c : Thread nD τ) ↦[arg11.view.set]{fullShare} f11)
            ∗ (arg12.view.loc (c : Thread nD τ) ↦[arg12.view.set]{fullShare} (arg12.view.writes (Elt F) f12 [⟨rM3, k1_pay26 v18 v24 (View.readAt (Elt F) arg14.view rA3.toLoadRect f14) (View.readAt (Elt F) arg11.view rM3.toLoadRect f11) (View.readAt (Elt F) arg12.view rM3.toLoadRect f12)⟩]))
            ∗ (arg13.view.loc (c : Thread nD τ) ↦[arg13.view.set]{fullShare} (arg13.view.writes (Elt F) f13 [⟨rA3, k1_pay27 v18 v20 v24 (View.readAt (Elt F) arg14.view rA3.toLoadRect f14) (View.readAt (Elt F) arg11.view rM3.toLoadRect f11) (View.readAt (Elt F) arg13.view rA3.toLoadRect f13)⟩]))
            ∗ (arg14.view.loc (c : Thread nD τ) ↦[arg14.view.set]{fullShare} f14))) := by
  simp only [k1_part4_eq_skeleton]; unfold k1_part4_skel
  iintro ⟨H11, H12, H13, H14⟩
  sl_exec
  sl_step
  isplitr; · ipureintro; rfl
  isplitl [H11]; · iexact H11
  isplitl [H12]; · iexact H12
  isplitl [H13]; · iexact H13
  iexact H14

end Cert.KernelIdeal.Hand

end
-- ==== Proof.KI_Reg1RunA.lean ====
/-
  The attention kernel's whole body at a point with ki = 0: on whole staging memrefs at the windows' blocks and the
  scratch buffers at any contents, it runs to the continuation holding the inputs as they were, the scratch
  buffers at this case's contents, the output window untouched. Each chunk update is its part's triple, applied at the call.
-/
import proofs.«117884_j83708912599078_2_alg».proof.Proof.KI_Reg1Parts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernelRun1_A (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (hc0 : cond1_0 i) (hc1 : cond1_1 i) (hc2 : cond1_2 i) (hc3 : cond1_3 i) (hc4 : cond1_4 i) (hc5 : ¬cond1_5 i)
    (x0 : Vec F S1x2048x128 .bf16) (x1 x2 : Vec F S1x512x128 .bf16) (x3 x4 : Vec F S2048x128 .f32) (x5 x6 : Vec F S512x128 .f32) (xi7 : Vec F S1x2048x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare (case1_A i x0 x1 x2 x3 x4 x5 x6).2.1 ∗ owns (c : Thread nD τ) arg12 fullShare (case1_A i x0 x1 x2 x3 x4 x5 x6).2.2.1 ∗ owns (c : Thread nD τ) arg13 fullShare (case1_A i x0 x1 x2 x3 x4 x5 x6).2.2.2.1 ∗ owns (c : Thread nD τ) arg14 fullShare (case1_A i x0 x1 x2 x3 x4 x5 x6).2.2.2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13 arg14 harg14) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  have hcut1 := fun v18 v20 v24 f11 f12 f13 f14 => part1_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut2 := fun v18 v20 v24 f11 f12 f13 f14 => part2_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut3 := fun v18 v20 v24 f11 f12 f13 f14 => part3_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut4 := fun v18 v20 v24 f11 f12 f13 f14 => part4_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  sl_exec (disch := first | exact hc0 | exact hc1 | exact hc2 | exact hc3 | exact hc4 | exact hc5)
  dsimp only at hk1_part1_0 hk1_part2_0 hk1_part3_0 hk1_part4_0
  subst hk1_part1_0 hk1_part2_0 hk1_part3_0 hk1_part4_0
  irename : (arg11.view.loc (c : Thread nD τ) ↦[arg11.view.set]{fullShare} _) => HA11
  irename : (arg12.view.loc (c : Thread nD τ) ↦[arg12.view.set]{fullShare} _) => HA12
  irename : (arg13.view.loc (c : Thread nD τ) ↦[arg13.view.set]{fullShare} _) => HA13
  irename : (arg14.view.loc (c : Thread nD τ) ↦[arg14.view.set]{fullShare} _) => HA14
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [HA11]
  · iexists _; isplitr
    swap; · iexact HA11
    ipureintro
    repeat (first | delta kernelRun1_A.sl.r | delta kernelRun1_A.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_A, outOf, chunk3, chunk2, chunk1, chunk0])
    (try rfl)
  isplitl [HA12]
  · iexists _; isplitr
    swap; · iexact HA12
    ipureintro
    repeat (first | delta kernelRun1_A.sl.r | delta kernelRun1_A.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_A, outOf, chunk3, chunk2, chunk1, chunk0])
    (try rfl)
  isplitl [HA13]
  · iexists _; isplitr
    swap; · iexact HA13
    ipureintro
    repeat (first | delta kernelRun1_A.sl.r | delta kernelRun1_A.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_A, outOf, chunk3, chunk2, chunk1, chunk0])
    (try rfl)
  iexists _; isplitr
  swap; · iexact HA14
  ipureintro
  repeat (first | delta kernelRun1_A.sl.r | delta kernelRun1_A.sl.r_1)
  simp only [read_writes_cons_overlay, View.writes_nil, Memref.IsWhole.read_unread, View.readAt_eq_ld]
  repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
  (try dsimp only [case1_A, outOf, chunk3, chunk2, chunk1, chunk0])
  (try rfl)

end Cert.KernelIdeal.Hand

end
-- ==== Proof.KI_Reg1RunB.lean ====
/-
  The attention kernel's whole body at a point with ki = 1: on whole staging memrefs at the windows' blocks and the
  scratch buffers at what the point before left, it runs to the continuation holding the inputs as they were, the scratch
  buffers at this case's contents, the output window untouched. Each chunk update is its part's triple, applied at the call.
-/
import proofs.«117884_j83708912599078_2_alg».proof.Proof.KI_Reg1Parts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernelRun1_B (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (hc0 : ¬cond1_0 i) (hc1 : ¬cond1_1 i) (hc2 : cond1_2 i) (hc3 : cond1_3 i) (hc4 : cond1_4 i) (hc5 : ¬cond1_5 i)
    (x0 : Vec F S1x2048x128 .bf16) (x1 x2 : Vec F S1x512x128 .bf16) (x3 x4 : Vec F S2048x128 .f32) (x5 x6 : Vec F S512x128 .f32) (xi7 : Vec F S1x2048x128 .bf16) (p : Out1 F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare p.2.1 ∗ owns (c : Thread nD τ) arg12 fullShare p.2.2.1 ∗ owns (c : Thread nD τ) arg13 fullShare p.2.2.2.1 ∗ owns (c : Thread nD τ) arg14 fullShare p.2.2.2.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare (case1_B i x1 x2 x5 x6 p).2.1 ∗ owns (c : Thread nD τ) arg12 fullShare (case1_B i x1 x2 x5 x6 p).2.2.1 ∗ owns (c : Thread nD τ) arg13 fullShare (case1_B i x1 x2 x5 x6 p).2.2.2.1 ∗ owns (c : Thread nD τ) arg14 fullShare (case1_B i x1 x2 x5 x6 p).2.2.2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13 arg14 harg14) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2; obtain rfl := harg14.eq_unread hfs3
  have hcut1 := fun v18 v20 v24 f11 f12 f13 f14 => part1_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut2 := fun v18 v20 v24 f11 f12 f13 f14 => part2_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut3 := fun v18 v20 v24 f11 f12 f13 f14 => part3_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut4 := fun v18 v20 v24 f11 f12 f13 f14 => part4_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  sl_exec (disch := first | exact hc0 | exact hc1 | exact hc2 | exact hc3 | exact hc4 | exact hc5)
  dsimp only at hk1_part2_0 hk1_part3_0 hk1_part4_0
  subst hk1_part2_0 hk1_part3_0 hk1_part4_0
  irename : (arg11.view.loc (c : Thread nD τ) ↦[arg11.view.set]{fullShare} _) => HA11
  irename : (arg12.view.loc (c : Thread nD τ) ↦[arg12.view.set]{fullShare} _) => HA12
  irename : (arg13.view.loc (c : Thread nD τ) ↦[arg13.view.set]{fullShare} _) => HA13
  irename : (arg14.view.loc (c : Thread nD τ) ↦[arg14.view.set]{fullShare} _) => HA14
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [HA11]
  · iexists _; isplitr
    swap; · iexact HA11
    ipureintro
    repeat (first | delta kernelRun1_B.sl.r | delta kernelRun1_B.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_B, outOf, chunk3, chunk2, chunk1, chunk0])
    (try rfl)
  isplitl [HA12]
  · iexists _; isplitr
    swap; · iexact HA12
    ipureintro
    repeat (first | delta kernelRun1_B.sl.r | delta kernelRun1_B.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_B, outOf, chunk3, chunk2, chunk1, chunk0])
    (try rfl)
  isplitl [HA13]
  · iexists _; isplitr
    swap; · iexact HA13
    ipureintro
    repeat (first | delta kernelRun1_B.sl.r | delta kernelRun1_B.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_B, outOf, chunk3, chunk2, chunk1, chunk0])
    (try rfl)
  iexists _; isplitr
  swap; · iexact HA14
  ipureintro
  repeat (first | delta kernelRun1_B.sl.r | delta kernelRun1_B.sl.r_1)
  simp only [read_writes_cons_overlay, View.writes_nil, Memref.IsWhole.read_unread, View.readAt_eq_ld]
  repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
  (try dsimp only [case1_B, outOf, chunk3, chunk2, chunk1, chunk0])
  (try rfl)

end Cert.KernelIdeal.Hand

end
-- ==== Proof.KI_Reg1RunC.lean ====
/-
  The attention kernel's whole body at a point with ki = 2: on whole staging memrefs at the windows' blocks and the
  scratch buffers at what the point before left, it runs to the continuation holding the inputs as they were, the scratch
  buffers at this case's contents, the output window untouched. Each chunk update is its part's triple, applied at the call.
-/
import proofs.«117884_j83708912599078_2_alg».proof.Proof.KI_Reg1Parts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernelRun1_C (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (hc0 : ¬cond1_0 i) (hc1 : ¬cond1_1 i) (hc2 : ¬cond1_2 i) (hc3 : cond1_3 i) (hc4 : cond1_4 i) (hc5 : ¬cond1_5 i)
    (x0 : Vec F S1x2048x128 .bf16) (x1 x2 : Vec F S1x512x128 .bf16) (x3 x4 : Vec F S2048x128 .f32) (x5 x6 : Vec F S512x128 .f32) (xi7 : Vec F S1x2048x128 .bf16) (p : Out1 F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare p.2.1 ∗ owns (c : Thread nD τ) arg12 fullShare p.2.2.1 ∗ owns (c : Thread nD τ) arg13 fullShare p.2.2.2.1 ∗ owns (c : Thread nD τ) arg14 fullShare p.2.2.2.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare (case1_C i x1 x2 x5 x6 p).2.1 ∗ owns (c : Thread nD τ) arg12 fullShare (case1_C i x1 x2 x5 x6 p).2.2.1 ∗ owns (c : Thread nD τ) arg13 fullShare (case1_C i x1 x2 x5 x6 p).2.2.2.1 ∗ owns (c : Thread nD τ) arg14 fullShare (case1_C i x1 x2 x5 x6 p).2.2.2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13 arg14 harg14) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2; obtain rfl := harg14.eq_unread hfs3
  have hcut1 := fun v18 v20 v24 f11 f12 f13 f14 => part1_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut2 := fun v18 v20 v24 f11 f12 f13 f14 => part2_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut3 := fun v18 v20 v24 f11 f12 f13 f14 => part3_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut4 := fun v18 v20 v24 f11 f12 f13 f14 => part4_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  sl_exec (disch := first | exact hc0 | exact hc1 | exact hc2 | exact hc3 | exact hc4 | exact hc5)
  dsimp only at hk1_part3_0 hk1_part4_0
  subst hk1_part3_0 hk1_part4_0
  irename : (arg11.view.loc (c : Thread nD τ) ↦[arg11.view.set]{fullShare} _) => HA11
  irename : (arg12.view.loc (c : Thread nD τ) ↦[arg12.view.set]{fullShare} _) => HA12
  irename : (arg13.view.loc (c : Thread nD τ) ↦[arg13.view.set]{fullShare} _) => HA13
  irename : (arg14.view.loc (c : Thread nD τ) ↦[arg14.view.set]{fullShare} _) => HA14
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [HA11]
  · iexists _; isplitr
    swap; · iexact HA11
    ipureintro
    repeat (first | delta kernelRun1_C.sl.r | delta kernelRun1_C.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_C, outOf, chunk3, chunk2, chunk1, chunk0])
    (try rfl)
  isplitl [HA12]
  · iexists _; isplitr
    swap; · iexact HA12
    ipureintro
    repeat (first | delta kernelRun1_C.sl.r | delta kernelRun1_C.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_C, outOf, chunk3, chunk2, chunk1, chunk0])
    (try rfl)
  isplitl [HA13]
  · iexists _; isplitr
    swap; · iexact HA13
    ipureintro
    repeat (first | delta kernelRun1_C.sl.r | delta kernelRun1_C.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_C, outOf, chunk3, chunk2, chunk1, chunk0])
    (try rfl)
  iexists _; isplitr
  swap; · iexact HA14
  ipureintro
  repeat (first | delta kernelRun1_C.sl.r | delta kernelRun1_C.sl.r_1)
  simp only [read_writes_cons_overlay, View.writes_nil, Memref.IsWhole.read_unread, View.readAt_eq_ld]
  repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
  (try dsimp only [case1_C, outOf, chunk3, chunk2, chunk1, chunk0])
  (try rfl)

end Cert.KernelIdeal.Hand

end
-- ==== Proof.KI_Reg1RunD.lean ====
/-
  The attention kernel's whole body at a point with ki = 3: on whole staging memrefs at the windows' blocks and the
  scratch buffers at what the point before left, it runs to the continuation holding the inputs as they were, the scratch
  buffers at this case's contents and the output block. Each chunk update is its part's triple, applied at the call.
-/
import proofs.«117884_j83708912599078_2_alg».proof.Proof.KI_Reg1Parts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernelRun1_D (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (hc0 : ¬cond1_0 i) (hc1 : ¬cond1_1 i) (hc2 : ¬cond1_2 i) (hc3 : ¬cond1_3 i) (hc4 : cond1_4 i) (hc5 : cond1_5 i)
    (x0 : Vec F S1x2048x128 .bf16) (x1 x2 : Vec F S1x512x128 .bf16) (x3 x4 : Vec F S2048x128 .f32) (x5 x6 : Vec F S512x128 .f32) (p : Out1 F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare p.2.1 ∗ owns (c : Thread nD τ) arg12 fullShare p.2.2.1 ∗ owns (c : Thread nD τ) arg13 fullShare p.2.2.2.1 ∗ owns (c : Thread nD τ) arg14 fullShare p.2.2.2.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (case1_D i x1 x2 x5 x6 p).1 ∗ owns (c : Thread nD τ) arg11 fullShare (case1_D i x1 x2 x5 x6 p).2.1 ∗ owns (c : Thread nD τ) arg12 fullShare (case1_D i x1 x2 x5 x6 p).2.2.1 ∗ owns (c : Thread nD τ) arg13 fullShare (case1_D i x1 x2 x5 x6 p).2.2.2.1 ∗ owns (c : Thread nD τ) arg14 fullShare (case1_D i x1 x2 x5 x6 p).2.2.2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13 arg14 harg14) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2; obtain rfl := harg14.eq_unread hfs3
  have hcut1 := fun v18 v20 v24 f11 f12 f13 f14 => part1_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut2 := fun v18 v20 v24 f11 f12 f13 f14 => part2_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut3 := fun v18 v20 v24 f11 f12 f13 f14 => part3_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut4 := fun v18 v20 v24 f11 f12 f13 f14 => part4_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  sl_exec (disch := first | exact hc0 | exact hc1 | exact hc2 | exact hc3 | exact hc4 | exact hc5)
  dsimp only at hk1_part4_0
  subst hk1_part4_0
  irename : (arg11.view.loc (c : Thread nD τ) ↦[arg11.view.set]{fullShare} _) => HA11
  irename : (arg12.view.loc (c : Thread nD τ) ↦[arg12.view.set]{fullShare} _) => HA12
  irename : (arg13.view.loc (c : Thread nD τ) ↦[arg13.view.set]{fullShare} _) => HA13
  irename : (arg14.view.loc (c : Thread nD τ) ↦[arg14.view.set]{fullShare} _) => HA14
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    repeat (first | delta kernelRun1_D.sl.r | delta kernelRun1_D.sl.r_1 | delta kernelRun1_D.sl.v44 | delta kernelRun1_D.sl.v45)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_D, outOf, chunk3, chunk2, chunk1, chunk0])
    (try rfl)
  isplitl [HA11]
  · iexists _; isplitr
    swap; · iexact HA11
    ipureintro
    repeat (first | delta kernelRun1_D.sl.r | delta kernelRun1_D.sl.r_1 | delta kernelRun1_D.sl.v44 | delta kernelRun1_D.sl.v45)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_D, outOf, chunk3, chunk2, chunk1, chunk0])
    (try rfl)
  isplitl [HA12]
  · iexists _; isplitr
    swap; · iexact HA12
    ipureintro
    repeat (first | delta kernelRun1_D.sl.r | delta kernelRun1_D.sl.r_1 | delta kernelRun1_D.sl.v44 | delta kernelRun1_D.sl.v45)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_D, outOf, chunk3, chunk2, chunk1, chunk0])
    (try rfl)
  isplitl [HA13]
  · iexists _; isplitr
    swap; · iexact HA13
    ipureintro
    repeat (first | delta kernelRun1_D.sl.r | delta kernelRun1_D.sl.r_1 | delta kernelRun1_D.sl.v44 | delta kernelRun1_D.sl.v45)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_D, outOf, chunk3, chunk2, chunk1, chunk0])
    (try rfl)
  iexists _; isplitr
  swap; · iexact HA14
  ipureintro
  repeat (first | delta kernelRun1_D.sl.r | delta kernelRun1_D.sl.r_1 | delta kernelRun1_D.sl.v44 | delta kernelRun1_D.sl.v45)
  simp only [read_writes_cons_overlay, View.writes_nil, Memref.IsWhole.read_unread, View.readAt_eq_ld]
  repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
  (try dsimp only [case1_D, outOf, chunk3, chunk2, chunk1, chunk0])
  (try rfl)

end Cert.KernelIdeal.Hand

end
-- ==== Proof.KI_Reg1.lean ====
/-
  The attention region's body obligation: at every grid point the kernel, called on the windows' current staging
  buffers at their blocks and on the four scratch buffers at what the point before left, leaves the scratch buffers at
  the contents `outsAt1` names and, at the last key block of a head, the output block; and what the launch hands the
  region is the invariant before the first point, which after the last point gives it back.
-/
import proofs.«117884_j83708912599078_2_alg».proof.Proof.KI_Reg1RunA
import proofs.«117884_j83708912599078_2_alg».proof.Proof.KI_Reg1RunB
import proofs.«117884_j83708912599078_2_alg».proof.Proof.KI_Reg1RunC
import proofs.«117884_j83708912599078_2_alg».proof.Proof.KI_Reg1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (q1 : Fin cfg1.W → PosShare TreeShare) (V : (c : Dev nD) → (b : Ref sig .tc) → Buf (Elt F) ((c : Thread nD τ).loc b))

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- The output window is idle at the points that are not the last key block of a head, -/
theorem idleAt1_7 : ∀ t : Fin cfg1.N, ¬t.val % 4 = 3 → cfg1.idle 7 (grid1.coords t) = true := by decide +kernel
/-- is not written back there, -/
theorem noFlush1_7 : ∀ t : Fin cfg1.N, ¬t.val % 4 = 3 → (cfg1.win 7).flush t = false := by decide +kernel
/-- and is live at the last key block. -/
theorem liveAt1_7 : ∀ t : Fin cfg1.N, t.val % 4 = 3 → cfg1.idle 7 (grid1.coords t) = false := by decide +kernel

/-! ## The inputs' staging buffers hold their blocks at every point -/

theorem before1_0 (c : Dev nD) (t : Fin cfg1.N) (d) : (dat1 q1 V c).before 0 t d = iblk1 V c 0 t :=
  ((dat1 q1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 q1 V c).before 1 t d = iblk1 V c 1 t :=
  ((dat1 q1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 q1 V c).before 2 t d = iblk1 V c 2 t :=
  ((dat1 q1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 q1 V c).before 3 t d = iblk1 V c 3 t :=
  ((dat1 q1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 q1 V c).before 4 t d = iblk1 V c 4 t :=
  ((dat1 q1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 q1 V c).before 5 t d = iblk1 V c 5 t :=
  ((dat1 q1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 q1 V c).before 6 t d = iblk1 V c 6 t :=
  ((dat1 q1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The invariant as the four scratch assertions beside the rest -/

/-- The core's scoped buffers that belong to the other regions, each at some contents, and the generator register. -/
def PhiRest (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

theorem PhiWith_elim (c : Dev nD) (S0 S1 S2 S3 : sProp 𝕄) : PhiWith (F := F) c S0 S1 S2 S3 ⊢ iprop(S0 ∗ S1 ∗ S2 ∗ S3 ∗ PhiRest (F := F) c) := by
  unfold PhiWith PhiRest
  iintro ⟨⟨F0, F1, F2, F3, F4, F5, F6, F7, F8, F9, F10, HS0, HS1, HS2, HS3, G0, G1, G2, G3, G4⟩, Hg⟩
  isplitl [HS0]; · iexact HS0
  isplitl [HS1]; · iexact HS1
  isplitl [HS2]; · iexact HS2
  isplitl [HS3]; · iexact HS3
  isplitr [Hg]
  · isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [G0]; · iexact G0
    isplitl [G1]; · iexact G1
    isplitl [G2]; · iexact G2
    isplitl [G3]; · iexact G3
    iexact G4
  iexact Hg

theorem PhiWith_intro (c : Dev nD) (S0 S1 S2 S3 : sProp 𝕄) : iprop(S0 ∗ S1 ∗ S2 ∗ S3 ∗ PhiRest (F := F) c) ⊢ PhiWith (F := F) c S0 S1 S2 S3 := by
  unfold PhiWith PhiRest
  iintro ⟨HS0, HS1, HS2, HS3, ⟨F0, F1, F2, F3, F4, F5, F6, F7, F8, F9, F10, G0, G1, G2, G3, G4⟩, Hg⟩
  isplitr [Hg]
  · isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [HS0]; · iexact HS0
    isplitl [HS1]; · iexact HS1
    isplitl [HS2]; · iexact HS2
    isplitl [HS3]; · iexact HS3
    isplitl [G0]; · iexact G0
    isplitl [G1]; · iexact G1
    isplitl [G2]; · iexact G2
    isplitl [G3]; · iexact G3
    iexact G4
  iexact Hg

/-! ## The body obligation -/

/-- What the body is called with at point `t`, the windows one by one, -/
def bodyPre1 (c : Dev nD) (t : Fin cfg1.N) : sProp 𝕄 :=
  iprop((dat1 q1 V c).Φ t.castSucc ∗ (dat1 q1 V c).owesAt () t.castSucc
    ∗ (∃ d, owns (c : Thread nD τ) (ms1_0 t) fullShare ((dat1 q1 V c).before 0 t d))
    ∗ (∃ d, owns (c : Thread nD τ) (ms1_1 t) fullShare ((dat1 q1 V c).before 1 t d))
    ∗ (∃ d, owns (c : Thread nD τ) (ms1_2 t) fullShare ((dat1 q1 V c).before 2 t d))
    ∗ (∃ d, owns (c : Thread nD τ) (ms1_3 t) fullShare ((dat1 q1 V c).before 3 t d))
    ∗ (∃ d, owns (c : Thread nD τ) (ms1_4 t) fullShare ((dat1 q1 V c).before 4 t d))
    ∗ (∃ d, owns (c : Thread nD τ) (ms1_5 t) fullShare ((dat1 q1 V c).before 5 t d))
    ∗ (∃ d, owns (c : Thread nD τ) (ms1_6 t) fullShare ((dat1 q1 V c).before 6 t d))
    ∗ (∃ d, owns (c : Thread nD τ) (ms1_7 t) fullShare ((dat1 q1 V c).before 7 t d)))

/-- and what it returns. -/
def bodyPost1 (c : Dev nD) (t : Fin cfg1.N) : sProp 𝕄 :=
  iprop((dat1 q1 V c).Φ t.succ ∗ (dat1 q1 V c).owesAt () t.succ
    ∗ (dat1 q1 V c).leavesExact 0 t
    ∗ (dat1 q1 V c).leavesExact 1 t
    ∗ (dat1 q1 V c).leavesExact 2 t
    ∗ (dat1 q1 V c).leavesExact 3 t
    ∗ (dat1 q1 V c).leavesExact 4 t
    ∗ (dat1 q1 V c).leavesExact 5 t
    ∗ (dat1 q1 V c).leavesExact 6 t
    ∗ (dat1 q1 V c).leavesExact 7 t)

set_option maxHeartbeats 4800000 in
/-- The body at any point: the inputs' buffers hold their blocks; the point's third coordinate says which case it is in;
    the invariant hands the body the four scratch buffers at what the point before left (at anything at the first point)
    and takes them back at this point's contents; the core owes nothing throughout. -/
theorem sound_body1 (c : Dev nD) (t : Fin cfg1.N) :
    bodyPre1 q1 V c t ⊢ wp frame (wpE (defs₀ (F := F)) Variants.none c none) Set.univ (bodyAt1 t) (fun _ => bodyPost1 q1 V c t) := by
  unfold bodyPre1 bodyPost1 bodyAt1
  simp only [before1_0 q1 V, before1_1 q1 V, before1_2 q1 V, before1_3 q1 V, before1_4 q1 V, before1_5 q1 V, before1_6 q1 V]
  rewrite [show (dat1 q1 V c).owesAt () t.succ = (dat1 q1 V c).owesAt () t.castSucc from rfl]
  rewrite [show (dat1 q1 V c).Φ t.succ = PhiS1 q1 V c (t.val + 1) t.isLt from rfl, PhiS1_succ]
  have hN : t.val < 128 := lt_of_lt_of_eq t.isLt (show cfg1.N = 128 from N_1)
  rewrite [show (dat1 q1 V c).leavesExact 0 t = owns (c : Thread nD τ) (ms1_0 t) fullShare ((dat1 q1 V c).after 0 t) from by
    unfold Dat.leavesExact; rw [liveAt1_0 t], after1_0]
  rewrite [show (dat1 q1 V c).leavesExact 1 t = owns (c : Thread nD τ) (ms1_1 t) fullShare ((dat1 q1 V c).after 1 t) from by
    unfold Dat.leavesExact; rw [liveAt1_1 t], after1_1]
  rewrite [show (dat1 q1 V c).leavesExact 2 t = owns (c : Thread nD τ) (ms1_2 t) fullShare ((dat1 q1 V c).after 2 t) from by
    unfold Dat.leavesExact; rw [liveAt1_2 t], after1_2]
  rewrite [show (dat1 q1 V c).leavesExact 3 t = owns (c : Thread nD τ) (ms1_3 t) fullShare ((dat1 q1 V c).after 3 t) from by
    unfold Dat.leavesExact; rw [liveAt1_3 t], after1_3]
  rewrite [show (dat1 q1 V c).leavesExact 4 t = owns (c : Thread nD τ) (ms1_4 t) fullShare ((dat1 q1 V c).after 4 t) from by
    unfold Dat.leavesExact; rw [liveAt1_4 t], after1_4]
  rewrite [show (dat1 q1 V c).leavesExact 5 t = owns (c : Thread nD τ) (ms1_5 t) fullShare ((dat1 q1 V c).after 5 t) from by
    unfold Dat.leavesExact; rw [liveAt1_5 t], after1_5]
  rewrite [show (dat1 q1 V c).leavesExact 6 t = owns (c : Thread nD τ) (ms1_6 t) fullShare ((dat1 q1 V c).after 6 t) from by
    unfold Dat.leavesExact; rw [liveAt1_6 t], after1_6]
  rcases (show t.val % 4 = 0 ∨ t.val % 4 = 1 ∨ t.val % 4 = 2 ∨ t.val % 4 = 3 from by omega) with h | h | h | h
  · rewrite [Dat.leavesExact_idle (dat1 q1 V c) 7 t (idleAt1_7 t (by omega)) (noFlush1_7 t (by omega))]
    rewrite [outsAt1_A q1 V c t h]
    by_cases hz : t.val = 0
    · rewrite [PhiS1_castSucc q1 V c t, PhiS1_zero q1 V c _ _ hz, PhiA1_eq]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr (by omega)) ((hcond1_1 t).mpr (by omega)) ((hcond1_2 t).mpr (by omega)) ((hcond1_3 t).mpr (by omega)) (hcond1_4 t) (fun hh => by have := (hcond1_5 t).mp hh; omega) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rewrite [PhiS1_castSucc q1 V c t, PhiS1_pos q1 V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr (by omega)) ((hcond1_1 t).mpr (by omega)) ((hcond1_2 t).mpr (by omega)) ((hcond1_3 t).mpr (by omega)) (hcond1_4 t) (fun hh => by have := (hcond1_5 t).mp hh; omega) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · rewrite [Dat.leavesExact_idle (dat1 q1 V c) 7 t (idleAt1_7 t (by omega)) (noFlush1_7 t (by omega))]
    rewrite [outsAt1_B q1 V c t h]
    have hz : t.val ≠ 0 := by omega
    · rewrite [PhiS1_castSucc q1 V c t, PhiS1_pos q1 V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun hh => by have := (hcond1_0 t).mp hh; omega) (fun hh => by have := (hcond1_1 t).mp hh; omega) ((hcond1_2 t).mpr (by omega)) ((hcond1_3 t).mpr (by omega)) (hcond1_4 t) (fun hh => by have := (hcond1_5 t).mp hh; omega) (iblk1 V c 0 t) (iblk1 V c 1 t) (iblk1 V c 2 t) (iblk1 V c 3 t) (iblk1 V c 4 t) (iblk1 V c 5 t) (iblk1 V c 6 t) _ (outsAt1 q1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · rewrite [Dat.leavesExact_idle (dat1 q1 V c) 7 t (idleAt1_7 t (by omega)) (noFlush1_7 t (by omega))]
    rewrite [outsAt1_C q1 V c t h]
    have hz : t.val ≠ 0 := by omega
    · rewrite [PhiS1_castSucc q1 V c t, PhiS1_pos q1 V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun hh => by have := (hcond1_0 t).mp hh; omega) (fun hh => by have := (hcond1_1 t).mp hh; omega) (fun hh => by have := (hcond1_2 t).mp hh; omega) ((hcond1_3 t).mpr (by omega)) (hcond1_4 t) (fun hh => by have := (hcond1_5 t).mp hh; omega) (iblk1 V c 0 t) (iblk1 V c 1 t) (iblk1 V c 2 t) (iblk1 V c 3 t) (iblk1 V c 4 t) (iblk1 V c 5 t) (iblk1 V c 6 t) _ (outsAt1 q1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · rewrite [show (dat1 q1 V c).leavesExact 7 t = owns (c : Thread nD τ) (ms1_7 t) fullShare ((dat1 q1 V c).after 7 t) from by
      unfold Dat.leavesExact; rw [liveAt1_7 t h], after1_7]
    rewrite [outsAt1_D q1 V c t h]
    have hz : t.val ≠ 0 := by omega
    · rewrite [PhiS1_castSucc q1 V c t, PhiS1_pos q1 V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_D (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun hh => by have := (hcond1_0 t).mp hh; omega) (fun hh => by have := (hcond1_1 t).mp hh; omega) (fun hh => by have := (hcond1_2 t).mp hh; omega) (fun hh => by have := (hcond1_3 t).mp hh; omega) (hcond1_4 t) ((hcond1_5 t).mpr (by omega)) (iblk1 V c 0 t) (iblk1 V c 1 t) (iblk1 V c 2 t) (iblk1 V c 3 t) (iblk1 V c 4 t) (iblk1 V c 5 t) (iblk1 V c 6 t) (outsAt1 q1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation1 (c : Dev nD) : BodyObligation (dat1 (F := F) q1 V c) (defs₀ (F := F)) Variants.none () Set.univ := fun t => by
  rw [bigSep_W1, bigSep_W1]
  exact sound_body1 q1 V c t

/-- What the launch hands the region is the invariant before the first point. -/
theorem hin1 (c : Dev nD) : Pipeline.ΦA spec1 c ⊢ (dat1 q1 V c).Φ 0 := by
  rewrite [show (dat1 q1 V c).Φ 0 = PhiS1 q1 V c 0 (Nat.zero_le _) from rfl, PhiS1_zero q1 V c 0 _ rfl]
  exact Idealize.SL.BI.Entails.refl _

/-- After the last point the invariant gives it back: the scratch buffers' named contents are forgotten. -/
theorem hout1 (c : Dev nD) : (dat1 q1 V c).Φ (Fin.last cfg1.N) ⊢ Pipeline.ΦA spec1 c := by
  rewrite [show (dat1 q1 V c).Φ (Fin.last cfg1.N) = PhiS1 q1 V c (Fin.last cfg1.N).val (Nat.le_of_lt_succ (Fin.last cfg1.N).isLt) from rfl,
    PhiS1_pos q1 V c _ _ (by rw [Fin.val_last]; have : cfg1.N = 128 := N_1; omega), PhiA1_eq]
  iintro HΦ
  ihave HΦ' := (PhiWith_elim c _ _ _ _) $$ HΦ
  icases HΦ' with ⟨HS0, HS1, HS2, HS3, HR⟩
  iapply (PhiWith_intro c _ _ _ _)
  isplitl [HS0]; · iexists _; iexact HS0
  isplitl [HS1]; · iexists _; iexact HS1
  isplitl [HS2]; · iexists _; iexact HS2
  isplitl [HS3]; · iexists _; iexact HS3
  iexact HR

end Cert.KernelIdeal.Hand

end
-- ==== Proof.KI_Run.lean ====
/-
  The run of the kernel's @main: the seven items in order, each launch entered from and left at the thread state
  "every buffer that outlives a launch whole at the boundary's contents, the generator register at some state,
  nothing owed". Every weakly fair execution terminates, nothing faults, and each such buffer ends at the last
  boundary's contents.
-/
import proofs.«117884_j83708912599078_2_alg».proof.Proof.Gen.KernelIdeal.Launch
import proofs.«117884_j83708912599078_2_alg».proof.Proof.Gen.KernelIdeal.Skeleton
import proofs.«117884_j83708912599078_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117884_j83708912599078_2_alg».proof.Proof.KI_Chain
import proofs.«117884_j83708912599078_2_alg».proof.Proof.KI_Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state. Its arrays are the six buffers behind its eight windows, the two tables split in
    halves between their windows on the way in and recomposed on the way out. -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 q1 (V3 m ρ) c).loose
  hwaits := Pipeline.hwaits_of_owed_zero _ _ _ _ L lv 1 fun c t => owed1 q1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays (pdats m ρ 1 c).A ∗ Pipeline.unscopedRest spec1 c (V3 m ρ c)) := by
      rw [Pipeline.unscopedBufs_split₀ cfgs 1 winFacts₀1.arr_unscoped c (V3 m ρ c)]
      exact sep_mono (arrays1_of_bufs c (dat1 q1 (V3 m ρ) c) (q_eq1 q1 (V3 m ρ) c) (V3 m ρ c) _ (A_eq1 q1 (V3 m ρ) c)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl trivial
      rw [show (pdats m ρ 1 c).owed 0 = 0 from owed1 q1 (V3 m ρ) c 0]
      iexact HO
    isplitl [Hp]; · iexact Hp
    iexact Hrest
  hin c := by
    refine (show _ ⊢ Pipeline.ΦA spec1 c from ?_).trans (hin1 q1 (V3 m ρ) c)
    unfold Pipeline.ΦA
    iintro ⟨Hp, -, Hr⟩
    isplitl [Hr]; · iexact Hr
    iexact Hp
  hout c := by
    rw [Pipeline.ownSems0_none]
    refine (hout1 q1 (V3 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [Pipeline.unscopedBufs_split₀ cfgs 1 winFacts₀1.arr_unscoped c (V4 m ρ c), rest1_eq m ρ c]
      exact sep_mono (arrays1_of_bufs c (dat1 q1 (V3 m ρ) c) (q_eq1 q1 (V3 m ρ) c) (V4 m ρ c) _ (hF1 m ρ c)).2 .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ 1 c).owed (Fin.last _) = 0 from owed1 q1 (V3 m ρ) c _]
    iexact HO

/-! ## @main as segments, and the launch -/

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

abbrev Tₙ (c : Dev nD) : sProp 𝕄 := iprop(StableHlo.held (c : Thread nD τ) (Pipeline.ucRefs τ sig) (W7 m ρ c) ∗ ∃ r, prngReg c r)

set_option backward.isDefEq.respectTransparency.types false in
/-- THE RUN: every weakly fair execution of @main terminates, nothing faulting, and every final state holds each
    unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KI_Read.lean ====
/-
  A buffer that no stretch of host operations writes and that is no output of a launch holds at the end what the
  launch memory held: walking back through the seven items, each leaves it alone. The seven argument arrays are such
  buffers.
-/
import proofs.«117884_j83708912599078_2_alg».proof.Proof.Gen.KernelIdeal.Launch
import proofs.«117884_j83708912599078_2_alg».proof.Proof.Gen.KernelIdeal.Skeleton
import proofs.«117884_j83708912599078_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117884_j83708912599078_2_alg».proof.Proof.Gen.KernelIdeal.Regions
import proofs.«117884_j83708912599078_2_alg».proof.Proof.KI_Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Walking back from the last boundary to the launch memory at a buffer nothing writes. -/
theorem W7_untouched (c : Dev nD) (r : Ref sig .tc)
    (h0 : r ∉ Gen.hostOps0_W) (h1 : r ∉ Gen.hostOps1_W) (h2 : r ∉ Gen.hostOps2_W) (h3 : r ∉ Gen.hostOps3_W)
    (ha0 : ∀ w, Pipeline.arrRef spec0 w ≠ r) (hb : r ≠ main_v12) (ha2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ Gen.hostOps3_writes h3
    _ = W5 m ρ c (Proc.devRef .tc r) := W6_of_ne m ρ c r ha2
    _ = W4 m ρ c (Proc.devRef .tc r) := StableHlo.after_of_writes_sub hostOps2 _ Gen.hostOps2_writes h2
    _ = W3 m ρ c (Proc.devRef .tc r) := W4_of_ne m ρ c r hb
    _ = W2 m ρ c (Proc.devRef .tc r) := StableHlo.after_of_writes_sub hostOps1 _ Gen.hostOps1_writes h1
    _ = W1 m ρ c (Proc.devRef .tc r) := W2_of_ne m ρ c r ha0
    _ = W0 m ρ c (Proc.devRef .tc r) := StableHlo.after_of_writes_sub hostOps0 _ Gen.hostOps0_writes h0
    _ = m ((c : Thread nD τ).loc r) := rfl

theorem W7_main_arg0 (c : Dev nD) : W7 m ρ c (Proc.devRef .tc main_arg0) = m ((c : Thread nD τ).loc main_arg0) :=
  W7_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_untouched m ρ c main_arg6 (by decide) (by decide) (by decide) (by decide) (by decide) (by decide) (by decide)

end Cert.KernelIdeal.Hand

end
-- ==== Proof.KI_Frame.lean ====
/-
  The kernel's frame: its @main runs to the end without a fault, and each of the seven argument arrays ends holding
  what it was launched with — no host operation writes an argument and no launch has one among its outputs.
-/
import proofs.«117884_j83708912599078_2_alg».proof.Proof.Gen.KernelIdeal.Launch
import proofs.«117884_j83708912599078_2_alg».proof.Proof.Gen.KernelIdeal.Skeleton
import proofs.«117884_j83708912599078_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117884_j83708912599078_2_alg».proof.Proof.KI_Run
import proofs.«117884_j83708912599078_2_alg».proof.Proof.KI_Read

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run m ρ)

end Cert.KernelIdeal.Hand

end
-- ==== Proof.K_Reg0.lean ====
/-
  The first launch (the three input projections), one grid point at a time.

  Each of its 32 grid points reads a [128,2048] block of the input rows and the three whole [2048,2048] weights, and
  stores, over each of its three whole [128,2048] output blocks, the product of the row block with one transposed
  weight, accumulated from zero and rounded to the output format. Nothing is kept between points. This module states,
  at the buffer contents V the launch finds, what each window's staging buffer holds after the body at a point (the
  inputs their blocks, each output the product of the row block with its weight), and proves that the body run on
  buffers holding the blocks leaves exactly that.
-/
import proofs.«117884_j83708912599078_2_alg».proof.Proof.Gen.Kernel.Launch
import proofs.«117884_j83708912599078_2_alg».proof.Proof.Gen.Kernel.Skeleton
import proofs.«117884_j83708912599078_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's buffer holds its block at every point, for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight window's buffer holds the whole weight at every point, fetched there or not: its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The second weight window's buffer holds the whole weight at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The third weight window's buffer holds the whole weight at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window whole -/

abbrev r0_0 : Rect S128x2048 := Rect.unit (s := S128x2048) ![0, 0] S128x2048.size inb_S128x2048_S128x2048_0_0
abbrev r0_1 : Rect S2048x2048 := Rect.unit (s := S2048x2048) ![0, 0] S2048x2048.size inb_S2048x2048_S2048x2048_0_0

/-! ## What the body leaves in each output window's buffer -/

/-- The first output buffer after the body, from the row block and the first weight: the one store, over the whole buffer. -/
def out0_4 (x0 : Vec F S128x2048 .bf16) (x1 : Vec F S2048x2048 .bf16) : Vec F S128x2048 .bf16 :=
  View.canon [⟨r0_0, k0_pay2 (View.ld x0 r0_0) (View.ld x1 r0_1)⟩]
/-- The second output buffer after the body, from the row block and the second weight. -/
def out0_5 (x0 : Vec F S128x2048 .bf16) (x2 : Vec F S2048x2048 .bf16) : Vec F S128x2048 .bf16 :=
  View.canon [⟨r0_0, k0_pay3 (View.ld x0 r0_0) (View.ld x2 r0_1)⟩]
/-- The third output buffer after the body, from the row block and the third weight. -/
def out0_6 (x0 : Vec F S128x2048 .bf16) (x3 : Vec F S2048x2048 .bf16) : Vec F S128x2048 .bf16 :=
  View.canon [⟨r0_0, k0_pay4 (View.ld x0 r0_0) (View.ld x3 r0_1)⟩]

/-- A store through the whole rectangle covers the buffer. -/
theorem cover0_out (p0 : Vec F S128x2048 .bf16) (y : S128x2048.Idx) :
    ∃ pc ∈ ([⟨r0_0, p0⟩] : List (View.Piece (Elt F) S128x2048 .bf16)), y ∈ pc.1.set :=
  View.cover_of_tiled [⟨r0_0, p0⟩] S128x2048.size (by rfl) y

/-! ## The body's triple -/

set_option maxHeartbeats 2000000 in
/-- The body on whole staging buffers, the inputs' at contents `x0 … x3` and the outputs' at anything, leaves the inputs'
    as they were and each output's at its `out0_W` of the inputs'. -/
theorem sound_kernel0 (c : Dev nD) (E : Set ℕ) (i : grid0.Coords) (arg0 : Memref sig .tc .vmem S128x2048 .bf16) (harg0 : arg0.IsWhole) (arg1 : Memref sig .tc .vmem S2048x2048 .bf16) (harg1 : arg1.IsWhole) (arg2 : Memref sig .tc .vmem S2048x2048 .bf16) (harg2 : arg2.IsWhole) (arg3 : Memref sig .tc .vmem S2048x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S128x2048 .bf16) (harg6 : arg6.IsWhole)
    (x0 : Vec F S128x2048 .bf16) (x1 : Vec F S2048x2048 .bf16) (x2 : Vec F S2048x2048 .bf16) (x3 : Vec F S2048x2048 .bf16) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1) ∗ owns (c : Thread nD τ) arg5 fullShare (out0_5 x0 x2) ∗ owns (c : Thread nD τ) arg6 fullShare (out0_6 x0 x3)) -∗ K ⟨⟩))
      ⊢ wp frame (wpE (defs₀ (F := F)) Variants.none c none) E (cc0__qkv_kernel i arg0 harg0 arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The launch's proof data -/

/-- The proof data of the launch on core `c`: the arrays as the launch finds them; after the body at point `t` each input's
    buffer at its block and each output's at the product of the row block with its weight; the invariant the untouched
    scoped buffers and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Reg2.lean ====
/-
  The third launch (the output projection), one grid point at a time.

  Each of its 8 grid points reads a [512,2048] block of the context rows and the whole [2048,2048] weight, and
  stores the product of the block with the transposed weight, accumulated from zero, over its whole [512,2048]
  output block. Nothing is kept between points. This module states, at the buffer contents V the launch finds,
  what each window's staging buffer holds after the body at a point (the inputs their blocks, the output the
  product of the two input blocks), and proves that the body run on buffers holding the blocks leaves exactly that.
-/
import proofs.«117884_j83708912599078_2_alg».proof.Proof.Gen.Kernel.Launch
import proofs.«117884_j83708912599078_2_alg».proof.Proof.Gen.Kernel.Skeleton
import proofs.«117884_j83708912599078_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The context window's buffer holds its block at every point, for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's buffer holds the whole weight at every point, fetched there or not: its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window whole -/

abbrev r2_0 : Rect S512x2048 := Rect.unit (s := S512x2048) ![0, 0] S512x2048.size inb_S512x2048_S512x2048_0_0
abbrev r2_1 : Rect S2048x2048 := Rect.unit (s := S2048x2048) ![0, 0] S2048x2048.size inb_S2048x2048_S2048x2048_0_0

/-! ## What the body leaves in the output window's buffer -/

/-- The output buffer after the body, from the two input blocks: the one store, of the product, over the whole buffer. -/
def out2_2 (x0 : Vec F S512x2048 .bf16) (x1 : Vec F S2048x2048 .bf16) : Vec F S512x2048 .f32 :=
  View.canon [⟨r2_0, k2_pay1 (View.ld x0 r2_0) (View.ld x1 r2_1)⟩]

/-- The store covers the buffer. -/
theorem cover2_2 (p0 : Vec F S512x2048 .f32) (y : S512x2048.Idx) :
    ∃ pc ∈ ([⟨r2_0, p0⟩] : List (View.Piece (Elt F) S512x2048 .f32)), y ∈ pc.1.set :=
  View.cover_of_tiled [⟨r2_0, p0⟩] S512x2048.size (by rfl) y

/-! ## The body's triple -/

set_option maxHeartbeats 1000000 in
/-- The body on whole staging buffers, the inputs' at contents `x0`, `x1` and the output's at anything, leaves the inputs'
    as they were and the output's at `out2_2 x0 x1`. -/
theorem sound_kernel2 (c : Dev nD) (E : Set ℕ) (i : grid2.Coords) (arg0 : Memref sig .tc .vmem S512x2048 .bf16) (harg0 : arg0.IsWhole) (arg1 : Memref sig .tc .vmem S2048x2048 .bf16) (harg1 : arg1.IsWhole) (arg2 : Memref sig .tc .vmem S512x2048 .f32) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The launch's proof data -/

/-- The proof data of the launch on core `c`: the arrays as the launch finds them; after the body at point `t` each input's
    buffer at its block and the output's at the product of the two blocks; the invariant the untouched scoped buffers
    and generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what is
    owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Reg1Defs.lean ====
/-
  The attention region (the second pallas_call): what its four carried scratch buffers and its output block hold
  after each grid point, and the proof data of its pipeline.

  The grid is (batch, head, key block); the third coordinate `ki` runs over the four blocks of 512 keys of a head.
  The scratch buffers hold, for the 2048 query rows of the head, the running maximum `m`, the running denominator
  `l`, the running accumulator `acc` of the online softmax, and the rotated queries. At `ki = 0` they are
  initialised (maximum at the named constant, denominator and accumulator at zero, the queries rotated by the whole
  cosine / sine tables); at every `ki` the query chunks of 512 rows that the causal mask lets see key block `ki`
  (chunks `ki, …, 3`) are updated against the rotated key block and the value block; at `ki = 3` the output block is
  `acc / l`, rounded. The contents are stated through the payload functions of the kernel's skeleton, chunk by chunk,
  a load as the rows read (`View.ld`) and a store as the rows replaced (`Rect.overlay`).
-/
import proofs.«117884_j83708912599078_2_alg».proof.Proof.Gen.Kernel.Launch
import proofs.«117884_j83708912599078_2_alg».proof.Proof.Gen.Kernel.Skeleton
import proofs.«117884_j83708912599078_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Row chunks -/

/-- Rows [0, 512) of a 2048-row column vector. -/
abbrev rM0 : Rect S2048x1 := Rect.unit (s := S2048x1) ![0, 0] S512x1.size inb_S2048x1_S512x1_0_0
/-- Rows [0, 512) of a 2048 x 128 matrix. -/
abbrev rA0 : Rect S2048x128 := Rect.unit (s := S2048x128) ![0, 0] S512x128.size inb_S2048x128_S512x128_0_0
/-- Rows [512, 1024) of a 2048-row column vector. -/
abbrev rM1 : Rect S2048x1 := Rect.unit (s := S2048x1) ![512, 0] S512x1.size inb_S2048x1_S512x1_512_0
/-- Rows [512, 1024) of a 2048 x 128 matrix. -/
abbrev rA1 : Rect S2048x128 := Rect.unit (s := S2048x128) ![512, 0] S512x128.size inb_S2048x128_S512x128_512_0
/-- Rows [1024, 1536) of a 2048-row column vector. -/
abbrev rM2 : Rect S2048x1 := Rect.unit (s := S2048x1) ![1024, 0] S512x1.size inb_S2048x1_S512x1_1024_0
/-- Rows [1024, 1536) of a 2048 x 128 matrix. -/
abbrev rA2 : Rect S2048x128 := Rect.unit (s := S2048x128) ![1024, 0] S512x128.size inb_S2048x128_S512x128_1024_0
/-- Rows [1536, 2048) of a 2048-row column vector. -/
abbrev rM3 : Rect S2048x1 := Rect.unit (s := S2048x1) ![1536, 0] S512x1.size inb_S2048x1_S512x1_1536_0
/-- Rows [1536, 2048) of a 2048 x 128 matrix. -/
abbrev rA3 : Rect S2048x128 := Rect.unit (s := S2048x128) ![1536, 0] S512x128.size inb_S2048x128_S512x128_1536_0

/-- The running maximum, the running denominator and the running accumulator of a head's 2048 query rows. -/
abbrev St1 (F : FTy → Type) : Type := Vec F S2048x1 .f32 × Vec F S2048x1 .f32 × Vec F S2048x128 .f32
/-- The output block, then the four scratch buffers: maximum, denominator, accumulator, rotated queries. -/
abbrev Out1 (F : FTy → Type) : Type :=
  Vec F S1x2048x128 .bf16 × Vec F S2048x1 .f32 × Vec F S2048x1 .f32 × Vec F S2048x128 .f32 × Vec F S2048x128 .bf16

/-- The tuple from its parts. -/
abbrev outOf (o : Vec F S1x2048x128 .bf16) (sq : Vec F S2048x128 .bf16) (s : St1 F) : Out1 F := (o, s.1, s.2.1, s.2.2, sq)

/-- The online-softmax update of query rows [0, 512) against one block of 512 keys: with `qc` the rotated
    query rows, `mc`, `lc`, `ac` the rows' running maximum, denominator and accumulator, the new maximum is
    `max mc (rowmax s)` for the masked scaled scores `s`, the denominator `exp (mc - m') * lc + rowsum (exp (s - m'))`
    and the accumulator `exp (mc - m') * ac + exp (s - m') v`; the other rows are kept. -/
def chunk0 (v18 v20 : FVec F S512x128 .bf16) (v24 : IVec S512x512 32) (sq : Vec F S2048x128 .bf16) (s : St1 F) : St1 F :=
  (rM0.overlay s.1 (k1_pay35 (k1_pay5 v18 v24 (View.ld sq rA0) (View.ld s.1 rM0))),
   rM0.overlay s.2.1 (k1_pay8 v18 v24 (View.ld sq rA0) (View.ld s.1 rM0) (View.ld s.2.1 rM0)),
   rA0.overlay s.2.2 (k1_pay9 v18 v20 v24 (View.ld sq rA0) (View.ld s.1 rM0) (View.ld s.2.2 rA0)))

/-- The online-softmax update of query rows [512, 1024) against one block of 512 keys: with `qc` the rotated
    query rows, `mc`, `lc`, `ac` the rows' running maximum, denominator and accumulator, the new maximum is
    `max mc (rowmax s)` for the masked scaled scores `s`, the denominator `exp (mc - m') * lc + rowsum (exp (s - m'))`
    and the accumulator `exp (mc - m') * ac + exp (s - m') v`; the other rows are kept. -/
def chunk1 (v18 v20 : FVec F S512x128 .bf16) (v24 : IVec S512x512 32) (sq : Vec F S2048x128 .bf16) (s : St1 F) : St1 F :=
  (rM1.overlay s.1 (k1_pay36 (k1_pay11 v18 v24 (View.ld sq rA1) (View.ld s.1 rM1))),
   rM1.overlay s.2.1 (k1_pay14 v18 v24 (View.ld sq rA1) (View.ld s.1 rM1) (View.ld s.2.1 rM1)),
   rA1.overlay s.2.2 (k1_pay15 v18 v20 v24 (View.ld sq rA1) (View.ld s.1 rM1) (View.ld s.2.2 rA1)))

/-- The online-softmax update of query rows [1024, 1536) against one block of 512 keys: with `qc` the rotated
    query rows, `mc`, `lc`, `ac` the rows' running maximum, denominator and accumulator, the new maximum is
    `max mc (rowmax s)` for the masked scaled scores `s`, the denominator `exp (mc - m') * lc + rowsum (exp (s - m'))`
    and the accumulator `exp (mc - m') * ac + exp (s - m') v`; the other rows are kept. -/
def chunk2 (v18 v20 : FVec F S512x128 .bf16) (v24 : IVec S512x512 32) (sq : Vec F S2048x128 .bf16) (s : St1 F) : St1 F :=
  (rM2.overlay s.1 (k1_pay1 (k1_pay17 v18 v24 (View.ld sq rA2) (View.ld s.1 rM2))),
   rM2.overlay s.2.1 (k1_pay20 v18 v24 (View.ld sq rA2) (View.ld s.1 rM2) (View.ld s.2.1 rM2)),
   rA2.overlay s.2.2 (k1_pay21 v18 v20 v24 (View.ld sq rA2) (View.ld s.1 rM2) (View.ld s.2.2 rA2)))

/-- The online-softmax update of query rows [1536, 2048) against one block of 512 keys: with `qc` the rotated
    query rows, `mc`, `lc`, `ac` the rows' running maximum, denominator and accumulator, the new maximum is
    `max mc (rowmax s)` for the masked scaled scores `s`, the denominator `exp (mc - m') * lc + rowsum (exp (s - m'))`
    and the accumulator `exp (mc - m') * ac + exp (s - m') v`; the other rows are kept. -/
def chunk3 (v18 v20 : FVec F S512x128 .bf16) (v24 : IVec S512x512 32) (sq : Vec F S2048x128 .bf16) (s : St1 F) : St1 F :=
  (rM3.overlay s.1 (k1_pay2 (k1_pay23 v18 v24 (View.ld sq rA3) (View.ld s.1 rM3))),
   rM3.overlay s.2.1 (k1_pay26 v18 v24 (View.ld sq rA3) (View.ld s.1 rM3) (View.ld s.2.1 rM3)),
   rA3.overlay s.2.2 (k1_pay27 v18 v20 v24 (View.ld sq rA3) (View.ld s.1 rM3) (View.ld s.2.2 rA3)))

/-! ## What a point leaves, case by case -/

/-- One staging buffer of the output window, through which a placeholder for its contents at the points that store
    nothing into it is stated. -/
abbrev VO1_7 : View sig .tc .vmem S1x2048x128 .bf16 := (Memref.whole cc1_stg7_0 : Memref sig .tc .vmem S1x2048x128 .bf16).view
/-- The placeholder: at the points with `ki ≠ 3` nothing is stored into the output window, which is neither written
    back there nor read at the next point. -/
def oIdle1 : Vec F S1x2048x128 .bf16 := VO1_7.read (Elt F) VO1_7.junk

/-- `ki = 0`: the scratch buffers initialised (`x0` the query block, `x3`, `x4` the whole cosine and sine tables), then
    the four query chunks updated against the key block `x1` (rotated by its cosine and sine blocks `x5`, `x6`) and the
    value block `x2`. -/
def case1_A (i : grid1.Coords) (x0 : Vec F S1x2048x128 .bf16) (x1 x2 : Vec F S1x512x128 .bf16) (x3 x4 : Vec F S2048x128 .f32)
    (x5 x6 : Vec F S512x128 .f32) : Out1 F :=
  outOf oIdle1 (k1_pay31 x0 x3 x4)
    (chunk3 (k1_pay32 x1 x5 x6) (k1_pay33 x2) (k1_pay34 i) (k1_pay31 x0 x3 x4) (chunk2 (k1_pay32 x1 x5 x6) (k1_pay33 x2) (k1_pay34 i) (k1_pay31 x0 x3 x4) (chunk1 (k1_pay32 x1 x5 x6) (k1_pay33 x2) (k1_pay34 i) (k1_pay31 x0 x3 x4)
      (chunk0 (k1_pay32 x1 x5 x6) (k1_pay33 x2) (k1_pay34 i) (k1_pay31 x0 x3 x4) (k1_pay28, k1_pay29, k1_pay30)))))

/-- `ki = 1`: chunks 1, 2, 3 updated over what the point before left (`p`). -/
def case1_B (i : grid1.Coords) (x1 x2 : Vec F S1x512x128 .bf16) (x5 x6 : Vec F S512x128 .f32) (p : Out1 F) : Out1 F :=
  outOf oIdle1 p.2.2.2.2
    (chunk3 (k1_pay32 x1 x5 x6) (k1_pay33 x2) (k1_pay34 i) p.2.2.2.2 (chunk2 (k1_pay32 x1 x5 x6) (k1_pay33 x2) (k1_pay34 i) p.2.2.2.2 (chunk1 (k1_pay32 x1 x5 x6) (k1_pay33 x2) (k1_pay34 i) p.2.2.2.2 (p.2.1, p.2.2.1, p.2.2.2.1))))

/-- `ki = 2`: chunks 2, 3 updated. -/
def case1_C (i : grid1.Coords) (x1 x2 : Vec F S1x512x128 .bf16) (x5 x6 : Vec F S512x128 .f32) (p : Out1 F) : Out1 F :=
  outOf oIdle1 p.2.2.2.2
    (chunk3 (k1_pay32 x1 x5 x6) (k1_pay33 x2) (k1_pay34 i) p.2.2.2.2 (chunk2 (k1_pay32 x1 x5 x6) (k1_pay33 x2) (k1_pay34 i) p.2.2.2.2 (p.2.1, p.2.2.1, p.2.2.2.1)))

/-- `ki = 3`: chunk 3 updated, then the output block is the accumulator over the denominator, rounded. -/
def case1_D (i : grid1.Coords) (x1 x2 : Vec F S1x512x128 .bf16) (x5 x6 : Vec F S512x128 .f32) (p : Out1 F) : Out1 F :=
  outOf (k1_pay3 (chunk3 (k1_pay32 x1 x5 x6) (k1_pay33 x2) (k1_pay34 i) p.2.2.2.2 (p.2.1, p.2.2.1, p.2.2.2.1)).2.2 (chunk3 (k1_pay32 x1 x5 x6) (k1_pay33 x2) (k1_pay34 i) p.2.2.2.2 (p.2.1, p.2.2.1, p.2.2.2.1)).2.1) p.2.2.2.2
    (chunk3 (k1_pay32 x1 x5 x6) (k1_pay33 x2) (k1_pay34 i) p.2.2.2.2 (p.2.1, p.2.2.1, p.2.2.2.1))

/-! ## The windows' blocks and the accumulation over the points -/

/-- Window `w`'s block at point `t`, read off its array as the region finds it (`V`). -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- What the output window's staging buffer and the four scratch buffers hold after the body at position `n`: the case
    of `n % 4` (the third grid coordinate), at the point's blocks, over what position `n - 1` left. -/
def outsAt1 (q1 : Fin cfg1.W → PosShare TreeShare) (V : (c : Dev nD) → (b : Ref sig .tc) → Buf (Elt F) ((c : Thread nD τ).loc b)) (c : Dev nD) : (n : ℕ) → n < cfg1.N → Out1 F
  | 0, hn => case1_A (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if h0 : (n + 1) % 4 = 0 then
      case1_A (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else if h1 : (n + 1) % 4 = 1 then
      case1_B (grid1.coords ⟨n + 1, hn⟩) (iblk1 V c 1 ⟨n + 1, hn⟩) (iblk1 V c 2 ⟨n + 1, hn⟩) (iblk1 V c 5 ⟨n + 1, hn⟩) (iblk1 V c 6 ⟨n + 1, hn⟩) (outsAt1 q1 V c n (Nat.lt_of_succ_lt hn))
    else if h2 : (n + 1) % 4 = 2 then
      case1_C (grid1.coords ⟨n + 1, hn⟩) (iblk1 V c 1 ⟨n + 1, hn⟩) (iblk1 V c 2 ⟨n + 1, hn⟩) (iblk1 V c 5 ⟨n + 1, hn⟩) (iblk1 V c 6 ⟨n + 1, hn⟩) (outsAt1 q1 V c n (Nat.lt_of_succ_lt hn))
    else
      case1_D (grid1.coords ⟨n + 1, hn⟩) (iblk1 V c 1 ⟨n + 1, hn⟩) (iblk1 V c 2 ⟨n + 1, hn⟩) (iblk1 V c 5 ⟨n + 1, hn⟩) (iblk1 V c 6 ⟨n + 1, hn⟩) (outsAt1 q1 V c n (Nat.lt_of_succ_lt hn))

/-- `outsAt1` at a point with `ki = 0`. -/
theorem outsAt1_A (q1 : Fin cfg1.W → PosShare TreeShare) (V : (c : Dev nD) → (b : Ref sig .tc) → Buf (Elt F) ((c : Thread nD τ).loc b)) (c : Dev nD) (t : Fin cfg1.N) (h : t.val % 4 = 0) :
    outsAt1 q1 V c t.val t.isLt = case1_A (grid1.coords t) (iblk1 V c 0 t) (iblk1 V c 1 t) (iblk1 V c 2 t) (iblk1 V c 3 t) (iblk1 V c 4 t) (iblk1 V c 5 t) (iblk1 V c 6 t) := by
  obtain ⟨n, hn⟩ := t
  cases n with
  | zero => rfl
  | succ n => exact dif_pos h

/-- `outsAt1` at a point with `ki = 1`: over what the point before left. -/
theorem outsAt1_B (q1 : Fin cfg1.W → PosShare TreeShare) (V : (c : Dev nD) → (b : Ref sig .tc) → Buf (Elt F) ((c : Thread nD τ).loc b)) (c : Dev nD) (t : Fin cfg1.N) (h : t.val % 4 = 1) :
    outsAt1 q1 V c t.val t.isLt = case1_B (grid1.coords t) (iblk1 V c 1 t) (iblk1 V c 2 t) (iblk1 V c 5 t) (iblk1 V c 6 t) (outsAt1 q1 V c (t.val - 1) (Nat.lt_of_le_of_lt (Nat.sub_le _ _) t.isLt)) := by
  obtain ⟨n, hn⟩ := t
  cases n with
  | zero => exact absurd (show 0 % 4 = _ from h) (by decide)
  | succ n => exact (dif_neg (by dsimp only at h; omega)).trans (dif_pos h)

/-- `outsAt1` at a point with `ki = 2`. -/
theorem outsAt1_C (q1 : Fin cfg1.W → PosShare TreeShare) (V : (c : Dev nD) → (b : Ref sig .tc) → Buf (Elt F) ((c : Thread nD τ).loc b)) (c : Dev nD) (t : Fin cfg1.N) (h : t.val % 4 = 2) :
    outsAt1 q1 V c t.val t.isLt = case1_C (grid1.coords t) (iblk1 V c 1 t) (iblk1 V c 2 t) (iblk1 V c 5 t) (iblk1 V c 6 t) (outsAt1 q1 V c (t.val - 1) (Nat.lt_of_le_of_lt (Nat.sub_le _ _) t.isLt)) := by
  obtain ⟨n, hn⟩ := t
  cases n with
  | zero => exact absurd (show 0 % 4 = _ from h) (by decide)
  | succ n => exact (dif_neg (by dsimp only at h; omega)).trans ((dif_neg (by dsimp only at h; omega)).trans (dif_pos h))

/-- `outsAt1` at a point with `ki = 3`. -/
theorem outsAt1_D (q1 : Fin cfg1.W → PosShare TreeShare) (V : (c : Dev nD) → (b : Ref sig .tc) → Buf (Elt F) ((c : Thread nD τ).loc b)) (c : Dev nD) (t : Fin cfg1.N) (h : t.val % 4 = 3) :
    outsAt1 q1 V c t.val t.isLt = case1_D (grid1.coords t) (iblk1 V c 1 t) (iblk1 V c 2 t) (iblk1 V c 5 t) (iblk1 V c 6 t) (outsAt1 q1 V c (t.val - 1) (Nat.lt_of_le_of_lt (Nat.sub_le _ _) t.isLt)) := by
  obtain ⟨n, hn⟩ := t
  cases n with
  | zero => exact absurd (show 0 % 4 = _ from h) (by decide)
  | succ n => exact (dif_neg (by dsimp only at h; omega)).trans ((dif_neg (by dsimp only at h; omega)).trans (dif_neg (by dsimp only at h; omega)))

/-! ## The body's branch conditions, in closed form over the grid -/

/-- `ki = 0`, as the kernel computes it (the initialisation's condition). -/
abbrev cond1_0 (i : grid1.Coords) : Prop := Scalar.cmpi .ne (Scalar.extui (Scalar.cmpi .eq (BitVec.ofNat 32 (i 2).val) 0#32)) 0#32 = 1#1
/-- `512 ki ≤ 511`: chunk 0 sees key block `ki`. -/
abbrev cond1_1 (i : grid1.Coords) : Prop := Scalar.cmpi .ne (Scalar.extui (Scalar.cmpi .sle (Scalar.muli (BitVec.ofNat 32 (i 2).val) 512#32) 511#32)) 0#32 = 1#1
/-- `512 ki ≤ 1023`: chunk 1 does. -/
abbrev cond1_2 (i : grid1.Coords) : Prop := Scalar.cmpi .ne (Scalar.extui (Scalar.cmpi .sle (Scalar.muli (BitVec.ofNat 32 (i 2).val) 512#32) 1023#32)) 0#32 = 1#1
/-- `512 ki ≤ 1535`: chunk 2 does. -/
abbrev cond1_3 (i : grid1.Coords) : Prop := Scalar.cmpi .ne (Scalar.extui (Scalar.cmpi .sle (Scalar.muli (BitVec.ofNat 32 (i 2).val) 512#32) 1535#32)) 0#32 = 1#1
/-- `512 ki ≤ 2047`: chunk 3 does, always. -/
abbrev cond1_4 (i : grid1.Coords) : Prop := Scalar.cmpi .ne (Scalar.extui (Scalar.cmpi .sle (Scalar.muli (BitVec.ofNat 32 (i 2).val) 512#32) 2047#32)) 0#32 = 1#1
/-- `ki = 3`: the output block is stored. -/
abbrev cond1_5 (i : grid1.Coords) : Prop := k1_cond6 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 ≤ 1 :=
  (by decide +kernel : ∀ t : Fin grid1.N, cond1_2 (grid1.coords t) ↔ t.val % 4 ≤ 1)
theorem hcond1_3 : ∀ t : Fin cfg1.N, cond1_3 (grid1.coords t) ↔ t.val % 4 ≤ 2 :=
  (by decide +kernel : ∀ t : Fin grid1.N, cond1_3 (grid1.coords t) ↔ t.val % 4 ≤ 2)
theorem hcond1_4 : ∀ t : Fin cfg1.N, cond1_4 (grid1.coords t) :=
  (by decide +kernel : ∀ t : Fin grid1.N, cond1_4 (grid1.coords t))
theorem hcond1_5 : ∀ t : Fin cfg1.N, cond1_5 (grid1.coords t) ↔ t.val % 4 = 3 :=
  (by decide +kernel : ∀ t : Fin grid1.N, cond1_5 (grid1.coords t) ↔ t.val % 4 = 3)

/-! ## The staging and scratch memrefs, and the invariant between points -/

abbrev ms1_0 (t : Fin cfg1.N) : Memref sig .tc .vmem S1x2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048x128 .bf16 := win1_7.stage (cfg1.slots t 7)
abbrev hs1_7 (t : Fin cfg1.N) : (ms1_7 t).IsWhole := hstage1_7 ((cfg1.slots t 7).cast nbuf1_7)
/-- The scratch operands: whole scoped buffers of the kernel's own. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x128 .f32 := Memref.whole cc1_scratch2
abbrev scM1_3 : Memref sig .tc .vmem S2048x128 .bf16 := Memref.whole cc1_scratch3

/-- The region's invariant with the four scratch operands as memrefs owned at contents `s0 … s3` given by `S`, the core's
    other scoped buffers (the other regions' staging buffers) each at some contents, and the generator register at some
    state: `S` says, per scratch buffer, what is known of its contents. -/
def PhiWith (c : Dev nD) (S0 S1 S2 S3 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ S0 ∗ S1 ∗ S2 ∗ S3 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- What the launch hands the region is this with every scratch buffer at some contents. -/
theorem PhiA1_eq (c : Dev nD) :
    (Pipeline.ΦA spec1 c : sProp 𝕄)
      = PhiWith c iprop(∃ d, owns (c : Thread nD τ) scM1_0 fullShare d) iprop(∃ d, owns (c : Thread nD τ) scM1_1 fullShare d)
          iprop(∃ d, owns (c : Thread nD τ) scM1_2 fullShare d) iprop(∃ d, owns (c : Thread nD τ) scM1_3 fullShare d) := by
  unfold Pipeline.ΦA PhiWith; rw [scopedRest1_eq]; simp only [scM1_0, scM1_1, scM1_2, scM1_3, owns_whole]; try rfl

/-- The invariant before position `n`: before the first point what the launch hands over; afterwards the four scratch
    buffers at what the point before left in them. -/
def PhiS1 (q1 : Fin cfg1.W → PosShare TreeShare) (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => PhiWith c (owns (c : Thread nD τ) scM1_0 fullShare (outsAt1 q1 V c n hn).2.1) (owns (c : Thread nD τ) scM1_1 fullShare (outsAt1 q1 V c n hn).2.2.1)
      (owns (c : Thread nD τ) scM1_2 fullShare (outsAt1 q1 V c n hn).2.2.2.1) (owns (c : Thread nD τ) scM1_3 fullShare (outsAt1 q1 V c n hn).2.2.2.2)

theorem PhiS1_zero (q1 : Fin cfg1.W → PosShare TreeShare) (V : (c : Dev nD) → (b : Ref sig .tc) → Buf (Elt F) ((c : Thread nD τ).loc b)) (c : Dev nD) (n : ℕ) (h : n ≤ cfg1.N) (hz : n = 0) : PhiS1 q1 V c n h = Pipeline.ΦA spec1 c := by
  subst hz; rfl

theorem PhiS1_succ (q1 : Fin cfg1.W → PosShare TreeShare) (V : (c : Dev nD) → (b : Ref sig .tc) → Buf (Elt F) ((c : Thread nD τ).loc b)) (c : Dev nD) (n : ℕ) (hn : n < cfg1.N) :
    PhiS1 q1 V c (n + 1) hn = PhiWith c (owns (c : Thread nD τ) scM1_0 fullShare (outsAt1 q1 V c n hn).2.1) (owns (c : Thread nD τ) scM1_1 fullShare (outsAt1 q1 V c n hn).2.2.1)
      (owns (c : Thread nD τ) scM1_2 fullShare (outsAt1 q1 V c n hn).2.2.2.1) (owns (c : Thread nD τ) scM1_3 fullShare (outsAt1 q1 V c n hn).2.2.2.2) := rfl

theorem PhiS1_pos (q1 : Fin cfg1.W → PosShare TreeShare) (V : (c : Dev nD) → (b : Ref sig .tc) → Buf (Elt F) ((c : Thread nD τ).loc b)) (c : Dev nD) (n : ℕ) (h : n ≤ cfg1.N) (hz : n ≠ 0) :
    PhiS1 q1 V c n h = PhiWith c (owns (c : Thread nD τ) scM1_0 fullShare (outsAt1 q1 V c (n - 1) (by omega)).2.1) (owns (c : Thread nD τ) scM1_1 fullShare (outsAt1 q1 V c (n - 1) (by omega)).2.2.1)
      (owns (c : Thread nD τ) scM1_2 fullShare (outsAt1 q1 V c (n - 1) (by omega)).2.2.2.1) (owns (c : Thread nD τ) scM1_3 fullShare (outsAt1 q1 V c (n - 1) (by omega)).2.2.2.2) := by
  cases n with
  | zero => exact absurd rfl hz
  | succ n => rfl

/-! ## The pipeline's proof data -/

/-- The proof data of the attention pipeline on core `c`: the arrays as the region finds them (`V`); after the body at
    point `t` each input's buffer at its block and the output's at `outsAt1`'s first component; the invariant `PhiS1`;
    nothing owed; the arrays' shares `q1`. -/
def dat1 (q1 : Fin cfg1.W → PosShare TreeShare) (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 q1 V c t.val t.isLt).1
  Φ t := PhiS1 q1 V c t.val (Nat.le_of_lt_succ t.isLt)
  q := q1
  owed _ := 0

theorem A_eq1 (q1 : Fin cfg1.W → PosShare TreeShare) (V : (c : Dev nD) → (b : Ref sig .tc) → Buf (Elt F) ((c : Thread nD τ).loc b)) (c : Dev nD) (w : Fin cfg1.W) : (dat1 q1 V c).A w = V c (Pipeline.arrRef spec1 w) := by
  dsimp only [dat1]

theorem q_eq1 (q1 : Fin cfg1.W → PosShare TreeShare) (V : (c : Dev nD) → (b : Ref sig .tc) → Buf (Elt F) ((c : Thread nD τ).loc b)) (c : Dev nD) (w : Fin cfg1.W) : (dat1 q1 V c).q w = q1 w := by dsimp only [dat1]

theorem owed1 (q1 : Fin cfg1.W → PosShare TreeShare) (V : (c : Dev nD) → (b : Ref sig .tc) → Buf (Elt F) ((c : Thread nD τ).loc b)) (c : Dev nD) (t : Fin (cfg1.N + 1)) : (dat1 q1 V c).owed t = 0 := by dsimp only [dat1]

theorem PhiS1_castSucc (q1 : Fin cfg1.W → PosShare TreeShare) (V : (c : Dev nD) → (b : Ref sig .tc) → Buf (Elt F) ((c : Thread nD τ).loc b)) (c : Dev nD) (t : Fin cfg1.N) :
    (dat1 q1 V c).Φ t.castSucc = PhiS1 q1 V c t.val (Nat.le_of_lt t.isLt) := by
  dsimp only [dat1]; simp only [Fin.coe_castSucc]

theorem after1_0 (q1 : Fin cfg1.W → PosShare TreeShare) (V : (c : Dev nD) → (b : Ref sig .tc) → Buf (Elt F) ((c : Thread nD τ).loc b)) (c : Dev nD) (t : Fin cfg1.N) : (dat1 q1 V c).after 0 t = iblk1 V c 0 t := by dsimp only [dat1]
theorem after1_1 (q1 : Fin cfg1.W → PosShare TreeShare) (V : (c : Dev nD) → (b : Ref sig .tc) → Buf (Elt F) ((c : Thread nD τ).loc b)) (c : Dev nD) (t : Fin cfg1.N) : (dat1 q1 V c).after 1 t = iblk1 V c 1 t := by dsimp only [dat1]
theorem after1_2 (q1 : Fin cfg1.W → PosShare TreeShare) (V : (c : Dev nD) → (b : Ref sig .tc) → Buf (Elt F) ((c : Thread nD τ).loc b)) (c : Dev nD) (t : Fin cfg1.N) : (dat1 q1 V c).after 2 t = iblk1 V c 2 t := by dsimp only [dat1]
theorem after1_3 (q1 : Fin cfg1.W → PosShare TreeShare) (V : (c : Dev nD) → (b : Ref sig .tc) → Buf (Elt F) ((c : Thread nD τ).loc b)) (c : Dev nD) (t : Fin cfg1.N) : (dat1 q1 V c).after 3 t = iblk1 V c 3 t := by dsimp only [dat1]
theorem after1_4 (q1 : Fin cfg1.W → PosShare TreeShare) (V : (c : Dev nD) → (b : Ref sig .tc) → Buf (Elt F) ((c : Thread nD τ).loc b)) (c : Dev nD) (t : Fin cfg1.N) : (dat1 q1 V c).after 4 t = iblk1 V c 4 t := by dsimp only [dat1]
theorem after1_5 (q1 : Fin cfg1.W → PosShare TreeShare) (V : (c : Dev nD) → (b : Ref sig .tc) → Buf (Elt F) ((c : Thread nD τ).loc b)) (c : Dev nD) (t : Fin cfg1.N) : (dat1 q1 V c).after 5 t = iblk1 V c 5 t := by dsimp only [dat1]
theorem after1_6 (q1 : Fin cfg1.W → PosShare TreeShare) (V : (c : Dev nD) → (b : Ref sig .tc) → Buf (Elt F) ((c : Thread nD τ).loc b)) (c : Dev nD) (t : Fin cfg1.N) : (dat1 q1 V c).after 6 t = iblk1 V c 6 t := by dsimp only [dat1]
theorem after1_7 (q1 : Fin cfg1.W → PosShare TreeShare) (V : (c : Dev nD) → (b : Ref sig .tc) → Buf (Elt F) ((c : Thread nD τ).loc b)) (c : Dev nD) (t : Fin cfg1.N) : (dat1 q1 V c).after 7 t = (outsAt1 q1 V c t.val t.isLt).1 := by dsimp only [dat1]

end Cert.Kernel.Hand

end
-- ==== Proof.K_Chain.lean ====
/-
  @main of the kernel as a chain of seven items — host operations, launch 0 (the three projections), host operations,
  launch 1 (the tiled attention), a reshape, launch 2 (the output projection), a reshape — and what every buffer
  that outlives a launch holds between two items: the launch memory, then each stretch of host operations applied,
  then each launch's arrays at what its write-backs leave. Each launch is entered holding every such buffer whole;
  its windows' arrays are taken out for the launch and put back after it. Launch 1 reads the cosine table through
  two windows and the sine table through two windows: each table's buffer is held in two halves while it runs.
-/
import proofs.«117884_j83708912599078_2_alg».proof.Proof.Gen.Kernel.Launch
import proofs.«117884_j83708912599078_2_alg».proof.Proof.Gen.Kernel.Skeleton
import proofs.«117884_j83708912599078_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117884_j83708912599078_2_alg».proof.Proof.LibFrameShared
import proofs.«117884_j83708912599078_2_alg».proof.Proof.K_Reg0
import proofs.«117884_j83708912599078_2_alg».proof.Proof.K_Reg2
import proofs.«117884_j83708912599078_2_alg».proof.Proof.K_Reg1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev VT (F : FTy → Type) : Type := (c : Dev nD) → (b : Ref sig .tc) → Buf (Elt F) ((c : Thread nD τ).loc b)

variable (m : (ℓ : Loc nD τ sig) → Buf (Elt F) ℓ) (ρ : Dev nD → PrngReg)

/-! ## The buffers' contents at each boundary of @main -/

/-- The shares of region 1's input arrays: the cosine table is read through windows 3 and 5, the sine table through
    windows 4 and 6; each table's full share is split between its two windows. -/
def q1 : Fin cfg1.W → PosShare TreeShare
  | ⟨3, _⟩ => fullShare.left | ⟨4, _⟩ => fullShare.left | ⟨5, _⟩ => fullShare.right | ⟨6, _⟩ => fullShare.right | _ => fullShare

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : VT F := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : VT F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : VT F := fun c b => W3 m ρ c b
/-- Region 1 writes one array, the attention output. -/
def W4 (c : Dev nD) : Valuation τ sig (Elt F) :=
  Function.update (W3 m ρ c) (Proc.devRef .tc main_v12) ((dat1 q1 (V3 m ρ) c).arrAt 7 cfg1.N)
abbrev V4 : VT F := fun c b => W4 m ρ c b
theorem W4_out (c : Dev nD) : V4 m ρ c main_v12 = (dat1 q1 (V3 m ρ) c).arrAt 7 cfg1.N := by
  show Function.update _ _ _ _ = _; exact Function.update_self ..
theorem W4_of_ne (c : Dev nD) (b : Ref sig .tc) (hb : b ≠ main_v12) : V4 m ρ c b = V3 m ρ c b := by
  show Function.update _ _ _ _ = _
  exact Function.update_of_ne (StableHlo.devRef_ne_of_ne hb) ..

abbrev W5 : Dev nD → Valuation τ sig (Elt F) := fun c => StableHlo.after hostOps2 (W4 m ρ c)
abbrev V5 : VT F := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : VT F := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
abbrev W7 : Dev nD → Valuation τ sig (Elt F) := fun c => StableHlo.after hostOps3 (W6 m ρ c)

/-! ## The proof data family and the thread state -/

abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 q1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered holding every unscoped buffer at the contents before it, left holding them at
    the contents after it; its arrays are split out of the unscoped buffers and put back; nothing owed; no semaphore of
    the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m ρ 0 c).owed 0 = 0 from rfl]
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ 0 c).owed (Fin.last _) = 0 from rfl]
    iexact HO

set_option backward.isDefEq.respectTransparency.types false in
/-- Region 2 over the thread state: entered holding every unscoped buffer at the contents before it, left holding them at
    the contents after it; its arrays are split out of the unscoped buffers and put back; nothing owed; no semaphore of
    the kernel's own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m ρ 2 c).owed 0 = 0 from rfl]
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ 2 c).owed (Fin.last _) = 0 from rfl]
    iexact HO

/-! ## Region 1: two of its arrays are each read through two windows -/

theorem arrRef1_0 : Pipeline.arrRef spec1 0 = main_v7 := rfl
theorem arrRef1_1 : Pipeline.arrRef spec1 1 = main_v8 := rfl
theorem arrRef1_2 : Pipeline.arrRef spec1 2 = main_v9 := rfl
theorem arrRef1_3 : Pipeline.arrRef spec1 3 = main_v10 := rfl
theorem arrRef1_4 : Pipeline.arrRef spec1 4 = main_v11 := rfl
theorem arrRef1_5 : Pipeline.arrRef spec1 5 = main_v10 := rfl
theorem arrRef1_6 : Pipeline.arrRef spec1 6 = main_v11 := rfl
theorem arrRef1_7 : Pipeline.arrRef spec1 7 = main_v12 := rfl

/-- The six distinct buffers behind region 1's eight windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = bigSepL [main_v7, main_v8, main_v9, main_v10, main_v11, main_v12] fun b => (((c : Thread nD τ).loc b) ↦{fullShare} V b : sProp 𝕄) := by
  unfold Pipeline.arrBufs; exact bigSep_eq_bigSepL_of_eq _ (by decide) (by decide) _

/-- Region 1's arrays, each at its window's share, are the six buffers whole: the two tables' halves recompose. -/
theorem arrays1_of_bufs (c : Dev nD) (dat : Dat τ (Elt F) Unit ℕ (UR sig nD τ) ℕ cfg1 c) (hq : ∀ w, dat.q w = q1 w)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊣⊢ dat.arrays G := by
  rw [arrBufs1_eq, Pipeline.SharedFrame.arrays_eq_shares dat arr_whole1 G, bigSep_W1]
  simp only [bigSepL, hG, Dat.share, hq]
  show iprop((((c : Thread nD τ).loc main_v7) ↦{fullShare} V main_v7) ∗ (((c : Thread nD τ).loc main_v8) ↦{fullShare} V main_v8)
        ∗ (((c : Thread nD τ).loc main_v9) ↦{fullShare} V main_v9) ∗ (((c : Thread nD τ).loc main_v10) ↦{fullShare} V main_v10)
        ∗ (((c : Thread nD τ).loc main_v11) ↦{fullShare} V main_v11) ∗ (((c : Thread nD τ).loc main_v12) ↦{fullShare} V main_v12))
      ⊣⊢ (iprop((((c : Thread nD τ).loc main_v7) ↦{fullShare} V main_v7) ∗ (((c : Thread nD τ).loc main_v8) ↦{fullShare} V main_v8)
        ∗ (((c : Thread nD τ).loc main_v9) ↦{fullShare} V main_v9) ∗ (((c : Thread nD τ).loc main_v10) ↦{fullShare.left} V main_v10)
        ∗ (((c : Thread nD τ).loc main_v11) ↦{fullShare.left} V main_v11) ∗ (((c : Thread nD τ).loc main_v10) ↦{fullShare.right} V main_v10)
        ∗ (((c : Thread nD τ).loc main_v11) ↦{fullShare.right} V main_v11) ∗ (((c : Thread nD τ).loc main_v12) ↦{fullShare} V main_v12)) : sProp 𝕄)
  have h10 : ((((c : Thread nD τ).loc main_v10) ↦{fullShare} V main_v10) : sProp 𝕄)
      ⊣⊢ iprop((((c : Thread nD τ).loc main_v10) ↦{fullShare.left} V main_v10) ∗ (((c : Thread nD τ).loc main_v10) ↦{fullShare.right} V main_v10)) :=
    pointsTo_share (PosShare.mem_left_op_right fullShare)
  have h11 : ((((c : Thread nD τ).loc main_v11) ↦{fullShare} V main_v11) : sProp 𝕄)
      ⊣⊢ iprop((((c : Thread nD τ).loc main_v11) ↦{fullShare.left} V main_v11) ∗ (((c : Thread nD τ).loc main_v11) ↦{fullShare.right} V main_v11)) :=
    pointsTo_share (PosShare.mem_left_op_right fullShare)
  have h10a := h10.1
  have h10b := h10.2
  have h11a := h11.1
  have h11b := h11.2
  constructor
  · iintro ⟨H7, H8, H9, H10, H11, H12⟩
    ihave H10' := h10a $$ H10
    ihave H11' := h11a $$ H11
    icases H10' with ⟨H10l, H10r⟩
    icases H11' with ⟨H11l, H11r⟩
    isplitl [H7]; · iexact H7
    isplitl [H8]; · iexact H8
    isplitl [H9]; · iexact H9
    isplitl [H10l]; · iexact H10l
    isplitl [H11l]; · iexact H11l
    isplitl [H10r]; · iexact H10r
    isplitl [H11r]; · iexact H11r
    iexact H12
  · iintro ⟨H7, H8, H9, H10l, H11l, H10r, H11r, H12⟩
    isplitl [H7]; · iexact H7
    isplitl [H8]; · iexact H8
    isplitl [H9]; · iexact H9
    isplitl [H10l H10r]
    · iapply h10b; isplitl [H10l] <;> iassumption
    isplitl [H11l H11r]
    · iapply h11b; isplitl [H11l] <;> iassumption
    iexact H12

theorem hF1 (c : Dev nD) (w : Fin cfg1.W) : (dat1 q1 (V3 m ρ) c).arrAt w cfg1.N = V4 m ρ c (Pipeline.arrRef spec1 w) := by
  have hin : ∀ (w : Fin cfg1.W), (cfg1.win w).isOut = false → Pipeline.arrRef spec1 w ≠ main_v12 →
      (dat1 q1 (V3 m ρ) c).arrAt w cfg1.N = V4 m ρ c (Pipeline.arrRef spec1 w) := fun w ho hne =>
    ((dat1 q1 (V3 m ρ) c).arrAt_in w ho _).trans ((A_eq1 q1 (V3 m ρ) c w).trans (W4_of_ne m ρ c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact (W4_out m ρ c).symm

theorem rest1_eq (c : Dev nD) :
    (Pipeline.unscopedRest (Ix := Unit) (Name := ℕ) (U := UR sig nD τ) (Lvl := ℕ) spec1 c (V3 m ρ c) : sProp 𝕄)
      = Pipeline.unscopedRest spec1 c (V4 m ρ c) := by
  unfold Pipeline.unscopedRest
  refine bigSep_congr fun b hb => ?_
  have hne : b ≠ main_v12 := fun e =>
    (Finset.mem_sdiff.mp hb).2 (Finset.mem_image.mpr ⟨7, Finset.mem_univ _, e ▸ rfl⟩)
  rw [W4_of_ne m ρ c b hne]

end Cert.Kernel.Hand

end
-- ==== Proof.K_Reg1Parts.lean ====
/-
  The attention kernel's four chunk updates, each proved once over arbitrary contents of the scratch buffers, and how a
  buffer reads after one more store: the rows stored replaced, the others kept.
-/
import proofs.«117884_j83708912599078_2_alg».proof.Proof.K_Reg1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- After one more unmasked store through rectangle `r`, a buffer reads as before with `r`'s elements replaced by the
    payload. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- A load through a rectangle of a whole memref held at the raw contents that read `X` reads `X`'s elements there. -/
theorem readAt_unread_eq_ld {κ : Kind} {sp : Space} {s : Shape} {e : EltTy} {Val : EltTy → Type} {m : Memref sig κ sp s e}
    (h : m.IsWhole) (X : s.Idx → Val e) (r : Rect s) :
    View.readAt Val m.view r.toLoadRect (h.unread X) = View.ld X r := by
  rw [View.readAt_eq_ld, h.read_unread]

/-- One store through the whole-shape rectangle at zero offsets leaves its payload, whatever was there. -/
theorem overlay_unit_zero {S : Shape} {α : Type} {off : Fin S.rank → Nat} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rw [Rect.emb_whole_apply] at e
  exact e

theorem off_W1x512x128 : (![0, 0, 0] : Fin S1x512x128.rank → Nat) = fun _ => 0 := by funext a; fin_cases a <;> rfl
/-- A load through the whole of a `S1x512x128` buffer reads its contents, -/
theorem ld_W1x512x128 {Val : EltTy → Type} {e : EltTy} (X : S1x512x128.Idx → Val e) :
    View.ld X (Rect.unit (s := S1x512x128) ![0, 0, 0] S1x512x128.size inb_S1x512x128_S1x512x128_0_0_0) = X := View.ld_unit_zero off_W1x512x128 _ X
/-- and a store through the whole of it leaves the payload. -/
theorem overlay_W1x512x128 {α : Type} (X w : S1x512x128.Idx → α) :
    (Rect.unit (s := S1x512x128) ![0, 0, 0] S1x512x128.size inb_S1x512x128_S1x512x128_0_0_0).overlay X w = w := overlay_unit_zero off_W1x512x128 _ X w
theorem off_W512x128 : (![0, 0] : Fin S512x128.rank → Nat) = fun _ => 0 := by funext a; fin_cases a <;> rfl
/-- A load through the whole of a `S512x128` buffer reads its contents, -/
theorem ld_W512x128 {Val : EltTy → Type} {e : EltTy} (X : S512x128.Idx → Val e) :
    View.ld X (Rect.unit (s := S512x128) ![0, 0] S512x128.size inb_S512x128_S512x128_0_0) = X := View.ld_unit_zero off_W512x128 _ X
/-- and a store through the whole of it leaves the payload. -/
theorem overlay_W512x128 {α : Type} (X w : S512x128.Idx → α) :
    (Rect.unit (s := S512x128) ![0, 0] S512x128.size inb_S512x128_S512x128_0_0).overlay X w = w := overlay_unit_zero off_W512x128 _ X w
theorem off_W2048x128 : (![0, 0] : Fin S2048x128.rank → Nat) = fun _ => 0 := by funext a; fin_cases a <;> rfl
/-- A load through the whole of a `S2048x128` buffer reads its contents, -/
theorem ld_W2048x128 {Val : EltTy → Type} {e : EltTy} (X : S2048x128.Idx → Val e) :
    View.ld X (Rect.unit (s := S2048x128) ![0, 0] S2048x128.size inb_S2048x128_S2048x128_0_0) = X := View.ld_unit_zero off_W2048x128 _ X
/-- and a store through the whole of it leaves the payload. -/
theorem overlay_W2048x128 {α : Type} (X w : S2048x128.Idx → α) :
    (Rect.unit (s := S2048x128) ![0, 0] S2048x128.size inb_S2048x128_S2048x128_0_0).overlay X w = w := overlay_unit_zero off_W2048x128 _ X w
theorem off_W2048x1 : (![0, 0] : Fin S2048x1.rank → Nat) = fun _ => 0 := by funext a; fin_cases a <;> rfl
/-- A load through the whole of a `S2048x1` buffer reads its contents, -/
theorem ld_W2048x1 {Val : EltTy → Type} {e : EltTy} (X : S2048x1.Idx → Val e) :
    View.ld X (Rect.unit (s := S2048x1) ![0, 0] S2048x1.size inb_S2048x1_S2048x1_0_0) = X := View.ld_unit_zero off_W2048x1 _ X
/-- and a store through the whole of it leaves the payload. -/
theorem overlay_W2048x1 {α : Type} (X w : S2048x1.Idx → α) :
    (Rect.unit (s := S2048x1) ![0, 0] S2048x1.size inb_S2048x1_S2048x1_0_0).overlay X w = w := overlay_unit_zero off_W2048x1 _ X w
theorem off_W1x2048x128 : (![0, 0, 0] : Fin S1x2048x128.rank → Nat) = fun _ => 0 := by funext a; fin_cases a <;> rfl
/-- A load through the whole of a `S1x2048x128` buffer reads its contents, -/
theorem ld_W1x2048x128 {Val : EltTy → Type} {e : EltTy} (X : S1x2048x128.Idx → Val e) :
    View.ld X (Rect.unit (s := S1x2048x128) ![0, 0, 0] S1x2048x128.size inb_S1x2048x128_S1x2048x128_0_0_0) = X := View.ld_unit_zero off_W1x2048x128 _ X
/-- and a store through the whole of it leaves the payload. -/
theorem overlay_W1x2048x128 {α : Type} (X w : S1x2048x128.Idx → α) :
    (Rect.unit (s := S1x2048x128) ![0, 0, 0] S1x2048x128.size inb_S1x2048x128_S1x2048x128_0_0_0).overlay X w = w := overlay_unit_zero off_W1x2048x128 _ X w

set_option maxHeartbeats 1000000 in
/-- The update of query rows [0, 512) as the kernel's part runs it, over ANY contents of the four scratch buffers: it
    reads the rows of the rotated queries, the maximum, the denominator and the accumulator, stores the rows' new
    denominator and accumulator, and returns the rows' new maximum. -/
theorem part1_run (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (v18 v20 : FVec F S512x128 .bf16) (v24 : IVec S512x512 32)
    (f11 : arg11.view.ty.Contents (Elt F)) (f12 : arg12.view.ty.Contents (Elt F)) (f13 : arg13.view.ty.Contents (Elt F)) (f14 : arg14.view.ty.Contents (Elt F))
    (E : Set ℕ) :
    (iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) E (k1_part1 i arg3 harg3 arg4 harg4 arg5 harg5 arg6 harg6 arg7 harg7 arg8 harg8 arg9 harg9 arg10 harg10 arg11 harg11 arg12 harg12 arg13 harg13 arg14 harg14 v18 v20 v24)
          (fun r => iprop(⌜r.1 = k1_pay5 v18 v24 (View.readAt (Elt F) arg14.view rA0.toLoadRect f14) (View.readAt (Elt F) arg11.view rM0.toLoadRect f11)⌝
            ∗ (arg11.view.loc (c : Thread nD τ) ↦[arg11.view.set]{fullShare} f11)
            ∗ (arg12.view.loc (c : Thread nD τ) ↦[arg12.view.set]{fullShare} (arg12.view.writes (Elt F) f12 [⟨rM0, k1_pay8 v18 v24 (View.readAt (Elt F) arg14.view rA0.toLoadRect f14) (View.readAt (Elt F) arg11.view rM0.toLoadRect f11) (View.readAt (Elt F) arg12.view rM0.toLoadRect f12)⟩]))
            ∗ (arg13.view.loc (c : Thread nD τ) ↦[arg13.view.set]{fullShare} (arg13.view.writes (Elt F) f13 [⟨rA0, k1_pay9 v18 v20 v24 (View.readAt (Elt F) arg14.view rA0.toLoadRect f14) (View.readAt (Elt F) arg11.view rM0.toLoadRect f11) (View.readAt (Elt F) arg13.view rA0.toLoadRect f13)⟩]))
            ∗ (arg14.view.loc (c : Thread nD τ) ↦[arg14.view.set]{fullShare} f14))) := by
  simp only [k1_part1_eq_skeleton]; unfold k1_part1_skel
  iintro ⟨H11, H12, H13, H14⟩
  sl_exec
  sl_step
  isplitr; · ipureintro; rfl
  isplitl [H11]; · iexact H11
  isplitl [H12]; · iexact H12
  isplitl [H13]; · iexact H13
  iexact H14

set_option maxHeartbeats 1000000 in
/-- The update of query rows [512, 1024) as the kernel's part runs it, over ANY contents of the four scratch buffers: it
    reads the rows of the rotated queries, the maximum, the denominator and the accumulator, stores the rows' new
    denominator and accumulator, and returns the rows' new maximum. -/
theorem part2_run (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (v18 v20 : FVec F S512x128 .bf16) (v24 : IVec S512x512 32)
    (f11 : arg11.view.ty.Contents (Elt F)) (f12 : arg12.view.ty.Contents (Elt F)) (f13 : arg13.view.ty.Contents (Elt F)) (f14 : arg14.view.ty.Contents (Elt F))
    (E : Set ℕ) :
    (iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) E (k1_part2 i arg3 harg3 arg4 harg4 arg5 harg5 arg6 harg6 arg7 harg7 arg8 harg8 arg9 harg9 arg10 harg10 arg11 harg11 arg12 harg12 arg13 harg13 arg14 harg14 v18 v20 v24)
          (fun r => iprop(⌜r.1 = k1_pay11 v18 v24 (View.readAt (Elt F) arg14.view rA1.toLoadRect f14) (View.readAt (Elt F) arg11.view rM1.toLoadRect f11)⌝
            ∗ (arg11.view.loc (c : Thread nD τ) ↦[arg11.view.set]{fullShare} f11)
            ∗ (arg12.view.loc (c : Thread nD τ) ↦[arg12.view.set]{fullShare} (arg12.view.writes (Elt F) f12 [⟨rM1, k1_pay14 v18 v24 (View.readAt (Elt F) arg14.view rA1.toLoadRect f14) (View.readAt (Elt F) arg11.view rM1.toLoadRect f11) (View.readAt (Elt F) arg12.view rM1.toLoadRect f12)⟩]))
            ∗ (arg13.view.loc (c : Thread nD τ) ↦[arg13.view.set]{fullShare} (arg13.view.writes (Elt F) f13 [⟨rA1, k1_pay15 v18 v20 v24 (View.readAt (Elt F) arg14.view rA1.toLoadRect f14) (View.readAt (Elt F) arg11.view rM1.toLoadRect f11) (View.readAt (Elt F) arg13.view rA1.toLoadRect f13)⟩]))
            ∗ (arg14.view.loc (c : Thread nD τ) ↦[arg14.view.set]{fullShare} f14))) := by
  simp only [k1_part2_eq_skeleton]; unfold k1_part2_skel
  iintro ⟨H11, H12, H13, H14⟩
  sl_exec
  sl_step
  isplitr; · ipureintro; rfl
  isplitl [H11]; · iexact H11
  isplitl [H12]; · iexact H12
  isplitl [H13]; · iexact H13
  iexact H14

set_option maxHeartbeats 1000000 in
/-- The update of query rows [1024, 1536) as the kernel's part runs it, over ANY contents of the four scratch buffers: it
    reads the rows of the rotated queries, the maximum, the denominator and the accumulator, stores the rows' new
    denominator and accumulator, and returns the rows' new maximum. -/
theorem part3_run (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (v18 v20 : FVec F S512x128 .bf16) (v24 : IVec S512x512 32)
    (f11 : arg11.view.ty.Contents (Elt F)) (f12 : arg12.view.ty.Contents (Elt F)) (f13 : arg13.view.ty.Contents (Elt F)) (f14 : arg14.view.ty.Contents (Elt F))
    (E : Set ℕ) :
    (iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) E (k1_part3 i arg3 harg3 arg4 harg4 arg5 harg5 arg6 harg6 arg7 harg7 arg8 harg8 arg9 harg9 arg10 harg10 arg11 harg11 arg12 harg12 arg13 harg13 arg14 harg14 v18 v20 v24)
          (fun r => iprop(⌜r.1 = k1_pay17 v18 v24 (View.readAt (Elt F) arg14.view rA2.toLoadRect f14) (View.readAt (Elt F) arg11.view rM2.toLoadRect f11)⌝
            ∗ (arg11.view.loc (c : Thread nD τ) ↦[arg11.view.set]{fullShare} f11)
            ∗ (arg12.view.loc (c : Thread nD τ) ↦[arg12.view.set]{fullShare} (arg12.view.writes (Elt F) f12 [⟨rM2, k1_pay20 v18 v24 (View.readAt (Elt F) arg14.view rA2.toLoadRect f14) (View.readAt (Elt F) arg11.view rM2.toLoadRect f11) (View.readAt (Elt F) arg12.view rM2.toLoadRect f12)⟩]))
            ∗ (arg13.view.loc (c : Thread nD τ) ↦[arg13.view.set]{fullShare} (arg13.view.writes (Elt F) f13 [⟨rA2, k1_pay21 v18 v20 v24 (View.readAt (Elt F) arg14.view rA2.toLoadRect f14) (View.readAt (Elt F) arg11.view rM2.toLoadRect f11) (View.readAt (Elt F) arg13.view rA2.toLoadRect f13)⟩]))
            ∗ (arg14.view.loc (c : Thread nD τ) ↦[arg14.view.set]{fullShare} f14))) := by
  simp only [k1_part3_eq_skeleton]; unfold k1_part3_skel
  iintro ⟨H11, H12, H13, H14⟩
  sl_exec
  sl_step
  isplitr; · ipureintro; rfl
  isplitl [H11]; · iexact H11
  isplitl [H12]; · iexact H12
  isplitl [H13]; · iexact H13
  iexact H14

set_option maxHeartbeats 1000000 in
/-- The update of query rows [1536, 2048) as the kernel's part runs it, over ANY contents of the four scratch buffers: it
    reads the rows of the rotated queries, the maximum, the denominator and the accumulator, stores the rows' new
    denominator and accumulator, and returns the rows' new maximum. -/
theorem part4_run (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (v18 v20 : FVec F S512x128 .bf16) (v24 : IVec S512x512 32)
    (f11 : arg11.view.ty.Contents (Elt F)) (f12 : arg12.view.ty.Contents (Elt F)) (f13 : arg13.view.ty.Contents (Elt F)) (f14 : arg14.view.ty.Contents (Elt F))
    (E : Set ℕ) :
    (iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) E (k1_part4 i arg3 harg3 arg4 harg4 arg5 harg5 arg6 harg6 arg7 harg7 arg8 harg8 arg9 harg9 arg10 harg10 arg11 harg11 arg12 harg12 arg13 harg13 arg14 harg14 v18 v20 v24)
          (fun r => iprop(⌜r.1 = k1_pay23 v18 v24 (View.readAt (Elt F) arg14.view rA3.toLoadRect f14) (View.readAt (Elt F) arg11.view rM3.toLoadRect f11)⌝
            ∗ (arg11.view.loc (c : Thread nD τ) ↦[arg11.view.set]{fullShare} f11)
            ∗ (arg12.view.loc (c : Thread nD τ) ↦[arg12.view.set]{fullShare} (arg12.view.writes (Elt F) f12 [⟨rM3, k1_pay26 v18 v24 (View.readAt (Elt F) arg14.view rA3.toLoadRect f14) (View.readAt (Elt F) arg11.view rM3.toLoadRect f11) (View.readAt (Elt F) arg12.view rM3.toLoadRect f12)⟩]))
            ∗ (arg13.view.loc (c : Thread nD τ) ↦[arg13.view.set]{fullShare} (arg13.view.writes (Elt F) f13 [⟨rA3, k1_pay27 v18 v20 v24 (View.readAt (Elt F) arg14.view rA3.toLoadRect f14) (View.readAt (Elt F) arg11.view rM3.toLoadRect f11) (View.readAt (Elt F) arg13.view rA3.toLoadRect f13)⟩]))
            ∗ (arg14.view.loc (c : Thread nD τ) ↦[arg14.view.set]{fullShare} f14))) := by
  simp only [k1_part4_eq_skeleton]; unfold k1_part4_skel
  iintro ⟨H11, H12, H13, H14⟩
  sl_exec
  sl_step
  isplitr; · ipureintro; rfl
  isplitl [H11]; · iexact H11
  isplitl [H12]; · iexact H12
  isplitl [H13]; · iexact H13
  iexact H14

end Cert.Kernel.Hand

end
-- ==== Proof.K_Reg1RunA.lean ====
/-
  The attention kernel's whole body at a point with ki = 0: on whole staging memrefs at the windows' blocks and the
  scratch buffers at any contents, it runs to the continuation holding the inputs as they were, the scratch
  buffers at this case's contents, the output window untouched. Each chunk update is its part's triple, applied at the call.
-/
import proofs.«117884_j83708912599078_2_alg».proof.Proof.K_Reg1Parts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1_A (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (hc0 : cond1_0 i) (hc1 : cond1_1 i) (hc2 : cond1_2 i) (hc3 : cond1_3 i) (hc4 : cond1_4 i) (hc5 : ¬cond1_5 i)
    (x0 : Vec F S1x2048x128 .bf16) (x1 x2 : Vec F S1x512x128 .bf16) (x3 x4 : Vec F S2048x128 .f32) (x5 x6 : Vec F S512x128 .f32) (xi7 : Vec F S1x2048x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare (case1_A i x0 x1 x2 x3 x4 x5 x6).2.1 ∗ owns (c : Thread nD τ) arg12 fullShare (case1_A i x0 x1 x2 x3 x4 x5 x6).2.2.1 ∗ owns (c : Thread nD τ) arg13 fullShare (case1_A i x0 x1 x2 x3 x4 x5 x6).2.2.2.1 ∗ owns (c : Thread nD τ) arg14 fullShare (case1_A i x0 x1 x2 x3 x4 x5 x6).2.2.2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13 arg14 harg14) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  have hcut1 := fun v18 v20 v24 f11 f12 f13 f14 => part1_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut2 := fun v18 v20 v24 f11 f12 f13 f14 => part2_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut3 := fun v18 v20 v24 f11 f12 f13 f14 => part3_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut4 := fun v18 v20 v24 f11 f12 f13 f14 => part4_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  sl_exec (disch := first | exact hc0 | exact hc1 | exact hc2 | exact hc3 | exact hc4 | exact hc5)
  dsimp only at hk1_part1_0 hk1_part2_0 hk1_part3_0 hk1_part4_0
  subst hk1_part1_0 hk1_part2_0 hk1_part3_0 hk1_part4_0
  irename : (arg11.view.loc (c : Thread nD τ) ↦[arg11.view.set]{fullShare} _) => HA11
  irename : (arg12.view.loc (c : Thread nD τ) ↦[arg12.view.set]{fullShare} _) => HA12
  irename : (arg13.view.loc (c : Thread nD τ) ↦[arg13.view.set]{fullShare} _) => HA13
  irename : (arg14.view.loc (c : Thread nD τ) ↦[arg14.view.set]{fullShare} _) => HA14
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [HA11]
  · iexists _; isplitr
    swap; · iexact HA11
    ipureintro
    repeat (first | delta kernelRun1_A.sl.r | delta kernelRun1_A.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_A, outOf, chunk3, chunk2, chunk1, chunk0])
    (try rfl)
  isplitl [HA12]
  · iexists _; isplitr
    swap; · iexact HA12
    ipureintro
    repeat (first | delta kernelRun1_A.sl.r | delta kernelRun1_A.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_A, outOf, chunk3, chunk2, chunk1, chunk0])
    (try rfl)
  isplitl [HA13]
  · iexists _; isplitr
    swap; · iexact HA13
    ipureintro
    repeat (first | delta kernelRun1_A.sl.r | delta kernelRun1_A.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_A, outOf, chunk3, chunk2, chunk1, chunk0])
    (try rfl)
  iexists _; isplitr
  swap; · iexact HA14
  ipureintro
  repeat (first | delta kernelRun1_A.sl.r | delta kernelRun1_A.sl.r_1)
  simp only [read_writes_cons_overlay, View.writes_nil, Memref.IsWhole.read_unread, View.readAt_eq_ld]
  repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
  (try dsimp only [case1_A, outOf, chunk3, chunk2, chunk1, chunk0])
  (try rfl)

end Cert.Kernel.Hand

end
-- ==== Proof.K_Reg1RunB.lean ====
/-
  The attention kernel's whole body at a point with ki = 1: on whole staging memrefs at the windows' blocks and the
  scratch buffers at what the point before left, it runs to the continuation holding the inputs as they were, the scratch
  buffers at this case's contents, the output window untouched. Each chunk update is its part's triple, applied at the call.
-/
import proofs.«117884_j83708912599078_2_alg».proof.Proof.K_Reg1Parts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1_B (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (hc0 : ¬cond1_0 i) (hc1 : ¬cond1_1 i) (hc2 : cond1_2 i) (hc3 : cond1_3 i) (hc4 : cond1_4 i) (hc5 : ¬cond1_5 i)
    (x0 : Vec F S1x2048x128 .bf16) (x1 x2 : Vec F S1x512x128 .bf16) (x3 x4 : Vec F S2048x128 .f32) (x5 x6 : Vec F S512x128 .f32) (xi7 : Vec F S1x2048x128 .bf16) (p : Out1 F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare p.2.1 ∗ owns (c : Thread nD τ) arg12 fullShare p.2.2.1 ∗ owns (c : Thread nD τ) arg13 fullShare p.2.2.2.1 ∗ owns (c : Thread nD τ) arg14 fullShare p.2.2.2.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare (case1_B i x1 x2 x5 x6 p).2.1 ∗ owns (c : Thread nD τ) arg12 fullShare (case1_B i x1 x2 x5 x6 p).2.2.1 ∗ owns (c : Thread nD τ) arg13 fullShare (case1_B i x1 x2 x5 x6 p).2.2.2.1 ∗ owns (c : Thread nD τ) arg14 fullShare (case1_B i x1 x2 x5 x6 p).2.2.2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13 arg14 harg14) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2; obtain rfl := harg14.eq_unread hfs3
  have hcut1 := fun v18 v20 v24 f11 f12 f13 f14 => part1_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut2 := fun v18 v20 v24 f11 f12 f13 f14 => part2_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut3 := fun v18 v20 v24 f11 f12 f13 f14 => part3_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut4 := fun v18 v20 v24 f11 f12 f13 f14 => part4_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  sl_exec (disch := first | exact hc0 | exact hc1 | exact hc2 | exact hc3 | exact hc4 | exact hc5)
  dsimp only at hk1_part2_0 hk1_part3_0 hk1_part4_0
  subst hk1_part2_0 hk1_part3_0 hk1_part4_0
  irename : (arg11.view.loc (c : Thread nD τ) ↦[arg11.view.set]{fullShare} _) => HA11
  irename : (arg12.view.loc (c : Thread nD τ) ↦[arg12.view.set]{fullShare} _) => HA12
  irename : (arg13.view.loc (c : Thread nD τ) ↦[arg13.view.set]{fullShare} _) => HA13
  irename : (arg14.view.loc (c : Thread nD τ) ↦[arg14.view.set]{fullShare} _) => HA14
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [HA11]
  · iexists _; isplitr
    swap; · iexact HA11
    ipureintro
    repeat (first | delta kernelRun1_B.sl.r | delta kernelRun1_B.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_B, outOf, chunk3, chunk2, chunk1, chunk0])
    (try rfl)
  isplitl [HA12]
  · iexists _; isplitr
    swap; · iexact HA12
    ipureintro
    repeat (first | delta kernelRun1_B.sl.r | delta kernelRun1_B.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_B, outOf, chunk3, chunk2, chunk1, chunk0])
    (try rfl)
  isplitl [HA13]
  · iexists _; isplitr
    swap; · iexact HA13
    ipureintro
    repeat (first | delta kernelRun1_B.sl.r | delta kernelRun1_B.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_B, outOf, chunk3, chunk2, chunk1, chunk0])
    (try rfl)
  iexists _; isplitr
  swap; · iexact HA14
  ipureintro
  repeat (first | delta kernelRun1_B.sl.r | delta kernelRun1_B.sl.r_1)
  simp only [read_writes_cons_overlay, View.writes_nil, Memref.IsWhole.read_unread, View.readAt_eq_ld]
  repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
  (try dsimp only [case1_B, outOf, chunk3, chunk2, chunk1, chunk0])
  (try rfl)

end Cert.Kernel.Hand

end
-- ==== Proof.K_Reg1RunC.lean ====
/-
  The attention kernel's whole body at a point with ki = 2: on whole staging memrefs at the windows' blocks and the
  scratch buffers at what the point before left, it runs to the continuation holding the inputs as they were, the scratch
  buffers at this case's contents, the output window untouched. Each chunk update is its part's triple, applied at the call.
-/
import proofs.«117884_j83708912599078_2_alg».proof.Proof.K_Reg1Parts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1_C (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (hc0 : ¬cond1_0 i) (hc1 : ¬cond1_1 i) (hc2 : ¬cond1_2 i) (hc3 : cond1_3 i) (hc4 : cond1_4 i) (hc5 : ¬cond1_5 i)
    (x0 : Vec F S1x2048x128 .bf16) (x1 x2 : Vec F S1x512x128 .bf16) (x3 x4 : Vec F S2048x128 .f32) (x5 x6 : Vec F S512x128 .f32) (xi7 : Vec F S1x2048x128 .bf16) (p : Out1 F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare p.2.1 ∗ owns (c : Thread nD τ) arg12 fullShare p.2.2.1 ∗ owns (c : Thread nD τ) arg13 fullShare p.2.2.2.1 ∗ owns (c : Thread nD τ) arg14 fullShare p.2.2.2.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare (case1_C i x1 x2 x5 x6 p).2.1 ∗ owns (c : Thread nD τ) arg12 fullShare (case1_C i x1 x2 x5 x6 p).2.2.1 ∗ owns (c : Thread nD τ) arg13 fullShare (case1_C i x1 x2 x5 x6 p).2.2.2.1 ∗ owns (c : Thread nD τ) arg14 fullShare (case1_C i x1 x2 x5 x6 p).2.2.2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13 arg14 harg14) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2; obtain rfl := harg14.eq_unread hfs3
  have hcut1 := fun v18 v20 v24 f11 f12 f13 f14 => part1_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut2 := fun v18 v20 v24 f11 f12 f13 f14 => part2_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut3 := fun v18 v20 v24 f11 f12 f13 f14 => part3_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut4 := fun v18 v20 v24 f11 f12 f13 f14 => part4_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  sl_exec (disch := first | exact hc0 | exact hc1 | exact hc2 | exact hc3 | exact hc4 | exact hc5)
  dsimp only at hk1_part3_0 hk1_part4_0
  subst hk1_part3_0 hk1_part4_0
  irename : (arg11.view.loc (c : Thread nD τ) ↦[arg11.view.set]{fullShare} _) => HA11
  irename : (arg12.view.loc (c : Thread nD τ) ↦[arg12.view.set]{fullShare} _) => HA12
  irename : (arg13.view.loc (c : Thread nD τ) ↦[arg13.view.set]{fullShare} _) => HA13
  irename : (arg14.view.loc (c : Thread nD τ) ↦[arg14.view.set]{fullShare} _) => HA14
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [HA11]
  · iexists _; isplitr
    swap; · iexact HA11
    ipureintro
    repeat (first | delta kernelRun1_C.sl.r | delta kernelRun1_C.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_C, outOf, chunk3, chunk2, chunk1, chunk0])
    (try rfl)
  isplitl [HA12]
  · iexists _; isplitr
    swap; · iexact HA12
    ipureintro
    repeat (first | delta kernelRun1_C.sl.r | delta kernelRun1_C.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_C, outOf, chunk3, chunk2, chunk1, chunk0])
    (try rfl)
  isplitl [HA13]
  · iexists _; isplitr
    swap; · iexact HA13
    ipureintro
    repeat (first | delta kernelRun1_C.sl.r | delta kernelRun1_C.sl.r_1)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_C, outOf, chunk3, chunk2, chunk1, chunk0])
    (try rfl)
  iexists _; isplitr
  swap; · iexact HA14
  ipureintro
  repeat (first | delta kernelRun1_C.sl.r | delta kernelRun1_C.sl.r_1)
  simp only [read_writes_cons_overlay, View.writes_nil, Memref.IsWhole.read_unread, View.readAt_eq_ld]
  repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
  (try dsimp only [case1_C, outOf, chunk3, chunk2, chunk1, chunk0])
  (try rfl)

end Cert.Kernel.Hand

end
-- ==== Proof.K_Reg1RunD.lean ====
/-
  The attention kernel's whole body at a point with ki = 3: on whole staging memrefs at the windows' blocks and the
  scratch buffers at what the point before left, it runs to the continuation holding the inputs as they were, the scratch
  buffers at this case's contents and the output block. Each chunk update is its part's triple, applied at the call.
-/
import proofs.«117884_j83708912599078_2_alg».proof.Proof.K_Reg1Parts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1_D (c : Dev nD) (i : grid1.Coords) (arg3 : Memref sig .tc .vmem S1x2048x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x2048x128 .bf16) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x128 .f32) (harg13 : arg13.IsWhole) (arg14 : Memref sig .tc .vmem S2048x128 .bf16) (harg14 : arg14.IsWhole)
    (hc0 : ¬cond1_0 i) (hc1 : ¬cond1_1 i) (hc2 : ¬cond1_2 i) (hc3 : ¬cond1_3 i) (hc4 : cond1_4 i) (hc5 : cond1_5 i)
    (x0 : Vec F S1x2048x128 .bf16) (x1 x2 : Vec F S1x512x128 .bf16) (x3 x4 : Vec F S2048x128 .f32) (x5 x6 : Vec F S512x128 .f32) (p : Out1 F) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare p.2.1 ∗ owns (c : Thread nD τ) arg12 fullShare p.2.2.1 ∗ owns (c : Thread nD τ) arg13 fullShare p.2.2.2.1 ∗ owns (c : Thread nD τ) arg14 fullShare p.2.2.2.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (case1_D i x1 x2 x5 x6 p).1 ∗ owns (c : Thread nD τ) arg11 fullShare (case1_D i x1 x2 x5 x6 p).2.1 ∗ owns (c : Thread nD τ) arg12 fullShare (case1_D i x1 x2 x5 x6 p).2.2.1 ∗ owns (c : Thread nD τ) arg13 fullShare (case1_D i x1 x2 x5 x6 p).2.2.2.1 ∗ owns (c : Thread nD τ) arg14 fullShare (case1_D i x1 x2 x5 x6 p).2.2.2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12 arg13 harg13 arg14 harg14) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2; obtain rfl := harg14.eq_unread hfs3
  have hcut1 := fun v18 v20 v24 f11 f12 f13 f14 => part1_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut2 := fun v18 v20 v24 f11 f12 f13 f14 => part2_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut3 := fun v18 v20 v24 f11 f12 f13 f14 => part3_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  have hcut4 := fun v18 v20 v24 f11 f12 f13 f14 => part4_run (F := F) c i arg3 harg3 arg4 harg4 arg5 harg5 arg6 harg6 arg7 harg7 arg8 harg8 arg9 harg9 arg10 harg10 arg11 harg11 arg12 harg12 arg13 harg13 arg14 harg14 v18 v20 v24 f11 f12 f13 f14 E
  sl_exec (disch := first | exact hc0 | exact hc1 | exact hc2 | exact hc3 | exact hc4 | exact hc5)
  dsimp only at hk1_part4_0
  subst hk1_part4_0
  irename : (arg11.view.loc (c : Thread nD τ) ↦[arg11.view.set]{fullShare} _) => HA11
  irename : (arg12.view.loc (c : Thread nD τ) ↦[arg12.view.set]{fullShare} _) => HA12
  irename : (arg13.view.loc (c : Thread nD τ) ↦[arg13.view.set]{fullShare} _) => HA13
  irename : (arg14.view.loc (c : Thread nD τ) ↦[arg14.view.set]{fullShare} _) => HA14
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr
    swap; · iexact H7
    ipureintro
    repeat (first | delta kernelRun1_D.sl.r | delta kernelRun1_D.sl.r_1 | delta kernelRun1_D.sl.v44 | delta kernelRun1_D.sl.v45)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_D, outOf, chunk3, chunk2, chunk1, chunk0])
    (try rfl)
  isplitl [HA11]
  · iexists _; isplitr
    swap; · iexact HA11
    ipureintro
    repeat (first | delta kernelRun1_D.sl.r | delta kernelRun1_D.sl.r_1 | delta kernelRun1_D.sl.v44 | delta kernelRun1_D.sl.v45)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_D, outOf, chunk3, chunk2, chunk1, chunk0])
    (try rfl)
  isplitl [HA12]
  · iexists _; isplitr
    swap; · iexact HA12
    ipureintro
    repeat (first | delta kernelRun1_D.sl.r | delta kernelRun1_D.sl.r_1 | delta kernelRun1_D.sl.v44 | delta kernelRun1_D.sl.v45)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_D, outOf, chunk3, chunk2, chunk1, chunk0])
    (try rfl)
  isplitl [HA13]
  · iexists _; isplitr
    swap; · iexact HA13
    ipureintro
    repeat (first | delta kernelRun1_D.sl.r | delta kernelRun1_D.sl.r_1 | delta kernelRun1_D.sl.v44 | delta kernelRun1_D.sl.v45)
    simp only [read_writes_cons_overlay, View.writes_nil, Memref.IsWhole.read_unread, View.readAt_eq_ld]
    repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
    (try dsimp only [case1_D, outOf, chunk3, chunk2, chunk1, chunk0])
    (try rfl)
  iexists _; isplitr
  swap; · iexact HA14
  ipureintro
  repeat (first | delta kernelRun1_D.sl.r | delta kernelRun1_D.sl.r_1 | delta kernelRun1_D.sl.v44 | delta kernelRun1_D.sl.v45)
  simp only [read_writes_cons_overlay, View.writes_nil, Memref.IsWhole.read_unread, View.readAt_eq_ld]
  repeat (first | rw [ld_W1x512x128] | rw [overlay_W1x512x128] | rw [ld_W512x128] | rw [overlay_W512x128] | rw [ld_W2048x128] | rw [overlay_W2048x128] | rw [ld_W2048x1] | rw [overlay_W2048x1] | rw [ld_W1x2048x128] | rw [overlay_W1x2048x128])
  (try dsimp only [case1_D, outOf, chunk3, chunk2, chunk1, chunk0])
  (try rfl)

end Cert.Kernel.Hand

end
-- ==== Proof.K_Reg1.lean ====
/-
  The attention region's body obligation: at every grid point the kernel, called on the windows' current staging
  buffers at their blocks and on the four scratch buffers at what the point before left, leaves the scratch buffers at
  the contents `outsAt1` names and, at the last key block of a head, the output block; and what the launch hands the
  region is the invariant before the first point, which after the last point gives it back.
-/
import proofs.«117884_j83708912599078_2_alg».proof.Proof.K_Reg1RunA
import proofs.«117884_j83708912599078_2_alg».proof.Proof.K_Reg1RunB
import proofs.«117884_j83708912599078_2_alg».proof.Proof.K_Reg1RunC
import proofs.«117884_j83708912599078_2_alg».proof.Proof.K_Reg1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (q1 : Fin cfg1.W → PosShare TreeShare) (V : (c : Dev nD) → (b : Ref sig .tc) → Buf (Elt F) ((c : Thread nD τ).loc b))

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- The output window is idle at the points that are not the last key block of a head, -/
theorem idleAt1_7 : ∀ t : Fin cfg1.N, ¬t.val % 4 = 3 → cfg1.idle 7 (grid1.coords t) = true := by decide +kernel
/-- is not written back there, -/
theorem noFlush1_7 : ∀ t : Fin cfg1.N, ¬t.val % 4 = 3 → (cfg1.win 7).flush t = false := by decide +kernel
/-- and is live at the last key block. -/
theorem liveAt1_7 : ∀ t : Fin cfg1.N, t.val % 4 = 3 → cfg1.idle 7 (grid1.coords t) = false := by decide +kernel

/-! ## The inputs' staging buffers hold their blocks at every point -/

theorem before1_0 (c : Dev nD) (t : Fin cfg1.N) (d) : (dat1 q1 V c).before 0 t d = iblk1 V c 0 t :=
  ((dat1 q1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 q1 V c).before 1 t d = iblk1 V c 1 t :=
  ((dat1 q1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 q1 V c).before 2 t d = iblk1 V c 2 t :=
  ((dat1 q1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 q1 V c).before 3 t d = iblk1 V c 3 t :=
  ((dat1 q1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 q1 V c).before 4 t d = iblk1 V c 4 t :=
  ((dat1 q1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 q1 V c).before 5 t d = iblk1 V c 5 t :=
  ((dat1 q1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 q1 V c).before 6 t d = iblk1 V c 6 t :=
  ((dat1 q1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The invariant as the four scratch assertions beside the rest -/

/-- The core's scoped buffers that belong to the other regions, each at some contents, and the generator register. -/
def PhiRest (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

theorem PhiWith_elim (c : Dev nD) (S0 S1 S2 S3 : sProp 𝕄) : PhiWith (F := F) c S0 S1 S2 S3 ⊢ iprop(S0 ∗ S1 ∗ S2 ∗ S3 ∗ PhiRest (F := F) c) := by
  unfold PhiWith PhiRest
  iintro ⟨⟨F0, F1, F2, F3, F4, F5, F6, F7, F8, F9, F10, HS0, HS1, HS2, HS3, G0, G1, G2, G3, G4⟩, Hg⟩
  isplitl [HS0]; · iexact HS0
  isplitl [HS1]; · iexact HS1
  isplitl [HS2]; · iexact HS2
  isplitl [HS3]; · iexact HS3
  isplitr [Hg]
  · isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [G0]; · iexact G0
    isplitl [G1]; · iexact G1
    isplitl [G2]; · iexact G2
    isplitl [G3]; · iexact G3
    iexact G4
  iexact Hg

theorem PhiWith_intro (c : Dev nD) (S0 S1 S2 S3 : sProp 𝕄) : iprop(S0 ∗ S1 ∗ S2 ∗ S3 ∗ PhiRest (F := F) c) ⊢ PhiWith (F := F) c S0 S1 S2 S3 := by
  unfold PhiWith PhiRest
  iintro ⟨HS0, HS1, HS2, HS3, ⟨F0, F1, F2, F3, F4, F5, F6, F7, F8, F9, F10, G0, G1, G2, G3, G4⟩, Hg⟩
  isplitr [Hg]
  · isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [HS0]; · iexact HS0
    isplitl [HS1]; · iexact HS1
    isplitl [HS2]; · iexact HS2
    isplitl [HS3]; · iexact HS3
    isplitl [G0]; · iexact G0
    isplitl [G1]; · iexact G1
    isplitl [G2]; · iexact G2
    isplitl [G3]; · iexact G3
    iexact G4
  iexact Hg

/-! ## The body obligation -/

/-- What the body is called with at point `t`, the windows one by one, -/
def bodyPre1 (c : Dev nD) (t : Fin cfg1.N) : sProp 𝕄 :=
  iprop((dat1 q1 V c).Φ t.castSucc ∗ (dat1 q1 V c).owesAt () t.castSucc
    ∗ (∃ d, owns (c : Thread nD τ) (ms1_0 t) fullShare ((dat1 q1 V c).before 0 t d))
    ∗ (∃ d, owns (c : Thread nD τ) (ms1_1 t) fullShare ((dat1 q1 V c).before 1 t d))
    ∗ (∃ d, owns (c : Thread nD τ) (ms1_2 t) fullShare ((dat1 q1 V c).before 2 t d))
    ∗ (∃ d, owns (c : Thread nD τ) (ms1_3 t) fullShare ((dat1 q1 V c).before 3 t d))
    ∗ (∃ d, owns (c : Thread nD τ) (ms1_4 t) fullShare ((dat1 q1 V c).before 4 t d))
    ∗ (∃ d, owns (c : Thread nD τ) (ms1_5 t) fullShare ((dat1 q1 V c).before 5 t d))
    ∗ (∃ d, owns (c : Thread nD τ) (ms1_6 t) fullShare ((dat1 q1 V c).before 6 t d))
    ∗ (∃ d, owns (c : Thread nD τ) (ms1_7 t) fullShare ((dat1 q1 V c).before 7 t d)))

/-- and what it returns. -/
def bodyPost1 (c : Dev nD) (t : Fin cfg1.N) : sProp 𝕄 :=
  iprop((dat1 q1 V c).Φ t.succ ∗ (dat1 q1 V c).owesAt () t.succ
    ∗ (dat1 q1 V c).leavesExact 0 t
    ∗ (dat1 q1 V c).leavesExact 1 t
    ∗ (dat1 q1 V c).leavesExact 2 t
    ∗ (dat1 q1 V c).leavesExact 3 t
    ∗ (dat1 q1 V c).leavesExact 4 t
    ∗ (dat1 q1 V c).leavesExact 5 t
    ∗ (dat1 q1 V c).leavesExact 6 t
    ∗ (dat1 q1 V c).leavesExact 7 t)

set_option maxHeartbeats 4800000 in
/-- The body at any point: the inputs' buffers hold their blocks; the point's third coordinate says which case it is in;
    the invariant hands the body the four scratch buffers at what the point before left (at anything at the first point)
    and takes them back at this point's contents; the core owes nothing throughout. -/
theorem sound_body1 (c : Dev nD) (t : Fin cfg1.N) :
    bodyPre1 q1 V c t ⊢ wp frame (wpE (defs₀ (F := F)) Variants.none c none) Set.univ (bodyAt1 t) (fun _ => bodyPost1 q1 V c t) := by
  unfold bodyPre1 bodyPost1 bodyAt1
  simp only [before1_0 q1 V, before1_1 q1 V, before1_2 q1 V, before1_3 q1 V, before1_4 q1 V, before1_5 q1 V, before1_6 q1 V]
  rewrite [show (dat1 q1 V c).owesAt () t.succ = (dat1 q1 V c).owesAt () t.castSucc from rfl]
  rewrite [show (dat1 q1 V c).Φ t.succ = PhiS1 q1 V c (t.val + 1) t.isLt from rfl, PhiS1_succ]
  have hN : t.val < 128 := lt_of_lt_of_eq t.isLt (show cfg1.N = 128 from N_1)
  rewrite [show (dat1 q1 V c).leavesExact 0 t = owns (c : Thread nD τ) (ms1_0 t) fullShare ((dat1 q1 V c).after 0 t) from by
    unfold Dat.leavesExact; rw [liveAt1_0 t], after1_0]
  rewrite [show (dat1 q1 V c).leavesExact 1 t = owns (c : Thread nD τ) (ms1_1 t) fullShare ((dat1 q1 V c).after 1 t) from by
    unfold Dat.leavesExact; rw [liveAt1_1 t], after1_1]
  rewrite [show (dat1 q1 V c).leavesExact 2 t = owns (c : Thread nD τ) (ms1_2 t) fullShare ((dat1 q1 V c).after 2 t) from by
    unfold Dat.leavesExact; rw [liveAt1_2 t], after1_2]
  rewrite [show (dat1 q1 V c).leavesExact 3 t = owns (c : Thread nD τ) (ms1_3 t) fullShare ((dat1 q1 V c).after 3 t) from by
    unfold Dat.leavesExact; rw [liveAt1_3 t], after1_3]
  rewrite [show (dat1 q1 V c).leavesExact 4 t = owns (c : Thread nD τ) (ms1_4 t) fullShare ((dat1 q1 V c).after 4 t) from by
    unfold Dat.leavesExact; rw [liveAt1_4 t], after1_4]
  rewrite [show (dat1 q1 V c).leavesExact 5 t = owns (c : Thread nD τ) (ms1_5 t) fullShare ((dat1 q1 V c).after 5 t) from by
    unfold Dat.leavesExact; rw [liveAt1_5 t], after1_5]
  rewrite [show (dat1 q1 V c).leavesExact 6 t = owns (c : Thread nD τ) (ms1_6 t) fullShare ((dat1 q1 V c).after 6 t) from by
    unfold Dat.leavesExact; rw [liveAt1_6 t], after1_6]
  rcases (show t.val % 4 = 0 ∨ t.val % 4 = 1 ∨ t.val % 4 = 2 ∨ t.val % 4 = 3 from by omega) with h | h | h | h
  · rewrite [Dat.leavesExact_idle (dat1 q1 V c) 7 t (idleAt1_7 t (by omega)) (noFlush1_7 t (by omega))]
    rewrite [outsAt1_A q1 V c t h]
    by_cases hz : t.val = 0
    · rewrite [PhiS1_castSucc q1 V c t, PhiS1_zero q1 V c _ _ hz, PhiA1_eq]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr (by omega)) ((hcond1_1 t).mpr (by omega)) ((hcond1_2 t).mpr (by omega)) ((hcond1_3 t).mpr (by omega)) (hcond1_4 t) (fun hh => by have := (hcond1_5 t).mp hh; omega) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rewrite [PhiS1_castSucc q1 V c t, PhiS1_pos q1 V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) ((hcond1_0 t).mpr (by omega)) ((hcond1_1 t).mpr (by omega)) ((hcond1_2 t).mpr (by omega)) ((hcond1_3 t).mpr (by omega)) (hcond1_4 t) (fun hh => by have := (hcond1_5 t).mp hh; omega) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · rewrite [Dat.leavesExact_idle (dat1 q1 V c) 7 t (idleAt1_7 t (by omega)) (noFlush1_7 t (by omega))]
    rewrite [outsAt1_B q1 V c t h]
    have hz : t.val ≠ 0 := by omega
    · rewrite [PhiS1_castSucc q1 V c t, PhiS1_pos q1 V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun hh => by have := (hcond1_0 t).mp hh; omega) (fun hh => by have := (hcond1_1 t).mp hh; omega) ((hcond1_2 t).mpr (by omega)) ((hcond1_3 t).mpr (by omega)) (hcond1_4 t) (fun hh => by have := (hcond1_5 t).mp hh; omega) (iblk1 V c 0 t) (iblk1 V c 1 t) (iblk1 V c 2 t) (iblk1 V c 3 t) (iblk1 V c 4 t) (iblk1 V c 5 t) (iblk1 V c 6 t) _ (outsAt1 q1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · rewrite [Dat.leavesExact_idle (dat1 q1 V c) 7 t (idleAt1_7 t (by omega)) (noFlush1_7 t (by omega))]
    rewrite [outsAt1_C q1 V c t h]
    have hz : t.val ≠ 0 := by omega
    · rewrite [PhiS1_castSucc q1 V c t, PhiS1_pos q1 V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun hh => by have := (hcond1_0 t).mp hh; omega) (fun hh => by have := (hcond1_1 t).mp hh; omega) (fun hh => by have := (hcond1_2 t).mp hh; omega) ((hcond1_3 t).mpr (by omega)) (hcond1_4 t) (fun hh => by have := (hcond1_5 t).mp hh; omega) (iblk1 V c 0 t) (iblk1 V c 1 t) (iblk1 V c 2 t) (iblk1 V c 3 t) (iblk1 V c 4 t) (iblk1 V c 5 t) (iblk1 V c 6 t) _ (outsAt1 q1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · rewrite [show (dat1 q1 V c).leavesExact 7 t = owns (c : Thread nD τ) (ms1_7 t) fullShare ((dat1 q1 V c).after 7 t) from by
      unfold Dat.leavesExact; rw [liveAt1_7 t h], after1_7]
    rewrite [outsAt1_D q1 V c t h]
    have hz : t.val ≠ 0 := by omega
    · rewrite [PhiS1_castSucc q1 V c t, PhiS1_pos q1 V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiWith_elim c _ _ _ _) $$ HΦ
      icases HΦ' with ⟨HS0, HS1, HS2, HS3, HR⟩
      iapply (kernelRun1_D (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) scM1_3 (Memref.isWhole_whole _) (fun hh => by have := (hcond1_0 t).mp hh; omega) (fun hh => by have := (hcond1_1 t).mp hh; omega) (fun hh => by have := (hcond1_2 t).mp hh; omega) (fun hh => by have := (hcond1_3 t).mp hh; omega) (hcond1_4 t) ((hcond1_5 t).mpr (by omega)) (iblk1 V c 0 t) (iblk1 V c 1 t) (iblk1 V c 2 t) (iblk1 V c 3 t) (iblk1 V c 4 t) (iblk1 V c 5 t) (iblk1 V c 6 t) (outsAt1 q1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 HR]
      · iapply (PhiWith_intro c _ _ _ _)
        isplitl [HS0]; · iexact HS0
        isplitl [HS1]; · iexact HS1
        isplitl [HS2]; · iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation1 (c : Dev nD) : BodyObligation (dat1 (F := F) q1 V c) (defs₀ (F := F)) Variants.none () Set.univ := fun t => by
  rw [bigSep_W1, bigSep_W1]
  exact sound_body1 q1 V c t

/-- What the launch hands the region is the invariant before the first point. -/
theorem hin1 (c : Dev nD) : Pipeline.ΦA spec1 c ⊢ (dat1 q1 V c).Φ 0 := by
  rewrite [show (dat1 q1 V c).Φ 0 = PhiS1 q1 V c 0 (Nat.zero_le _) from rfl, PhiS1_zero q1 V c 0 _ rfl]
  exact Idealize.SL.BI.Entails.refl _

/-- After the last point the invariant gives it back: the scratch buffers' named contents are forgotten. -/
theorem hout1 (c : Dev nD) : (dat1 q1 V c).Φ (Fin.last cfg1.N) ⊢ Pipeline.ΦA spec1 c := by
  rewrite [show (dat1 q1 V c).Φ (Fin.last cfg1.N) = PhiS1 q1 V c (Fin.last cfg1.N).val (Nat.le_of_lt_succ (Fin.last cfg1.N).isLt) from rfl,
    PhiS1_pos q1 V c _ _ (by rw [Fin.val_last]; have : cfg1.N = 128 := N_1; omega), PhiA1_eq]
  iintro HΦ
  ihave HΦ' := (PhiWith_elim c _ _ _ _) $$ HΦ
  icases HΦ' with ⟨HS0, HS1, HS2, HS3, HR⟩
  iapply (PhiWith_intro c _ _ _ _)
  isplitl [HS0]; · iexists _; iexact HS0
  isplitl [HS1]; · iexists _; iexact HS1
  isplitl [HS2]; · iexists _; iexact HS2
  isplitl [HS3]; · iexists _; iexact HS3
  iexact HR

end Cert.Kernel.Hand

end
-- ==== Proof.K_Run.lean ====
/-
  The run of the kernel's @main: the seven items in order, each launch entered from and left at the thread state
  "every buffer that outlives a launch whole at the boundary's contents, the generator register at some state,
  nothing owed". Every weakly fair execution terminates, nothing faults, and each such buffer ends at the last
  boundary's contents.
-/
import proofs.«117884_j83708912599078_2_alg».proof.Proof.Gen.Kernel.Launch
import proofs.«117884_j83708912599078_2_alg».proof.Proof.Gen.Kernel.Skeleton
import proofs.«117884_j83708912599078_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117884_j83708912599078_2_alg».proof.Proof.K_Chain
import proofs.«117884_j83708912599078_2_alg».proof.Proof.K_Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state. Its arrays are the six buffers behind its eight windows, the two tables split in
    halves between their windows on the way in and recomposed on the way out. -/
def reg1 : Pipeline.RegionSeg (pcfgs (F := F)) admH (pdats m ρ) () defs₀ 𝒱₀ L lv 1 where
  win := winFacts₀1
  block_pos := block_pos1
  stage_whole := stage_whole1
  K := PEmpty
  osem k := k.elim
  ho := Pipeline.OwnSemFacts.none _
  hbody c := (body_obligation1 q1 (V3 m ρ) c).loose
  hwaits := Pipeline.hwaits_of_owed_zero _ _ _ _ L lv 1 fun c t => owed1 q1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays (pdats m ρ 1 c).A ∗ Pipeline.unscopedRest spec1 c (V3 m ρ c)) := by
      rw [Pipeline.unscopedBufs_split₀ cfgs 1 winFacts₀1.arr_unscoped c (V3 m ρ c)]
      exact sep_mono (arrays1_of_bufs c (dat1 q1 (V3 m ρ) c) (q_eq1 q1 (V3 m ρ) c) (V3 m ρ c) _ (A_eq1 q1 (V3 m ρ) c)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl trivial
      rw [show (pdats m ρ 1 c).owed 0 = 0 from owed1 q1 (V3 m ρ) c 0]
      iexact HO
    isplitl [Hp]; · iexact Hp
    iexact Hrest
  hin c := by
    refine (show _ ⊢ Pipeline.ΦA spec1 c from ?_).trans (hin1 q1 (V3 m ρ) c)
    unfold Pipeline.ΦA
    iintro ⟨Hp, -, Hr⟩
    isplitl [Hr]; · iexact Hr
    iexact Hp
  hout c := by
    rw [Pipeline.ownSems0_none]
    refine (hout1 q1 (V3 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) := by
      rw [Pipeline.unscopedBufs_split₀ cfgs 1 winFacts₀1.arr_unscoped c (V4 m ρ c), rest1_eq m ρ c]
      exact sep_mono (arrays1_of_bufs c (dat1 q1 (V3 m ρ) c) (q_eq1 q1 (V3 m ρ) c) (V4 m ρ c) _ (hF1 m ρ c)).2 .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ 1 c).owed (Fin.last _) = 0 from owed1 q1 (V3 m ρ) c _]
    iexact HO

/-! ## @main as segments, and the launch -/

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

abbrev Tₙ (c : Dev nD) : sProp 𝕄 := iprop(StableHlo.held (c : Thread nD τ) (Pipeline.ucRefs τ sig) (W7 m ρ c) ∗ ∃ r, prngReg c r)

set_option backward.isDefEq.respectTransparency.types false in
/-- THE RUN: every weakly fair execution of @main terminates, nothing faulting, and every final state holds each
    unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.K_Read.lean ====
/-
  A buffer that no stretch of host operations writes and that is no output of a launch holds at the end what the
  launch memory held: walking back through the seven items, each leaves it alone. The seven argument arrays are such
  buffers.
-/
import proofs.«117884_j83708912599078_2_alg».proof.Proof.Gen.Kernel.Launch
import proofs.«117884_j83708912599078_2_alg».proof.Proof.Gen.Kernel.Skeleton
import proofs.«117884_j83708912599078_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117884_j83708912599078_2_alg».proof.Proof.Gen.Kernel.Regions
import proofs.«117884_j83708912599078_2_alg».proof.Proof.K_Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Walking back from the last boundary to the launch memory at a buffer nothing writes. -/
theorem W7_untouched (c : Dev nD) (r : Ref sig .tc)
    (h0 : r ∉ Gen.hostOps0_W) (h1 : r ∉ Gen.hostOps1_W) (h2 : r ∉ Gen.hostOps2_W) (h3 : r ∉ Gen.hostOps3_W)
    (ha0 : ∀ w, Pipeline.arrRef spec0 w ≠ r) (hb : r ≠ main_v12) (ha2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ Gen.hostOps3_writes h3
    _ = W5 m ρ c (Proc.devRef .tc r) := W6_of_ne m ρ c r ha2
    _ = W4 m ρ c (Proc.devRef .tc r) := StableHlo.after_of_writes_sub hostOps2 _ Gen.hostOps2_writes h2
    _ = W3 m ρ c (Proc.devRef .tc r) := W4_of_ne m ρ c r hb
    _ = W2 m ρ c (Proc.devRef .tc r) := StableHlo.after_of_writes_sub hostOps1 _ Gen.hostOps1_writes h1
    _ = W1 m ρ c (Proc.devRef .tc r) := W2_of_ne m ρ c r ha0
    _ = W0 m ρ c (Proc.devRef .tc r) := StableHlo.after_of_writes_sub hostOps0 _ Gen.hostOps0_writes h0
    _ = m ((c : Thread nD τ).loc r) := rfl

theorem W7_main_arg0 (c : Dev nD) : W7 m ρ c (Proc.devRef .tc main_arg0) = m ((c : Thread nD τ).loc main_arg0) :=
  W7_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_untouched m ρ c main_arg6 (by decide) (by decide) (by decide) (by decide) (by decide) (by decide) (by decide)

end Cert.Kernel.Hand

end
-- ==== Proof.K_Frame.lean ====
/-
  The kernel's frame: its @main runs to the end without a fault, and each of the seven argument arrays ends holding
  what it was launched with — no host operation writes an argument and no launch has one among its outputs.
-/
import proofs.«117884_j83708912599078_2_alg».proof.Proof.Gen.Kernel.Launch
import proofs.«117884_j83708912599078_2_alg».proof.Proof.Gen.Kernel.Skeleton
import proofs.«117884_j83708912599078_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«117884_j83708912599078_2_alg».proof.Proof.K_Run
import proofs.«117884_j83708912599078_2_alg».proof.Proof.K_Read

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run m ρ)

end Cert.Kernel.Hand

end
-- ==== Proof.KI_RowsDot.lean ====
/-
  The product of a matrix by a transposed matrix, index by index.

  For X of shape [m, k] and W of shape [n, k], the entry (p, q) of X·Wᵀ is the sum over the shared last axis of
  X[p, h] · W[q, h]. Both projections of the attention layer that are computed by a launch of their own (the three
  input projections and the output projection) are this function of the launch's row array and weight array.
-/
import Idealize.ShloMosaic.PureOps.Ideal
import Idealize.ShloMosaic.Lib.ValueIdx

noncomputable section

open scoped BigOperators

namespace Cert.KernelIdeal.HandValue

open Idealize.ShloMosaic Idealize.ShloMosaic.ValueIdx

/-- X·Wᵀ over the extended reals: entry `i` is the sum over `h` of `X[i₀, h] · W[i₁, h]`. -/
def rowsDot {m n k : ℕ} (X : (⟨2, ![m, k]⟩ : Shape).Idx → EReal) (W : (⟨2, ![n, k]⟩ : Shape).Idx → EReal) :
    (⟨2, ![m, n]⟩ : Shape).Idx → EReal :=
  fun i => ∑ h : Fin k, X (ix2 (⟨(i 0).val, (i 0).isLt⟩ : Fin m) h) * W (ix2 (⟨(i 1).val, (i 1).isLt⟩ : Fin n) h)

/-- The entry at explicit coordinates. -/
theorem rowsDot_apply {m n k : ℕ} (X : (⟨2, ![m, k]⟩ : Shape).Idx → EReal) (W : (⟨2, ![n, k]⟩ : Shape).Idx → EReal)
    (p : Fin m) (q : Fin n) : rowsDot X W (ix2 p q) = ∑ h : Fin k, X (ix2 p h) * W (ix2 q h) := rfl

end Cert.KernelIdeal.HandValue

end
-- ==== Proof.LibDotRows.lean ====
/-
  A product of an `[m, k]` array by an `[n, k]` array over their SHARED LAST axis (rows against rows), read at an
  output index `(p, e)` on the extended reals as the plain sum `∑ⱼ A[p, j] · B[e, j]` over `j : Fin k` — for the
  vector unit's matrix product into a zero accumulator, whatever the two operands' float formats. The dimension
  numbers enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDotRows

open Idealize.ShloMosaic Idealize.ShloMosaic.ValueIdx

/-- The sum over the contraction index, re-indexed by the contracted axis's one coordinate. -/
theorem contract_sum_rows {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (A : FVec Ideal ⟨2, ![m, k]⟩ φ₁) (B : FVec Ideal ⟨2, ![n, k]⟩ φ₂) (p : Fin m) (e : Fin n) :
    ∑ q : D.contr.Idx, A (D.lhsIdx (ix2 p e) q) * B (D.rhsIdx (ix2 p e) q) = ∑ j : Fin k, A (ix2 p j) * B (ix2 e j) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 e j := funext fun a => Fin.ext (by
    match a with
    | ⟨0, _⟩ => exact hr0 _ _
    | ⟨1, _⟩ => exact (hr1 _ _).trans hk)
  rw [el, er]

/-- The vector unit's matrix product of rows against rows into the zero accumulator, at `(p, e)`. -/
theorem matmul_zero_rows_apply {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (A : FVec Ideal ⟨2, ![m, k]⟩ φ₁) (B : FVec Ideal ⟨2, ![n, k]⟩ φ₂)
    (p : Fin m) (e : Fin n) :
    FloatOps.matmul D prec A B (constant ⟨2, ![m, n]⟩ .f32 0x00000000#32) (ix2 p e) = ∑ j : Fin k, A (ix2 p j) * B (ix2 e j) :=
  (Ideal.matmul_constant_zero_apply D prec A B (ix2 p e)).trans (contract_sum_rows D hr hs hl0 hl1 hr0 hr1 A B p e)

end Cert.LibDotRows

end
-- ==== Proof.KI_Reg0Value.lean ====
/-
  The value of the first launch (the three input projections) on the extended reals.

  Each of the launch's three result arrays, after its 32 grid points, is the product of its row array X (the
  [4096,2048] input rows) with the transpose of one [2048,2048] weight W: entry (p, q) is the sum over h of
  X[p, h] · W[q, h]. Point t computes rows 128·t … 128·t + 127 of each product from rows 128·t … of X and the whole
  of the weight, the matrix unit's product into a zero accumulator being the plain sum over the shared axis and the
  rounding to the result's format the identity; the 32 row blocks fill each array.
-/
import proofs.«117884_j83708912599078_2_alg».proof.Proof.KI_Reg0
import proofs.«117884_j83708912599078_2_alg».proof.Proof.KI_RowsDot
import proofs.«117884_j83708912599078_2_alg».proof.Proof.LibDotRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the launch is entered, over the extended reals
variable (V : (c : Dev nD) → (b : Ref sig .tc) → Buf (Elt Ideal) ((c : Thread nD τ).loc b))

/-- The launch's row array (the input rows) as the launch finds it. -/
abbrev xArr0 (c : Dev nD) : S4096x2048.Idx → EReal := V c (Pipeline.arrRef spec0 0)
/-- The launch's three weight arrays as the launch finds them. -/
abbrev wArr0_1 (c : Dev nD) : S2048x2048.Idx → EReal := V c (Pipeline.arrRef spec0 1)
abbrev wArr0_2 (c : Dev nD) : S2048x2048.Idx → EReal := V c (Pipeline.arrRef spec0 2)
abbrev wArr0_3 (c : Dev nD) : S2048x2048.Idx → EReal := V c (Pipeline.arrRef spec0 3)

theorem hz0 : (![0, 0] : Fin 2 → Nat) = fun _ => 0 := funext fun a => by fin_cases a <;> rfl

/-! ## The body's products at an index -/

/-! Where the product's dimension numbers send an output index and a contraction index in each operand: output axis 0
    is the left operand's axis 0, output axis 1 the right operand's axis 0, and the one contracted axis is axis 1 of both. -/

theorem d0_l0 (i : S128x2048.Idx) (q : dot_S128x2048_S2048x2048_S128x2048_1_1_0_0_n_n.contr.Idx) :
    (dot_S128x2048_S2048x2048_S128x2048_1_1_0_0_n_n.lhsIdx i q 0).val = (i 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl
theorem d0_l1 (i : S128x2048.Idx) (q : dot_S128x2048_S2048x2048_S128x2048_1_1_0_0_n_n.contr.Idx) :
    (dot_S128x2048_S2048x2048_S128x2048_1_1_0_0_n_n.lhsIdx i q 1).val = (q ⟨0, by decide⟩).val :=
  dot_S128x2048_S2048x2048_S128x2048_1_1_0_0_n_n.lhsIdx_val_of_single rfl i q
theorem d0_r0 (i : S128x2048.Idx) (q : dot_S128x2048_S2048x2048_S128x2048_1_1_0_0_n_n.contr.Idx) :
    (dot_S128x2048_S2048x2048_S128x2048_1_1_0_0_n_n.rhsIdx i q 0).val = (i 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl
theorem d0_r1 (i : S128x2048.Idx) (q : dot_S128x2048_S2048x2048_S128x2048_1_1_0_0_n_n.contr.Idx) :
    (dot_S128x2048_S2048x2048_S128x2048_1_1_0_0_n_n.rhsIdx i q 1).val = (q ⟨0, by decide⟩).val :=
  dot_S128x2048_S2048x2048_S128x2048_1_1_0_0_n_n.rhsIdx_val_of_single rfl i q

/-- The first output's stored value at `(p, q)`: the sum over the shared axis of the row block's row `p` against the weight's row `q`
    (the rounding to the output format is the identity on the extended reals). -/
theorem pay0_2_apply (x0 : FVec Ideal S128x2048 .bf16) (x1 : FVec Ideal S2048x2048 .bf16) (p : Fin 128) (q : Fin 2048) :
    k0_pay2 (F := Ideal) x0 x1 (ix2 p q) = ∑ h : Fin 2048, x0 (ix2 p h) * x1 (ix2 q h) := by
  unfold k0_pay2 k0_pay1
  simp only [shapeCast_self]
  exact Cert.LibDotRows.matmul_zero_rows_apply dot_S128x2048_S2048x2048_S128x2048_1_1_0_0_n_n rfl rfl d0_l0 d0_l1 d0_r0 d0_r1 none x0 x1 p q

/-- The second output's stored value at `(p, q)`: the sum over the shared axis of the row block's row `p` against the weight's row `q`
    (the rounding to the output format is the identity on the extended reals). -/
theorem pay0_3_apply (x0 : FVec Ideal S128x2048 .bf16) (x1 : FVec Ideal S2048x2048 .bf16) (p : Fin 128) (q : Fin 2048) :
    k0_pay3 (F := Ideal) x0 x1 (ix2 p q) = ∑ h : Fin 2048, x0 (ix2 p h) * x1 (ix2 q h) := by
  unfold k0_pay3 k0_pay1
  simp only [shapeCast_self]
  exact Cert.LibDotRows.matmul_zero_rows_apply dot_S128x2048_S2048x2048_S128x2048_1_1_0_0_n_n rfl rfl d0_l0 d0_l1 d0_r0 d0_r1 none x0 x1 p q

/-- The third output's stored value at `(p, q)`: the sum over the shared axis of the row block's row `p` against the weight's row `q`
    (the rounding to the output format is the identity on the extended reals). -/
theorem pay0_4_apply (x0 : FVec Ideal S128x2048 .bf16) (x1 : FVec Ideal S2048x2048 .bf16) (p : Fin 128) (q : Fin 2048) :
    k0_pay4 (F := Ideal) x0 x1 (ix2 p q) = ∑ h : Fin 2048, x0 (ix2 p h) * x1 (ix2 q h) := by
  unfold k0_pay4 k0_pay1
  simp only [shapeCast_self]
  exact Cert.LibDotRows.matmul_zero_rows_apply dot_S128x2048_S2048x2048_S128x2048_1_1_0_0_n_n rfl rfl d0_l0 d0_l1 d0_r0 d0_r1 none x0 x1 p q

/-! ## The blocks' positions -/

/-- The block indices over the grid: the row window and the three output windows move together along axis 0 and stay at
    0 on axis 1; the weight windows never move; the block index on axis 0 stays below 32. -/
theorem idx_facts0 : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = win0_4.index t (0 : Fin 2) ∧ win0_6.index t (0 : Fin 2) = win0_4.index t (0 : Fin 2)
    ∧ win0_4.index t (1 : Fin 2) = 0 ∧ win0_5.index t (1 : Fin 2) = 0 ∧ win0_6.index t (1 : Fin 2) = 0
    ∧ win0_4.index t (0 : Fin 2) ≤ 31 :=
  (by decide +kernel : ∀ t : Fin grid0.N, _)

/-- Every row block of the outputs is some point's. -/
theorem idx_onto0 : ∀ q0 : Fin 32, ∃ t : Fin cfg0.N, win0_4.index t (0 : Fin 2) = q0.val :=
  (by decide +kernel : ∀ q0 : Fin 32, ∃ t : Fin grid0.N, _)

/-- The row window's block at point `t` is rows `128·b … 128·b + 127` of the row array, `b` its block index. -/
theorem iblk0_0_apply (c : Dev nD) (t : Fin cfg0.N) (b : ℕ) (hb : win0_0.index t (0 : Fin 2) = b) (p : Fin 128) (h : Fin 2048) (P : Fin 4096)
    (hP : P.val = b * 128 + p.val) :
    (iblk0 V c 0 t : FVec Ideal S128x2048 .bf16) (ix2 p h) = xArr0 V c (ix2 P h) := by
  have e := idx_facts0 t
  unfold iblk0
  rw [View.read_apply]
  show V c main_v1 _ = V c main_v1 _
  refine congrArg _ ?_
  funext a
  apply Fin.ext
  match a with
  | ⟨0, _⟩ => show win0_0.index t (0 : Fin 2) * 128 + 1 * p.val = P.val; rw [hb, hP]; omega
  | ⟨1, _⟩ => show win0_0.index t (1 : Fin 2) * 2048 + 1 * h.val = h.val; omega

/-- The first weight window's block at every point is the whole weight array. -/
theorem iblk0_1_apply (c : Dev nD) (t : Fin cfg0.N) (q : Fin 2048) (h : Fin 2048) :
    (iblk0 V c 1 t : FVec Ideal S2048x2048 .bf16) (ix2 q h) = wArr0_1 V c (ix2 q h) := by
  have e := idx_facts0 t
  unfold iblk0
  rw [View.read_apply]
  show V c main_v2 _ = V c main_v2 _
  refine congrArg _ ?_
  funext a
  apply Fin.ext
  match a with
  | ⟨0, _⟩ => show win0_1.index t (0 : Fin 2) * 2048 + 1 * q.val = q.val; omega
  | ⟨1, _⟩ => show win0_1.index t (1 : Fin 2) * 2048 + 1 * h.val = h.val; omega

/-- The second weight window's block at every point is the whole weight array. -/
theorem iblk0_2_apply (c : Dev nD) (t : Fin cfg0.N) (q : Fin 2048) (h : Fin 2048) :
    (iblk0 V c 2 t : FVec Ideal S2048x2048 .bf16) (ix2 q h) = wArr0_2 V c (ix2 q h) := by
  have e := idx_facts0 t
  unfold iblk0
  rw [View.read_apply]
  show V c main_v3 _ = V c main_v3 _
  refine congrArg _ ?_
  funext a
  apply Fin.ext
  match a with
  | ⟨0, _⟩ => show win0_2.index t (0 : Fin 2) * 2048 + 1 * q.val = q.val; omega
  | ⟨1, _⟩ => show win0_2.index t (1 : Fin 2) * 2048 + 1 * h.val = h.val; omega

/-- The third weight window's block at every point is the whole weight array. -/
theorem iblk0_3_apply (c : Dev nD) (t : Fin cfg0.N) (q : Fin 2048) (h : Fin 2048) :
    (iblk0 V c 3 t : FVec Ideal S2048x2048 .bf16) (ix2 q h) = wArr0_3 V c (ix2 q h) := by
  have e := idx_facts0 t
  unfold iblk0
  rw [View.read_apply]
  show V c main_v4 _ = V c main_v4 _
  refine congrArg _ ?_
  funext a
  apply Fin.ext
  match a with
  | ⟨0, _⟩ => show win0_3.index t (0 : Fin 2) * 2048 + 1 * q.val = q.val; omega
  | ⟨1, _⟩ => show win0_3.index t (1 : Fin 2) * 2048 + 1 * h.val = h.val; omega

/-! ## From the blocks to the arrays -/

/-! ### Output window 4 -/

/-- What point `t` writes back of the first output is block `t` of the product of the row array with the first transposed weight. -/
theorem flushed0_4_eq (c : Dev nD) (t : Fin cfg0.N) :
    (dat0 (F := Ideal) V c).flushed 4 t = ((cfg0.win 4).blk t).view.read (Elt Ideal) (rowsDot (xArr0 V c) (wArr0_1 V c)) := by
  show (cfg0.win 4).cut (grid0.coords t) ((dat0 (F := Ideal) V c).after 4 t) = _
  rw [after0_4]
  unfold out0_4
  rw [View.canon_unit_zero hz0]
  simp only [View.ld_unit_zero (S := S128x2048) hz0, View.ld_unit_zero (S := S2048x2048) hz0]
  have e := idx_facts0 t
  funext j
  obtain ⟨p, q, rfl⟩ : ∃ (p : Fin 128) (q : Fin 2048), j = ix2 p q := ⟨j 0, j 1, eq_ix2 j⟩
  rw [View.read_apply]
  have hP : win0_4.index t (0 : Fin 2) * 128 + p.val < 4096 := by have := p.isLt; omega
  have hidx : ((cfg0.win 4).blk t).view.emb (ix2 p q) = (ix2 (⟨win0_4.index t (0 : Fin 2) * 128 + p.val, hP⟩ : Fin 4096) q : S4096x2048.Idx) := by
    funext a
    apply Fin.ext
    match a with
    | ⟨0, _⟩ => show win0_4.index t (0 : Fin 2) * 128 + 1 * p.val = win0_4.index t (0 : Fin 2) * 128 + p.val; omega
    | ⟨1, _⟩ => show win0_4.index t (1 : Fin 2) * 2048 + 1 * q.val = q.val; omega
  show k0_pay2 (F := Ideal) (iblk0 V c 0 t) (iblk0 V c 1 t) (ix2 p q)
    = rowsDot (xArr0 V c) (wArr0_1 V c) (((cfg0.win 4).blk t).view.emb (ix2 p q))
  refine ((pay0_2_apply (iblk0 V c 0 t) (iblk0 V c 1 t) p q).trans ?_).trans (congrArg (rowsDot (xArr0 V c) (wArr0_1 V c)) hidx.symm)
  rw [rowsDot_apply]
  refine Finset.sum_congr rfl fun h _ => ?_
  rw [iblk0_0_apply V c t (win0_4.index t (0 : Fin 2)) (by omega) p h ⟨win0_4.index t (0 : Fin 2) * 128 + p.val, hP⟩ rfl, iblk0_1_apply V c t q h]

/-- An index of the first output array is in point `t`'s block iff each coordinate is in the block's range on its axis. -/
theorem mem_blk0_4 (t : Fin cfg0.N) (i : S4096x2048.Idx) :
    i ∈ ((cfg0.win 4).blk t).view.set ↔ ∀ a : Fin 2, win0_4.index t a * S128x2048.size a ≤ (i a).val ∧ (i a).val < win0_4.index t a * S128x2048.size a + S128x2048.size a := by
  show i ∈ ((View.whole main_v6_0).slice (win0_4.rect t)).set ↔ _
  rw [View.set_slice_whole, Rect.mem_set_unit]
  exact Iff.rfl

/-- THE FIRST OUTPUT ARRAY after the launch: the product of the row array with the first transposed weight. Row `r` is in
    the block of the point whose block index is `r / 128`. -/
theorem final0_4 (c : Dev nD) : (dat0 (F := Ideal) V c).arrAt 4 cfg0.N = rowsDot (xArr0 V c) (wArr0_1 V c) :=
  (dat0 (F := Ideal) V c).arrAt_eq_of_cover 4 _ (fun t _ => flushed0_4_eq V c t) fun i => by
    have hi0 : (i 0).val < 4096 := (i 0).isLt
    have hi1 : (i 1).val < 2048 := (i 1).isLt
    obtain ⟨t, ht⟩ := idx_onto0 ⟨(i 0).val / 128, by omega⟩
    have q0 : win0_4.index t (0 : Fin 2) = (i 0).val / 128 := ht
    have e := idx_facts0 t
    refine ⟨t, flush0_4 t, ?_⟩
    rw [mem_blk0_4]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 2048 ≤ (i 1).val ∧ (i 1).val < win0_4.index t (1 : Fin 2) * 2048 + 2048; omega

/-- The first output array at explicit coordinates. -/
theorem arr0_4_apply (c : Dev nD) (p : Fin 4096) (q : Fin 2048) :
    ((dat0 (F := Ideal) V c).arrAt 4 cfg0.N : S4096x2048.Idx → EReal) (ix2 p q)
      = ∑ h : Fin 2048, xArr0 V c (ix2 p h) * wArr0_1 V c (ix2 q h) :=
  (congrFun (final0_4 V c) (ix2 p q)).trans (rowsDot_apply (xArr0 V c) (wArr0_1 V c) p q)

/-! ### Output window 5 -/

/-- What point `t` writes back of the second output is block `t` of the product of the row array with the second transposed weight. -/
theorem flushed0_5_eq (c : Dev nD) (t : Fin cfg0.N) :
    (dat0 (F := Ideal) V c).flushed 5 t = ((cfg0.win 5).blk t).view.read (Elt Ideal) (rowsDot (xArr0 V c) (wArr0_2 V c)) := by
  show (cfg0.win 5).cut (grid0.coords t) ((dat0 (F := Ideal) V c).after 5 t) = _
  rw [after0_5]
  unfold out0_5
  rw [View.canon_unit_zero hz0]
  simp only [View.ld_unit_zero (S := S128x2048) hz0, View.ld_unit_zero (S := S2048x2048) hz0]
  have e := idx_facts0 t
  funext j
  obtain ⟨p, q, rfl⟩ : ∃ (p : Fin 128) (q : Fin 2048), j = ix2 p q := ⟨j 0, j 1, eq_ix2 j⟩
  rw [View.read_apply]
  have hP : win0_5.index t (0 : Fin 2) * 128 + p.val < 4096 := by have := p.isLt; omega
  have hidx : ((cfg0.win 5).blk t).view.emb (ix2 p q) = (ix2 (⟨win0_5.index t (0 : Fin 2) * 128 + p.val, hP⟩ : Fin 4096) q : S4096x2048.Idx) := by
    funext a
    apply Fin.ext
    match a with
    | ⟨0, _⟩ => show win0_5.index t (0 : Fin 2) * 128 + 1 * p.val = win0_5.index t (0 : Fin 2) * 128 + p.val; omega
    | ⟨1, _⟩ => show win0_5.index t (1 : Fin 2) * 2048 + 1 * q.val = q.val; omega
  show k0_pay3 (F := Ideal) (iblk0 V c 0 t) (iblk0 V c 2 t) (ix2 p q)
    = rowsDot (xArr0 V c) (wArr0_2 V c) (((cfg0.win 5).blk t).view.emb (ix2 p q))
  refine ((pay0_3_apply (iblk0 V c 0 t) (iblk0 V c 2 t) p q).trans ?_).trans (congrArg (rowsDot (xArr0 V c) (wArr0_2 V c)) hidx.symm)
  rw [rowsDot_apply]
  refine Finset.sum_congr rfl fun h _ => ?_
  rw [iblk0_0_apply V c t (win0_5.index t (0 : Fin 2)) (by omega) p h ⟨win0_5.index t (0 : Fin 2) * 128 + p.val, hP⟩ rfl, iblk0_2_apply V c t q h]

/-- An index of the second output array is in point `t`'s block iff each coordinate is in the block's range on its axis. -/
theorem mem_blk0_5 (t : Fin cfg0.N) (i : S4096x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v6_1).slice (win0_5.rect t)).set ↔ _
  rw [View.set_slice_whole, Rect.mem_set_unit]
  exact Iff.rfl

/-- THE SECOND OUTPUT ARRAY after the launch: the product of the row array with the second transposed weight. Row `r` is in
    the block of the point whose block index is `r / 128`. -/
theorem final0_5 (c : Dev nD) : (dat0 (F := Ideal) V c).arrAt 5 cfg0.N = rowsDot (xArr0 V c) (wArr0_2 V c) :=
  (dat0 (F := Ideal) V c).arrAt_eq_of_cover 5 _ (fun t _ => flushed0_5_eq V c t) fun i => by
    have hi0 : (i 0).val < 4096 := (i 0).isLt
    have hi1 : (i 1).val < 2048 := (i 1).isLt
    obtain ⟨t, ht⟩ := idx_onto0 ⟨(i 0).val / 128, by omega⟩
    have q0 : win0_4.index t (0 : Fin 2) = (i 0).val / 128 := ht
    have e := idx_facts0 t
    refine ⟨t, flush0_5 t, ?_⟩
    rw [mem_blk0_5]
    intro a
    match a with
    | ⟨0, _⟩ => show win0_5.index t (0 : Fin 2) * 128 ≤ (i 0).val ∧ (i 0).val < win0_5.index t (0 : Fin 2) * 128 + 128; omega
    | ⟨1, _⟩ => show win0_5.index t (1 : Fin 2) * 2048 ≤ (i 1).val ∧ (i 1).val < win0_5.index t (1 : Fin 2) * 2048 + 2048; omega

/-- The second output array at explicit coordinates. -/
theorem arr0_5_apply (c : Dev nD) (p : Fin 4096) (q : Fin 2048) :
    ((dat0 (F := Ideal) V c).arrAt 5 cfg0.N : S4096x2048.Idx → EReal) (ix2 p q)
      = ∑ h : Fin 2048, xArr0 V c (ix2 p h) * wArr0_2 V c (ix2 q h) :=
  (congrFun (final0_5 V c) (ix2 p q)).trans (rowsDot_apply (xArr0 V c) (wArr0_2 V c) p q)

/-! ### Output window 6 -/

/-- What point `t` writes back of the third output is block `t` of the product of the row array with the third transposed weight. -/
theorem flushed0_6_eq (c : Dev nD) (t : Fin cfg0.N) :
    (dat0 (F := Ideal) V c).flushed 6 t = ((cfg0.win 6).blk t).view.read (Elt Ideal) (rowsDot (xArr0 V c) (wArr0_3 V c)) := by
  show (cfg0.win 6).cut (grid0.coords t) ((dat0 (F := Ideal) V c).after 6 t) = _
  rw [after0_6]
  unfold out0_6
  rw [View.canon_unit_zero hz0]
  simp only [View.ld_unit_zero (S := S128x2048) hz0, View.ld_unit_zero (S := S2048x2048) hz0]
  have e := idx_facts0 t
  funext j
  obtain ⟨p, q, rfl⟩ : ∃ (p : Fin 128) (q : Fin 2048), j = ix2 p q := ⟨j 0, j 1, eq_ix2 j⟩
  rw [View.read_apply]
  have hP : win0_6.index t (0 : Fin 2) * 128 + p.val < 4096 := by have := p.isLt; omega
  have hidx : ((cfg0.win 6).blk t).view.emb (ix2 p q) = (ix2 (⟨win0_6.index t (0 : Fin 2) * 128 + p.val, hP⟩ : Fin 4096) q : S4096x2048.Idx) := by
    funext a
    apply Fin.ext
    match a with
    | ⟨0, _⟩ => show win0_6.index t (0 : Fin 2) * 128 + 1 * p.val = win0_6.index t (0 : Fin 2) * 128 + p.val; omega
    | ⟨1, _⟩ => show win0_6.index t (1 : Fin 2) * 2048 + 1 * q.val = q.val; omega
  show k0_pay4 (F := Ideal) (iblk0 V c 0 t) (iblk0 V c 3 t) (ix2 p q)
    = rowsDot (xArr0 V c) (wArr0_3 V c) (((cfg0.win 6).blk t).view.emb (ix2 p q))
  refine ((pay0_4_apply (iblk0 V c 0 t) (iblk0 V c 3 t) p q).trans ?_).trans (congrArg (rowsDot (xArr0 V c) (wArr0_3 V c)) hidx.symm)
  rw [rowsDot_apply]
  refine Finset.sum_congr rfl fun h _ => ?_
  rw [iblk0_0_apply V c t (win0_6.index t (0 : Fin 2)) (by omega) p h ⟨win0_6.index t (0 : Fin 2) * 128 + p.val, hP⟩ rfl, iblk0_3_apply V c t q h]

/-- An index of the third output array is in point `t`'s block iff each coordinate is in the block's range on its axis. -/
theorem mem_blk0_6 (t : Fin cfg0.N) (i : S4096x2048.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v6_2).slice (win0_6.rect t)).set ↔ _
  rw [View.set_slice_whole, Rect.mem_set_unit]
  exact Iff.rfl

/-- THE THIRD OUTPUT ARRAY after the launch: the product of the row array with the third transposed weight. Row `r` is in
    the block of the point whose block index is `r / 128`. -/
theorem final0_6 (c : Dev nD) : (dat0 (F := Ideal) V c).arrAt 6 cfg0.N = rowsDot (xArr0 V c) (wArr0_3 V c) :=
  (dat0 (F := Ideal) V c).arrAt_eq_of_cover 6 _ (fun t _ => flushed0_6_eq V c t) fun i => by
    have hi0 : (i 0).val < 4096 := (i 0).isLt
    have hi1 : (i 1).val < 2048 := (i 1).isLt
    obtain ⟨t, ht⟩ := idx_onto0 ⟨(i 0).val / 128, by omega⟩
    have q0 : win0_4.index t (0 : Fin 2) = (i 0).val / 128 := ht
    have e := idx_facts0 t
    refine ⟨t, flush0_6 t, ?_⟩
    rw [mem_blk0_6]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 2048 ≤ (i 1).val ∧ (i 1).val < win0_6.index t (1 : Fin 2) * 2048 + 2048; omega

/-- The third output array at explicit coordinates. -/
theorem arr0_6_apply (c : Dev nD) (p : Fin 4096) (q : Fin 2048) :
    ((dat0 (F := Ideal) V c).arrAt 6 cfg0.N : S4096x2048.Idx → EReal) (ix2 p q)
      = ∑ h : Fin 2048, xArr0 V c (ix2 p h) * wArr0_3 V c (ix2 q h) :=
  (congrFun (final0_6 V c) (ix2 p q)).trans (rowsDot_apply (xArr0 V c) (wArr0_3 V c) p q)

end Cert.KernelIdeal.HandValue

end
-- ==== Proof.KI_Reg2Value.lean ====
/-
  The value of the third launch (the output projection) on the extended reals.

  The launch's result array, after its 8 grid points, is the product of its row array X (the [4096,2048] context
  rows) with the transpose of its [2048,2048] weight W: entry (p, q) is the sum over h of X[p, h] · W[q, h]. Point t
  computes rows 512·t … 512·t + 511 of that product from rows 512·t … of X and the whole of W, the matrix unit's
  product into a zero accumulator being the plain sum over the shared axis; the 8 row blocks fill the array.
-/
import proofs.«117884_j83708912599078_2_alg».proof.Proof.KI_Reg2
import proofs.«117884_j83708912599078_2_alg».proof.Proof.KI_RowsDot
import proofs.«117884_j83708912599078_2_alg».proof.Proof.LibDotRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the launch is entered, over the extended reals
variable (V : (c : Dev nD) → (b : Ref sig .tc) → Buf (Elt Ideal) ((c : Thread nD τ).loc b))

/-- The launch's row array (the context rows) as the launch finds it. -/
abbrev xArr2 (c : Dev nD) : S4096x2048.Idx → EReal := V c (Pipeline.arrRef spec2 0)
/-- The launch's weight array as the launch finds it. -/
abbrev wArr2 (c : Dev nD) : S2048x2048.Idx → EReal := V c (Pipeline.arrRef spec2 1)

theorem hz2 : (![0, 0] : Fin 2 → Nat) = fun _ => 0 := funext fun a => by fin_cases a <;> rfl

/-! ## The body's product at an index -/

/-! Where the product's dimension numbers send an output index and a contraction index in each operand: output axis 0
    is the left operand's axis 0, output axis 1 the right operand's axis 0, and the one contracted axis is axis 1 of both. -/

theorem d2_l0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem d2_l1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem d2_r0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem d2_r1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The body's stored value at `(p, q)`: the sum over the shared axis of the row block's row `p` against the weight's row `q`. -/
theorem pay2_apply (x0 : FVec Ideal S512x2048 .bf16) (x1 : FVec Ideal S2048x2048 .bf16) (p : Fin 512) (q : Fin 2048) :
    k2_pay1 (F := Ideal) x0 x1 (ix2 p q) = ∑ h : Fin 2048, x0 (ix2 p h) * x1 (ix2 q h) := by
  unfold k2_pay1
  simp only [shapeCast_self]
  exact Cert.LibDotRows.matmul_zero_rows_apply dot_S512x2048_S2048x2048_S512x2048_1_1_0_0_n_n rfl rfl d2_l0 d2_l1 d2_r0 d2_r1 none x0 x1 p q

/-! ## The blocks' positions -/

/-- The block indices over the grid: the row window and the output window move together along axis 0 and stay at 0 on
    axis 1; the weight window never moves; the output's block index on axis 0 stays below 8. -/
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 7 :=
  (by decide +kernel : ∀ t : Fin grid2.N, _)

/-- Every row block of the output is some point's. -/
theorem idx_onto2 : ∀ q0 : Fin 8, ∃ t : Fin cfg2.N, win2_2.index t (0 : Fin 2) = q0.val :=
  (by decide +kernel : ∀ q0 : Fin 8, ∃ t : Fin grid2.N, _)

/-- The row window's block at point `t` is rows `512·b … 512·b + 511` of the row array, `b` the output's block index. -/
theorem iblk2_0_apply (c : Dev nD) (t : Fin cfg2.N) (p : Fin 512) (h : Fin 2048) (P : Fin 4096)
    (hP : P.val = win2_2.index t (0 : Fin 2) * 512 + p.val) :
    (iblk2 V c 0 t : FVec Ideal S512x2048 .bf16) (ix2 p h) = (xArr2 V c) (ix2 P h) := by
  obtain ⟨e0, e1, -⟩ := idx_facts2 t
  unfold iblk2
  rw [View.read_apply]
  show V c main_v13 _ = V c main_v13 _
  refine congrArg _ ?_
  funext a
  apply Fin.ext
  match a with
  | ⟨0, _⟩ => show win2_0.index t (0 : Fin 2) * 512 + 1 * p.val = P.val; rw [e0, hP]; omega
  | ⟨1, _⟩ => show win2_0.index t (1 : Fin 2) * 2048 + 1 * h.val = h.val; rw [e1]; omega

/-- The weight window's block at every point is the whole weight array. -/
theorem iblk2_1_apply (c : Dev nD) (t : Fin cfg2.N) (q : Fin 2048) (h : Fin 2048) :
    (iblk2 V c 1 t : FVec Ideal S2048x2048 .bf16) (ix2 q h) = (wArr2 V c) (ix2 q h) := by
  obtain ⟨-, -, e2, e3, -⟩ := idx_facts2 t
  unfold iblk2
  rw [View.read_apply]
  show V c main_v5 _ = V c main_v5 _
  refine congrArg _ ?_
  funext a
  apply Fin.ext
  match a with
  | ⟨0, _⟩ => show win2_1.index t (0 : Fin 2) * 2048 + 1 * q.val = q.val; rw [e2]; omega
  | ⟨1, _⟩ => show win2_1.index t (1 : Fin 2) * 2048 + 1 * h.val = h.val; rw [e3]; omega

/-! ## From the blocks to the array -/

/-- What point `t` writes back is block `t` of the product of the row array with the transposed weight. -/
theorem flushed2_2_eq (c : Dev nD) (t : Fin cfg2.N) :
    (dat2 (F := Ideal) V c).flushed 2 t = ((cfg2.win 2).blk t).view.read (Elt Ideal)
      (rowsDot (xArr2 V c) (wArr2 V c)) := by
  show (cfg2.win 2).cut (grid2.coords t) ((dat2 (F := Ideal) V c).after 2 t) = _
  rw [after2_2]
  unfold out2_2
  rw [View.canon_unit_zero hz2]
  simp only [View.ld_unit_zero (S := S512x2048) hz2, View.ld_unit_zero (S := S2048x2048) hz2]
  obtain ⟨e0, e1, e2, e3, e4, e5⟩ := idx_facts2 t
  funext j
  obtain ⟨p, q, rfl⟩ : ∃ (p : Fin 512) (q : Fin 2048), j = ix2 p q := ⟨j 0, j 1, eq_ix2 j⟩
  rw [View.read_apply]
  have hP : win2_2.index t (0 : Fin 2) * 512 + p.val < 4096 := by have := p.isLt; omega
  have hidx : ((cfg2.win 2).blk t).view.emb (ix2 p q) = (ix2 (⟨win2_2.index t (0 : Fin 2) * 512 + p.val, hP⟩ : Fin 4096) q : S4096x2048.Idx) := by
    funext a
    apply Fin.ext
    match a with
    | ⟨0, _⟩ => show win2_2.index t (0 : Fin 2) * 512 + 1 * p.val = win2_2.index t (0 : Fin 2) * 512 + p.val; omega
    | ⟨1, _⟩ => show win2_2.index t (1 : Fin 2) * 2048 + 1 * q.val = q.val; rw [e4]; omega
  show k2_pay1 (F := Ideal) (iblk2 V c 0 t) (iblk2 V c 1 t) (ix2 p q)
    = rowsDot (xArr2 V c) (wArr2 V c) (((cfg2.win 2).blk t).view.emb (ix2 p q))
  refine ((pay2_apply (iblk2 V c 0 t) (iblk2 V c 1 t) p q).trans ?_).trans (congrArg (rowsDot (xArr2 V c) (wArr2 V c)) hidx.symm)
  rw [rowsDot_apply]
  refine Finset.sum_congr rfl fun h _ => ?_
  rw [iblk2_0_apply V c t p h ⟨win2_2.index t (0 : Fin 2) * 512 + p.val, hP⟩ rfl, iblk2_1_apply V c t q h]

/-- An index of the array is in point `t`'s block iff each coordinate is in the block's range on its axis. -/
theorem mem_blk2_2 (t : Fin cfg2.N) (i : S4096x2048.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v14).slice (win2_2.rect t)).set ↔ _
  rw [View.set_slice_whole, Rect.mem_set_unit]
  exact Iff.rfl

/-- THE RESULT ARRAY after the launch: the product of the row array with the transposed weight. Row `r` is in the block
    of the point whose block index is `r / 512`. -/
theorem final2_2 (c : Dev nD) : (dat2 (F := Ideal) V c).arrAt 2 cfg2.N
    = rowsDot (xArr2 V c) (wArr2 V c) :=
  (dat2 (F := Ideal) V c).arrAt_eq_of_cover 2 _ (fun t _ => flushed2_2_eq V c t) fun i => by
    have hi0 : (i 0).val < 4096 := (i 0).isLt
    have hi1 : (i 1).val < 2048 := (i 1).isLt
    obtain ⟨t, ht⟩ := idx_onto2 ⟨(i 0).val / 512, by omega⟩
    have q0 : win2_2.index t (0 : Fin 2) = (i 0).val / 512 := ht
    obtain ⟨-, -, -, -, e4, -⟩ := idx_facts2 t
    refine ⟨t, flush2_2 t, ?_⟩
    rw [mem_blk2_2]
    intro a
    match a with
    | ⟨0, _⟩ => show win2_2.index t (0 : Fin 2) * 512 ≤ (i 0).val ∧ (i 0).val < win2_2.index t (0 : Fin 2) * 512 + 512; omega
    | ⟨1, _⟩ => show win2_2.index t (1 : Fin 2) * 2048 ≤ (i 1).val ∧ (i 1).val < win2_2.index t (1 : Fin 2) * 2048 + 2048; omega

/-- The result array at explicit coordinates. -/
theorem arr2_2_apply (c : Dev nD) (p : Fin 4096) (q : Fin 2048) :
    ((dat2 (F := Ideal) V c).arrAt 2 cfg2.N : S4096x2048.Idx → EReal) (ix2 p q)
      = ∑ h : Fin 2048, xArr2 V c (ix2 p h) * wArr2 V c (ix2 q h) :=
  (congrFun (final2_2 V c) (ix2 p q)).trans (rowsDot_apply (xArr2 V c) (wArr2 V c) p q)

end Cert.KernelIdeal.HandValue

end
-- ==== Proof.KI_HostValue.lean ====
/-
  The host operations between the launches, read at an index on the extended reals.

  Before the first launch the input [2,2048,2048] is laid out as [4096,2048] — entry (b, s, f) becomes entry
  (2048·b + s, f) — and it and the four weights are rounded to the launches' format, which changes nothing on the
  extended reals. After the first launch its three results are laid back out as [2,2048,2048] and the first 2048
  rows of the cosine and sine tables are taken. The attention launch's result is laid out as [4096,2048] for the last
  launch, whose result is laid back out as [2,2048,2048]. Each lemma reads one of these buffers after its stretch of
  host operations, over any contents `W` before the stretch.
-/
import proofs.«117884_j83708912599078_2_alg».proof.Proof.Gen.KernelIdeal.Regions
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.ValueIdx Idealize.ShloMosaic.StableHlo

variable (W : Valuation τ sig (Elt Ideal))

/-- Entry `(b, s, f)` of a [2,2048,2048] array and entry `(2048·b + s, f)` of a [4096,2048] array sit at the same
    row-major position. -/
theorem flat_rowMajor (b : Fin 2) (s f : Fin 2048) (P : Fin 4096) (hP : P.val = 2048 * b.val + s.val) :
    (S2x2048x2048.rowMajor (ix3 b s f)).val = (S4096x2048.rowMajor (ix2 P f)).val := by
  rw [Shape.rowMajor_val_three, Shape.rowMajor_val_two]
  show (b.val * 2048 + s.val) * 2048 + f.val = P.val * 2048 + f.val
  rw [hP]; omega

/-! ## Before the first launch -/

/-- The first launch's row array is the input laid out as [4096,2048]. -/
theorem host0_v1 (b : Fin 2) (s h : Fin 2048) (P : Fin 4096) (hP : P.val = 2048 * b.val + s.val) :
    (StableHlo.after (hostOps0 (F := Ideal)) W (Proc.devRef .tc main_v1) : S4096x2048.Idx → EReal) (ix2 P h)
      = (W (Proc.devRef .tc main_arg0) : S2x2048x2048.Idx → EReal) (ix3 b s h) := by
  after_results
  exact shapeCast_apply (W (Proc.devRef .tc main_arg0)) shapeCasts_S2x2048x2048_S4096x2048 (ix2 P h) (ix3 b s h) (flat_rowMajor b s h P hP)

/-- The launches' four weight arrays are the weights themselves. -/
theorem host0_v2 : (StableHlo.after (hostOps0 (F := Ideal)) W (Proc.devRef .tc main_v2) : S2048x2048.Idx → EReal)
    = (W (Proc.devRef .tc main_arg1) : S2048x2048.Idx → EReal) := by
  after_results; rfl
theorem host0_v3 : (StableHlo.after (hostOps0 (F := Ideal)) W (Proc.devRef .tc main_v3) : S2048x2048.Idx → EReal)
    = (W (Proc.devRef .tc main_arg2) : S2048x2048.Idx → EReal) := by
  after_results; rfl
theorem host0_v4 : (StableHlo.after (hostOps0 (F := Ideal)) W (Proc.devRef .tc main_v4) : S2048x2048.Idx → EReal)
    = (W (Proc.devRef .tc main_arg3) : S2048x2048.Idx → EReal) := by
  after_results; rfl
theorem host0_v5 : (StableHlo.after (hostOps0 (F := Ideal)) W (Proc.devRef .tc main_v5) : S2048x2048.Idx → EReal)
    = (W (Proc.devRef .tc main_arg4) : S2048x2048.Idx → EReal) := by
  after_results; rfl

/-! ## Between the first launch and the attention launch -/

/-- The three projections laid back out as [2,2048,2048]. -/
theorem host1_v7 (b : Fin 2) (s f : Fin 2048) (P : Fin 4096) (hP : P.val = 2048 * b.val + s.val) :
    (StableHlo.after (hostOps1 (F := Ideal)) W (Proc.devRef .tc main_v7) : S2x2048x2048.Idx → EReal) (ix3 b s f)
      = (W (Proc.devRef .tc main_v6_0) : S4096x2048.Idx → EReal) (ix2 P f) := by
  after_results
  exact shapeCast_apply (W (Proc.devRef .tc main_v6_0)) shapeCasts_S4096x2048_S2x2048x2048 (ix3 b s f) (ix2 P f) (flat_rowMajor b s f P hP).symm
theorem host1_v8 (b : Fin 2) (s f : Fin 2048) (P : Fin 4096) (hP : P.val = 2048 * b.val + s.val) :
    (StableHlo.after (hostOps1 (F := Ideal)) W (Proc.devRef .tc main_v8) : S2x2048x2048.Idx → EReal) (ix3 b s f)
      = (W (Proc.devRef .tc main_v6_1) : S4096x2048.Idx → EReal) (ix2 P f) := by
  after_results
  exact shapeCast_apply (W (Proc.devRef .tc main_v6_1)) shapeCasts_S4096x2048_S2x2048x2048 (ix3 b s f) (ix2 P f) (flat_rowMajor b s f P hP).symm
theorem host1_v9 (b : Fin 2) (s f : Fin 2048) (P : Fin 4096) (hP : P.val = 2048 * b.val + s.val) :
    (StableHlo.after (hostOps1 (F := Ideal)) W (Proc.devRef .tc main_v9) : S2x2048x2048.Idx → EReal) (ix3 b s f)
      = (W (Proc.devRef .tc main_v6_2) : S4096x2048.Idx → EReal) (ix2 P f) := by
  after_results
  exact shapeCast_apply (W (Proc.devRef .tc main_v6_2)) shapeCasts_S4096x2048_S2x2048x2048 (ix3 b s f) (ix2 P f) (flat_rowMajor b s f P hP).symm

/-- The attention launch's cosine and sine tables are the first 2048 rows of the [4096,128] tables. -/
theorem host1_v10 (s : Fin 2048) (d : Fin 128) (P : Fin 4096) (hP : P.val = s.val) :
    (StableHlo.after (hostOps1 (F := Ideal)) W (Proc.devRef .tc main_v10) : S2048x128.Idx → EReal) (ix2 s d)
      = (W (Proc.devRef .tc main_arg5) : S4096x128.Idx → EReal) (ix2 P d) := by
  after_results
  exact extractStridedSlice_apply ![0, 0] (W (Proc.devRef .tc main_arg5)) slices_S4096x128_S2048x128_0_0 (ix2 s d) (ix2 P d) fun a => by
    match a with
    | ⟨0, _⟩ => show P.val = 0 + s.val; omega
    | ⟨1, _⟩ => show d.val = 0 + d.val; omega
theorem host1_v11 (s : Fin 2048) (d : Fin 128) (P : Fin 4096) (hP : P.val = s.val) :
    (StableHlo.after (hostOps1 (F := Ideal)) W (Proc.devRef .tc main_v11) : S2048x128.Idx → EReal) (ix2 s d)
      = (W (Proc.devRef .tc main_arg6) : S4096x128.Idx → EReal) (ix2 P d) := by
  after_results
  exact extractStridedSlice_apply ![0, 0] (W (Proc.devRef .tc main_arg6)) slices_S4096x128_S2048x128_0_0 (ix2 s d) (ix2 P d) fun a => by
    match a with
    | ⟨0, _⟩ => show P.val = 0 + s.val; omega
    | ⟨1, _⟩ => show d.val = 0 + d.val; omega

/-! ## Between the attention launch and the last launch, and after it -/

/-- The last launch's row array is the attention launch's result laid out as [4096,2048]. -/
theorem host2_v13 (b : Fin 2) (s f : Fin 2048) (P : Fin 4096) (hP : P.val = 2048 * b.val + s.val) :
    (StableHlo.after (hostOps2 (F := Ideal)) W (Proc.devRef .tc main_v13) : S4096x2048.Idx → EReal) (ix2 P f)
      = (W (Proc.devRef .tc main_v12) : S2x2048x2048.Idx → EReal) (ix3 b s f) := by
  after_results
  exact shapeCast_apply (W (Proc.devRef .tc main_v12)) shapeCasts_S2x2048x2048_S4096x2048 (ix2 P f) (ix3 b s f) (flat_rowMajor b s f P hP)

/-- The program's result is the last launch's result laid back out as [2,2048,2048]. -/
theorem host3_v15 (b : Fin 2) (s o : Fin 2048) (P : Fin 4096) (hP : P.val = 2048 * b.val + s.val) :
    (StableHlo.after (hostOps3 (F := Ideal)) W (Proc.devRef .tc main_v15) : S2x2048x2048.Idx → EReal) (ix3 b s o)
      = (W (Proc.devRef .tc main_v14) : S4096x2048.Idx → EReal) (ix2 P o) := by
  after_results
  exact shapeCast_apply (W (Proc.devRef .tc main_v14)) shapeCasts_S4096x2048_S2x2048x2048 (ix3 b s o) (ix2 P o) (flat_rowMajor b s o P hP).symm

end Cert.KernelIdeal.HandValue

end
-- ==== Proof.SpecAttn.lean ====
/-
  The attention step of the specification over arbitrary projected arrays and position tables.

  `Spec.score` and `Spec.ctx` are stated for the projections of `x` and for the rows of the [4096, 128] tables. The
  same formulas over ANY q, k, v (as functions of batch, position, feature) and ANY cosine and sine tables (as
  functions of position and coordinate) are `ropeF`, `scoreF`, `ctxF`; `rope_eq`, `score_eq`, `ctx_eq` say that the
  specification is their instance at the projections and at the tables' first 2048 rows.
-/
import proofs.«117884_j83708912599078_2_alg».proof.Proof.Spec

noncomputable section

namespace Cert.Spec

open Idealize.ShloMosaic Idealize.ShloMosaic.ValueIdx
open scoped BigOperators

/-- An array of shape [2, 2048, 2048] as a function of batch, position, feature. -/
abbrev P3 : Type := Fin 2 → Fin 2048 → Fin 2048 → EReal
/-- A position table as a function of position and coordinate. -/
abbrev PT : Type := Fin 2048 → Fin 128 → EReal

/-- The rotary embedding of `u` with tables `cosf`, `sinf`: `u·cos + (−u₂, u₁)·sin`. -/
def ropeF (u : P3) (cosf sinf : PT) (b : Fin 2) (s : Fin 2048) (h : Fin 16) (d : Fin 128) : EReal :=
  u b s (feat h d) * cosf s d
    + (if d.val < 64 then - u b s (feat h (swap d)) else u b s (feat h (swap d))) * sinf s d

/-- The masked, scaled score. -/
def scoreF (q k : P3) (cosf sinf : PT) (b : Fin 2) (h : Fin 16) (sq sk : Fin 2048) : EReal :=
  if sk.val ≤ sq.val then (∑ d : Fin 128, ropeF q cosf sinf b sq h d * ropeF k cosf sinf b sk h d) * scale else ⊥

/-- The softmax-weighted sum of the rows of `v`. -/
def ctxF (q k v : P3) (cosf sinf : PT) (b : Fin 2) (sq : Fin 2048) (h : Fin 16) (d : Fin 128) : EReal :=
  ∑ sk : Fin 2048,
    Ideal.div (Ideal.exp (scoreF q k cosf sinf b h sq sk - Finset.univ.sup (scoreF q k cosf sinf b h sq)))
        (∑ sk' : Fin 2048, Ideal.exp (scoreF q k cosf sinf b h sq sk' - Finset.univ.sup (scoreF q k cosf sinf b h sq)))
      * v b sk (feat h d)

/-- A [4096, 128] table's first 2048 rows as a function of position and coordinate. -/
def tab (t : T2) : PT := fun s d => t (ix2 (row s) d)

theorem rope_eq (u : P3) (cos sin : T2) : rope u cos sin = ropeF u (tab cos) (tab sin) := rfl
theorem score_eq (x : A3) (Wq Wk : A2) (cos sin : T2) :
    score x Wq Wk cos sin = scoreF (proj x Wq) (proj x Wk) (tab cos) (tab sin) := rfl
theorem ctx_eq (x : A3) (Wq Wk Wv : A2) (cos sin : T2) :
    ctx x Wq Wk Wv cos sin = ctxF (proj x Wq) (proj x Wk) (proj x Wv) (tab cos) (tab sin) := rfl

end Cert.Spec

end
-- ==== Proof.KI_Value.lean ====
/-
  The kernel's result as the specification's function of its seven arguments, given the attention launch's value.

  Following the buffers through @main on the extended reals: the first launch's row array is the input laid out as
  [4096,2048] and its weights are the three input weights, so its three results, laid back out as [2,2048,2048], are
  the projections x·Wqᵀ, x·Wkᵀ, x·Wvᵀ; the attention launch's tables are the first 2048 rows of the cosine and sine
  tables; its result, laid out as [4096,2048], is the last launch's row array, whose weight is the output weight; the
  last launch's result, laid back out, is at (b, s, o) the sum over the features f of the attention result at
  (b, s, f) times Wo[o, f] — the specification's output, once the attention launch's result at (b, s, 128·h + d) is
  the softmax-weighted sum of the specification at the launch's own inputs.
-/
import proofs.«117884_j83708912599078_2_alg».proof.Proof.KI_Chain
import proofs.«117884_j83708912599078_2_alg».proof.Proof.KI_Reg0Value
import proofs.«117884_j83708912599078_2_alg».proof.Proof.KI_Reg2Value
import proofs.«117884_j83708912599078_2_alg».proof.Proof.KI_HostValue
import proofs.«117884_j83708912599078_2_alg».proof.Proof.SpecAttn

set_option maxRecDepth 16384

noncomputable section

open scoped BigOperators

namespace Cert.KernelIdeal.HandValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg) (c : Dev nD)

/-! ## The seven arguments, and the attention launch's five inputs -/

/-- The arguments as launched: the input, the four weights, the cosine and sine tables. -/
abbrev argX : Spec.A3 := m ((c : Thread nD τ).loc main_arg0)
abbrev argWq : Spec.A2 := m ((c : Thread nD τ).loc main_arg1)
abbrev argWk : Spec.A2 := m ((c : Thread nD τ).loc main_arg2)
abbrev argWv : Spec.A2 := m ((c : Thread nD τ).loc main_arg3)
abbrev argWo : Spec.A2 := m ((c : Thread nD τ).loc main_arg4)
abbrev argCos : Spec.T2 := m ((c : Thread nD τ).loc main_arg5)
abbrev argSin : Spec.T2 := m ((c : Thread nD τ).loc main_arg6)

/-- The attention launch's three projected arrays as it finds them, as functions of batch, position, feature. -/
abbrev attnQ : Spec.P3 := fun b s f => (Hand.V3 m ρ c main_v7 : S2x2048x2048.Idx → EReal) (ix3 b s f)
abbrev attnK : Spec.P3 := fun b s f => (Hand.V3 m ρ c main_v8 : S2x2048x2048.Idx → EReal) (ix3 b s f)
abbrev attnV : Spec.P3 := fun b s f => (Hand.V3 m ρ c main_v9 : S2x2048x2048.Idx → EReal) (ix3 b s f)
/-- Its cosine and sine tables as it finds them, as functions of position and coordinate. -/
abbrev attnCos : Spec.PT := fun s d => (Hand.V3 m ρ c main_v10 : S2048x128.Idx → EReal) (ix2 s d)
abbrev attnSin : Spec.PT := fun s d => (Hand.V3 m ρ c main_v11 : S2048x128.Idx → EReal) (ix2 s d)

/-! ## The first launch's inputs -/

/-- Its row array is the input laid out as [4096,2048]. -/
theorem x0_apply (b : Fin 2) (s h : Fin 2048) (P : Fin 4096) (hP : P.val = 2048 * b.val + s.val) :
    xArr0 (Hand.V1 m ρ) c (ix2 P h) = argX m c (ix3 b s h) :=
  host0_v1 (Hand.W0 m ρ c) b s h P hP

/-- Its weight arrays are the three input weights. -/
theorem w0_1_eq : wArr0_1 (Hand.V1 m ρ) c = argWq m c := host0_v2 (Hand.W0 m ρ c)
theorem w0_2_eq : wArr0_2 (Hand.V1 m ρ) c = argWk m c := host0_v3 (Hand.W0 m ρ c)
theorem w0_3_eq : wArr0_3 (Hand.V1 m ρ) c = argWv m c := host0_v4 (Hand.W0 m ρ c)

/-! ## The attention launch's inputs -/

/-- The attention launch's q array is the projection x·Wqᵀ. -/
theorem attnQ_eq : attnQ m ρ c = Spec.proj (argX m c) (argWq m c) := by
  funext b s f
  have hP : 2048 * b.val + s.val < 4096 := by have := b.isLt; have := s.isLt; omega
  refine ((host1_v7 (Hand.W2 m ρ c) b s f ⟨2048 * b.val + s.val, hP⟩ rfl).trans
    ((congrFun (Hand.W2_arr m ρ c 4) (ix2 (⟨2048 * b.val + s.val, hP⟩ : Fin 4096) f)).trans
      (arr0_4_apply (Hand.V1 m ρ) c ⟨2048 * b.val + s.val, hP⟩ f))).trans ?_
  show (∑ h : Fin 2048, xArr0 (Hand.V1 m ρ) c (ix2 (⟨2048 * b.val + s.val, hP⟩ : Fin 4096) h) * wArr0_1 (Hand.V1 m ρ) c (ix2 f h) : EReal)
    = Spec.proj (argX m c) (argWq m c) b s f
  unfold Spec.proj
  refine Finset.sum_congr rfl fun h _ => ?_
  rw [x0_apply m ρ c b s h ⟨2048 * b.val + s.val, hP⟩ rfl, w0_1_eq m ρ c]

/-- Its k array is the projection x·Wkᵀ. -/
theorem attnK_eq : attnK m ρ c = Spec.proj (argX m c) (argWk m c) := by
  funext b s f
  have hP : 2048 * b.val + s.val < 4096 := by have := b.isLt; have := s.isLt; omega
  refine ((host1_v8 (Hand.W2 m ρ c) b s f ⟨2048 * b.val + s.val, hP⟩ rfl).trans
    ((congrFun (Hand.W2_arr m ρ c 5) (ix2 (⟨2048 * b.val + s.val, hP⟩ : Fin 4096) f)).trans
      (arr0_5_apply (Hand.V1 m ρ) c ⟨2048 * b.val + s.val, hP⟩ f))).trans ?_
  show (∑ h : Fin 2048, xArr0 (Hand.V1 m ρ) c (ix2 (⟨2048 * b.val + s.val, hP⟩ : Fin 4096) h) * wArr0_2 (Hand.V1 m ρ) c (ix2 f h) : EReal)
    = Spec.proj (argX m c) (argWk m c) b s f
  unfold Spec.proj
  refine Finset.sum_congr rfl fun h _ => ?_
  rw [x0_apply m ρ c b s h ⟨2048 * b.val + s.val, hP⟩ rfl, w0_2_eq m ρ c]

/-- Its v array is the projection x·Wvᵀ. -/
theorem attnV_eq : attnV m ρ c = Spec.proj (argX m c) (argWv m c) := by
  funext b s f
  have hP : 2048 * b.val + s.val < 4096 := by have := b.isLt; have := s.isLt; omega
  refine ((host1_v9 (Hand.W2 m ρ c) b s f ⟨2048 * b.val + s.val, hP⟩ rfl).trans
    ((congrFun (Hand.W2_arr m ρ c 6) (ix2 (⟨2048 * b.val + s.val, hP⟩ : Fin 4096) f)).trans
      (arr0_6_apply (Hand.V1 m ρ) c ⟨2048 * b.val + s.val, hP⟩ f))).trans ?_
  show (∑ h : Fin 2048, xArr0 (Hand.V1 m ρ) c (ix2 (⟨2048 * b.val + s.val, hP⟩ : Fin 4096) h) * wArr0_3 (Hand.V1 m ρ) c (ix2 f h) : EReal)
    = Spec.proj (argX m c) (argWv m c) b s f
  unfold Spec.proj
  refine Finset.sum_congr rfl fun h _ => ?_
  rw [x0_apply m ρ c b s h ⟨2048 * b.val + s.val, hP⟩ rfl, w0_3_eq m ρ c]

/-- A buffer that neither the first launch nor the host operations around it write holds its launch contents when the
    attention launch is entered. -/
theorem attnEntry_arg5 : Hand.W2 m ρ c (Proc.devRef .tc main_arg5) = m ((c : Thread nD τ).loc main_arg5) :=
  (Hand.W2_of_ne m ρ c main_arg5 (by decide)).trans (StableHlo.after_of_writes_sub hostOps0 _ hostOps0_writes (by decide))
theorem attnEntry_arg6 : Hand.W2 m ρ c (Proc.devRef .tc main_arg6) = m ((c : Thread nD τ).loc main_arg6) :=
  (Hand.W2_of_ne m ρ c main_arg6 (by decide)).trans (StableHlo.after_of_writes_sub hostOps0 _ hostOps0_writes (by decide))

/-- Its cosine table is the first 2048 rows of the cosine argument. -/
theorem attnCos_eq : attnCos m ρ c = Spec.tab (argCos m c) := by
  funext s d
  exact (host1_v10 (Hand.W2 m ρ c) s d (Spec.row s) rfl).trans (congrFun (attnEntry_arg5 m ρ c) (ix2 (Spec.row s) d))
/-- Its sine table is the first 2048 rows of the sine argument. -/
theorem attnSin_eq : attnSin m ρ c = Spec.tab (argSin m c) := by
  funext s d
  exact (host1_v11 (Hand.W2 m ρ c) s d (Spec.row s) rfl).trans (congrFun (attnEntry_arg6 m ρ c) (ix2 (Spec.row s) d))

/-! ## The last launch's inputs -/

/-- Its weight array is the output weight: nothing between the launch of @main and the last launch writes it but the
    rounding before the first launch. -/
theorem wo_eq : wArr2 (Hand.V5 m ρ) c = argWo m c :=
  ((StableHlo.after_of_writes_sub hostOps2 (Hand.W4 m ρ c) hostOps2_writes (by decide)).trans
    ((Hand.W4_of_ne m ρ c main_v5 (by decide)).trans
      ((StableHlo.after_of_writes_sub hostOps1 (Hand.W2 m ρ c) hostOps1_writes (by decide)).trans
        (Hand.W2_of_ne m ρ c main_v5 (by decide))))).trans (host0_v5 (Hand.W0 m ρ c))

/-- A feature is coordinate `f % 128` of head `f / 128`. -/
theorem feat_head_coord (f : Fin 2048) : Spec.feat (Spec.headOf f) (Spec.coordOf f) = f :=
  Fin.ext (by show 128 * (f.val / 128) + f.val % 128 = f.val; omega)

/-- Its row array is the attention launch's result laid out as [4096,2048]. -/
theorem x2_apply
    (hattn : ∀ (b : Fin 2) (s : Fin 2048) (h : Fin 16) (d : Fin 128),
      ((Hand.dat1 (F := Ideal) Hand.q1 (Hand.V3 m ρ) c).arrAt 7 cfg1.N : S2x2048x2048.Idx → EReal) (ix3 b s (Spec.feat h d))
        = Spec.ctxF (attnQ m ρ c) (attnK m ρ c) (attnV m ρ c) (attnCos m ρ c) (attnSin m ρ c) b s h d)
    (b : Fin 2) (s f : Fin 2048) (P : Fin 4096) (hP : P.val = 2048 * b.val + s.val) :
    xArr2 (Hand.V5 m ρ) c (ix2 P f)
      = Spec.ctxF (attnQ m ρ c) (attnK m ρ c) (attnV m ρ c) (attnCos m ρ c) (attnSin m ρ c) b s (Spec.headOf f) (Spec.coordOf f) := by
  refine ((host2_v13 (Hand.W4 m ρ c) b s f P hP).trans (congrFun (Hand.W4_out m ρ c) (ix3 b s f))).trans ?_
  have h := hattn b s (Spec.headOf f) (Spec.coordOf f)
  rw [feat_head_coord] at h
  exact h

/-! ## The result -/

/-- THE KERNEL'S RESULT: given that the attention launch leaves at `(b, s, 128·h + d)` the softmax-weighted sum of the
    specification over its own inputs, the buffer @main returns holds the specification's function of the seven arguments. -/
theorem kernel_value
    (hattn : ∀ (b : Fin 2) (s : Fin 2048) (h : Fin 16) (d : Fin 128),
      ((Hand.dat1 (F := Ideal) Hand.q1 (Hand.V3 m ρ) c).arrAt 7 cfg1.N : S2x2048x2048.Idx → EReal) (ix3 b s (Spec.feat h d))
        = Spec.ctxF (attnQ m ρ c) (attnK m ρ c) (attnV m ρ c) (attnCos m ρ c) (attnSin m ρ c) b s h d) :
    (Hand.W7 m ρ c (Proc.devRef .tc main_v15) : S2x2048x2048.Idx → EReal)
      = Spec.G (argX m c) (argWq m c) (argWk m c) (argWv m c) (argWo m c) (argCos m c) (argSin m c) := by
  funext i
  obtain ⟨b, s, o, rfl⟩ : ∃ (b : Fin 2) (s o : Fin 2048), i = ix3 b s o := ⟨i 0, i 1, i 2, eq_ix3 i⟩
  have hP : 2048 * b.val + s.val < 4096 := by have := b.isLt; have := s.isLt; omega
  refine ((host3_v15 (Hand.W6 m ρ c) b s o ⟨2048 * b.val + s.val, hP⟩ rfl).trans
    ((congrFun (Hand.W6_arr m ρ c 2) (ix2 (⟨2048 * b.val + s.val, hP⟩ : Fin 4096) o)).trans
      (arr2_2_apply (Hand.V5 m ρ) c ⟨2048 * b.val + s.val, hP⟩ o))).trans ?_
  show _ = Spec.out (argX m c) (argWq m c) (argWk m c) (argWv m c) (argWo m c) (argCos m c) (argSin m c) b s o
  unfold Spec.out
  refine Finset.sum_congr rfl fun f _ => ?_
  rw [x2_apply m ρ c hattn b s f ⟨2048 * b.val + s.val, hP⟩ rfl, wo_eq m ρ c, Spec.ctx_eq,
    attnQ_eq m ρ c, attnK_eq m ρ c, attnV_eq m ρ c, attnCos_eq m ρ c, attnSin_eq m ρ c]

end Cert.KernelIdeal.HandValue

end
-- ==== Proof.KI_Finite.lean ====
/-
  The precondition says that every entry of the seven argument arrays is a real number.

  The predicate compares the absolute value of every entry with plus infinity, takes the conjunction over each
  array, and then the conjunction of the seven results. Over the extended reals |x| = max x (−x) is below plus
  infinity exactly when x is neither infinity; a conjunction over an array that comes out true was true at every
  entry.
-/
import proofs.«117884_j83708912599078_2_alg».proof.Defs
import Idealize.ShloMosaic.Lib.ReduceAll
import Idealize.ShloMosaic.Lib.ValueIdx
import Idealize.ShloMosaic.PureOps.Ideal

noncomputable section

namespace Cert.KernelIdeal.HandValue

open Idealize.ShloMosaic Idealize.ShloMosaic.ValueIdx Idealize.ShloMosaic.TcCoe Idealize.SL.Sem

/-- Every entry of an array over the extended reals is a real number. -/
def IsReal {ι : Type} (a : ι → EReal) : Prop := ∀ i, a i ≠ ⊤ ∧ a i ≠ ⊥

/-- An array of real entries is the cast of an array of reals. -/
theorem IsReal.exists_coe {ι : Type} {a : ι → EReal} (h : IsReal a) : ∃ r : ι → ℝ, a = fun i => ((r i : ℝ) : EReal) :=
  ⟨fun i => (a i).toReal, funext fun i => (EReal.coe_toReal (h i).1 (h i).2).symm⟩

/-- The cast of an array of reals has real entries. -/
theorem isReal_coe {ι : Type} (r : ι → ℝ) : IsReal (fun i => ((r i : ℝ) : EReal)) :=
  fun i => ⟨EReal.coe_ne_top _, EReal.coe_ne_bot _⟩

/-- An entry whose absolute value compares below the word of plus infinity is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have hinf : Ideal.ofBits .f32 0x7F800000#32 = (⊤ : EReal) := by simp [Ideal.ofBits, Ideal.ieee]
  have h' : Ideal.cmp .olt (max x (-x)) (Ideal.ofBits .f32 0x7F800000#32) = 1#1 := h
  rw [hinf] at h'
  induction x using EReal.rec with
  | bot => simp [Ideal.cmp] at h'
  | coe r => exact ⟨EReal.coe_ne_top r, EReal.coe_ne_bot r⟩
  | top => simp [Ideal.cmp] at h'

section
variable [Cert.Pre_finite_inputs.Facts]
open Cert.Pre_finite_inputs Cert.Pre_finite_inputs.Facts

/-- The scalar shape has one index. -/
local instance : Subsingleton Cert.Pre_finite_inputs.S_.Idx := ⟨fun _ _ => funext fun d => d.elim0⟩

/-- One array's conjunction came out true: every entry is real. -/
theorem all_real {s : Shape} (a : FVec Ideal s .f32) (hb : Cert.Pre_finite_inputs.S_.BroadcastsInDim s (![] : Fin 0 → Fin s.rank))
    {axes : List (Fin s.rank)} (hr : s.ReducesTo axes Cert.Pre_finite_inputs.S_)
    (e : Host.reduce IntOp.andi
        (cmpf .olt (Host.absf a) (broadcastInDim s ![] hb (constant Cert.Pre_finite_inputs.S_ .f32 0x7F800000#32)))
        (constantI Cert.Pre_finite_inputs.S_ 1 1#1) hr h_S_ ix0 = 1#1) : IsReal a :=
  fun i => real_of_abs_lt (a i) (Host.reduce_andi_all _ _ hr h_S_ ix0 e i)

/-- The predicate all ones: every entry of every argument is real. -/
theorem fn_real (a0 : FVec Ideal Cert.Pre_finite_inputs.S2x2048x2048 .f32)
    (a1 a2 a3 a4 : FVec Ideal Cert.Pre_finite_inputs.S2048x2048 .f32)
    (a5 a6 : FVec Ideal Cert.Pre_finite_inputs.S4096x128 .f32)
    (h : Cert.Pre_finite_inputs.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h0 := congrFun h ix0
  dsimp only [Cert.Pre_finite_inputs.fn, Cert.Pre_finite_inputs.fn_part1] at h0
  obtain ⟨h5, e6⟩ := IntOp.andi_eq_one.1 (show IntOp.andi _ _ = 1#1 from h0)
  obtain ⟨h4, e5⟩ := IntOp.andi_eq_one.1 (show IntOp.andi _ _ = 1#1 from h5)
  obtain ⟨h3, e4⟩ := IntOp.andi_eq_one.1 (show IntOp.andi _ _ = 1#1 from h4)
  obtain ⟨h2, e3⟩ := IntOp.andi_eq_one.1 (show IntOp.andi _ _ = 1#1 from h3)
  obtain ⟨h1, e2⟩ := IntOp.andi_eq_one.1 (show IntOp.andi _ _ = 1#1 from h2)
  obtain ⟨e0, e1⟩ := IntOp.andi_eq_one.1 (show IntOp.andi _ _ = 1#1 from h1)
  exact ⟨all_real a0 _ _ e0, all_real a1 _ _ e1, all_real a2 _ _ e2, all_real a3 _ _ e3, all_real a4 _ _ e4,
    all_real a5 _ _ e5, all_real a6 _ _ e6⟩

open Cert.KernelIdeal in
/-- Under the precondition every entry of the kernel's seven argument arrays is a real number, on every core. -/
theorem pre_real (m : (ℓ : Loc nD τ sig) → Buf (Elt Ideal) ℓ) (h : Cert.Pre_KernelIdeal m) (c : Dev nD) :
    IsReal (m ((c.tc : Thread nD τ).loc main_arg0) : Cert.KernelIdeal.S2x2048x2048.Idx → EReal)
    ∧ IsReal (m ((c.tc : Thread nD τ).loc main_arg1) : Cert.KernelIdeal.S2048x2048.Idx → EReal)
    ∧ IsReal (m ((c.tc : Thread nD τ).loc main_arg2) : Cert.KernelIdeal.S2048x2048.Idx → EReal)
    ∧ IsReal (m ((c.tc : Thread nD τ).loc main_arg3) : Cert.KernelIdeal.S2048x2048.Idx → EReal)
    ∧ IsReal (m ((c.tc : Thread nD τ).loc main_arg4) : Cert.KernelIdeal.S2048x2048.Idx → EReal)
    ∧ IsReal (m ((c.tc : Thread nD τ).loc main_arg5) : Cert.KernelIdeal.S4096x128.Idx → EReal)
    ∧ IsReal (m ((c.tc : Thread nD τ).loc main_arg6) : Cert.KernelIdeal.S4096x128.Idx → EReal) :=
  fn_real _ _ _ _ _ _ _ (h c)

end

end Cert.KernelIdeal.HandValue

end
-- ==== Proof.KI_RealOps.lean ====
/-
  Operations that keep every entry of an array a real number.

  A reshape and a slice only move entries; a change of float format is the identity on the extended reals; and an
  entry of a product X·Wᵀ is a finite sum of products of entries, which is a real number when the entries are.
-/
import proofs.«117884_j83708912599078_2_alg».proof.Proof.KI_Finite
import proofs.«117884_j83708912599078_2_alg».proof.Proof.KI_RowsDot
import proofs.«117884_j83708912599078_2_alg».proof.Proof.LibOnlineSoftmax

noncomputable section

open scoped BigOperators

namespace Cert.KernelIdeal.HandValue

open Idealize.ShloMosaic Idealize.ShloMosaic.ValueIdx

/-- Reading an array of real entries through any map of indices gives real entries. -/
theorem IsReal.comp {ι κ : Type} {a : ι → EReal} (h : IsReal a) (σ : κ → ι) : IsReal (fun j => a (σ j)) :=
  fun j => h (σ j)

/-- A reshape keeps the entries real. -/
theorem IsReal.shapeCast {s t : Shape} {a : s.Idx → EReal} (h : IsReal a) (hc : s.ShapeCasts t) :
    IsReal (shapeCast t a hc) := fun j => h _

/-- A slice keeps the entries real. -/
theorem IsReal.slice {s t : Shape} {a : s.Idx → EReal} (h : IsReal a) (off : Fin s.rank → Nat) (hs : s.Slices off t) :
    IsReal (extractStridedSlice t off a hs) := fun j => h _

/-- A narrowing change of format keeps the entries real. -/
theorem IsReal.truncf {s : Shape} {φ ψ : FTy} {a : FVec Ideal s φ} (h : IsReal (a : s.Idx → EReal)) (hb : ψ.bits < φ.bits) :
    IsReal (truncf ψ a hb : s.Idx → EReal) := fun i => h i

/-- The product of an array of real entries with the transpose of another has real entries. -/
theorem rowsDot_real {m n k : ℕ} {X : (⟨2, ![m, k]⟩ : Shape).Idx → EReal} {W : (⟨2, ![n, k]⟩ : Shape).Idx → EReal}
    (hX : IsReal X) (hW : IsReal W) : IsReal (rowsDot X W) := by
  obtain ⟨rX, rfl⟩ := hX.exists_coe
  obtain ⟨rW, rfl⟩ := hW.exists_coe
  intro i
  have e : rowsDot (fun i => ((rX i : ℝ) : EReal)) (fun i => ((rW i : ℝ) : EReal)) i
      = ((∑ h : Fin k, rX (ix2 (⟨(i 0).val, (i 0).isLt⟩ : Fin m) h) * rW (ix2 (⟨(i 1).val, (i 1).isLt⟩ : Fin n) h) : ℝ) : EReal) := by
    rw [OnlineSoftmax.coe_sum]
    exact Finset.sum_congr rfl fun h _ => (EReal.coe_mul _ _).symm
  rw [e]
  exact ⟨EReal.coe_ne_top _, EReal.coe_ne_bot _⟩

end Cert.KernelIdeal.HandValue

end
-- ==== Proof.KI_HostReal.lean ====
/-
  The host operations between the launches keep the entries real.

  Before the first launch the input is reshaped to rows and the arrays are narrowed to the matrix unit's format,
  which is the identity on the extended reals. Between the first and the second launch the three projections are
  reshaped back and the first 2048 rows of the two tables are sliced out. None of these operations computes
  anything: each result entry is an entry of the operand.
-/
import proofs.«117884_j83708912599078_2_alg».proof.Proof.Gen.KernelIdeal.Launch
import Idealize.ShloMosaic.Lib.StableHlo.Run
import proofs.«117884_j83708912599078_2_alg».proof.Proof.KI_RealOps

noncomputable section

namespace Cert.KernelIdeal.HandValue

open Cert.KernelIdeal Cert.KernelIdeal.Gen
open Idealize.ShloMosaic Idealize.ShloMosaic.TcCoe Idealize.ShloMosaic.StableHlo

variable (V : Valuation τ sig (Elt Ideal))

/-! ## Before the first launch -/

/-- The input rows in the matrix unit's format. -/
theorem host0_v1_real (h : IsReal (V (main_arg0 : DevRef τ sig) : S2x2048x2048.Idx → EReal)) :
    IsReal (after (hostOps0 (F := Ideal)) V (main_v1 : DevRef τ sig) : S4096x2048.Idx → EReal) := by
  after_results
  exact (h.shapeCast _).truncf _

/-- The three projection weights in the matrix unit's format. -/
theorem host0_v2_real (h : IsReal (V (main_arg1 : DevRef τ sig) : S2048x2048.Idx → EReal)) :
    IsReal (after (hostOps0 (F := Ideal)) V (main_v2 : DevRef τ sig) : S2048x2048.Idx → EReal) := by
  after_results
  exact h.truncf _
theorem host0_v3_real (h : IsReal (V (main_arg2 : DevRef τ sig) : S2048x2048.Idx → EReal)) :
    IsReal (after (hostOps0 (F := Ideal)) V (main_v3 : DevRef τ sig) : S2048x2048.Idx → EReal) := by
  after_results
  exact h.truncf _
theorem host0_v4_real (h : IsReal (V (main_arg3 : DevRef τ sig) : S2048x2048.Idx → EReal)) :
    IsReal (after (hostOps0 (F := Ideal)) V (main_v4 : DevRef τ sig) : S2048x2048.Idx → EReal) := by
  after_results
  exact h.truncf _

/-- The tables are not written. -/
theorem host0_arg5 : after (hostOps0 (F := Ideal)) V (main_arg5 : DevRef τ sig) = V (main_arg5 : DevRef τ sig) := by
  after_results
theorem host0_arg6 : after (hostOps0 (F := Ideal)) V (main_arg6 : DevRef τ sig) = V (main_arg6 : DevRef τ sig) := by
  after_results

/-! ## Between the first and the second launch -/

/-- The three projections reshaped to [2, 2048, 2048]. -/
theorem host1_v7_real (h : IsReal (V (main_v6_0 : DevRef τ sig) : S4096x2048.Idx → EReal)) :
    IsReal (after (hostOps1 (F := Ideal)) V (main_v7 : DevRef τ sig) : S2x2048x2048.Idx → EReal) := by
  after_results
  exact h.shapeCast _
theorem host1_v8_real (h : IsReal (V (main_v6_1 : DevRef τ sig) : S4096x2048.Idx → EReal)) :
    IsReal (after (hostOps1 (F := Ideal)) V (main_v8 : DevRef τ sig) : S2x2048x2048.Idx → EReal) := by
  after_results
  exact h.shapeCast _
theorem host1_v9_real (h : IsReal (V (main_v6_2 : DevRef τ sig) : S4096x2048.Idx → EReal)) :
    IsReal (after (hostOps1 (F := Ideal)) V (main_v9 : DevRef τ sig) : S2x2048x2048.Idx → EReal) := by
  after_results
  exact h.shapeCast _

/-- The first 2048 rows of the cosine and sine tables. -/
theorem host1_v10_real (h : IsReal (V (main_arg5 : DevRef τ sig) : S4096x128.Idx → EReal)) :
    IsReal (after (hostOps1 (F := Ideal)) V (main_v10 : DevRef τ sig) : S2048x128.Idx → EReal) := by
  after_results
  exact h.slice _ _
theorem host1_v11_real (h : IsReal (V (main_arg6 : DevRef τ sig) : S4096x128.Idx → EReal)) :
    IsReal (after (hostOps1 (F := Ideal)) V (main_v11 : DevRef τ sig) : S2048x128.Idx → EReal) := by
  after_results
  exact h.slice _ _

end Cert.KernelIdeal.HandValue

end
-- ==== Proof.KI_Finite2.lean ====
/-
  Finiteness carried from the arguments to the second launch's inputs.

  The second launch reads the three projections (reshaped) and the first 2048 rows of the cosine and sine tables.
  Each projection is the first launch's product of the input rows with a transposed weight, a finite sum of
  products of real entries; the host operations around the first launch only move entries or change their format.
-/
import proofs.«117884_j83708912599078_2_alg».proof.Proof.KI_Chain
import proofs.«117884_j83708912599078_2_alg».proof.Proof.KI_Reg0Value
import proofs.«117884_j83708912599078_2_alg».proof.Proof.KI_HostReal

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first launch's three results have real entries when the input and the three weights do. -/
theorem V2_real
    (h0 : IsReal (m ((c.tc : Thread nD τ).loc main_arg0) : S2x2048x2048.Idx → EReal))
    (h1 : IsReal (m ((c.tc : Thread nD τ).loc main_arg1) : S2048x2048.Idx → EReal))
    (h2 : IsReal (m ((c.tc : Thread nD τ).loc main_arg2) : S2048x2048.Idx → EReal))
    (h3 : IsReal (m ((c.tc : Thread nD τ).loc main_arg3) : S2048x2048.Idx → EReal)) :
    IsReal (W2 (F := Ideal) m ρ c (main_v6_0 : DevRef τ sig) : S4096x2048.Idx → EReal)
    ∧ IsReal (W2 (F := Ideal) m ρ c (main_v6_1 : DevRef τ sig) : S4096x2048.Idx → EReal)
    ∧ IsReal (W2 (F := Ideal) m ρ c (main_v6_2 : DevRef τ sig) : S4096x2048.Idx → EReal) := by
  have hx : IsReal (xArr0 (V1 (F := Ideal) m ρ) c) := host0_v1_real (W0 (F := Ideal) m ρ c) h0
  have hw1 : IsReal (wArr0_1 (V1 (F := Ideal) m ρ) c) := host0_v2_real (W0 (F := Ideal) m ρ c) h1
  have hw2 : IsReal (wArr0_2 (V1 (F := Ideal) m ρ) c) := host0_v3_real (W0 (F := Ideal) m ρ c) h2
  have hw3 : IsReal (wArr0_3 (V1 (F := Ideal) m ρ) c) := host0_v4_real (W0 (F := Ideal) m ρ c) h3
  have e4 : (W2 (F := Ideal) m ρ c (main_v6_0 : DevRef τ sig) : S4096x2048.Idx → EReal)
      = rowsDot (xArr0 (V1 (F := Ideal) m ρ) c) (wArr0_1 (V1 (F := Ideal) m ρ) c) :=
    (W2_arr (F := Ideal) m ρ c 4).trans (final0_4 (V1 (F := Ideal) m ρ) c)
  have e5 : (W2 (F := Ideal) m ρ c (main_v6_1 : DevRef τ sig) : S4096x2048.Idx → EReal)
      = rowsDot (xArr0 (V1 (F := Ideal) m ρ) c) (wArr0_2 (V1 (F := Ideal) m ρ) c) :=
    (W2_arr (F := Ideal) m ρ c 5).trans (final0_5 (V1 (F := Ideal) m ρ) c)
  have e6 : (W2 (F := Ideal) m ρ c (main_v6_2 : DevRef τ sig) : S4096x2048.Idx → EReal)
      = rowsDot (xArr0 (V1 (F := Ideal) m ρ) c) (wArr0_3 (V1 (F := Ideal) m ρ) c) :=
    (W2_arr (F := Ideal) m ρ c 6).trans (final0_6 (V1 (F := Ideal) m ρ) c)
  refine ⟨?_, ?_, ?_⟩
  · rw [e4]; exact rowsDot_real hx hw1
  · rw [e5]; exact rowsDot_real hx hw2
  · rw [e6]; exact rowsDot_real hx hw3

/-- The first launch leaves the two tables as the arguments hold them. -/
theorem W2_arg5 : W2 (F := Ideal) m ρ c (main_arg5 : DevRef τ sig) = m ((c.tc : Thread nD τ).loc main_arg5) :=
  (W2_of_ne (F := Ideal) m ρ c main_arg5 (by decide)).trans (host0_arg5 (W0 (F := Ideal) m ρ c))
theorem W2_arg6 : W2 (F := Ideal) m ρ c (main_arg6 : DevRef τ sig) = m ((c.tc : Thread nD τ).loc main_arg6) :=
  (W2_of_ne (F := Ideal) m ρ c main_arg6 (by decide)).trans (host0_arg6 (W0 (F := Ideal) m ρ c))

/-- Every entry of the second launch's five input arrays is a real number when the arguments' entries are. -/
theorem V3_real
    (h0 : IsReal (m ((c.tc : Thread nD τ).loc main_arg0) : S2x2048x2048.Idx → EReal))
    (h1 : IsReal (m ((c.tc : Thread nD τ).loc main_arg1) : S2048x2048.Idx → EReal))
    (h2 : IsReal (m ((c.tc : Thread nD τ).loc main_arg2) : S2048x2048.Idx → EReal))
    (h3 : IsReal (m ((c.tc : Thread nD τ).loc main_arg3) : S2048x2048.Idx → EReal))
    (h5 : IsReal (m ((c.tc : Thread nD τ).loc main_arg5) : S4096x128.Idx → EReal))
    (h6 : IsReal (m ((c.tc : Thread nD τ).loc main_arg6) : S4096x128.Idx → EReal)) :
    IsReal (V3 (F := Ideal) m ρ c main_v7 : S2x2048x2048.Idx → EReal)
    ∧ IsReal (V3 (F := Ideal) m ρ c main_v8 : S2x2048x2048.Idx → EReal)
    ∧ IsReal (V3 (F := Ideal) m ρ c main_v9 : S2x2048x2048.Idx → EReal)
    ∧ IsReal (V3 (F := Ideal) m ρ c main_v10 : S2048x128.Idx → EReal)
    ∧ IsReal (V3 (F := Ideal) m ρ c main_v11 : S2048x128.Idx → EReal) := by
  obtain ⟨r0, r1, r2⟩ := V2_real m ρ c h0 h1 h2 h3
  have r5 : IsReal (W2 (F := Ideal) m ρ c (main_arg5 : DevRef τ sig) : S4096x128.Idx → EReal) := by
    rw [W2_arg5]; exact h5
  have r6 : IsReal (W2 (F := Ideal) m ρ c (main_arg6 : DevRef τ sig) : S4096x128.Idx → EReal) := by
    rw [W2_arg6]; exact h6
  exact ⟨host1_v7_real (W2 (F := Ideal) m ρ c) r0, host1_v8_real (W2 (F := Ideal) m ρ c) r1,
    host1_v9_real (W2 (F := Ideal) m ρ c) r2, host1_v10_real (W2 (F := Ideal) m ρ c) r5,
    host1_v11_real (W2 (F := Ideal) m ρ c) r6⟩

end Cert.KernelIdeal.HandValue

end
-- ==== Proof.KI_KeyTiles.lean ====
/-
  The 2048 keys of a head in four tiles of 512, and one tile of the tiled softmax read through that tiling.

  Keys are positions 0 … 2047. Tile k holds the keys 512·k … 512·k + 511; before tile k the keys below 512·k have
  been seen. A sum (or a supremum) over a tile is the sum (the supremum) over its 512 offsets. A step of the tiled
  softmax whose tile scores and tile values are given by offset is a step of the invariant of the abstract
  development from the keys below 512·k to the keys below 512·(k+1).
-/
import proofs.«117884_j83708912599078_2_alg».proof.Proof.LibOnlineSoftmax

noncomputable section

namespace Cert.KeyTiles

open Idealize.ShloMosaic OnlineSoftmax
open scoped BigOperators

/-- Key 512·k + j: offset j of tile k. -/
def key (k : ℕ) (hk : k < 4) (j : Fin 512) : Fin 2048 := ⟨512 * k + j.val, by have := j.isLt; omega⟩

@[simp] theorem key_val (k : ℕ) (hk : k < 4) (j : Fin 512) : (key k hk j).val = 512 * k + j.val := rfl

/-- The keys below tile k. -/
def seen (k : ℕ) : Finset (Fin 2048) := Finset.univ.filter (fun j => j.val < 512 * k)
/-- The keys of tile k. -/
def tile (k : ℕ) : Finset (Fin 2048) := Finset.univ.filter (fun j => 512 * k ≤ j.val ∧ j.val < 512 * k + 512)

theorem seen_zero : seen 0 = ∅ := by
  ext j; simp [seen]

theorem seen_succ (k : ℕ) : seen (k + 1) = seen k ∪ tile k := by
  ext j; simp only [seen, tile, Finset.mem_filter, Finset.mem_univ, true_and, Finset.mem_union]; omega

theorem seen_four : seen 4 = Finset.univ := by
  ext j; have := j.isLt; simp only [seen, Finset.mem_filter, Finset.mem_univ, true_and, iff_true]; omega

theorem disjoint_seen_tile (k : ℕ) : Disjoint (seen k) (tile k) := by
  rw [Finset.disjoint_left]
  intro j h1 h2
  simp only [seen, tile, Finset.mem_filter, Finset.mem_univ, true_and] at h1 h2
  omega

theorem key_mem_tile (k : ℕ) (hk : k < 4) (j : Fin 512) : key k hk j ∈ tile k := by
  have := j.isLt
  simp only [tile, Finset.mem_filter, Finset.mem_univ, true_and, key_val]; omega

/-- The offsets of a tile, as an embedding into the keys. -/
def keyEmb (k : ℕ) (hk : k < 4) : Fin 512 ↪ Fin 2048 :=
  ⟨key k hk, fun a b h => by
    have := congrArg Fin.val h
    simp only [key_val] at this
    exact Fin.ext (by omega)⟩

theorem tile_eq_map (k : ℕ) (hk : k < 4) : tile k = Finset.univ.map (keyEmb k hk) := by
  ext j
  simp only [tile, Finset.mem_filter, Finset.mem_univ, true_and, Finset.mem_map]
  constructor
  · rintro ⟨h1, h2⟩
    exact ⟨⟨j.val - 512 * k, by omega⟩, Fin.ext (by show 512 * k + (j.val - 512 * k) = j.val; omega)⟩
  · rintro ⟨a, rfl⟩
    have := a.isLt
    show 512 * k ≤ 512 * k + a.val ∧ 512 * k + a.val < 512 * k + 512
    omega

/-- A sum over a tile is the sum over its offsets. -/
theorem sum_tile {M : Type*} [AddCommMonoid M] (k : ℕ) (hk : k < 4) (f : Fin 2048 → M) :
    ∑ j ∈ tile k, f j = ∑ j : Fin 512, f (key k hk j) := by
  rw [tile_eq_map k hk, Finset.sum_map]; rfl

/-- A supremum over a tile is the supremum over its offsets. -/
theorem sup_tile (k : ℕ) (hk : k < 4) (f : Fin 2048 → EReal) :
    (tile k).sup f = Finset.univ.sup (fun j : Fin 512 => f (key k hk j)) := by
  rw [tile_eq_map k hk, Finset.sup_map]; rfl

/-- One tile of the tiled softmax, the tile's scores sc and values vt given by offset: the invariant moves from the
    keys below tile k to the keys below tile k + 1, and the new level is a real number, as soon as the tile's first
    key has a score that is not ⊥. -/
theorem Inv.tile_offsets {s : Fin 2048 → EReal} {v : Fin 2048 → ℝ} (hs : ∀ j, s j ≠ ⊤) (k : ℕ) (hk : k < 4)
    {m l acc : EReal} (h : Inv s v (seen k) m l acc) (hm : m ≠ ⊤) (hvis : s (key k hk 0) ≠ ⊥)
    (sc vt : Fin 512 → EReal) (hsc : ∀ j, sc j = s (key k hk j)) (hvt : ∀ j, vt j = (v (key k hk j) : EReal)) :
    (∃ r : ℝ, max m (Finset.univ.sup sc) = (r : EReal)) ∧
    Inv s v (seen (k + 1)) (max m (Finset.univ.sup sc))
      (Ideal.exp (m - max m (Finset.univ.sup sc)) * l + ∑ j, Ideal.exp (sc j - max m (Finset.univ.sup sc)))
      (Ideal.exp (m - max m (Finset.univ.sup sc)) * acc + ∑ j, Ideal.exp (sc j - max m (Finset.univ.sup sc)) * vt j) := by
  have hsup : Finset.univ.sup sc = (tile k).sup s := by
    rw [sup_tile k hk]; exact congrArg _ (funext hsc)
  have h1 : ∑ j, Ideal.exp (sc j - max m (Finset.univ.sup sc))
      = ∑ j ∈ tile k, Ideal.exp (s j - max m ((tile k).sup s)) := by
    rw [sum_tile k hk, hsup]; exact Finset.sum_congr rfl (fun j _ => by rw [hsc j])
  have h2 : ∑ j, Ideal.exp (sc j - max m (Finset.univ.sup sc)) * vt j
      = ∑ j ∈ tile k, Ideal.exp (s j - max m ((tile k).sup s)) * (v j : EReal) := by
    rw [sum_tile k hk, hsup]; exact Finset.sum_congr rfl (fun j _ => by rw [hsc j, hvt j])
  rw [h1, h2, hsup, seen_succ]
  exact h.tile hs (disjoint_seen_tile k) hm (Or.inr ⟨key k hk 0, key_mem_tile k hk 0, hvis⟩)

/-- A tile all of whose keys are masked is skipped. -/
theorem Inv.skip_tile {s : Fin 2048 → EReal} {v : Fin 2048 → ℝ} (k : ℕ)
    {m l acc : EReal} (h : Inv s v (seen k) m l acc) (hτ : ∀ j ∈ tile k, s j = ⊥) :
    Inv s v (seen (k + 1)) m l acc := by
  rw [seen_succ]; exact h.skip (disjoint_seen_tile k) hτ

end Cert.KeyTiles

end
-- ==== Proof.KI_Reg1Blocks.lean ====
/-
  The attention region's windows read at an index, and its output array from the output blocks.

  Grid point t = (16·b + h)·4 + ki is batch b = t / 64, head h = (t / 4) % 16, key block ki = t % 4. The query and
  output windows' blocks are rows 0 … 2047, columns 128·h … 128·h + 127 of batch b; the key and value windows'
  blocks are rows 512·ki … 512·ki + 511 of the same columns; the whole cosine and sine tables are read as they are
  and their tiles are rows 512·ki … 512·ki + 511. The output window is written back after the points with ki = 3,
  and the 32 blocks (b, h) fill the output array.
-/
import proofs.«117884_j83708912599078_2_alg».proof.Proof.KI_Reg1Defs
import proofs.«117884_j83708912599078_2_alg».proof.Proof.KI_KeyTiles
import proofs.«117884_j83708912599078_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.SL Idealize.SL.RA
open Cert.KeyTiles

-- the TensorCore's buffer contents when the launch is entered, over the extended reals
variable (V : (c : Dev nD) → (b : Ref sig .tc) → Buf (Elt Ideal) ((c : Thread nD τ).loc b))

/-- The launch's query, key and value arrays and its cosine and sine tables as the launch finds them. -/
abbrev A1q (c : Dev nD) : S2x2048x2048.Idx → EReal := V c (Pipeline.arrRef spec1 0)
abbrev A1k (c : Dev nD) : S2x2048x2048.Idx → EReal := V c (Pipeline.arrRef spec1 1)
abbrev A1v (c : Dev nD) : S2x2048x2048.Idx → EReal := V c (Pipeline.arrRef spec1 2)
abbrev A1cos (c : Dev nD) : S2048x128.Idx → EReal := V c (Pipeline.arrRef spec1 3)
abbrev A1sin (c : Dev nD) : S2048x128.Idx → EReal := V c (Pipeline.arrRef spec1 4)

theorem hN1 : cfg1.N = 128 := N_1

/-- The batch, the head and the key block of a grid point. -/
def bOf (t : Fin cfg1.N) : Fin 2 := ⟨t.val / 64, by have := t.isLt; have hN : cfg1.N = 128 := N_1; omega⟩
def hOf (t : Fin cfg1.N) : Fin 16 := ⟨(t.val / 4) % 16, by omega⟩

@[simp] theorem bOf_val (t : Fin cfg1.N) : (bOf t).val = t.val / 64 := rfl
@[simp] theorem hOf_val (t : Fin cfg1.N) : (hOf t).val = (t.val / 4) % 16 := rfl

/-- The block indices over the grid. -/
theorem idx_facts1 : ∀ t : Fin cfg1.N,
    (win1_0.index t (0 : Fin 3) = t.val / 64 ∧ win1_0.index t (1 : Fin 3) = 0 ∧ win1_0.index t (2 : Fin 3) = (t.val / 4) % 16)
    ∧ (win1_1.index t (0 : Fin 3) = t.val / 64 ∧ win1_1.index t (1 : Fin 3) = t.val % 4 ∧ win1_1.index t (2 : Fin 3) = (t.val / 4) % 16)
    ∧ (win1_2.index t (0 : Fin 3) = t.val / 64 ∧ win1_2.index t (1 : Fin 3) = t.val % 4 ∧ win1_2.index t (2 : Fin 3) = (t.val / 4) % 16)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val % 4 ∧ win1_5.index t (1 : Fin 2) = 0)
    ∧ (win1_6.index t (0 : Fin 2) = t.val % 4 ∧ win1_6.index t (1 : Fin 2) = 0)
    ∧ (win1_7.index t (0 : Fin 3) = t.val / 64 ∧ win1_7.index t (1 : Fin 3) = 0 ∧ win1_7.index t (2 : Fin 3) = (t.val / 4) % 16) :=
  (by decide +kernel : ∀ t : Fin grid1.N, _)

/-- The third grid coordinate is the key block. -/
theorem coords1_2 : ∀ t : Fin cfg1.N, ((grid1.coords t) 2).val = t.val % 4 :=
  (by decide +kernel : ∀ t : Fin grid1.N, _)

/-- The query window's block at point t: rows of batch b, columns of head h. -/
theorem iblk1_0_apply (c : Dev nD) (t : Fin cfg1.N) (R : Fin 2048) (d : Fin 128) :
    (iblk1 V c 0 t : Vec Ideal S1x2048x128 .bf16) (ix3 (0 : Fin 1) R d) = A1q V c (ix3 (bOf t) R (Cert.Spec.feat (hOf t) d)) := by
  obtain ⟨⟨e0, e1, e2⟩, -⟩ := idx_facts1 t
  unfold iblk1
  rw [View.read_apply]
  show V c main_v7 _ = V c main_v7 _
  refine congrArg _ ?_
  funext a
  apply Fin.ext
  match a with
  | ⟨0, _⟩ => show win1_0.index t (0 : Fin 3) * 1 + 1 * 0 = t.val / 64; rw [e0]; omega
  | ⟨1, _⟩ => show win1_0.index t (1 : Fin 3) * 2048 + 1 * R.val = R.val; rw [e1]; omega
  | ⟨2, _⟩ => show win1_0.index t (2 : Fin 3) * 128 + 1 * d.val = 128 * ((t.val / 4) % 16) + d.val; rw [e2]; omega

/-- The key window's block at point t: rows 512·ki … of batch b, columns of head h. -/
theorem iblk1_1_apply (c : Dev nD) (t : Fin cfg1.N) (ki : ℕ) (hki : ki < 4) (hk : t.val % 4 = ki) (j : Fin 512) (d : Fin 128) :
    (iblk1 V c 1 t : Vec Ideal S1x512x128 .bf16) (ix3 (0 : Fin 1) j d) = A1k V c (ix3 (bOf t) (key ki hki j) (Cert.Spec.feat (hOf t) d)) := by
  obtain ⟨-, ⟨e0, e1, e2⟩, -⟩ := idx_facts1 t
  unfold iblk1
  rw [View.read_apply]
  show V c main_v8 _ = V c main_v8 _
  refine congrArg _ ?_
  funext a
  apply Fin.ext
  match a with
  | ⟨0, _⟩ => show win1_1.index t (0 : Fin 3) * 1 + 1 * 0 = t.val / 64; rw [e0]; omega
  | ⟨1, _⟩ => show win1_1.index t (1 : Fin 3) * 512 + 1 * j.val = 512 * ki + j.val; rw [e1, hk]; omega
  | ⟨2, _⟩ => show win1_1.index t (2 : Fin 3) * 128 + 1 * d.val = 128 * ((t.val / 4) % 16) + d.val; rw [e2]; omega

/-- The value window's block at point t. -/
theorem iblk1_2_apply (c : Dev nD) (t : Fin cfg1.N) (ki : ℕ) (hki : ki < 4) (hk : t.val % 4 = ki) (j : Fin 512) (d : Fin 128) :
    (iblk1 V c 2 t : Vec Ideal S1x512x128 .bf16) (ix3 (0 : Fin 1) j d) = A1v V c (ix3 (bOf t) (key ki hki j) (Cert.Spec.feat (hOf t) d)) := by
  obtain ⟨-, -, ⟨e0, e1, e2⟩, -⟩ := idx_facts1 t
  unfold iblk1
  rw [View.read_apply]
  show V c main_v9 _ = V c main_v9 _
  refine congrArg _ ?_
  funext a
  apply Fin.ext
  match a with
  | ⟨0, _⟩ => show win1_2.index t (0 : Fin 3) * 1 + 1 * 0 = t.val / 64; rw [e0]; omega
  | ⟨1, _⟩ => show win1_2.index t (1 : Fin 3) * 512 + 1 * j.val = 512 * ki + j.val; rw [e1, hk]; omega
  | ⟨2, _⟩ => show win1_2.index t (2 : Fin 3) * 128 + 1 * d.val = 128 * ((t.val / 4) % 16) + d.val; rw [e2]; omega

/-- The whole cosine table at every point. -/
theorem iblk1_3_apply (c : Dev nD) (t : Fin cfg1.N) (R : Fin 2048) (d : Fin 128) :
    (iblk1 V c 3 t : Vec Ideal S2048x128 .f32) (ix2 R d) = A1cos V c (ix2 R d) := by
  obtain ⟨-, -, -, ⟨e0, e1⟩, -⟩ := idx_facts1 t
  unfold iblk1
  rw [View.read_apply]
  show V c main_v10 _ = V c main_v10 _
  refine congrArg _ ?_
  funext a
  apply Fin.ext
  match a with
  | ⟨0, _⟩ => show win1_3.index t (0 : Fin 2) * 2048 + 1 * R.val = R.val; rw [e0]; omega
  | ⟨1, _⟩ => show win1_3.index t (1 : Fin 2) * 128 + 1 * d.val = d.val; rw [e1]; omega

/-- The whole sine table at every point. -/
theorem iblk1_4_apply (c : Dev nD) (t : Fin cfg1.N) (R : Fin 2048) (d : Fin 128) :
    (iblk1 V c 4 t : Vec Ideal S2048x128 .f32) (ix2 R d) = A1sin V c (ix2 R d) := by
  obtain ⟨-, -, -, -, ⟨e0, e1⟩, -⟩ := idx_facts1 t
  unfold iblk1
  rw [View.read_apply]
  show V c main_v11 _ = V c main_v11 _
  refine congrArg _ ?_
  funext a
  apply Fin.ext
  match a with
  | ⟨0, _⟩ => show win1_4.index t (0 : Fin 2) * 2048 + 1 * R.val = R.val; rw [e0]; omega
  | ⟨1, _⟩ => show win1_4.index t (1 : Fin 2) * 128 + 1 * d.val = d.val; rw [e1]; omega

/-- The cosine tile at point t: rows 512·ki … of the cosine table. -/
theorem iblk1_5_apply (c : Dev nD) (t : Fin cfg1.N) (ki : ℕ) (hki : ki < 4) (hk : t.val % 4 = ki) (j : Fin 512) (d : Fin 128) :
    (iblk1 V c 5 t : Vec Ideal S512x128 .f32) (ix2 j d) = A1cos V c (ix2 (key ki hki j) d) := by
  obtain ⟨-, -, -, -, -, ⟨e0, e1⟩, -⟩ := idx_facts1 t
  unfold iblk1
  rw [View.read_apply]
  show V c main_v10 _ = V c main_v10 _
  refine congrArg _ ?_
  funext a
  apply Fin.ext
  match a with
  | ⟨0, _⟩ => show win1_5.index t (0 : Fin 2) * 512 + 1 * j.val = 512 * ki + j.val; rw [e0, hk]; omega
  | ⟨1, _⟩ => show win1_5.index t (1 : Fin 2) * 128 + 1 * d.val = d.val; rw [e1]; omega

/-- The sine tile at point t. -/
theorem iblk1_6_apply (c : Dev nD) (t : Fin cfg1.N) (ki : ℕ) (hki : ki < 4) (hk : t.val % 4 = ki) (j : Fin 512) (d : Fin 128) :
    (iblk1 V c 6 t : Vec Ideal S512x128 .f32) (ix2 j d) = A1sin V c (ix2 (key ki hki j) d) := by
  obtain ⟨-, -, -, -, -, -, ⟨e0, e1⟩, -⟩ := idx_facts1 t
  unfold iblk1
  rw [View.read_apply]
  show V c main_v11 _ = V c main_v11 _
  refine congrArg _ ?_
  funext a
  apply Fin.ext
  match a with
  | ⟨0, _⟩ => show win1_6.index t (0 : Fin 2) * 512 + 1 * j.val = 512 * ki + j.val; rw [e0, hk]; omega
  | ⟨1, _⟩ => show win1_6.index t (1 : Fin 2) * 128 + 1 * d.val = d.val; rw [e1]; omega

/-! ## From the output blocks to the output array -/

/-- Where an element of the output window's block at point t sits in the output array. -/
theorem emb1_7 (t : Fin cfg1.N) (R : Fin 2048) (e : Fin 128) :
    ((cfg1.win 7).blk t).view.emb (ix3 (0 : Fin 1) R e) = (ix3 (bOf t) R (Cert.Spec.feat (hOf t) e) : S2x2048x2048.Idx) := by
  obtain ⟨-, -, -, -, -, -, -, ⟨e0, e1, e2⟩⟩ := idx_facts1 t
  funext a
  apply Fin.ext
  match a with
  | ⟨0, _⟩ => show win1_7.index t (0 : Fin 3) * 1 + 1 * 0 = t.val / 64; rw [e0]; omega
  | ⟨1, _⟩ => show win1_7.index t (1 : Fin 3) * 2048 + 1 * R.val = R.val; rw [e1]; omega
  | ⟨2, _⟩ => show win1_7.index t (2 : Fin 3) * 128 + 1 * e.val = 128 * ((t.val / 4) % 16) + e.val; rw [e2]; omega

/-- An index of the output array is in point t's block iff each coordinate is in the block's range on its axis. -/
theorem mem_blk1_7 (t : Fin cfg1.N) (i : S2x2048x2048.Idx) :
    i ∈ ((cfg1.win 7).blk t).view.set ↔ ∀ a : Fin 3, win1_7.index t a * S1x2048x128.size a ≤ (i a).val ∧ (i a).val < win1_7.index t a * S1x2048x128.size a + S1x2048x128.size a := by
  show i ∈ ((View.whole main_v12).slice (win1_7.rect t)).set ↔ _
  rw [View.set_slice_whole, Rect.mem_set_unit]
  exact Iff.rfl

/-- The last point of the group of batch b and head h. -/
def lastOf (b : Fin 2) (h : Fin 16) : Fin cfg1.N := ⟨(16 * b.val + h.val) * 4 + 3, by have hN : cfg1.N = 128 := N_1; rw [hN]; have := b.isLt; have := h.isLt; omega⟩

theorem lastOf_val (b : Fin 2) (h : Fin 16) : (lastOf b h).val = (16 * b.val + h.val) * 4 + 3 := rfl

/-- THE OUTPUT ARRAY after the launch is G, if every point with ki = 3 leaves in the output window's buffer its block
    of G: row (b, s), feature f is in the block of the last point of the group (b, f / 128). -/
theorem final1_7 (q1 : Fin cfg1.W → PosShare TreeShare) (c : Dev nD) (G : S2x2048x2048.Idx → EReal)
    (hG : ∀ t : Fin cfg1.N, t.val % 4 = 3 → ∀ (R : Fin 2048) (e : Fin 128),
      ((outsAt1 (F := Ideal) q1 V c t.val t.isLt).1 : Vec Ideal S1x2048x128 .bf16) (ix3 (0 : Fin 1) R e) = G (ix3 (bOf t) R (Cert.Spec.feat (hOf t) e))) :
    (dat1 (F := Ideal) q1 V c).arrAt 7 cfg1.N = G :=
  (dat1 (F := Ideal) q1 V c).arrAt_eq_of_cover 7 G
    (fun t hf => by
      have h3 : t.val % 4 = 3 := (flush1_7 t).mp hf
      show (cfg1.win 7).cut (grid1.coords t) ((dat1 (F := Ideal) q1 V c).after 7 t) = _
      rw [after1_7]
      funext j
      obtain ⟨z, R, e, rfl⟩ : ∃ (z : Fin 1) (R : Fin 2048) (e : Fin 128), j = ix3 z R e := ⟨j 0, j 1, j 2, eq_ix3 j⟩
      obtain rfl : z = 0 := Subsingleton.elim _ _
      rw [View.read_apply]
      show ((outsAt1 (F := Ideal) q1 V c t.val t.isLt).1 : Vec Ideal S1x2048x128 .bf16) (ix3 (0 : Fin 1) R e) = G (((cfg1.win 7).blk t).view.emb (ix3 (0 : Fin 1) R e))
      rw [emb1_7 t R e]
      exact hG t h3 R e)
    (fun i => by
      have hi0 : (i 0).val < 2 := (i 0).isLt
      have hi1 : (i 1).val < 2048 := (i 1).isLt
      have hi2 : (i 2).val < 2048 := (i 2).isLt
      obtain ⟨b0, hb0⟩ : ∃ b0 : Fin 2, b0.val = (i 0).val := ⟨⟨(i 0).val, hi0⟩, rfl⟩
      obtain ⟨h0, hh0⟩ : ∃ h0 : Fin 16, h0.val = (i 2).val / 128 := ⟨⟨(i 2).val / 128, by omega⟩, rfl⟩
      have hv : (lastOf b0 h0).val = (16 * b0.val + h0.val) * 4 + 3 := lastOf_val b0 h0
      have hb := b0.isLt
      have hh := h0.isLt
      have hf : (lastOf b0 h0).val % 4 = 3 := by rw [hv]; omega
      obtain ⟨-, -, -, -, -, -, -, ⟨e0, e1, e2⟩⟩ := idx_facts1 (lastOf b0 h0)
      rw [hv] at e0 e2
      refine ⟨lastOf b0 h0, (flush1_7 _).mpr hf, ?_⟩
      rw [mem_blk1_7]
      intro a
      match a with
      | ⟨0, _⟩ => show win1_7.index _ (0 : Fin 3) * 1 ≤ (i 0).val ∧ (i 0).val < win1_7.index _ (0 : Fin 3) * 1 + 1; rw [e0]; omega
      | ⟨1, _⟩ => show win1_7.index _ (1 : Fin 3) * 2048 ≤ (i 1).val ∧ (i 1).val < win1_7.index _ (1 : Fin 3) * 2048 + 2048; rw [e1]; omega
      | ⟨2, _⟩ => show win1_7.index _ (2 : Fin 3) * 128 ≤ (i 2).val ∧ (i 2).val < win1_7.index _ (2 : Fin 3) * 128 + 128; rw [e2]; omega)

end Cert.KernelIdeal.HandValue

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.KI_Reg1Ops.lean ====
/-
  The operations of one online-softmax update of 512 query rows against one tile of 512 keys, read index by index on
  the extended reals.

  The masked scaled scores of the tile are  S[r, j] = (∑ d, q[r, d] · k[j, d]) · scale  where key position pos[r, j] is
  at or before query row o + r, and ⊥ elsewhere. From S, the rows' old level m, denominator l and accumulator a:
      m'[r]    = max (m[r]) (sup over j of S[r, j])
      l'[r]    = exp (m[r] − m'[r]) · l[r] + ∑ j, exp (S[r, j] − m'[r])
      a'[r, e] = exp (m[r] − m'[r]) · a[r, e] + ∑ j, exp (S[r, j] − m'[r]) · v[j, e].
  Each operation is read at an index: a row reduction is a fold over the row, a cast of a vector to a column and the
  repetition of a column along rows read the row's one entry, a matrix product into a zero accumulator is a plain sum,
  a rounding to another format is the identity.
-/
import proofs.«117884_j83708912599078_2_alg».proof.Proof.Gen.KernelIdeal.Skeleton
import proofs.«117884_j83708912599078_2_alg».proof.Proof.LibDotRows
import proofs.«117884_j83708912599078_2_alg».proof.Proof.LibRowwise
import proofs.«117884_j83708912599078_2_alg».proof.Proof.LibOnlineSoftmax
import proofs.«117884_j83708912599078_2_alg».proof.Proof.Spec
import Idealize.ShloMosaic.Lib.Pipeline.Value
import Idealize.ShloMosaic.Lib.ValueIdx
import Idealize.ShloMosaic.Lib.Affine
import Idealize.ShloMosaic.PureOps.Ideal.Laws
import Idealize.ShloMosaic.PureOps.IdealRules

set_option maxRecDepth 16384

noncomputable section

open scoped BigOperators

namespace Cert.KernelIdeal.HandValue

open Cert.KernelIdeal Cert.KernelIdeal.Gen
open Idealize.ShloMosaic Idealize.ShloMosaic.ValueIdx

/-! ## The two products' dimension numbers -/

/-! Scores: output axis 0 is the queries' axis 0, output axis 1 the keys' axis 0, the contracted axis is axis 1 of both. -/

theorem dqk_l0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem dqk_l1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem dqk_r0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem dqk_r1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-! Weights times values: output axis 0 is the weights' axis 0, output axis 1 the values' axis 1, the weights' axis 1 is
    contracted with the values' axis 0. -/

theorem dpv_l0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem dpv_l1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem dpv_r0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem dpv_r1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-! ## The constants -/

/-- The reduction's start value, the pattern of −∞, is ⊥. -/
theorem negInf_f32 : (FloatOps.ofBits .f32 0xFF800000#32 : Ideal .f32) = (⊥ : EReal) := by
  show Ideal.ofBits .f32 0xFF800000#32 = ⊥
  simp [Ideal.ofBits, Ideal.ieee]

/-- The mask's fill value is ⊥ on the extended reals. -/
theorem negBig_eq : (Named.named (F := Ideal) κ "neg_big" (0xF149F2CA#32 : BitVec FTy.f32.bits) : Ideal .f32) = (⊥ : EReal) :=
  IdealRules.named_const.ideal_named_scalar Cert.KernelIdeal.κ "neg_big" _ ⊥ rfl

/-! ## The masked scaled scores of a chunk against a tile -/

/-- The scores of 512 query rows \`qc\` (the chunk whose first row is \`o\`) against the 512 keys \`v18\` at positions \`v24\`:
    the product over the shared axis, scaled, where the key's position is at or before the query's, the fill value elsewhere. -/
def scoreT (o : BitVec 32) (v18 : FVec Ideal S512x128 .bf16) (v24 : IVec S512x512 32) (qc : FVec Ideal S512x128 .bf16) : FVec Ideal S512x512 .f32 :=
  select (cmpi .sle v24 (addi (broadcast S512x512 o) (iota .tc S512x512 32 [0] iota_S512x512_d0_w32)))
    (mulf (matmul dot_S512x128_S512x128_S512x512_1_1_0_0_n_n none qc v18 (constant S512x512 .f32 0x00000000#32))
      (broadcast S512x512 (Scalar.ofBits .f32 0x413504F3#32)))
    (broadcast S512x512 (Named.named κ "neg_big" 0xF149F2CA#32))

/-- The score of row \`r\` against key \`j\`. -/
theorem scoreT_apply (o : BitVec 32) (v18 : FVec Ideal S512x128 .bf16) (v24 : IVec S512x512 32) (qc : FVec Ideal S512x128 .bf16) (r j : Fin 512) :
    scoreT o v18 v24 qc (ix2 r j)
      = if (v24 (ix2 r j)).toInt ≤ (o + BitVec.ofNat 32 r.val).toInt then (∑ d : Fin 128, qc (ix2 r d) * v18 (ix2 j d)) * Cert.Spec.scale else ⊥ := by
  have hm : FloatOps.matmul dot_S512x128_S512x128_S512x512_1_1_0_0_n_n none qc v18 (constant S512x512 .f32 0x00000000#32) (ix2 r j) = ∑ d : Fin 128, qc (ix2 r d) * v18 (ix2 j d) :=
    Cert.LibDotRows.matmul_zero_rows_apply dot_S512x128_S512x128_S512x512_1_1_0_0_n_n rfl rfl dqk_l0 dqk_l1 dqk_r0 dqk_r1 none qc v18 r j
  have hi : iota .tc S512x512 32 [0] iota_S512x512_d0_w32 (ix2 r j) = BitVec.ofNat 32 r.val :=
    iota_single_apply .tc S512x512 32 0 iota_S512x512_d0_w32 (ix2 r j)
  show Scalar.select (IntOp.cmpi .sle (v24 (ix2 r j)) (o + iota .tc S512x512 32 [0] iota_S512x512_d0_w32 (ix2 r j)))
      (FloatOps.matmul dot_S512x128_S512x128_S512x512_1_1_0_0_n_n none qc v18 (constant S512x512 .f32 0x00000000#32) (ix2 r j) * Cert.Spec.scale)
      (Named.named (F := Ideal) κ "neg_big" (0xF149F2CA#32 : BitVec FTy.f32.bits)) = _
  rw [hm, hi, negBig_eq]
  by_cases h : (v24 (ix2 r j)).toInt ≤ (o + BitVec.ofNat 32 r.val).toInt
  · rw [if_pos h, IntOp.cmpi_sle.mpr h, select_one]
  · rw [if_neg h, eq_zero_of_ne_one (mt IntOp.cmpi_sle.mp h), select_zero]

/-! ## The update of the level, the denominator and the accumulator from the scores -/

/-- The new level of each row: the larger of the old one and the row's largest score. -/
def levelT (S : FVec Ideal S512x512 .f32) (mc : Vec Ideal S512x1 .f32) : FVec Ideal S512x1 .f32 :=
  maximumf mc (shapeCast S512x1 (multiReduction .maximumf [1] S512 S 0xFF800000#32 reduces_S512x512_S512 (.inl rfl) rfl) shapeCasts_S512_S512x1)

/-- The factor that moves a row's old sums to the new level. -/
def alphaT (S : FVec Ideal S512x512 .f32) (mc : Vec Ideal S512x1 .f32) : FVec Ideal S512x1 .f32 :=
  exp (subf mc (levelT S mc))

/-- The weights of the tile's keys at the new level. -/
def weightT (S : FVec Ideal S512x512 .f32) (mc : Vec Ideal S512x1 .f32) : FVec Ideal S512x512 .f32 :=
  exp (subf S (broadcastTo S512x512 (levelT S mc) broadcasts_S512x1_S512x512))

/-- The new denominator. -/
def denomT (S : FVec Ideal S512x512 .f32) (mc lc : Vec Ideal S512x1 .f32) : FVec Ideal S512x1 .f32 :=
  shapeCast S512x1 (addf (mulf (alphaT S mc) lc)
    (shapeCast S512x1 (multiReduction .add [1] S512 (weightT S mc) 0x00000000#32 reduces_S512x512_S512 (.inl rfl) rfl) shapeCasts_S512_S512x1)) shapeCasts_S512x1_S512x1

/-- The new accumulator. -/
def accT (S : FVec Ideal S512x512 .f32) (v20 : FVec Ideal S512x128 .bf16) (mc : Vec Ideal S512x1 .f32) (ac : Vec Ideal S512x128 .f32) : FVec Ideal S512x128 .f32 :=
  shapeCast S512x128 (addf (mulf (broadcastTo S512x128 (alphaT S mc) broadcasts_S512x1_S512x128) ac)
    (matmul dot_S512x512_S512x128_S512x128_1_0_0_1_n_n none (truncf .bf16 (weightT S mc) bitsLt_bf16_f32) v20 (constant S512x128 .f32 0x00000000#32))) shapeCasts_S512x128_S512x128

/-- A row's coordinates of the reduced matrix: the row, then the reduced axis's coordinate. -/
theorem lift_row (h : S512x512.Reduces [1] S512) (r j : Fin 512) : h.lift (ix1 r) j = ix2 r j :=
  funext fun a => Fin.ext (by
    match a with
    | ⟨0, _⟩ => rfl
    | ⟨1, _⟩ => rfl)

theorem levelT_apply (S : FVec Ideal S512x512 .f32) (mc : Vec Ideal S512x1 .f32) (r : Fin 512) :
    levelT S mc (ix2 r (0 : Fin 1)) = max (mc (ix2 r (0 : Fin 1))) (Finset.univ.sup fun j : Fin 512 => S (ix2 r j)) := by
  show max (mc (ix2 r (0 : Fin 1))) (shapeCast S512x1 (multiReduction .maximumf [1] S512 S 0xFF800000#32 reduces_S512x512_S512 (.inl rfl) rfl) shapeCasts_S512_S512x1 (ix2 r (0 : Fin 1))) = _
  refine congrArg (max _) ?_
  refine (Cert.LibRowwise.shapeCast_a_a1_apply _ shapeCasts_S512_S512x1 r 0).trans ?_
  refine (Ideal.multiReduction_maximumf_single S 0xFF800000#32 reduces_S512x512_S512 (.inl rfl) rfl (ix1 r)).trans ?_
  rw [negInf_f32, OnlineSoftmax.fold_max_bot]
  exact congrArg _ (funext fun j => congrArg S (lift_row reduces_S512x512_S512 r j))

theorem alphaT_apply (S : FVec Ideal S512x512 .f32) (mc : Vec Ideal S512x1 .f32) (r : Fin 512) :
    alphaT S mc (ix2 r (0 : Fin 1)) = Ideal.exp (mc (ix2 r (0 : Fin 1)) - levelT S mc (ix2 r (0 : Fin 1))) := rfl

theorem weightT_apply (S : FVec Ideal S512x512 .f32) (mc : Vec Ideal S512x1 .f32) (r j : Fin 512) :
    weightT S mc (ix2 r j) = Ideal.exp (S (ix2 r j) - levelT S mc (ix2 r (0 : Fin 1))) := by
  show Ideal.exp (S (ix2 r j) - broadcastTo S512x512 (levelT S mc) broadcasts_S512x1_S512x512 (ix2 r j)) = _
  rw [Cert.LibRowwise.broadcastTo_a1_ab_apply (levelT S mc) broadcasts_S512x1_S512x512 r j]

theorem denomT_apply (S : FVec Ideal S512x512 .f32) (mc lc : Vec Ideal S512x1 .f32) (r : Fin 512) :
    denomT S mc lc (ix2 r (0 : Fin 1)) = alphaT S mc (ix2 r (0 : Fin 1)) * lc (ix2 r (0 : Fin 1)) + ∑ j : Fin 512, weightT S mc (ix2 r j) := by
  unfold denomT
  rw [shapeCast_self]
  show alphaT S mc (ix2 r (0 : Fin 1)) * lc (ix2 r (0 : Fin 1))
      + shapeCast S512x1 (multiReduction .add [1] S512 (weightT S mc) 0x00000000#32 reduces_S512x512_S512 (.inl rfl) rfl) shapeCasts_S512_S512x1 (ix2 r (0 : Fin 1)) = _
  refine congrArg (fun z : EReal => alphaT S mc (ix2 r (0 : Fin 1)) * lc (ix2 r (0 : Fin 1)) + z) ?_
  refine (Cert.LibRowwise.shapeCast_a_a1_apply _ shapeCasts_S512_S512x1 r 0).trans ?_
  refine (Ideal.multiReduction_add_single (weightT S mc) 0x00000000#32 reduces_S512x512_S512 (.inl rfl) rfl (ix1 r)).trans ?_
  exact Finset.sum_congr rfl fun j _ => congrArg (weightT S mc) (lift_row reduces_S512x512_S512 r j)

/-- A product of rows by columns into the zero accumulator, at \`(p, e)\`, whatever the operands' formats. -/
theorem matmul_zero_cols_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

theorem accT_apply (S : FVec Ideal S512x512 .f32) (v20 : FVec Ideal S512x128 .bf16) (mc : Vec Ideal S512x1 .f32) (ac : Vec Ideal S512x128 .f32) (r : Fin 512) (e : Fin 128) :
    accT S v20 mc ac (ix2 r e) = alphaT S mc (ix2 r (0 : Fin 1)) * ac (ix2 r e) + ∑ j : Fin 512, weightT S mc (ix2 r j) * v20 (ix2 j e) := by
  unfold accT
  rw [shapeCast_self]
  show broadcastTo S512x128 (alphaT S mc) broadcasts_S512x1_S512x128 (ix2 r e) * ac (ix2 r e)
      + FloatOps.matmul dot_S512x512_S512x128_S512x128_1_0_0_1_n_n none (truncf .bf16 (weightT S mc) bitsLt_bf16_f32) v20 (constant S512x128 .f32 0x00000000#32) (ix2 r e) = _
  rw [Cert.LibRowwise.broadcastTo_a1_ab_apply (alphaT S mc) broadcasts_S512x1_S512x128 r e]
  refine congrArg (fun z : EReal => alphaT S mc (ix2 r (0 : Fin 1)) * ac (ix2 r e) + z) ?_
  exact matmul_zero_cols_apply dot_S512x512_S512x128_S512x128_1_0_0_1_n_n rfl rfl dpv_l0 dpv_l1 dpv_r0 dpv_r1 none (truncf .bf16 (weightT S mc) bitsLt_bf16_f32) v20 r e

/-! ## The kernel's payloads are these updates -/

theorem pay4_eq (v18 : FVec Ideal S512x128 .bf16) (v24 : IVec S512x512 32) (v44 : Vec Ideal S512x128 .bf16) :
    k1_pay4 (F := Ideal) v18 v24 v44 = scoreT 0#32 v18 v24 v44 := rfl
theorem pay10_eq (v18 : FVec Ideal S512x128 .bf16) (v24 : IVec S512x512 32) (v44 : Vec Ideal S512x128 .bf16) :
    k1_pay10 (F := Ideal) v18 v24 v44 = scoreT 512#32 v18 v24 v44 := rfl
theorem pay16_eq (v18 : FVec Ideal S512x128 .bf16) (v24 : IVec S512x512 32) (v44 : Vec Ideal S512x128 .bf16) :
    k1_pay16 (F := Ideal) v18 v24 v44 = scoreT 1024#32 v18 v24 v44 := rfl
theorem pay22_eq (v18 : FVec Ideal S512x128 .bf16) (v24 : IVec S512x512 32) (v44 : Vec Ideal S512x128 .bf16) :
    k1_pay22 (F := Ideal) v18 v24 v44 = scoreT 1536#32 v18 v24 v44 := rfl

theorem pay5_eq (v18 : FVec Ideal S512x128 .bf16) (v24 : IVec S512x512 32) (v44 : Vec Ideal S512x128 .bf16) (v54 : Vec Ideal S512x1 .f32) :
    k1_pay5 (F := Ideal) v18 v24 v44 v54 = levelT (scoreT 0#32 v18 v24 v44) v54 := rfl
theorem pay8_eq (v18 : FVec Ideal S512x128 .bf16) (v24 : IVec S512x512 32) (v44 : Vec Ideal S512x128 .bf16) (v54 v63 : Vec Ideal S512x1 .f32) :
    k1_pay8 (F := Ideal) v18 v24 v44 v54 v63 = denomT (scoreT 0#32 v18 v24 v44) v54 v63 := rfl
theorem pay9_eq (v18 v20 : FVec Ideal S512x128 .bf16) (v24 : IVec S512x512 32) (v44 : Vec Ideal S512x128 .bf16) (v54 : Vec Ideal S512x1 .f32) (v73 : Vec Ideal S512x128 .f32) :
    k1_pay9 (F := Ideal) v18 v20 v24 v44 v54 v73 = accT (scoreT 0#32 v18 v24 v44) v20 v54 v73 := rfl

theorem pay11_eq (v18 : FVec Ideal S512x128 .bf16) (v24 : IVec S512x512 32) (v44 : Vec Ideal S512x128 .bf16) (v54 : Vec Ideal S512x1 .f32) :
    k1_pay11 (F := Ideal) v18 v24 v44 v54 = levelT (scoreT 512#32 v18 v24 v44) v54 := rfl
theorem pay14_eq (v18 : FVec Ideal S512x128 .bf16) (v24 : IVec S512x512 32) (v44 : Vec Ideal S512x128 .bf16) (v54 v63 : Vec Ideal S512x1 .f32) :
    k1_pay14 (F := Ideal) v18 v24 v44 v54 v63 = denomT (scoreT 512#32 v18 v24 v44) v54 v63 := rfl
theorem pay15_eq (v18 v20 : FVec Ideal S512x128 .bf16) (v24 : IVec S512x512 32) (v44 : Vec Ideal S512x128 .bf16) (v54 : Vec Ideal S512x1 .f32) (v73 : Vec Ideal S512x128 .f32) :
    k1_pay15 (F := Ideal) v18 v20 v24 v44 v54 v73 = accT (scoreT 512#32 v18 v24 v44) v20 v54 v73 := rfl

theorem pay17_eq (v18 : FVec Ideal S512x128 .bf16) (v24 : IVec S512x512 32) (v44 : Vec Ideal S512x128 .bf16) (v54 : Vec Ideal S512x1 .f32) :
    k1_pay17 (F := Ideal) v18 v24 v44 v54 = levelT (scoreT 1024#32 v18 v24 v44) v54 := rfl
theorem pay20_eq (v18 : FVec Ideal S512x128 .bf16) (v24 : IVec S512x512 32) (v44 : Vec Ideal S512x128 .bf16) (v54 v63 : Vec Ideal S512x1 .f32) :
    k1_pay20 (F := Ideal) v18 v24 v44 v54 v63 = denomT (scoreT 1024#32 v18 v24 v44) v54 v63 := rfl
theorem pay21_eq (v18 v20 : FVec Ideal S512x128 .bf16) (v24 : IVec S512x512 32) (v44 : Vec Ideal S512x128 .bf16) (v54 : Vec Ideal S512x1 .f32) (v73 : Vec Ideal S512x128 .f32) :
    k1_pay21 (F := Ideal) v18 v20 v24 v44 v54 v73 = accT (scoreT 1024#32 v18 v24 v44) v20 v54 v73 := rfl

theorem pay23_eq (v18 : FVec Ideal S512x128 .bf16) (v24 : IVec S512x512 32) (v44 : Vec Ideal S512x128 .bf16) (v54 : Vec Ideal S512x1 .f32) :
    k1_pay23 (F := Ideal) v18 v24 v44 v54 = levelT (scoreT 1536#32 v18 v24 v44) v54 := rfl
theorem pay26_eq (v18 : FVec Ideal S512x128 .bf16) (v24 : IVec S512x512 32) (v44 : Vec Ideal S512x128 .bf16) (v54 v63 : Vec Ideal S512x1 .f32) :
    k1_pay26 (F := Ideal) v18 v24 v44 v54 v63 = denomT (scoreT 1536#32 v18 v24 v44) v54 v63 := rfl
theorem pay27_eq (v18 v20 : FVec Ideal S512x128 .bf16) (v24 : IVec S512x512 32) (v44 : Vec Ideal S512x128 .bf16) (v54 : Vec Ideal S512x1 .f32) (v73 : Vec Ideal S512x128 .f32) :
    k1_pay27 (F := Ideal) v18 v20 v24 v44 v54 v73 = accT (scoreT 1536#32 v18 v24 v44) v20 v54 v73 := rfl

/-! The casts of the new level to its own shape before it is stored are the identity. -/
theorem pay35_eq (v : FVec Ideal S512x1 .f32) : k1_pay35 (F := Ideal) v = v := shapeCast_self v _
theorem pay36_eq (v : FVec Ideal S512x1 .f32) : k1_pay36 (F := Ideal) v = v := shapeCast_self v _
theorem pay1_eq (v : FVec Ideal S512x1 .f32) : k1_pay1 (F := Ideal) v = v := shapeCast_self v _
theorem pay2_eq (v : FVec Ideal S512x1 .f32) : k1_pay2 (F := Ideal) v = v := shapeCast_self v _

/-! ## One row of the update, in closed form -/

/-- Row `r` of the update of a chunk whose first row is `N` (`o` is `N` as a 32-bit word): with `sc j` the masked scaled score
    of the row against key `j` and `m'` the larger of the old level and the largest `sc j`, the new level is `m'`, the new
    denominator `exp (m − m')·l + ∑ⱼ exp (sc j − m')` and the new accumulator `exp (m − m')·a + ∑ⱼ exp (sc j − m')·v[j]`. -/
theorem upd_row (o : BitVec 32) (N : ℕ) (ho : ∀ r : Fin 512, (o + BitVec.ofNat 32 r.val).toInt = ((N + r.val : ℕ) : ℤ))
    (v18 v20 : FVec Ideal S512x128 .bf16) (v24 : IVec S512x512 32) (qc : FVec Ideal S512x128 .bf16)
    (mc lc : Vec Ideal S512x1 .f32) (ac : Vec Ideal S512x128 .f32) (r : Fin 512) (e : Fin 128)
    (sc : Fin 512 → EReal)
    (hsc : sc = fun j => if (v24 (ix2 r j)).toInt ≤ ((N + r.val : ℕ) : ℤ) then (∑ d : Fin 128, qc (ix2 r d) * v18 (ix2 j d)) * Cert.Spec.scale else ⊥)
    (m' : EReal) (hm' : m' = max (mc (ix2 r (0 : Fin 1))) (Finset.univ.sup sc)) :
    levelT (scoreT o v18 v24 qc) mc (ix2 r (0 : Fin 1)) = m'
    ∧ denomT (scoreT o v18 v24 qc) mc lc (ix2 r (0 : Fin 1)) = Ideal.exp (mc (ix2 r (0 : Fin 1)) - m') * lc (ix2 r (0 : Fin 1)) + ∑ j : Fin 512, Ideal.exp (sc j - m')
    ∧ accT (scoreT o v18 v24 qc) v20 mc ac (ix2 r e) = Ideal.exp (mc (ix2 r (0 : Fin 1)) - m') * ac (ix2 r e) + ∑ j : Fin 512, Ideal.exp (sc j - m') * v20 (ix2 j e) := by
  have hS : ∀ j : Fin 512, scoreT o v18 v24 qc (ix2 r j) = sc j := fun j => by
    rw [scoreT_apply, ho r, hsc]
  have hL : levelT (scoreT o v18 v24 qc) mc (ix2 r (0 : Fin 1)) = m' := by
    rw [levelT_apply, hm']
    exact congrArg (fun f : Fin 512 → EReal => max (mc (ix2 r (0 : Fin 1))) (Finset.univ.sup f)) (funext hS)
  have hA : alphaT (scoreT o v18 v24 qc) mc (ix2 r (0 : Fin 1)) = Ideal.exp (mc (ix2 r (0 : Fin 1)) - m') := by
    rw [alphaT_apply, hL]
  have hW : ∀ j : Fin 512, weightT (scoreT o v18 v24 qc) mc (ix2 r j) = Ideal.exp (sc j - m') := fun j => by
    rw [weightT_apply, hS j, hL]
  refine ⟨hL, ?_, ?_⟩
  · rw [denomT_apply, hA]
    exact congrArg (fun z : EReal => Ideal.exp (mc (ix2 r (0 : Fin 1)) - m') * lc (ix2 r (0 : Fin 1)) + z) (Finset.sum_congr rfl fun j _ => hW j)
  · rw [accT_apply, hA]
    exact congrArg (fun z : EReal => Ideal.exp (mc (ix2 r (0 : Fin 1)) - m') * ac (ix2 r e) + z) (Finset.sum_congr rfl fun j _ => by rw [hW j])

end Cert.KernelIdeal.HandValue

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.KI_Reg1Tiles.lean ====
/-
  The tiles the attention body builds before the softmax update, read index by index on the extended reals.

  The rotary embedding of a block u with tables c, s is  u·c + rot u·s  where rot u = (−u₂, u₁) swaps the two halves of the
  128 coordinates: at coordinate d < 64 it reads −u at d + 64, at d ≥ 64 it reads u at d − 64. The kernel computes rot u by
  slicing the two halves, negating one as 0 − x, and joining them. The rotated query block and the rotated key tile are
  this function of their block and their tables; the value tile is its block; the key positions are 512·ki + column; the
  initial state is (⊥, 0, 0); the result block is the accumulator over the denominator.
-/
import proofs.«117884_j83708912599078_2_alg».proof.Proof.Gen.KernelIdeal.Skeleton
import proofs.«117884_j83708912599078_2_alg».proof.Proof.LibRowwise
import proofs.«117884_j83708912599078_2_alg».proof.Proof.LibCols
import proofs.«117884_j83708912599078_2_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

open scoped BigOperators

namespace Cert.KernelIdeal.HandValue

open Cert.KernelIdeal Cert.KernelIdeal.Gen
open Idealize.ShloMosaic Idealize.ShloMosaic.ValueIdx

/-! ## The rotary embedding -/

theorem swap_val_lt {d : Fin 128} (h : d.val < 64) : (Cert.Spec.swap d).val = d.val + 64 := by
  unfold Cert.Spec.swap; rw [dif_pos h]
theorem swap_val_ge {d : Fin 128} (h : ¬ d.val < 64) : (Cert.Spec.swap d).val = d.val - 64 := by
  unfold Cert.Spec.swap; rw [dif_neg h]

/-- The rotary embedding as the kernel computes it, for a block of \`n\` rows, at \`(r, d)\`. -/
theorem rope_apply {n : ℕ} (u c s : FVec Ideal ⟨2, ![n, 128]⟩ .f32)
    (hs0 : (⟨2, ![n, 128]⟩ : Shape).Slices ![0, 0] ⟨2, ![n, 64]⟩) (hs64 : (⟨2, ![n, 128]⟩ : Shape).Slices ![0, 64] ⟨2, ![n, 64]⟩)
    (hc : Shape.Concatenates [(⟨2, ![n, 64]⟩ : Shape), ⟨2, ![n, 64]⟩] ⟨2, ![n, 128]⟩ (1 : Fin 2)) (r : Fin n) (d : Fin 128) :
    addf (mulf u c) (mulf (concatenate ⟨2, ![n, 128]⟩ (1 : Fin 2)
        [⟨⟨2, ![n, 64]⟩, subf (broadcast ⟨2, ![n, 64]⟩ (Scalar.ofBits (F := Ideal) .f32 0x00000000#32)) (extractStridedSlice ⟨2, ![n, 64]⟩ ![0, 64] u hs64)⟩,
         ⟨⟨2, ![n, 64]⟩, extractStridedSlice ⟨2, ![n, 64]⟩ ![0, 0] u hs0⟩] hc) s) (ix2 r d)
      = u (ix2 r d) * c (ix2 r d) + (if d.val < 64 then - u (ix2 r (Cert.Spec.swap d)) else u (ix2 r (Cert.Spec.swap d))) * s (ix2 r d) := by
  show u (ix2 r d) * c (ix2 r d) + (concatenate ⟨2, ![n, 128]⟩ (1 : Fin 2)
        [⟨⟨2, ![n, 64]⟩, subf (broadcast ⟨2, ![n, 64]⟩ (Scalar.ofBits (F := Ideal) .f32 0x00000000#32)) (extractStridedSlice ⟨2, ![n, 64]⟩ ![0, 64] u hs64)⟩,
         ⟨⟨2, ![n, 64]⟩, extractStridedSlice ⟨2, ![n, 64]⟩ ![0, 0] u hs0⟩] hc (ix2 r d)) * s (ix2 r d) = _
  refine congrArg (fun z : EReal => u (ix2 r d) * c (ix2 r d) + z * s (ix2 r d)) ?_
  refine (Cert.LibRowwise.concatenate_cols_apply (R := n) (a := 64) (b := 64) (c := 128) rfl _ _ hc r d).trans ?_
  by_cases hd : d.val < 64
  · rw [dif_pos hd, if_pos hd]
    show (Ideal.ofBits .f32 0x00000000#32 : EReal) - extractStridedSlice ⟨2, ![n, 64]⟩ ![0, 64] u hs64 (ix2 r (⟨d.val, hd⟩ : Fin 64)) = _
    rw [Ideal.ofBits_zero_f32, zero_sub]
    refine congrArg (fun z : EReal => - z) ?_
    refine (Cert.LibCols.slice_cols_apply 64 u hs64 r (⟨d.val, hd⟩ : Fin 64) (by show 64 + d.val < 128; omega)).trans ?_
    exact congrArg (fun z => u (ix2 r z)) (Fin.ext (by rw [swap_val_lt hd]; exact Nat.add_comm _ _))
  · rw [dif_neg hd, if_neg hd]
    have hlt : d.val - 64 < 64 := by have := d.isLt; omega
    refine (Cert.LibCols.slice_cols_zero_apply u hs0 r (⟨d.val - 64, hlt⟩ : Fin 64) (by show d.val - 64 < 128; omega)).trans ?_
    exact congrArg (fun z => u (ix2 r z)) (Fin.ext (swap_val_ge hd).symm)

/-- The rotated query block at \`(R, d)\`. -/
theorem pay31_apply (x0 : Vec Ideal S1x2048x128 .bf16) (x3 x4 : Vec Ideal S2048x128 .f32) (R : Fin 2048) (d : Fin 128) :
    k1_pay31 (F := Ideal) x0 x3 x4 (ix2 R d)
      = x0 (ix3 (0 : Fin 1) R d) * x3 (ix2 R d)
        + (if d.val < 64 then - x0 (ix3 (0 : Fin 1) R (Cert.Spec.swap d)) else x0 (ix3 (0 : Fin 1) R (Cert.Spec.swap d))) * x4 (ix2 R d) := by
  have hc : ∀ (R : Fin 2048) (d : Fin 128), shapeCast S2048x128 x0 shapeCasts_S1x2048x128_S2048x128 (ix2 R d) = x0 (ix3 (0 : Fin 1) R d) :=
    fun R d => shapeCast_apply x0 shapeCasts_S1x2048x128_S2048x128 (ix2 R d) (ix3 (0 : Fin 1) R d) (by
      rw [Shape.rowMajor_val_three, Shape.rowMajor_val_two]
      show (0 * 2048 + R.val) * 128 + d.val = R.val * 128 + d.val
      omega)
  unfold k1_pay31
  simp only [shapeCast_self]
  refine (rope_apply (n := 2048) (extf .f32 (shapeCast S2048x128 x0 shapeCasts_S1x2048x128_S2048x128) bitsLt_bf16_f32) x3 x4
    slices_S2048x128_o0_0_S2048x64 slices_S2048x128_o0_64_S2048x64 concatenates_S2048x64_S2048x64_S2048x128_d1 R d).trans ?_
  show shapeCast S2048x128 x0 shapeCasts_S1x2048x128_S2048x128 (ix2 R d) * x3 (ix2 R d)
      + (if d.val < 64 then - shapeCast S2048x128 x0 shapeCasts_S1x2048x128_S2048x128 (ix2 R (Cert.Spec.swap d))
          else shapeCast S2048x128 x0 shapeCasts_S1x2048x128_S2048x128 (ix2 R (Cert.Spec.swap d))) * x4 (ix2 R d) = _
  rw [hc R d, hc R (Cert.Spec.swap d)]

/-- The rotated key tile at \`(j, d)\`. -/
theorem pay32_apply (x1 : Vec Ideal S1x512x128 .bf16) (x5 x6 : Vec Ideal S512x128 .f32) (j : Fin 512) (d : Fin 128) :
    k1_pay32 (F := Ideal) x1 x5 x6 (ix2 j d)
      = x1 (ix3 (0 : Fin 1) j d) * x5 (ix2 j d)
        + (if d.val < 64 then - x1 (ix3 (0 : Fin 1) j (Cert.Spec.swap d)) else x1 (ix3 (0 : Fin 1) j (Cert.Spec.swap d))) * x6 (ix2 j d) := by
  have hc : ∀ (j : Fin 512) (d : Fin 128), shapeCast S512x128 x1 shapeCasts_S1x512x128_S512x128 (ix2 j d) = x1 (ix3 (0 : Fin 1) j d) :=
    fun j d => shapeCast_apply x1 shapeCasts_S1x512x128_S512x128 (ix2 j d) (ix3 (0 : Fin 1) j d) (by
      rw [Shape.rowMajor_val_three, Shape.rowMajor_val_two]
      show (0 * 512 + j.val) * 128 + d.val = j.val * 128 + d.val
      omega)
  unfold k1_pay32
  simp only [shapeCast_self]
  refine (rope_apply (n := 512) (extf .f32 (shapeCast S512x128 x1 shapeCasts_S1x512x128_S512x128) bitsLt_bf16_f32) x5 x6
    slices_S512x128_o0_0_S512x64 slices_S512x128_o0_64_S512x64 concatenates_S512x64_S512x64_S512x128_d1 j d).trans ?_
  show shapeCast S512x128 x1 shapeCasts_S1x512x128_S512x128 (ix2 j d) * x5 (ix2 j d)
      + (if d.val < 64 then - shapeCast S512x128 x1 shapeCasts_S1x512x128_S512x128 (ix2 j (Cert.Spec.swap d))
          else shapeCast S512x128 x1 shapeCasts_S1x512x128_S512x128 (ix2 j (Cert.Spec.swap d))) * x6 (ix2 j d) = _
  rw [hc j d, hc j (Cert.Spec.swap d)]

/-- The value tile at \`(j, e)\`. -/
theorem pay33_apply (x2 : Vec Ideal S1x512x128 .bf16) (j : Fin 512) (e : Fin 128) :
    k1_pay33 (F := Ideal) x2 (ix2 j e) = x2 (ix3 (0 : Fin 1) j e) := by
  unfold k1_pay33
  exact shapeCast_apply x2 shapeCasts_S1x512x128_S512x128 (ix2 j e) (ix3 (0 : Fin 1) j e) (by
    rw [Shape.rowMajor_val_three, Shape.rowMajor_val_two]
    show (0 * 512 + j.val) * 128 + e.val = j.val * 128 + e.val
    omega)

/-! ## The key positions -/

/-- A small natural number as a 32-bit word reads back, signed, as itself. -/
theorem toInt_ofNat_small (n : ℕ) (h : n < 2 ^ 31) : (BitVec.ofNat 32 n).toInt = (n : ℤ) := by
  rw [BitVec.toInt_eq_toNat_cond, BitVec.toNat_ofNat]
  have e : n % 2 ^ 32 = n := Nat.mod_eq_of_lt (by omega)
  rw [e, if_pos (by omega)]

/-- The key positions of tile \`ki\`: 512·ki + the column. -/
theorem pay34_apply (i : grid1.Coords) (r' j : Fin 512) :
    k1_pay34 i (ix2 r' j) = BitVec.ofNat 32 (512 * (i 2).val + j.val) := by
  have hi : iota .tc S512x512 32 [1] iota_S512x512_d1_w32 (ix2 r' j) = BitVec.ofNat 32 j.val :=
    iota_single_apply .tc S512x512 32 1 iota_S512x512_d1_w32 (ix2 r' j)
  show BitVec.ofNat 32 (i 2).val * 512#32 + iota .tc S512x512 32 [1] iota_S512x512_d1_w32 (ix2 r' j) = _
  rw [hi]
  apply BitVec.eq_of_toNat_eq
  simp only [BitVec.toNat_add, BitVec.toNat_mul, BitVec.toNat_ofNat]
  omega

theorem pay34_toInt (i : grid1.Coords) (r' j : Fin 512) :
    (k1_pay34 i (ix2 r' j)).toInt = ((512 * (i 2).val + j.val : ℕ) : ℤ) := by
  have h2 : (i 2).val < 4 := (i 2).isLt
  rw [pay34_apply]
  exact toInt_ofNat_small _ (by have := j.isLt; omega)

/-! ## The initial state and the result block -/

theorem pay28_apply (R : Fin 2048) : k1_pay28 (F := Ideal) (ix2 R (0 : Fin 1)) = (⊥ : EReal) := by
  unfold k1_pay28
  rw [shapeCast_self]
  exact IdealRules.named_const.ideal_named_scalar Cert.KernelIdeal.κ "neg_big" _ ⊥ rfl

theorem pay29_apply (R : Fin 2048) : k1_pay29 (F := Ideal) (ix2 R (0 : Fin 1)) = (0 : EReal) := by
  unfold k1_pay29
  rw [shapeCast_self]
  exact Ideal.ofBits_zero_f32

theorem pay30_apply (R : Fin 2048) (e : Fin 128) : k1_pay30 (F := Ideal) (ix2 R e) = (0 : EReal) := by
  unfold k1_pay30
  rw [shapeCast_self]
  exact Ideal.ofBits_zero_f32

/-- The result block at \`(0, R, e)\`: the accumulator over the row's denominator. -/
theorem pay3_apply (acc : Vec Ideal S2048x128 .f32) (l : Vec Ideal S2048x1 .f32) (R : Fin 2048) (e : Fin 128) :
    k1_pay3 (F := Ideal) acc l (ix3 (0 : Fin 1) R e) = Ideal.div (acc (ix2 R e)) (l (ix2 R (0 : Fin 1))) := by
  unfold k1_pay3
  refine (shapeCast_apply _ shapeCasts_S2048x128_S1x2048x128 (ix3 (0 : Fin 1) R e) (ix2 R e) (by
    rw [Shape.rowMajor_val_three, Shape.rowMajor_val_two]
    show R.val * 128 + e.val = (0 * 2048 + R.val) * 128 + e.val
    omega)).trans ?_
  show Ideal.div (acc (ix2 R e)) (broadcastTo S2048x128 l broadcasts_S2048x1_S2048x128 (ix2 R e)) = _
  rw [Cert.LibRowwise.broadcastTo_a1_ab_apply l broadcasts_S2048x1_S2048x128 R e]

end Cert.KernelIdeal.HandValue

end
-- ==== Proof.KI_Reg1Chunk.lean ====
/-
  One chunk of the attention body's online-softmax update, row by row.

  The body updates the query rows 512·K … 512·K + 511 (K = 0, 1, 2, 3) of the carried state (level m, denominator l,
  accumulator a) against one tile of 512 keys and leaves the other rows as they were. For a row R = 512·K + r' of the
  chunk, with  sc j  the masked scaled score of the row's rotated query against the tile's key j  (⊥ where the key's
  position is after the row) and  m' = max (m[R]) (sup sc):
      m[R]    becomes  m',
      l[R]    becomes  exp (m[R] − m') · l[R] + ∑ j, exp (sc j − m'),
      a[R, e] becomes  exp (m[R] − m') · a[R, e] + ∑ j, exp (sc j − m') · v[j, e].
  A load of the chunk's rows reads the state at row 512·K + r'; a store of the chunk's rows replaces exactly those rows.
-/
import proofs.«117884_j83708912599078_2_alg».proof.Proof.KI_Reg1Defs
import proofs.«117884_j83708912599078_2_alg».proof.Proof.KI_Reg1Ops
import proofs.«117884_j83708912599078_2_alg».proof.Proof.KI_Reg1Tiles

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx

/-- The masked scaled scores of row \`R = 512·K + r'\` of the rotated queries \`sq\` against the 512 keys of the tile \`v18\` at
    positions \`v24\`. -/
def tileScore (K : ℕ) (v18 : FVec Ideal S512x128 .bf16) (v24 : IVec S512x512 32) (sq : Vec Ideal S2048x128 .bf16) (r' : Fin 512) (R : Fin 2048) :
    Fin 512 → EReal :=
  fun j => if (v24 (ix2 r' j)).toInt ≤ ((512 * K + r'.val : ℕ) : ℤ) then (∑ d : Fin 128, sq (ix2 R d) * v18 (ix2 j d)) * Cert.Spec.scale else ⊥

/-- The row's level after the tile: the larger of its old level and its largest score in the tile. -/
def newLevel (K : ℕ) (v18 : FVec Ideal S512x128 .bf16) (v24 : IVec S512x512 32) (sq : Vec Ideal S2048x128 .bf16) (s : St1 Ideal) (r' : Fin 512) (R : Fin 2048) : EReal :=
  max (s.1 (ix2 R (0 : Fin 1))) (Finset.univ.sup (tileScore K v18 v24 sq r' R))

/-- The first row of chunk \`K\` as a 32-bit word plus a row offset reads back, signed, as \`512·K + r\`. -/
theorem off_toInt (K : ℕ) (hK : K < 4) (r : Fin 512) :
    (BitVec.ofNat 32 (512 * K) + BitVec.ofNat 32 r.val).toInt = ((512 * K + r.val : ℕ) : ℤ) := by
  rw [← BitVec.ofNat_add]
  exact toInt_ofNat_small _ (by have := r.isLt; omega)

/-! ## Loads and stores of a chunk's rows at an index -/

section Rows

variable (N : ℕ) (inbM : ∀ a, (![N, 0] : Fin 2 → ℕ) a + S512x1.size a ≤ S2048x1.size a)
  (inbA : ∀ a, (![N, 0] : Fin 2 → ℕ) a + S512x128.size a ≤ S2048x128.size a)

/-- Row \`N + r'\` of a column vector is row \`r'\` of the rows from \`N\` on. -/
theorem embM_eq (r' : Fin 512) (R : Fin 2048) (hR : R.val = N + r'.val) :
    (Rect.unit (s := S2048x1) ![N, 0] S512x1.size inbM).emb (ix2 r' (0 : Fin 1)) = ix2 R (0 : Fin 1) :=
  funext fun a => Fin.ext (by
    match a with
    | ⟨0, _⟩ => show N + 1 * r'.val = R.val; omega
    | ⟨1, _⟩ => show 0 + 1 * 0 = 0; rfl)

theorem embA_eq (r' : Fin 512) (R : Fin 2048) (hR : R.val = N + r'.val) (e : Fin 128) :
    (Rect.unit (s := S2048x128) ![N, 0] S512x128.size inbA).emb (ix2 r' e) = ix2 R e :=
  funext fun a => Fin.ext (by
    match a with
    | ⟨0, _⟩ => show N + 1 * r'.val = R.val; omega
    | ⟨1, _⟩ => show 0 + 1 * e.val = e.val; omega)

theorem not_memM (R : Fin 2048) (hR : R.val < N ∨ N + 512 ≤ R.val) :
    (ix2 R (0 : Fin 1) : S2048x1.Idx) ∉ (Rect.unit (s := S2048x1) ![N, 0] S512x1.size inbM).set := fun h => by
  have h0 := (Rect.mem_set_unit.mp h) (0 : Fin 2)
  have h1 : N ≤ R.val ∧ R.val < N + 512 := h0
  omega

theorem not_memA (R : Fin 2048) (hR : R.val < N ∨ N + 512 ≤ R.val) (e : Fin 128) :
    (ix2 R e : S2048x128.Idx) ∉ (Rect.unit (s := S2048x128) ![N, 0] S512x128.size inbA).set := fun h => by
  have h0 := (Rect.mem_set_unit.mp h) (0 : Fin 2)
  have h1 : N ≤ R.val ∧ R.val < N + 512 := h0
  omega

/-- One chunk's update at a row of the chunk. -/
theorem chunk_row_gen (K : ℕ) (hN : N = 512 * K) (o : BitVec 32) (ho : ∀ r : Fin 512, (o + BitVec.ofNat 32 r.val).toInt = ((N + r.val : ℕ) : ℤ))
    (v18 v20 : FVec Ideal S512x128 .bf16) (v24 : IVec S512x512 32) (sq : Vec Ideal S2048x128 .bf16) (s : St1 Ideal)
    (r' : Fin 512) (R : Fin 2048) (hR : R.val = N + r'.val) (e : Fin 128) :
    (Rect.unit (s := S2048x1) ![N, 0] S512x1.size inbM).overlay s.1
        (levelT (scoreT o v18 v24 (View.ld sq (Rect.unit (s := S2048x128) ![N, 0] S512x128.size inbA))) (View.ld s.1 (Rect.unit (s := S2048x1) ![N, 0] S512x1.size inbM))) (ix2 R (0 : Fin 1))
      = newLevel K v18 v24 sq s r' R
    ∧ (Rect.unit (s := S2048x1) ![N, 0] S512x1.size inbM).overlay s.2.1
        (denomT (scoreT o v18 v24 (View.ld sq (Rect.unit (s := S2048x128) ![N, 0] S512x128.size inbA))) (View.ld s.1 (Rect.unit (s := S2048x1) ![N, 0] S512x1.size inbM)) (View.ld s.2.1 (Rect.unit (s := S2048x1) ![N, 0] S512x1.size inbM))) (ix2 R (0 : Fin 1))
      = Ideal.exp (s.1 (ix2 R (0 : Fin 1)) - newLevel K v18 v24 sq s r' R) * s.2.1 (ix2 R (0 : Fin 1))
          + ∑ j : Fin 512, Ideal.exp (tileScore K v18 v24 sq r' R j - newLevel K v18 v24 sq s r' R)
    ∧ (Rect.unit (s := S2048x128) ![N, 0] S512x128.size inbA).overlay s.2.2
        (accT (scoreT o v18 v24 (View.ld sq (Rect.unit (s := S2048x128) ![N, 0] S512x128.size inbA))) v20 (View.ld s.1 (Rect.unit (s := S2048x1) ![N, 0] S512x1.size inbM)) (View.ld s.2.2 (Rect.unit (s := S2048x128) ![N, 0] S512x128.size inbA))) (ix2 R e)
      = Ideal.exp (s.1 (ix2 R (0 : Fin 1)) - newLevel K v18 v24 sq s r' R) * s.2.2 (ix2 R e)
          + ∑ j : Fin 512, Ideal.exp (tileScore K v18 v24 sq r' R j - newLevel K v18 v24 sq s r' R) * v20 (ix2 j e) := by
  subst hN
  have eM := embM_eq (512 * K) inbM r' R hR
  have eA := embA_eq (512 * K) inbA r' R hR e
  have lq : ∀ d : Fin 128, View.ld sq (Rect.unit (s := S2048x128) ![512 * K, 0] S512x128.size inbA) (ix2 r' d) = sq (ix2 R d) :=
    fun d => congrArg sq (embA_eq (512 * K) inbA r' R hR d)
  have lm : View.ld s.1 (Rect.unit (s := S2048x1) ![512 * K, 0] S512x1.size inbM) (ix2 r' (0 : Fin 1)) = s.1 (ix2 R (0 : Fin 1)) := congrArg s.1 eM
  have ll : View.ld s.2.1 (Rect.unit (s := S2048x1) ![512 * K, 0] S512x1.size inbM) (ix2 r' (0 : Fin 1)) = s.2.1 (ix2 R (0 : Fin 1)) := congrArg s.2.1 eM
  have la : View.ld s.2.2 (Rect.unit (s := S2048x128) ![512 * K, 0] S512x128.size inbA) (ix2 r' e) = s.2.2 (ix2 R e) := congrArg s.2.2 eA
  obtain ⟨h1, h2, h3⟩ := upd_row o (512 * K) ho v18 v20 v24 (View.ld sq (Rect.unit (s := S2048x128) ![512 * K, 0] S512x128.size inbA))
    (View.ld s.1 (Rect.unit (s := S2048x1) ![512 * K, 0] S512x1.size inbM)) (View.ld s.2.1 (Rect.unit (s := S2048x1) ![512 * K, 0] S512x1.size inbM))
    (View.ld s.2.2 (Rect.unit (s := S2048x128) ![512 * K, 0] S512x128.size inbA)) r' e
    (tileScore K v18 v24 sq r' R) (by
      unfold tileScore
      funext j
      exact congrArg (fun z : EReal => if (v24 (ix2 r' j)).toInt ≤ ((512 * K + r'.val : ℕ) : ℤ) then z * Cert.Spec.scale else ⊥)
        (Finset.sum_congr rfl fun d _ => by rw [lq d]).symm)
    (newLevel K v18 v24 sq s r' R) (by unfold newLevel; rw [lm])
  rw [lm] at h2 h3
  rw [ll] at h2
  rw [la] at h3
  refine ⟨?_, ?_, ?_⟩
  · rw [← eM, Rect.overlay_emb]; exact h1
  · rw [← eM, Rect.overlay_emb, eM]; exact h2
  · rw [← eA, Rect.overlay_emb, eA]; exact h3

/-- One chunk's update leaves the rows outside the chunk as they were. -/
theorem chunk_off_gen (s : St1 Ideal) (G1 G2 : S512x1.Idx → EReal) (G3 : S512x128.Idx → EReal) (R : Fin 2048) (hR : R.val < N ∨ N + 512 ≤ R.val) (e : Fin 128) :
    (Rect.unit (s := S2048x1) ![N, 0] S512x1.size inbM).overlay s.1 G1 (ix2 R (0 : Fin 1)) = s.1 (ix2 R (0 : Fin 1))
    ∧ (Rect.unit (s := S2048x1) ![N, 0] S512x1.size inbM).overlay s.2.1 G2 (ix2 R (0 : Fin 1)) = s.2.1 (ix2 R (0 : Fin 1))
    ∧ (Rect.unit (s := S2048x128) ![N, 0] S512x128.size inbA).overlay s.2.2 G3 (ix2 R e) = s.2.2 (ix2 R e) :=
  ⟨Rect.overlay_of_not_mem _ _ _ (not_memM N inbM R hR), Rect.overlay_of_not_mem _ _ _ (not_memM N inbM R hR),
    Rect.overlay_of_not_mem _ _ _ (not_memA N inbA R hR e)⟩

end Rows

/-- Chunk 0 (rows 0 … 511) at a row of the chunk. -/
theorem chunk0_row (v18 v20 : FVec Ideal S512x128 .bf16) (v24 : IVec S512x512 32) (sq : Vec Ideal S2048x128 .bf16) (s : St1 Ideal)
    (r' : Fin 512) (R : Fin 2048) (hR : R.val = 512 * 0 + r'.val) (e : Fin 128) :
    (chunk0 v18 v20 v24 sq s).1 (ix2 R (0 : Fin 1)) = newLevel 0 v18 v24 sq s r' R
    ∧ (chunk0 v18 v20 v24 sq s).2.1 (ix2 R (0 : Fin 1))
        = Ideal.exp (s.1 (ix2 R (0 : Fin 1)) - newLevel 0 v18 v24 sq s r' R) * s.2.1 (ix2 R (0 : Fin 1))
          + ∑ j : Fin 512, Ideal.exp (tileScore 0 v18 v24 sq r' R j - newLevel 0 v18 v24 sq s r' R)
    ∧ (chunk0 v18 v20 v24 sq s).2.2 (ix2 R e)
        = Ideal.exp (s.1 (ix2 R (0 : Fin 1)) - newLevel 0 v18 v24 sq s r' R) * s.2.2 (ix2 R e)
          + ∑ j : Fin 512, Ideal.exp (tileScore 0 v18 v24 sq r' R j - newLevel 0 v18 v24 sq s r' R) * v20 (ix2 j e) := by
  have h := chunk_row_gen 0 inb_S2048x1_S512x1_0_0 inb_S2048x128_S512x128_0_0 0 rfl 0#32 (off_toInt 0 (by omega)) v18 v20 v24 sq s r' R hR e
  unfold chunk0
  dsimp only
  rw [pay35_eq, pay5_eq, pay8_eq, pay9_eq]
  exact h

/-- Chunk 0 leaves the other rows as they were. -/
theorem chunk0_off (v18 v20 : FVec Ideal S512x128 .bf16) (v24 : IVec S512x512 32) (sq : Vec Ideal S2048x128 .bf16) (s : St1 Ideal)
    (R : Fin 2048) (hR : R.val < 512 * 0 ∨ 512 * 0 + 512 ≤ R.val) (e : Fin 128) :
    (chunk0 v18 v20 v24 sq s).1 (ix2 R (0 : Fin 1)) = s.1 (ix2 R (0 : Fin 1))
    ∧ (chunk0 v18 v20 v24 sq s).2.1 (ix2 R (0 : Fin 1)) = s.2.1 (ix2 R (0 : Fin 1))
    ∧ (chunk0 v18 v20 v24 sq s).2.2 (ix2 R e) = s.2.2 (ix2 R e) :=
  chunk_off_gen 0 inb_S2048x1_S512x1_0_0 inb_S2048x128_S512x128_0_0 s _ _ _ R hR e

/-- Chunk 1 (rows 512 … 1023) at a row of the chunk. -/
theorem chunk1_row (v18 v20 : FVec Ideal S512x128 .bf16) (v24 : IVec S512x512 32) (sq : Vec Ideal S2048x128 .bf16) (s : St1 Ideal)
    (r' : Fin 512) (R : Fin 2048) (hR : R.val = 512 * 1 + r'.val) (e : Fin 128) :
    (chunk1 v18 v20 v24 sq s).1 (ix2 R (0 : Fin 1)) = newLevel 1 v18 v24 sq s r' R
    ∧ (chunk1 v18 v20 v24 sq s).2.1 (ix2 R (0 : Fin 1))
        = Ideal.exp (s.1 (ix2 R (0 : Fin 1)) - newLevel 1 v18 v24 sq s r' R) * s.2.1 (ix2 R (0 : Fin 1))
          + ∑ j : Fin 512, Ideal.exp (tileScore 1 v18 v24 sq r' R j - newLevel 1 v18 v24 sq s r' R)
    ∧ (chunk1 v18 v20 v24 sq s).2.2 (ix2 R e)
        = Ideal.exp (s.1 (ix2 R (0 : Fin 1)) - newLevel 1 v18 v24 sq s r' R) * s.2.2 (ix2 R e)
          + ∑ j : Fin 512, Ideal.exp (tileScore 1 v18 v24 sq r' R j - newLevel 1 v18 v24 sq s r' R) * v20 (ix2 j e) := by
  have h := chunk_row_gen 512 inb_S2048x1_S512x1_512_0 inb_S2048x128_S512x128_512_0 1 rfl 512#32 (off_toInt 1 (by omega)) v18 v20 v24 sq s r' R hR e
  unfold chunk1
  dsimp only
  rw [pay36_eq, pay11_eq, pay14_eq, pay15_eq]
  exact h

/-- Chunk 1 leaves the other rows as they were. -/
theorem chunk1_off (v18 v20 : FVec Ideal S512x128 .bf16) (v24 : IVec S512x512 32) (sq : Vec Ideal S2048x128 .bf16) (s : St1 Ideal)
    (R : Fin 2048) (hR : R.val < 512 * 1 ∨ 512 * 1 + 512 ≤ R.val) (e : Fin 128) :
    (chunk1 v18 v20 v24 sq s).1 (ix2 R (0 : Fin 1)) = s.1 (ix2 R (0 : Fin 1))
    ∧ (chunk1 v18 v20 v24 sq s).2.1 (ix2 R (0 : Fin 1)) = s.2.1 (ix2 R (0 : Fin 1))
    ∧ (chunk1 v18 v20 v24 sq s).2.2 (ix2 R e) = s.2.2 (ix2 R e) :=
  chunk_off_gen 512 inb_S2048x1_S512x1_512_0 inb_S2048x128_S512x128_512_0 s _ _ _ R hR e

/-- Chunk 2 (rows 1024 … 1535) at a row of the chunk. -/
theorem chunk2_row (v18 v20 : FVec Ideal S512x128 .bf16) (v24 : IVec S512x512 32) (sq : Vec Ideal S2048x128 .bf16) (s : St1 Ideal)
    (r' : Fin 512) (R : Fin 2048) (hR : R.val = 512 * 2 + r'.val) (e : Fin 128) :
    (chunk2 v18 v20 v24 sq s).1 (ix2 R (0 : Fin 1)) = newLevel 2 v18 v24 sq s r' R
    ∧ (chunk2 v18 v20 v24 sq s).2.1 (ix2 R (0 : Fin 1))
        = Ideal.exp (s.1 (ix2 R (0 : Fin 1)) - newLevel 2 v18 v24 sq s r' R) * s.2.1 (ix2 R (0 : Fin 1))
          + ∑ j : Fin 512, Ideal.exp (tileScore 2 v18 v24 sq r' R j - newLevel 2 v18 v24 sq s r' R)
    ∧ (chunk2 v18 v20 v24 sq s).2.2 (ix2 R e)
        = Ideal.exp (s.1 (ix2 R (0 : Fin 1)) - newLevel 2 v18 v24 sq s r' R) * s.2.2 (ix2 R e)
          + ∑ j : Fin 512, Ideal.exp (tileScore 2 v18 v24 sq r' R j - newLevel 2 v18 v24 sq s r' R) * v20 (ix2 j e) := by
  have h := chunk_row_gen 1024 inb_S2048x1_S512x1_1024_0 inb_S2048x128_S512x128_1024_0 2 rfl 1024#32 (off_toInt 2 (by omega)) v18 v20 v24 sq s r' R hR e
  unfold chunk2
  dsimp only
  rw [pay1_eq, pay17_eq, pay20_eq, pay21_eq]
  exact h

/-- Chunk 2 leaves the other rows as they were. -/
theorem chunk2_off (v18 v20 : FVec Ideal S512x128 .bf16) (v24 : IVec S512x512 32) (sq : Vec Ideal S2048x128 .bf16) (s : St1 Ideal)
    (R : Fin 2048) (hR : R.val < 512 * 2 ∨ 512 * 2 + 512 ≤ R.val) (e : Fin 128) :
    (chunk2 v18 v20 v24 sq s).1 (ix2 R (0 : Fin 1)) = s.1 (ix2 R (0 : Fin 1))
    ∧ (chunk2 v18 v20 v24 sq s).2.1 (ix2 R (0 : Fin 1)) = s.2.1 (ix2 R (0 : Fin 1))
    ∧ (chunk2 v18 v20 v24 sq s).2.2 (ix2 R e) = s.2.2 (ix2 R e) :=
  chunk_off_gen 1024 inb_S2048x1_S512x1_1024_0 inb_S2048x128_S512x128_1024_0 s _ _ _ R hR e

/-- Chunk 3 (rows 1536 … 2047) at a row of the chunk. -/
theorem chunk3_row (v18 v20 : FVec Ideal S512x128 .bf16) (v24 : IVec S512x512 32) (sq : Vec Ideal S2048x128 .bf16) (s : St1 Ideal)
    (r' : Fin 512) (R : Fin 2048) (hR : R.val = 512 * 3 + r'.val) (e : Fin 128) :
    (chunk3 v18 v20 v24 sq s).1 (ix2 R (0 : Fin 1)) = newLevel 3 v18 v24 sq s r' R
    ∧ (chunk3 v18 v20 v24 sq s).2.1 (ix2 R (0 : Fin 1))
        = Ideal.exp (s.1 (ix2 R (0 : Fin 1)) - newLevel 3 v18 v24 sq s r' R) * s.2.1 (ix2 R (0 : Fin 1))
          + ∑ j : Fin 512, Ideal.exp (tileScore 3 v18 v24 sq r' R j - newLevel 3 v18 v24 sq s r' R)
    ∧ (chunk3 v18 v20 v24 sq s).2.2 (ix2 R e)
        = Ideal.exp (s.1 (ix2 R (0 : Fin 1)) - newLevel 3 v18 v24 sq s r' R) * s.2.2 (ix2 R e)
          + ∑ j : Fin 512, Ideal.exp (tileScore 3 v18 v24 sq r' R j - newLevel 3 v18 v24 sq s r' R) * v20 (ix2 j e) := by
  have h := chunk_row_gen 1536 inb_S2048x1_S512x1_1536_0 inb_S2048x128_S512x128_1536_0 3 rfl 1536#32 (off_toInt 3 (by omega)) v18 v20 v24 sq s r' R hR e
  unfold chunk3
  dsimp only
  rw [pay2_eq, pay23_eq, pay26_eq, pay27_eq]
  exact h

/-- Chunk 3 leaves the other rows as they were. -/
theorem chunk3_off (v18 v20 : FVec Ideal S512x128 .bf16) (v24 : IVec S512x512 32) (sq : Vec Ideal S2048x128 .bf16) (s : St1 Ideal)
    (R : Fin 2048) (hR : R.val < 512 * 3 ∨ 512 * 3 + 512 ≤ R.val) (e : Fin 128) :
    (chunk3 v18 v20 v24 sq s).1 (ix2 R (0 : Fin 1)) = s.1 (ix2 R (0 : Fin 1))
    ∧ (chunk3 v18 v20 v24 sq s).2.1 (ix2 R (0 : Fin 1)) = s.2.1 (ix2 R (0 : Fin 1))
    ∧ (chunk3 v18 v20 v24 sq s).2.2 (ix2 R e) = s.2.2 (ix2 R e) :=
  chunk_off_gen 1536 inb_S2048x1_S512x1_1536_0 inb_S2048x128_S512x128_1536_0 s _ _ _ R hR e

end Cert.KernelIdeal.HandValue

end
-- ==== Proof.KI_Reg1Rows.lean ====
/-
  One query row of the tiled attention, followed through the four grid points of its head.

  Fix a batch b, a head h, a query row R and an output column e. The row's scores against the 2048 keys are the masked,
  scaled scores of the specification, its values the column e of the head's value rows. A chunk update of the row
  against key tile ki is one tile of the tiled softmax (the tile's masked scores are the specification's scores of the
  tile's keys: the key positions the kernel compares are 512·ki + j, the rotated rows are the specification's rotary
  embedding); an update of another chunk leaves the row alone; a tile that lies wholly after the row is all ⊥ and is
  skipped. With finite inputs every unmasked score is a real number.
-/
import proofs.«117884_j83708912599078_2_alg».proof.Proof.KI_Reg1Blocks
import proofs.«117884_j83708912599078_2_alg».proof.Proof.SpecAttn
import proofs.«117884_j83708912599078_2_alg».proof.Proof.KI_Reg1Chunk

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.SL Idealize.SL.RA
open Cert.KeyTiles OnlineSoftmax

/-! ## Real numbers among the extended reals -/

/-- An extended real that is a real number. -/
def IsR (x : EReal) : Prop := ∃ r : ℝ, x = (r : EReal)

theorem IsR.of_ne {x : EReal} (h1 : x ≠ ⊤) (h2 : x ≠ ⊥) : IsR x := ⟨x.toReal, (EReal.coe_toReal h1 h2).symm⟩
theorem IsR.ne_top {x : EReal} (h : IsR x) : x ≠ ⊤ := by obtain ⟨r, rfl⟩ := h; exact EReal.coe_ne_top r
theorem IsR.ne_bot {x : EReal} (h : IsR x) : x ≠ ⊥ := by obtain ⟨r, rfl⟩ := h; exact EReal.coe_ne_bot r
theorem IsR.coe_toReal {x : EReal} (h : IsR x) : ((x.toReal : ℝ) : EReal) = x := EReal.coe_toReal h.ne_top h.ne_bot
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.neg {x : EReal} (hx : IsR x) : IsR (-x) := by
  obtain ⟨a, rfl⟩ := hx; exact ⟨-a, (EReal.coe_neg a).symm⟩
theorem IsR.sum {ι : Type*} (S : Finset ι) (f : ι → EReal) (h : ∀ j ∈ S, IsR (f j)) : IsR (∑ j ∈ S, f j) := by
  classical
  induction S using Finset.induction_on with
  | empty => exact ⟨0, by simp⟩
  | insert a S ha ih =>
    rw [Finset.sum_insert ha]
    exact (h a (Finset.mem_insert_self a S)).add (ih fun j hj => h j (Finset.mem_insert_of_mem hj))

/-- The scale is a real number: a binary32 pattern whose exponent field is neither all zeros nor all ones. -/
theorem scale_real : IsR Cert.Spec.scale := by
  unfold Cert.Spec.scale Ideal.ofBits Ideal.ieee
  have h1 : ¬ ((0x413504F3#32 : BitVec 32).extractLsb' 23 8).toNat = 2 ^ 8 - 1 := by decide
  have h2 : ¬ ((0x413504F3#32 : BitVec 32).extractLsb' 23 8).toNat = 0 := by decide
  dsimp only
  rw [if_neg h1, if_neg h2]
  exact ⟨_, rfl⟩

/-- The rotary embedding of finite entries with finite tables is a real number. -/
theorem ropeF_real (u : Cert.Spec.P3) (cosf sinf : Cert.Spec.PT) (hu : ∀ b s f, IsR (u b s f)) (hc : ∀ s d, IsR (cosf s d))
    (hs : ∀ s d, IsR (sinf s d)) (b : Fin 2) (s : Fin 2048) (h : Fin 16) (d : Fin 128) :
    IsR (Cert.Spec.ropeF u cosf sinf b s h d) := by
  unfold Cert.Spec.ropeF
  refine ((hu _ _ _).mul (hc _ _)).add (IsR.mul ?_ (hs _ _))
  split
  · exact (hu _ _ _).neg
  · exact hu _ _ _

/-- A score at or below the diagonal is a real number. -/
theorem scoreF_real (q k : Cert.Spec.P3) (cosf sinf : Cert.Spec.PT) (hq : ∀ b s f, IsR (q b s f)) (hk : ∀ b s f, IsR (k b s f))
    (hc : ∀ s d, IsR (cosf s d)) (hs : ∀ s d, IsR (sinf s d)) (b : Fin 2) (h : Fin 16) (sq sk : Fin 2048) (hvis : sk.val ≤ sq.val) :
    IsR (Cert.Spec.scoreF q k cosf sinf b h sq sk) := by
  unfold Cert.Spec.scoreF
  rw [if_pos hvis]
  exact (IsR.sum _ _ fun d _ => (ropeF_real q cosf sinf hq hc hs b sq h d).mul (ropeF_real k cosf sinf hk hc hs b sk h d)).mul scale_real

/-- No score is ⊤. -/
theorem scoreF_ne_top (q k : Cert.Spec.P3) (cosf sinf : Cert.Spec.PT) (hq : ∀ b s f, IsR (q b s f)) (hk : ∀ b s f, IsR (k b s f))
    (hc : ∀ s d, IsR (cosf s d)) (hs : ∀ s d, IsR (sinf s d)) (b : Fin 2) (h : Fin 16) (sq sk : Fin 2048) :
    Cert.Spec.scoreF q k cosf sinf b h sq sk ≠ ⊤ := by
  by_cases hvis : sk.val ≤ sq.val
  · exact (scoreF_real q k cosf sinf hq hk hc hs b h sq sk hvis).ne_top
  · unfold Cert.Spec.scoreF; rw [if_neg hvis]; exact bot_ne_top

/-- A score above the diagonal is ⊥. -/
theorem scoreF_masked (q k : Cert.Spec.P3) (cosf sinf : Cert.Spec.PT) (b : Fin 2) (h : Fin 16) (sq sk : Fin 2048) (hm : sq.val < sk.val) :
    Cert.Spec.scoreF q k cosf sinf b h sq sk = ⊥ := by
  unfold Cert.Spec.scoreF; rw [if_neg (by omega)]

/-! ## The tile's masked scores are the specification's -/

/-- The masked scaled scores of global row R = 512·K + r' against the tile whose rotated keys are those of key block ki,
    whose key positions are 512·ki + j, with the rotated query row R: the specification's scores of the tile's keys. -/
theorem tileScore_eq (K ki : ℕ) (hki : ki < 4) (v18 : FVec Ideal S512x128 .bf16) (v24 : IVec S512x512 32) (sq : Vec Ideal S2048x128 .bf16)
    (r' : Fin 512) (R : Fin 2048) (hR : R.val = 512 * K + r'.val)
    (q k : Cert.Spec.P3) (cosf sinf : Cert.Spec.PT) (b : Fin 2) (h : Fin 16)
    (hsq : ∀ d, sq (ix2 R d) = Cert.Spec.ropeF q cosf sinf b R h d)
    (h18 : ∀ j d, v18 (ix2 j d) = Cert.Spec.ropeF k cosf sinf b (key ki hki j) h d)
    (h24 : ∀ j, (v24 (ix2 r' j)).toInt = ((512 * ki + j.val : ℕ) : ℤ)) (j : Fin 512) :
    tileScore K v18 v24 sq r' R j = Cert.Spec.scoreF q k cosf sinf b h R (key ki hki j) := by
  unfold tileScore Cert.Spec.scoreF
  rw [h24 j]
  have hc : (((512 * ki + j.val : ℕ) : ℤ) ≤ ((512 * K + r'.val : ℕ) : ℤ)) ↔ (key ki hki j).val ≤ R.val := by
    rw [Int.ofNat_le, hR, key_val]
  refine if_congr hc ?_ rfl
  refine congrArg (· * Cert.Spec.scale) (Finset.sum_congr rfl fun d _ => ?_)
  rw [hsq d, h18 j d]

/-! ## The row's invariant -/

/-- What is known of row R, column e of a state after the keys below tile n: the tiled softmax's invariant for the
    row's scores s and values v, a level that is not ⊤, and not ⊥ either once a tile has been seen. -/
def RowInv (s : Fin 2048 → EReal) (v : Fin 2048 → ℝ) (R : Fin 2048) (e : Fin 128) (n : ℕ) (st : St1 Ideal) : Prop :=
  Inv s v (seen n) (st.1 (ix2 R 0)) (st.2.1 (ix2 R 0)) (st.2.2 (ix2 R e)) ∧ st.1 (ix2 R 0) ≠ ⊤ ∧ (0 < n → st.1 (ix2 R 0) ≠ ⊥)

/-- The initial state. -/
theorem RowInv.init (s : Fin 2048 → EReal) (v : Fin 2048 → ℝ) (R : Fin 2048) (e : Fin 128) (st : St1 Ideal)
    (h1 : st.1 (ix2 R 0) = ⊥) (h2 : st.2.1 (ix2 R 0) = 0) (h3 : st.2.2 (ix2 R e) = 0) : RowInv s v R e 0 st := by
  unfold RowInv
  rw [h1, h2, h3, seen_zero]
  exact ⟨Inv.init s v, bot_ne_top, fun h => absurd h (Nat.lt_irrefl 0)⟩

/-- A state that agrees with st on the row. -/
theorem RowInv.keep {s : Fin 2048 → EReal} {v : Fin 2048 → ℝ} {R : Fin 2048} {e : Fin 128} {n : ℕ} {st st' : St1 Ideal}
    (h : RowInv s v R e n st) (h1 : st'.1 (ix2 R 0) = st.1 (ix2 R 0)) (h2 : st'.2.1 (ix2 R 0) = st.2.1 (ix2 R 0))
    (h3 : st'.2.2 (ix2 R e) = st.2.2 (ix2 R e)) : RowInv s v R e n st' := by
  unfold RowInv; rw [h1, h2, h3]; exact h

/-- A tile that is all ⊥ for the row. -/
theorem RowInv.skip {s : Fin 2048 → EReal} {v : Fin 2048 → ℝ} {R : Fin 2048} {e : Fin 128} {n : ℕ} {st : St1 Ideal}
    (h : RowInv s v R e n st) (hn : 0 < n) (hτ : ∀ j ∈ tile n, s j = ⊥) : RowInv s v R e (n + 1) st :=
  ⟨Inv.skip_tile n h.1 hτ, h.2.1, fun _ => h.2.2 hn⟩

/-- One tile. -/
theorem RowInv.tile {s : Fin 2048 → EReal} {v : Fin 2048 → ℝ} (hs : ∀ j, s j ≠ ⊤) {R : Fin 2048} {e : Fin 128} (ki : ℕ) (hki : ki < 4)
    {st st' : St1 Ideal} (h : RowInv s v R e ki st) (hvis : s (key ki hki 0) ≠ ⊥)
    (sc vt : Fin 512 → EReal) (hsc : ∀ j, sc j = s (key ki hki j)) (hvt : ∀ j, vt j = (v (key ki hki j) : EReal))
    (h1 : st'.1 (ix2 R 0) = max (st.1 (ix2 R 0)) (Finset.univ.sup sc))
    (h2 : st'.2.1 (ix2 R 0) = Ideal.exp (st.1 (ix2 R 0) - max (st.1 (ix2 R 0)) (Finset.univ.sup sc)) * st.2.1 (ix2 R 0)
        + ∑ j, Ideal.exp (sc j - max (st.1 (ix2 R 0)) (Finset.univ.sup sc)))
    (h3 : st'.2.2 (ix2 R e) = Ideal.exp (st.1 (ix2 R 0) - max (st.1 (ix2 R 0)) (Finset.univ.sup sc)) * st.2.2 (ix2 R e)
        + ∑ j, Ideal.exp (sc j - max (st.1 (ix2 R 0)) (Finset.univ.sup sc)) * vt j) :
    RowInv s v R e (ki + 1) st' := by
  obtain ⟨hinv, hm, -⟩ := h
  obtain ⟨⟨r, hr⟩, hinv'⟩ := Inv.tile_offsets hs ki hki hinv hm hvis sc vt hsc hvt
  unfold RowInv
  rw [h1, h2, h3]
  exact ⟨hinv', by rw [hr]; exact EReal.coe_ne_top r, fun _ => by rw [hr]; exact EReal.coe_ne_bot r⟩

end Cert.KernelIdeal.HandValue

end
-- ==== Proof.KI_Reg1Points.lean ====
/-
  The value of the attention launch on the extended reals.

  For every batch b, query position s, head h and coordinate d, the launch's output array holds at (b, s, 128·h + d)
  the softmax-weighted sum of the specification: the four points of the group (b, h) take every query row through
  the key tiles at or below its own chunk (the later tiles are all ⊥ for it), the last point divides the accumulator
  by the denominator, and the 32 output blocks fill the array.
-/
import proofs.«117884_j83708912599078_2_alg».proof.Proof.KI_Reg1Rows

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.SL Idealize.SL.RA
open Cert.KeyTiles OnlineSoftmax

variable (q1 : Fin cfg1.W → PosShare TreeShare)
variable (V : (c : Dev nD) → (b : Ref sig .tc) → Buf (Elt Ideal) ((c : Thread nD τ).loc b))

/-- The launch's arrays as functions of batch, position, feature, and its tables as functions of position, coordinate. -/
abbrev Qf (c : Dev nD) : Cert.Spec.P3 := fun b s f => A1q V c (ix3 b s f)
abbrev Kf (c : Dev nD) : Cert.Spec.P3 := fun b s f => A1k V c (ix3 b s f)
abbrev Vf (c : Dev nD) : Cert.Spec.P3 := fun b s f => A1v V c (ix3 b s f)
abbrev cosf (c : Dev nD) : Cert.Spec.PT := fun s d => A1cos V c (ix2 s d)
abbrev sinf (c : Dev nD) : Cert.Spec.PT := fun s d => A1sin V c (ix2 s d)

/-- Every entry of the five arrays is a real number. -/
def FiniteIn (c : Dev nD) : Prop :=
  (∀ i, A1q V c i ≠ ⊤ ∧ A1q V c i ≠ ⊥) ∧ (∀ i, A1k V c i ≠ ⊤ ∧ A1k V c i ≠ ⊥) ∧ (∀ i, A1v V c i ≠ ⊤ ∧ A1v V c i ≠ ⊥)
    ∧ (∀ i, A1cos V c i ≠ ⊤ ∧ A1cos V c i ≠ ⊥) ∧ (∀ i, A1sin V c i ≠ ⊤ ∧ A1sin V c i ≠ ⊥)

theorem FiniteIn.q {c : Dev nD} (h : FiniteIn V c) (b : Fin 2) (s f : Fin 2048) : IsR (Qf V c b s f) := IsR.of_ne (h.1 _).1 (h.1 _).2
theorem FiniteIn.k {c : Dev nD} (h : FiniteIn V c) (b : Fin 2) (s f : Fin 2048) : IsR (Kf V c b s f) := IsR.of_ne (h.2.1 _).1 (h.2.1 _).2
theorem FiniteIn.v {c : Dev nD} (h : FiniteIn V c) (b : Fin 2) (s f : Fin 2048) : IsR (Vf V c b s f) := IsR.of_ne (h.2.2.1 _).1 (h.2.2.1 _).2
theorem FiniteIn.cos {c : Dev nD} (h : FiniteIn V c) (s : Fin 2048) (d : Fin 128) : IsR (cosf V c s d) := IsR.of_ne (h.2.2.2.1 _).1 (h.2.2.2.1 _).2
theorem FiniteIn.sin {c : Dev nD} (h : FiniteIn V c) (s : Fin 2048) (d : Fin 128) : IsR (sinf V c s d) := IsR.of_ne (h.2.2.2.2 _).1 (h.2.2.2.2 _).2

/-- The scores of query row R of head h of batch b against the 2048 keys, and column e of the head's value rows. -/
abbrev scoreRow (c : Dev nD) (b : Fin 2) (h : Fin 16) (R : Fin 2048) : Fin 2048 → EReal :=
  Cert.Spec.scoreF (Qf V c) (Kf V c) (cosf V c) (sinf V c) b h R
abbrev valRow (c : Dev nD) (b : Fin 2) (h : Fin 16) (e : Fin 128) : Fin 2048 → ℝ :=
  fun j => (Vf V c b j (Cert.Spec.feat h e)).toReal

theorem scoreRow_ne_top {c : Dev nD} (hfin : FiniteIn V c) (b : Fin 2) (h : Fin 16) (R j : Fin 2048) : scoreRow V c b h R j ≠ ⊤ :=
  scoreF_ne_top _ _ _ _ hfin.q hfin.k hfin.cos hfin.sin b h R j

theorem scoreRow_real {c : Dev nD} (hfin : FiniteIn V c) (b : Fin 2) (h : Fin 16) (R j : Fin 2048) (hv : j.val ≤ R.val) : IsR (scoreRow V c b h R j) :=
  scoreF_real _ _ _ _ hfin.q hfin.k hfin.cos hfin.sin b h R j hv

/-! ## The tiles of a point -/

/-- The rotated key tile, the value tile and the key positions of key block ki of head h of batch b. -/
structure TileAt (c : Dev nD) (b : Fin 2) (h : Fin 16) (ki : ℕ) (hki : ki < 4) (v18 v20 : FVec Ideal S512x128 .bf16) (v24 : IVec S512x512 32) : Prop where
  h18 : ∀ j d, v18 (ix2 j d) = Cert.Spec.ropeF (Kf V c) (cosf V c) (sinf V c) b (key ki hki j) h d
  h20 : ∀ j e, v20 (ix2 j e) = Vf V c b (key ki hki j) (Cert.Spec.feat h e)
  h24 : ∀ r' j, (v24 (ix2 r' j)).toInt = ((512 * ki + j.val : ℕ) : ℤ)

/-- The rotated queries of head h of batch b. -/
def SqAt (c : Dev nD) (b : Fin 2) (h : Fin 16) (sq : Vec Ideal S2048x128 .bf16) : Prop :=
  ∀ R d, sq (ix2 R d) = Cert.Spec.ropeF (Qf V c) (cosf V c) (sinf V c) b R h d

theorem tileAt_point (c : Dev nD) (t : Fin cfg1.N) (ki : ℕ) (hki : ki < 4) (hk : t.val % 4 = ki) :
    TileAt V c (bOf t) (hOf t) ki hki (k1_pay32 (F := Ideal) (iblk1 V c 1 t) (iblk1 V c 5 t) (iblk1 V c 6 t))
      (k1_pay33 (F := Ideal) (iblk1 V c 2 t)) (k1_pay34 (grid1.coords t)) where
  h18 j d := by
    refine (pay32_apply _ _ _ j d).trans ?_
    simp only [iblk1_1_apply V c t ki hki hk, iblk1_5_apply V c t ki hki hk, iblk1_6_apply V c t ki hki hk]
    rfl
  h20 j e := by
    refine (pay33_apply _ j e).trans ?_
    exact iblk1_2_apply V c t ki hki hk j e
  h24 r' j := by
    rw [pay34_toInt, coords1_2 t, hk]

theorem sqAt_point (c : Dev nD) (t : Fin cfg1.N) :
    SqAt V c (bOf t) (hOf t) (k1_pay31 (F := Ideal) (iblk1 V c 0 t) (iblk1 V c 3 t) (iblk1 V c 4 t)) := by
  intro R d
  refine (pay31_apply _ _ _ R d).trans ?_
  rw [iblk1_0_apply V c t R d, iblk1_0_apply V c t R (Cert.Spec.swap d), iblk1_3_apply V c t R d, iblk1_4_apply V c t R d]
  rfl

/-! ## A chunk update, on one row -/

/-- An update of chunk K against key tile ki ≤ K: a row of chunk K (which has seen the tiles below ki) takes the tile; a
    row of another chunk is left alone. -/
theorem chunk_inv {c : Dev nD} (hfin : FiniteIn V c) (K : ℕ) (f : St1 Ideal → St1 Ideal)
    (v18 v20 : FVec Ideal S512x128 .bf16) (v24 : IVec S512x512 32) (sq : Vec Ideal S2048x128 .bf16)
    (hrow : ∀ (s : St1 Ideal) (r' : Fin 512) (R : Fin 2048), R.val = 512 * K + r'.val → ∀ e : Fin 128,
        (f s).1 (ix2 R 0) = newLevel K v18 v24 sq s r' R
      ∧ (f s).2.1 (ix2 R 0) = Ideal.exp (s.1 (ix2 R 0) - newLevel K v18 v24 sq s r' R) * s.2.1 (ix2 R 0) + ∑ j : Fin 512, Ideal.exp (tileScore K v18 v24 sq r' R j - newLevel K v18 v24 sq s r' R)
      ∧ (f s).2.2 (ix2 R e) = Ideal.exp (s.1 (ix2 R 0) - newLevel K v18 v24 sq s r' R) * s.2.2 (ix2 R e) + ∑ j : Fin 512, Ideal.exp (tileScore K v18 v24 sq r' R j - newLevel K v18 v24 sq s r' R) * v20 (ix2 j e))
    (hoff : ∀ (s : St1 Ideal) (R : Fin 2048), (R.val < 512 * K ∨ 512 * K + 512 ≤ R.val) → ∀ e : Fin 128,
        (f s).1 (ix2 R 0) = s.1 (ix2 R 0) ∧ (f s).2.1 (ix2 R 0) = s.2.1 (ix2 R 0) ∧ (f s).2.2 (ix2 R e) = s.2.2 (ix2 R e))
    (b : Fin 2) (h : Fin 16) (ki : ℕ) (hki : ki < 4) (hkK : ki ≤ K)
    (T : TileAt V c b h ki hki v18 v20 v24) (hsq : SqAt V c b h sq)
    (R : Fin 2048) (e : Fin 128) (n : ℕ) (st : St1 Ideal)
    (hst : RowInv (scoreRow V c b h R) (valRow V c b h e) R e n st) (hn : R.val / 512 = K → n = ki) :
    RowInv (scoreRow V c b h R) (valRow V c b h e) R e (if R.val / 512 = K then n + 1 else n) (f st) := by
  by_cases hq : R.val / 512 = K
  · rw [if_pos hq]
    obtain rfl : n = ki := hn hq
    have hr' : R.val - 512 * K < 512 := by omega
    have hR : R.val = 512 * K + (⟨R.val - 512 * K, hr'⟩ : Fin 512).val := by show R.val = 512 * K + (R.val - 512 * K); omega
    obtain ⟨h1, h2, h3⟩ := hrow st ⟨R.val - 512 * K, hr'⟩ R hR e
    unfold newLevel at h1 h2 h3
    refine RowInv.tile (fun j => scoreRow_ne_top V hfin b h R j) n hki hst ?_
      (tileScore K v18 v24 sq ⟨R.val - 512 * K, hr'⟩ R) (fun j => v20 (ix2 j e)) ?_ ?_ h1 h2 h3
    · refine (scoreRow_real V hfin b h R _ ?_).ne_bot
      show 512 * n + (0 : Fin 512).val ≤ R.val
      show 512 * n + 0 ≤ R.val
      omega
    · intro j
      exact tileScore_eq K n hki v18 v24 sq _ R hR (Qf V c) (Kf V c) (cosf V c) (sinf V c) b h (hsq R) T.h18 (T.h24 _) j
    · intro j
      show v20 (ix2 j e) = (((Vf V c b (key n hki j) (Cert.Spec.feat h e)).toReal : ℝ) : EReal)
      rw [(FiniteIn.v V hfin b (key n hki j) (Cert.Spec.feat h e)).coe_toReal]
      exact T.h20 j e
  · rw [if_neg hq]
    obtain ⟨h1, h2, h3⟩ := hoff st R (by omega) e
    exact hst.keep h1 h2 h3

/-- After the chunk updates of key block ki: a row whose chunk is at or after ki has taken the tile; for a row of an
    earlier chunk the tile is all ⊥. -/
theorem RowInv.close {c : Dev nD} (b : Fin 2) (h : Fin 16) (R : Fin 2048) (e : Fin 128) (ki N : ℕ) (st : St1 Ideal)
    (hst : RowInv (scoreRow V c b h R) (valRow V c b h e) R e N st)
    (h1 : ki ≤ R.val / 512 → N = ki + 1) (h2 : R.val / 512 < ki → N = ki ∧ 0 < ki) :
    RowInv (scoreRow V c b h R) (valRow V c b h e) R e (ki + 1) st := by
  by_cases hq : ki ≤ R.val / 512
  · rw [← h1 hq]; exact hst
  · obtain ⟨rfl, hpos⟩ := h2 (by omega)
    refine hst.skip hpos fun j hj => ?_
    simp only [Cert.KeyTiles.tile, Finset.mem_filter, Finset.mem_univ, true_and] at hj
    exact scoreF_masked _ _ _ _ b h R j (by omega)

end Cert.KernelIdeal.HandValue

end
-- ==== Proof.KI_Reg1Value.lean ====
/-
  The value of the attention launch on the extended reals.

  For every batch b, query position s, head h and coordinate d, the launch's output array holds at (b, s, 128·h + d)
  the softmax-weighted sum of the specification. The four points of the group (b, h) take every query row through
  the key tiles at or below its own chunk, the later tiles being all ⊥ for it: after the point of key block ki every
  row satisfies the tiled softmax's invariant for the keys below 512·(ki + 1). The last point divides the accumulator
  by the denominator, which is the specification's sum written at the row's largest score; the 32 output blocks fill
  the array.
-/
import proofs.«117884_j83708912599078_2_alg».proof.Proof.KI_Reg1Points
import proofs.«117884_j83708912599078_2_alg».proof.Proof.KI_Finite

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.SL Idealize.SL.RA
open Cert.KeyTiles OnlineSoftmax

variable (q1 : Fin cfg1.W → PosShare TreeShare)
variable (V : (c : Dev nD) → (b : Ref sig .tc) → Buf (Elt Ideal) ((c : Thread nD τ).loc b))

/-- The maximum, the denominator and the accumulator among what a point leaves. -/
def stOf (o : Out1 Ideal) : St1 Ideal := (o.2.1, o.2.2.1, o.2.2.2.1)

theorem stOf_outOf (o : Vec Ideal S1x2048x128 .bf16) (sq : Vec Ideal S2048x128 .bf16) (s : St1 Ideal) : stOf (outOf o sq s) = s := rfl

/-- After the point of key block ki of the group (b, h): the rotated queries are the specification's, and every row has
    seen the keys below 512·(ki + 1). -/
def PointInv (c : Dev nD) (b : Fin 2) (h : Fin 16) (ki : ℕ) (o : Out1 Ideal) : Prop :=
  SqAt V c b h o.2.2.2.2 ∧ ∀ R e, RowInv (scoreRow V c b h R) (valRow V c b h e) R e (ki + 1) (stOf o)

/-- Key block 0: the initial state, then the four chunks. -/
theorem caseA_inv {c : Dev nD} (hfin : FiniteIn V c) (t : Fin cfg1.N) (h0 : t.val % 4 = 0) :
    PointInv V c (bOf t) (hOf t) 0 (case1_A (F := Ideal) (grid1.coords t) (iblk1 V c 0 t) (iblk1 V c 1 t) (iblk1 V c 2 t) (iblk1 V c 3 t) (iblk1 V c 4 t) (iblk1 V c 5 t) (iblk1 V c 6 t)) := by
  have T := tileAt_point V c t 0 (by omega) h0
  have S := sqAt_point V c t
  unfold case1_A
  refine ⟨S, fun R e => ?_⟩
  rw [stOf_outOf]
  have hR := R.isLt
  have i0 : RowInv (scoreRow V c (bOf t) (hOf t) R) (valRow V c (bOf t) (hOf t) e) R e 0 (k1_pay28 (F := Ideal), k1_pay29 (F := Ideal), k1_pay30 (F := Ideal)) :=
    RowInv.init _ _ R e _ (pay28_apply R) (pay29_apply R) (pay30_apply R e)
  have a0 := chunk_inv V hfin 0 (chunk0 _ _ _ _) _ _ _ _ (fun s r' R hR e => chunk0_row _ _ _ _ s r' R hR e) (fun s R hR e => chunk0_off _ _ _ _ s R hR e) (bOf t) (hOf t) 0 (by omega) (by omega) T S R e 0 _ i0 (fun _ => rfl)
  have a1 := chunk_inv V hfin 1 (chunk1 _ _ _ _) _ _ _ _ (fun s r' R hR e => chunk1_row _ _ _ _ s r' R hR e) (fun s R hR e => chunk1_off _ _ _ _ s R hR e) (bOf t) (hOf t) 0 (by omega) (by omega) T S R e _ _ a0 (by intro hq; split_ifs <;> omega)
  have a2 := chunk_inv V hfin 2 (chunk2 _ _ _ _) _ _ _ _ (fun s r' R hR e => chunk2_row _ _ _ _ s r' R hR e) (fun s R hR e => chunk2_off _ _ _ _ s R hR e) (bOf t) (hOf t) 0 (by omega) (by omega) T S R e _ _ a1 (by intro hq; split_ifs <;> omega)
  have a3 := chunk_inv V hfin 3 (chunk3 _ _ _ _) _ _ _ _ (fun s r' R hR e => chunk3_row _ _ _ _ s r' R hR e) (fun s R hR e => chunk3_off _ _ _ _ s R hR e) (bOf t) (hOf t) 0 (by omega) (by omega) T S R e _ _ a2 (by intro hq; split_ifs <;> omega)
  exact RowInv.close V (bOf t) (hOf t) R e 0 _ _ a3 (by intro _; split_ifs <;> omega) (by intro hlt; omega)

/-- Key block 1: chunks 1, 2, 3 over what the point before left; chunk 0 skips the tile. -/
theorem caseB_inv {c : Dev nD} (hfin : FiniteIn V c) (t : Fin cfg1.N) (h1 : t.val % 4 = 1) (p : Out1 Ideal)
    (hp : PointInv V c (bOf t) (hOf t) 0 p) :
    PointInv V c (bOf t) (hOf t) 1 (case1_B (F := Ideal) (grid1.coords t) (iblk1 V c 1 t) (iblk1 V c 2 t) (iblk1 V c 5 t) (iblk1 V c 6 t) p) := by
  have T := tileAt_point V c t 1 (by omega) h1
  obtain ⟨S, hrows⟩ := hp
  unfold case1_B
  refine ⟨S, fun R e => ?_⟩
  rw [stOf_outOf]
  have hR := R.isLt
  have i0 : RowInv (scoreRow V c (bOf t) (hOf t) R) (valRow V c (bOf t) (hOf t) e) R e (0 + 1) (p.2.1, p.2.2.1, p.2.2.2.1) := hrows R e
  have a1 := chunk_inv V hfin 1 (chunk1 _ _ _ _) _ _ _ _ (fun s r' R hR e => chunk1_row _ _ _ _ s r' R hR e) (fun s R hR e => chunk1_off _ _ _ _ s R hR e) (bOf t) (hOf t) 1 (by omega) (by omega) T S R e _ _ i0 (fun _ => rfl)
  have a2 := chunk_inv V hfin 2 (chunk2 _ _ _ _) _ _ _ _ (fun s r' R hR e => chunk2_row _ _ _ _ s r' R hR e) (fun s R hR e => chunk2_off _ _ _ _ s R hR e) (bOf t) (hOf t) 1 (by omega) (by omega) T S R e _ _ a1 (by intro hq; split_ifs <;> omega)
  have a3 := chunk_inv V hfin 3 (chunk3 _ _ _ _) _ _ _ _ (fun s r' R hR e => chunk3_row _ _ _ _ s r' R hR e) (fun s R hR e => chunk3_off _ _ _ _ s R hR e) (bOf t) (hOf t) 1 (by omega) (by omega) T S R e _ _ a2 (by intro hq; split_ifs <;> omega)
  exact RowInv.close V (bOf t) (hOf t) R e 1 _ _ a3 (by intro _; split_ifs <;> omega) (by intro hlt; refine ⟨?_, by omega⟩; split_ifs <;> omega)

/-- Key block 2: chunks 2, 3; chunks 0, 1 skip the tile. -/
theorem caseC_inv {c : Dev nD} (hfin : FiniteIn V c) (t : Fin cfg1.N) (h2 : t.val % 4 = 2) (p : Out1 Ideal)
    (hp : PointInv V c (bOf t) (hOf t) 1 p) :
    PointInv V c (bOf t) (hOf t) 2 (case1_C (F := Ideal) (grid1.coords t) (iblk1 V c 1 t) (iblk1 V c 2 t) (iblk1 V c 5 t) (iblk1 V c 6 t) p) := by
  have T := tileAt_point V c t 2 (by omega) h2
  obtain ⟨S, hrows⟩ := hp
  unfold case1_C
  refine ⟨S, fun R e => ?_⟩
  rw [stOf_outOf]
  have hR := R.isLt
  have i0 : RowInv (scoreRow V c (bOf t) (hOf t) R) (valRow V c (bOf t) (hOf t) e) R e (1 + 1) (p.2.1, p.2.2.1, p.2.2.2.1) := hrows R e
  have a2 := chunk_inv V hfin 2 (chunk2 _ _ _ _) _ _ _ _ (fun s r' R hR e => chunk2_row _ _ _ _ s r' R hR e) (fun s R hR e => chunk2_off _ _ _ _ s R hR e) (bOf t) (hOf t) 2 (by omega) (by omega) T S R e _ _ i0 (fun _ => rfl)
  have a3 := chunk_inv V hfin 3 (chunk3 _ _ _ _) _ _ _ _ (fun s r' R hR e => chunk3_row _ _ _ _ s r' R hR e) (fun s R hR e => chunk3_off _ _ _ _ s R hR e) (bOf t) (hOf t) 2 (by omega) (by omega) T S R e _ _ a2 (by intro hq; split_ifs <;> omega)
  exact RowInv.close V (bOf t) (hOf t) R e 2 _ _ a3 (by intro _; split_ifs <;> omega) (by intro hlt; refine ⟨?_, by omega⟩; split_ifs <;> omega)

/-- Key block 3: chunk 3; chunks 0, 1, 2 skip the tile. -/
theorem caseD_inv {c : Dev nD} (hfin : FiniteIn V c) (t : Fin cfg1.N) (h3 : t.val % 4 = 3) (p : Out1 Ideal)
    (hp : PointInv V c (bOf t) (hOf t) 2 p) :
    PointInv V c (bOf t) (hOf t) 3 (case1_D (F := Ideal) (grid1.coords t) (iblk1 V c 1 t) (iblk1 V c 2 t) (iblk1 V c 5 t) (iblk1 V c 6 t) p) := by
  have T := tileAt_point V c t 3 (by omega) h3
  obtain ⟨S, hrows⟩ := hp
  unfold case1_D
  refine ⟨S, fun R e => ?_⟩
  rw [stOf_outOf]
  have hR := R.isLt
  have i0 : RowInv (scoreRow V c (bOf t) (hOf t) R) (valRow V c (bOf t) (hOf t) e) R e (2 + 1) (p.2.1, p.2.2.1, p.2.2.2.1) := hrows R e
  have a3 := chunk_inv V hfin 3 (chunk3 _ _ _ _) _ _ _ _ (fun s r' R hR e => chunk3_row _ _ _ _ s r' R hR e) (fun s R hR e => chunk3_off _ _ _ _ s R hR e) (bOf t) (hOf t) 3 (by omega) (by omega) T S R e _ _ i0 (fun _ => rfl)
  exact RowInv.close V (bOf t) (hOf t) R e 3 _ _ a3 (by intro _; split_ifs <;> omega) (by intro hlt; refine ⟨?_, by omega⟩; split_ifs <;> omega)

/-- At key block 3 the output block is the accumulator over the denominator. -/
theorem caseD_out (i : grid1.Coords) (x1 x2 : Vec Ideal S1x512x128 .bf16) (x5 x6 : Vec Ideal S512x128 .f32) (p o : Out1 Ideal)
    (ho : o = case1_D (F := Ideal) i x1 x2 x5 x6 p) : o.1 = k1_pay3 (F := Ideal) (stOf o).2.2 (stOf o).2.1 := by
  subst ho; rfl

/-- After every point: the invariant of its group at its key block. -/
theorem point_inv {c : Dev nD} (hfin : FiniteIn V c) :
    ∀ (n : ℕ) (hn : n < cfg1.N), PointInv V c (bOf ⟨n, hn⟩) (hOf ⟨n, hn⟩) (n % 4) (outsAt1 (F := Ideal) q1 V c n hn) := by
  intro n
  induction n with
  | zero =>
    intro hn
    rw [show outsAt1 (F := Ideal) q1 V c 0 hn = _ from outsAt1_A q1 V c ⟨0, hn⟩ rfl]
    exact caseA_inv V hfin ⟨0, hn⟩ rfl
  | succ n ih =>
    intro hn
    have ihp := ih (Nat.lt_of_succ_lt hn)
    rcases (by omega : (n + 1) % 4 = 0 ∨ (n + 1) % 4 = 1 ∨ (n + 1) % 4 = 2 ∨ (n + 1) % 4 = 3) with h | h | h | h
    · rw [h, show outsAt1 (F := Ideal) q1 V c (n + 1) hn = _ from outsAt1_A q1 V c ⟨n + 1, hn⟩ h]
      exact caseA_inv V hfin ⟨n + 1, hn⟩ h
    · have eb : bOf ⟨n, Nat.lt_of_succ_lt hn⟩ = bOf ⟨n + 1, hn⟩ := Fin.ext (by show n / 64 = (n + 1) / 64; omega)
      have eh : hOf ⟨n, Nat.lt_of_succ_lt hn⟩ = hOf ⟨n + 1, hn⟩ := Fin.ext (by show (n / 4) % 16 = ((n + 1) / 4) % 16; omega)
      have ek : n % 4 = 0 := by omega
      rw [eb, eh, ek] at ihp
      rw [h, show outsAt1 (F := Ideal) q1 V c (n + 1) hn = _ from outsAt1_B q1 V c ⟨n + 1, hn⟩ h]
      exact caseB_inv V hfin ⟨n + 1, hn⟩ h _ ihp
    · have eb : bOf ⟨n, Nat.lt_of_succ_lt hn⟩ = bOf ⟨n + 1, hn⟩ := Fin.ext (by show n / 64 = (n + 1) / 64; omega)
      have eh : hOf ⟨n, Nat.lt_of_succ_lt hn⟩ = hOf ⟨n + 1, hn⟩ := Fin.ext (by show (n / 4) % 16 = ((n + 1) / 4) % 16; omega)
      have ek : n % 4 = 1 := by omega
      rw [eb, eh, ek] at ihp
      rw [h, show outsAt1 (F := Ideal) q1 V c (n + 1) hn = _ from outsAt1_C q1 V c ⟨n + 1, hn⟩ h]
      exact caseC_inv V hfin ⟨n + 1, hn⟩ h _ ihp
    · have eb : bOf ⟨n, Nat.lt_of_succ_lt hn⟩ = bOf ⟨n + 1, hn⟩ := Fin.ext (by show n / 64 = (n + 1) / 64; omega)
      have eh : hOf ⟨n, Nat.lt_of_succ_lt hn⟩ = hOf ⟨n + 1, hn⟩ := Fin.ext (by show (n / 4) % 16 = ((n + 1) / 4) % 16; omega)
      have ek : n % 4 = 2 := by omega
      rw [eb, eh, ek] at ihp
      rw [h, show outsAt1 (F := Ideal) q1 V c (n + 1) hn = _ from outsAt1_D q1 V c ⟨n + 1, hn⟩ h]
      exact caseD_inv V hfin ⟨n + 1, hn⟩ h _ ihp

/-- A row that has seen all the keys: the accumulator over the denominator is the specification's weighted sum. -/
theorem row_result {c : Dev nD} (hfin : FiniteIn V c) (b : Fin 2) (h : Fin 16) (R : Fin 2048) (e : Fin 128) (st : St1 Ideal)
    (hst : RowInv (scoreRow V c b h R) (valRow V c b h e) R e 4 st) :
    Ideal.div (st.2.2 (ix2 R e)) (st.2.1 (ix2 R 0)) = Cert.Spec.ctxF (Qf V c) (Kf V c) (Vf V c) (cosf V c) (sinf V c) b R h e := by
  obtain ⟨hinv, hmt, hmb⟩ := hst
  rw [seen_four] at hinv
  obtain ⟨r, hr⟩ : IsR (st.1 (ix2 R 0)) := IsR.of_ne hmt (hmb (by omega))
  rw [hr] at hinv
  have hs : ∀ j, scoreRow V c b h R j ≠ ⊤ := fun j => scoreRow_ne_top V hfin b h R j
  have hRR : scoreRow V c b h R R ≠ ⊥ := (scoreRow_real V hfin b h R R (le_refl _)).ne_bot
  obtain ⟨M, hM⟩ : ∃ M : ℝ, Finset.univ.sup (scoreRow V c b h R) = (M : EReal) := by
    obtain ⟨M, hM⟩ := level_real hs (τ := Finset.univ) (m := ⊥) bot_ne_top (Or.inr ⟨R, Finset.mem_univ R, hRR⟩)
    exact ⟨M, by rwa [max_eq_right bot_le] at hM⟩
  rw [hinv.result hs ⟨R, hRR⟩ M]
  unfold Cert.Spec.ctxF
  rw [hM]
  refine Finset.sum_congr rfl fun j _ => ?_
  show _ * (((Vf V c b j (Cert.Spec.feat h e)).toReal : ℝ) : EReal) = _
  rw [(FiniteIn.v V hfin b j (Cert.Spec.feat h e)).coe_toReal]

theorem head_feat (h : Fin 16) (d : Fin 128) : Cert.Spec.headOf (Cert.Spec.feat h d) = h :=
  Fin.ext (by have := d.isLt; show (128 * h.val + d.val) / 128 = h.val; omega)
theorem coord_feat (h : Fin 16) (d : Fin 128) : Cert.Spec.coordOf (Cert.Spec.feat h d) = d :=
  Fin.ext (by have := d.isLt; show (128 * h.val + d.val) % 128 = d.val; omega)

/-- What the last point of a group leaves in the output window's buffer. -/
theorem out_value {c : Dev nD} (hfin : FiniteIn V c) (t : Fin cfg1.N) (h3 : t.val % 4 = 3) (R : Fin 2048) (e : Fin 128) :
    ((outsAt1 (F := Ideal) q1 V c t.val t.isLt).1 : Vec Ideal S1x2048x128 .bf16) (ix3 (0 : Fin 1) R e)
      = Cert.Spec.ctxF (Qf V c) (Kf V c) (Vf V c) (cosf V c) (sinf V c) (bOf t) R (hOf t) e := by
  have hp : PointInv V c (bOf t) (hOf t) (t.val % 4) (outsAt1 (F := Ideal) q1 V c t.val t.isLt) := point_inv q1 V hfin t.val t.isLt
  rw [h3] at hp
  have hr := hp.2 R e
  rw [caseD_out _ _ _ _ _ _ _ (outsAt1_D q1 V c t h3), pay3_apply]
  exact row_result V hfin (bOf t) (hOf t) R e _ hr

/-- The launch's output array. -/
theorem attn_value_fin {c : Dev nD} (hfin : FiniteIn V c) (b : Fin 2) (s : Fin 2048) (h : Fin 16) (d : Fin 128) :
    ((dat1 (F := Ideal) q1 V c).arrAt 7 cfg1.N : S2x2048x2048.Idx → EReal) (ix3 b s (Cert.Spec.feat h d))
      = Cert.Spec.ctxF (Qf V c) (Kf V c) (Vf V c) (cosf V c) (sinf V c) b s h d := by
  have hG := final1_7 V q1 c
    (fun i => Cert.Spec.ctxF (Qf V c) (Kf V c) (Vf V c) (cosf V c) (sinf V c) (i 0) (i 1) (Cert.Spec.headOf (i 2)) (Cert.Spec.coordOf (i 2)))
    (fun t h3 R e => by
      show _ = Cert.Spec.ctxF (Qf V c) (Kf V c) (Vf V c) (cosf V c) (sinf V c) (bOf t) R (Cert.Spec.headOf (Cert.Spec.feat (hOf t) e)) (Cert.Spec.coordOf (Cert.Spec.feat (hOf t) e))
      rw [head_feat, coord_feat]
      exact out_value q1 V hfin t h3 R e)
  rw [hG]
  show Cert.Spec.ctxF (Qf V c) (Kf V c) (Vf V c) (cosf V c) (sinf V c) b s (Cert.Spec.headOf (Cert.Spec.feat h d)) (Cert.Spec.coordOf (Cert.Spec.feat h d)) = _
  rw [head_feat, coord_feat]

/-- THE VALUE OF THE ATTENTION LAUNCH: with real entries in its five arrays, its output array holds the specification's
    softmax-weighted sums. -/
theorem attn_value (c : Dev nD)
    (r7 : IsReal (V c main_v7 : S2x2048x2048.Idx → EReal)) (r8 : IsReal (V c main_v8 : S2x2048x2048.Idx → EReal))
    (r9 : IsReal (V c main_v9 : S2x2048x2048.Idx → EReal)) (r10 : IsReal (V c main_v10 : S2048x128.Idx → EReal))
    (r11 : IsReal (V c main_v11 : S2048x128.Idx → EReal)) (b : Fin 2) (s : Fin 2048) (h : Fin 16) (d : Fin 128) :
    ((dat1 (F := Ideal) q1 V c).arrAt 7 cfg1.N : S2x2048x2048.Idx → EReal) (ix3 b s (Cert.Spec.feat h d))
      = Cert.Spec.ctxF (fun b s f => (V c main_v7 : S2x2048x2048.Idx → EReal) (ix3 b s f))
          (fun b s f => (V c main_v8 : S2x2048x2048.Idx → EReal) (ix3 b s f))
          (fun b s f => (V c main_v9 : S2x2048x2048.Idx → EReal) (ix3 b s f))
          (fun s d => (V c main_v10 : S2048x128.Idx → EReal) (ix2 s d))
          (fun s d => (V c main_v11 : S2048x128.Idx → EReal) (ix2 s d)) b s h d :=
  attn_value_fin q1 V (c := c) ⟨r7, r8, r9, r10, r11⟩ b s h d

end Cert.KernelIdeal.HandValue

end
-- ==== Proof.KI_Out.lean ====
/-
  The kernel's result on finite inputs is the layer of the specification: the precondition makes every argument
  entry a real number, hence every projected q, k, v entry and every table entry region 1 reads; on such inputs
  region 1's output is the softmax-weighted sum; and the remaining items of @main are re-indexings and the two
  projections.
-/
import proofs.«117884_j83708912599078_2_alg».proof.Proof.KI_Value
import proofs.«117884_j83708912599078_2_alg».proof.Proof.KI_Finite
import proofs.«117884_j83708912599078_2_alg».proof.Proof.KI_Finite2
import proofs.«117884_j83708912599078_2_alg».proof.Proof.KI_Reg1Value

noncomputable section

namespace Cert.KernelIdeal.HandValue

open Cert.KernelIdeal Cert.KernelIdeal.Gen
open Idealize.ShloMosaic Idealize.ShloMosaic.TcCoe Idealize.SL.Sem

theorem kernel_out [Cert.Pre_finite_inputs.Facts] (m : (ℓ : Loc nD τ sig) → Buf (Elt Ideal) ℓ) (ρ : Dev nD → PrngReg)
    (hpre : Cert.Pre_KernelIdeal m) (c : Dev nD) :
    Hand.W7 m ρ c (Proc.devRef .tc main_v15)
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  obtain ⟨h0, h1, h2, h3, _, h5, h6⟩ := pre_real m hpre c
  obtain ⟨r7, r8, r9, r10, r11⟩ := V3_real m ρ c h0 h1 h2 h3 h5 h6
  exact kernel_value m ρ c (fun b s h d => attn_value Hand.q1 (Hand.V3 m ρ) c r7 r8 r9 r10 r11 b s h d)

end Cert.KernelIdeal.HandValue

end
-- ==== Proof.lean ====
/-
  One attention layer with rotary position embedding, causal masking and multiplication of the scores by the
  square root of the head dimension: the kernel computes it as three launches (the three input projections; a
  tiled attention with a running maximum, a running denominator and a rescaled accumulator per query row; the
  output projection), the reference as plain array operations with one softmax over each whole row.
  The claim has five parts: each of the three programs runs to the end without a fault and leaves its arguments
  unchanged; the idealized kernel differs from the kernel only by naming the finite stand-in for minus infinity;
  and at the ideal instance, on finite inputs, the two idealized programs end with the same result.

  Why the two results agree (the claim is true as stated). At the ideal instance every change of float format is
  the identity, so both programs compute q = x·Wqᵀ, k = x·Wkᵀ, v = x·Wvᵀ, rotate each head's q and k rows by the
  same cosine and sine rows (x·cos + (−x₂, x₁)·sin), form the scores q·kᵀ times the same binary literal (the
  rounding of √128), and put ⊥ above the diagonal (the kernel's named stand-in is ⊥). On finite inputs every
  score on or below the diagonal is a real number. For a query row in chunk c the kernel visits the key tiles
  0 … c in order, keeping a running level, denominator and numerator, and skips the tiles after c, whose scores
  are all ⊥; the reference subtracts the row maximum, exponentiates, divides by the row sum and then sums against
  v. Both are the softmax-weighted sum of the rows of v: the module LibOnlineSoftmax proves the invariant of the
  tiled computation from level ⊥ (the rescaling factor exp(m − m′) moves every old weight to the new level, a
  tile of masked keys contributes nothing) and that the final quotient is the reference's expression at any real
  level. The output projection is the same product on both sides.

-/
import proofs.«117884_j83708912599078_2_alg».proof.Defs
import proofs.«117884_j83708912599078_2_alg».proof.Proof.Gen.Kernel
import proofs.«117884_j83708912599078_2_alg».proof.Proof.Gen.KernelIdeal
import proofs.«117884_j83708912599078_2_alg».proof.Proof.Gen.ReferenceIdeal
import proofs.«117884_j83708912599078_2_alg».proof.Proof.Gen.Pre_finite_inputs
import proofs.«117884_j83708912599078_2_alg».proof.Proof.Ledger
import proofs.«117884_j83708912599078_2_alg».proof.Proof.RefFrame
import proofs.«117884_j83708912599078_2_alg».proof.Proof.RefValue
import proofs.«117884_j83708912599078_2_alg».proof.Proof.KI_Frame
import proofs.«117884_j83708912599078_2_alg».proof.Proof.K_Frame
import proofs.«117884_j83708912599078_2_alg».proof.Proof.KI_Out

noncomputable section

namespace Cert.Proof.Parts

open Idealize.ShloMosaic Idealize.ShloMosaic.TcCoe Idealize.SL.Sem

/-- The kernel, word for word, runs to the end and leaves its arguments as launched. -/
theorem frame_k [Cert.Kernel.Facts] [Cert.Pre_finite_inputs.Facts] : Cert.frame_Kernel := fun m ρ _ => Cert.Kernel.Hand.frame m ρ

/-- So does its idealization. -/
theorem frame_ki [Cert.KernelIdeal.Facts] [Cert.Pre_finite_inputs.Facts] : Cert.frame_KernelIdeal := fun m ρ _ => Cert.KernelIdeal.Hand.frame m ρ
/-- At the ideal instance, on finite inputs, the kernel's result array and the reference's are the same function of
    the seven arguments: the layer of the specification. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run (F := Ideal) m ρ)
    refine ⟨(h c _ (Cert.KernelIdeal.Hand.mem_uc Cert.KernelIdeal.main_v15 (by decide))).trans (Cert.KernelIdeal.HandValue.kernel_out m ρ hpre c),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq_G m' c, (hagree c).1, (hagree c).2.1, (hagree c).2.2.1, (hagree c).2.2.2.1,
      (hagree c).2.2.2.2.1, (hagree c).2.2.2.2.2.1, (hagree c).2.2.2.2.2.2]

end Cert.Proof.Parts

namespace Cert.Proof

theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, Cert.Proof.Parts.preserves, Cert.Proof.Parts.algebraic⟩

end Cert.Proof

end
